-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x6 : Shape := ⟨2, ![2048, 6]⟩
abbrev S64x1408x2048 : Shape := ⟨3, ![64, 1408, 2048]⟩
abbrev S64x2048x1408 : Shape := ⟨3, ![64, 2048, 1408]⟩
abbrev S2816x2048 : Shape := ⟨2, ![2816, 2048]⟩
abbrev S2048x2816 : Shape := ⟨2, ![2048, 2816]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x6 : S_.BroadcastsInDim S2048x6 (![] : Fin 0 → Fin S2048x6.rank)
  reducesTo_S2048x6_S_d0_1 : S2048x6.ReducesTo [0, 1] S_
  bcast_S_S64x1408x2048 : S_.BroadcastsInDim S64x1408x2048 (![] : Fin 0 → Fin S64x1408x2048.rank)
  reducesTo_S64x1408x2048_S_d0_1_2 : S64x1408x2048.ReducesTo [0, 1, 2] S_
  bcast_S_S64x2048x1408 : S_.BroadcastsInDim S64x2048x1408 (![] : Fin 0 → Fin S64x2048x1408.rank)
  reducesTo_S64x2048x1408_S_d0_1_2 : S64x2048x1408.ReducesTo [0, 1, 2] S_
  bcast_S_S2816x2048 : S_.BroadcastsInDim S2816x2048 (![] : Fin 0 → Fin S2816x2048.rank)
  reducesTo_S2816x2048_S_d0_1 : S2816x2048.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn_part2 {F : FTy → Type} [FloatOps F] (main_arg8 : FVec F S2816x2048 .f32) (main_v33 : IVec S_ 1) : IVec S_ 1 :=
  let main_v34 : FVec F S2816x2048 .f32 := Host.absf main_arg8
  let main_cst_12 : FVec F S_ .f32 := constant S_ .f32 0x7F800000#32
  let main_v35 : FVec F S2816x2048 .f32 := broadcastInDim S2816x2048 ![] bcast_S_S2816x2048 main_cst_12
  let main_v36 : IVec S2816x2048 1 := cmpf .olt main_v34 main_v35
  let main_c_13 : IVec S_ 1 := constantI S_ 1 1#1
  let main_v37 : IVec S_ 1 := (fun x v => Host.reduce IntOp.andi x v reducesTo_S2816x2048_S_d0_1 h_S_) main_v36 main_c_13
  let main_v38 : IVec S_ 1 := andi main_v33 main_v37
  main_v38

def fn_part1 {F : FTy → Type} [FloatOps F] (main_arg5 : FVec F S64x1408x2048 .f32) (main_arg6 : FVec F S2816x2048 .f32) (main_arg7 : FVec F S2048x2816 .f32) (main_arg8 : FVec F S2816x2048 .f32) (main_v13 : IVec S_ 1) (main_v16 : IVec S64x2048x1408 1) : IVec S_ 1 :=
  let main_c_5 : IVec S_ 1 := constantI S_ 1 1#1
  let main_v17 : IVec S_ 1 := (fun x v => Host.reduce IntOp.andi x v reducesTo_S64x2048x1408_S_d0_1_2 h_S_) main_v16 main_c_5
  let main_v18 : IVec S_ 1 := andi main_v13 main_v17
  let main_v19 : FVec F S64x1408x2048 .f32 := Host.absf main_arg5
  let main_cst_6 : FVec F S_ .f32 := constant S_ .f32 0x7F800000#32
  let main_v20 : FVec F S64x1408x2048 .f32 := broadcastInDim S64x1408x2048 ![] bcast_S_S64x1408x2048 main_cst_6
  let main_v21 : IVec S64x1408x2048 1 := cmpf .olt main_v19 main_v20
  let main_c_7 : IVec S_ 1 := constantI S_ 1 1#1
  let main_v22 : IVec S_ 1 := (fun x v => Host.reduce IntOp.andi x v reducesTo_S64x1408x2048_S_d0_1_2 h_S_) main_v21 main_c_7
  let main_v23 : IVec S_ 1 := andi main_v18 main_v22
  let main_v24 : FVec F S2816x2048 .f32 := Host.absf main_arg6
  let main_cst_8 : FVec F S_ .f32 := constant S_ .f32 0x7F800000#32
  let main_v25 : FVec F S2816x2048 .f32 := broadcastInDim S2816x2048 ![] bcast_S_S2816x2048 main_cst_8
  let main_v26 : IVec S2816x2048 1 := cmpf .olt main_v24 main_v25
  let main_c_9 : IVec S_ 1 := constantI S_ 1 1#1
  let main_v27 : IVec S_ 1 := (fun x v => Host.reduce IntOp.andi x v reducesTo_S2816x2048_S_d0_1 h_S_) main_v26 main_c_9
  let main_v28 : IVec S_ 1 := andi main_v23 main_v27
  let main_v29 : FVec F S2048x2816 .f32 := Host.absf main_arg7
  let main_cst_10 : FVec F S_ .f32 := constant S_ .f32 0x7F800000#32
  let main_v30 : FVec F S2048x2816 .f32 := broadcastInDim S2048x2816 ![] bcast_S_S2048x2816 main_cst_10
  let main_v31 : IVec S2048x2816 1 := cmpf .olt main_v29 main_v30
  let main_c_11 : IVec S_ 1 := constantI S_ 1 1#1
  let main_v32 : IVec S_ 1 := (fun x v => Host.reduce IntOp.andi x v reducesTo_S2048x2816_S_d0_1 h_S_) main_v31 main_c_11
  let main_v33 : IVec S_ 1 := andi main_v28 main_v32
  fn_part2 (F := F) main_arg8 main_v33

def fn {F : FTy → Type} [FloatOps F] (main_arg0 : FVec F S2048x2048 .f32) (main_arg1 : FVec F S2048x6 .f32) (main_arg2 : IVec S2048x6 32) (main_arg3 : FVec F S64x1408x2048 .f32) (main_arg4 : FVec F S64x2048x1408 .f32) (main_arg5 : FVec F S64x1408x2048 .f32) (main_arg6 : FVec F S2816x2048 .f32) (main_arg7 : FVec F S2048x2816 .f32) (main_arg8 : FVec F S2816x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x6 .f32 := Host.absf main_arg1
  let main_cst_0 : FVec F S_ .f32 := constant S_ .f32 0x7F800000#32
  let main_v5 : FVec F S2048x6 .f32 := broadcastInDim S2048x6 ![] bcast_S_S2048x6 main_cst_0
  let main_v6 : IVec S2048x6 1 := cmpf .olt main_v4 main_v5
  let main_c_1 : IVec S_ 1 := constantI S_ 1 1#1
  let main_v7 : IVec S_ 1 := (fun x v => Host.reduce IntOp.andi x v reducesTo_S2048x6_S_d0_1 h_S_) main_v6 main_c_1
  let main_v8 : IVec S_ 1 := andi main_v3 main_v7
  let main_v9 : FVec F S64x1408x2048 .f32 := Host.absf main_arg3
  let main_cst_2 : FVec F S_ .f32 := constant S_ .f32 0x7F800000#32
  let main_v10 : FVec F S64x1408x2048 .f32 := broadcastInDim S64x1408x2048 ![] bcast_S_S64x1408x2048 main_cst_2
  let main_v11 : IVec S64x1408x2048 1 := cmpf .olt main_v9 main_v10
  let main_c_3 : IVec S_ 1 := constantI S_ 1 1#1
  let main_v12 : IVec S_ 1 := (fun x v => Host.reduce IntOp.andi x v reducesTo_S64x1408x2048_S_d0_1_2 h_S_) main_v11 main_c_3
  let main_v13 : IVec S_ 1 := andi main_v8 main_v12
  let main_v14 : FVec F S64x2048x1408 .f32 := Host.absf main_arg4
  let main_cst_4 : FVec F S_ .f32 := constant S_ .f32 0x7F800000#32
  let main_v15 : FVec F S64x2048x1408 .f32 := broadcastInDim S64x2048x1408 ![] bcast_S_S64x2048x1408 main_cst_4
  let main_v16 : IVec S64x2048x1408 1 := cmpf .olt main_v14 main_v15
  fn_part1 (F := F) main_arg5 main_arg6 main_arg7 main_arg8 main_v13 main_v16
-- ==== Kernel.lean ====
abbrev S2048x2048 : Shape := ⟨2, ![2048, 2048]⟩
abbrev S2048x6 : Shape := ⟨2, ![2048, 6]⟩
abbrev S64x1408x2048 : Shape := ⟨3, ![64, 1408, 2048]⟩
abbrev S64x2048x1408 : Shape := ⟨3, ![64, 2048, 1408]⟩
abbrev S2816x2048 : Shape := ⟨2, ![2816, 2048]⟩
abbrev S2048x2816 : Shape := ⟨2, ![2048, 2816]⟩
abbrev S12288 : Shape := ⟨1, ![12288]⟩
abbrev S_ : Shape := ⟨0, ![]⟩
abbrev S12288x1 : Shape := ⟨2, ![12288, 1]⟩
abbrev S64 : Shape := ⟨1, ![64]⟩
abbrev S24577 : Shape := ⟨1, ![24577]⟩
abbrev S24576 : Shape := ⟨1, ![24576]⟩
abbrev S64x384 : Shape := ⟨2, ![64, 384]⟩
abbrev S64x384x1 : Shape := ⟨3, ![64, 384, 1]⟩
abbrev S1x2048 : Shape := ⟨2, ![1, 2048]⟩
abbrev S2049x2048 : Shape := ⟨2, ![2049, 2048]⟩
abbrev S64x384x2048 : Shape := ⟨3, ![64, 384, 2048]⟩
abbrev S1 : Shape := ⟨1, ![1]⟩
abbrev S12289 : Shape := ⟨1, ![12289]⟩
abbrev S1x384x2048 : Shape := ⟨3, ![1, 384, 2048]⟩
abbrev S1x128x2048 : Shape := ⟨3, ![1, 128, 2048]⟩
abbrev S1x2048x128 : Shape := ⟨3, ![1, 2048, 128]⟩
abbrev S1x384x1 : Shape := ⟨3, ![1, 384, 1]⟩
abbrev S384x2048 : Shape := ⟨2, ![384, 2048]⟩
abbrev S128x2048 : Shape := ⟨2, ![128, 2048]⟩
abbrev S2048x128 : Shape := ⟨2, ![2048, 128]⟩
abbrev S256x2048 : Shape := ⟨2, ![256, 2048]⟩
abbrev S384x256 : Shape := ⟨2, ![384, 256]⟩
abbrev S384x128 : Shape := ⟨2, ![384, 128]⟩
abbrev S384x1 : Shape := ⟨2, ![384, 1]⟩
abbrev S24576x2048 : Shape := ⟨2, ![24576, 2048]⟩
abbrev S24576x1 : Shape := ⟨2, ![24576, 1]⟩
abbrev S2048x256 : Shape := ⟨2, ![2048, 256]⟩
abbrev S256x256 : Shape := ⟨2, ![256, 256]⟩

abbrev nBuf : Space → Nat
  | .hbm => 156
  | .vmem => 26
  | .smem => 0
  | _ => 0

abbrev hbmTy0_0 (i : Nat) : BufTy := match i % 128 with
  | 0 => ⟨S2048x2048, .f32⟩
  | 1 => ⟨S2048x6, .f32⟩
  | 2 => ⟨S2048x6, .i32⟩
  | 3 => ⟨S64x1408x2048, .f32⟩
  | 4 => ⟨S64x2048x1408, .f32⟩
  | 5 => ⟨S64x1408x2048, .f32⟩
  | 6 => ⟨S2816x2048, .f32⟩
  | 7 => ⟨S2048x2816, .f32⟩
  | 8 => ⟨S2816x2048, .f32⟩
  | 9 => ⟨S12288, .i32⟩
  | 10 => ⟨S12288, .i32⟩
  | 11 => ⟨S_, .i32⟩
  | 12 => ⟨S_, .i32⟩
  | 13 => ⟨S12288, .i32⟩
  | 14 => ⟨S12288, .i32⟩
  | 15 => ⟨S12288, .i32⟩
  | 16 => ⟨S_, .i32⟩
  | 17 => ⟨S12288, .i32⟩
  | 18 => ⟨S12288, .i1⟩
  | 19 => ⟨S12288, .i32⟩
  | 20 => ⟨S12288, .i32⟩
  | 21 => ⟨S_, .i32⟩
  | 22 => ⟨S12288, .i32⟩
  | 23 => ⟨S12288, .i1⟩
  | 24 => ⟨S12288, .i1⟩
  | 25 => ⟨S_, .i32⟩
  | 26 => ⟨S12288, .i32⟩
  | 27 => ⟨S12288, .i32⟩
  | 28 => ⟨S12288, .i32⟩
  | 29 => ⟨S12288, .i32⟩
  | 30 => ⟨S12288, .i32⟩
  | 31 => ⟨S12288, .i32⟩
  | 32 => ⟨S_, .i32⟩
  | 33 => ⟨S12288, .i32⟩
  | 34 => ⟨S12288, .i1⟩
  | 35 => ⟨S_, .i32⟩
  | 36 => ⟨S12288, .i32⟩
  | 37 => ⟨S12288, .i32⟩
  | 38 => ⟨S12288, .i32⟩
  | 39 => ⟨S12288x1, .i32⟩
  | 40 => ⟨S12288, .i32⟩
  | 41 => ⟨S_, .i32⟩
  | 42 => ⟨S64, .i32⟩
  | 43 => ⟨S_, .i32⟩
  | 44 => ⟨S_, .i32⟩
  | 45 => ⟨S12288, .i32⟩
  | 46 => ⟨S12288, .i32⟩
  | 47 => ⟨S_, .i32⟩
  | 48 => ⟨S12288, .i32⟩
  | 49 => ⟨S12288, .i1⟩
  | 50 => ⟨S_, .i32⟩
  | 51 => ⟨S12288, .i32⟩
  | 52 => ⟨S12288, .i32⟩
  | 53 => ⟨S12288, .i32⟩
  | 54 => ⟨S12288x1, .i32⟩
  | 55 => ⟨S_, .i32⟩
  | 56 => ⟨S12288, .i32⟩
  | 57 => ⟨S64, .i32⟩
  | 58 => ⟨S_, .i32⟩
  | 59 => ⟨S_, .i32⟩
  | 60 => ⟨S64, .i32⟩
  | 61 => ⟨S64, .i32⟩
  | 62 => ⟨S12288, .i32⟩
  | 63 => ⟨S_, .i32⟩
  | 64 => ⟨S12288, .i32⟩
  | 65 => ⟨S12288, .i1⟩
  | 66 => ⟨S_, .i32⟩
  | 67 => ⟨S12288, .i32⟩
  | 68 => ⟨S12288, .i32⟩
  | 69 => ⟨S12288, .i32⟩
  | 70 => ⟨S12288x1, .i32⟩
  | 71 => ⟨S12288, .i32⟩
  | 72 => ⟨S12288, .i32⟩
  | 73 => ⟨S_, .i32⟩
  | 74 => ⟨S12288, .i32⟩
  | 75 => ⟨S12288, .i1⟩
  | 76 => ⟨S_, .i32⟩
  | 77 => ⟨S12288, .i32⟩
  | 78 => ⟨S12288, .i32⟩
  | 79 => ⟨S12288, .i32⟩
  | 80 => ⟨S_, .i32⟩
  | 81 => ⟨S_, .i32⟩
  | 82 => ⟨S12288, .i32⟩
  | 83 => ⟨S12288, .i32⟩
  | 84 => ⟨S_, .i32⟩
  | 85 => ⟨S24577, .i32⟩
  | 86 => ⟨S_, .i32⟩
  | 87 => ⟨S12288, .i32⟩
  | 88 => ⟨S12288, .i1⟩
  | 89 => ⟨S_, .i32⟩
  | 90 => ⟨S12288, .i32⟩
  | 91 => ⟨S12288, .i32⟩
  | 92 => ⟨S12288, .i32⟩
  | 93 => ⟨S12288x1, .i32⟩
  | 94 => ⟨S24577, .i32⟩
  | 95 => ⟨S24576, .i32⟩
  | 96 => ⟨S64x384, .i32⟩
  | 97 => ⟨S_, .i32⟩
  | 98 => ⟨S64x384, .i32⟩
  | 99 => ⟨S64x384, .i1⟩
  | 100 => ⟨S_, .i32⟩
  | 101 => ⟨S_, .i32⟩
  | 102 => ⟨S_, .i32⟩
  | 103 => ⟨S64x384, .i32⟩
  | 104 => ⟨S64x384, .i32⟩
  | 105 => ⟨S_, .i32⟩
  | 106 => ⟨S64x384, .i32⟩
  | 107 => ⟨S64x384, .i32⟩
  | 108 => ⟨S_, .i32⟩
  | 109 => ⟨S64x384, .i32⟩
  | 110 => ⟨S64x384, .i1⟩
  | 111 => ⟨S_, .i32⟩
  | 112 => ⟨S64x384, .i32⟩
  | 113 => ⟨S64x384, .i32⟩
  | 114 => ⟨S64x384, .i32⟩
  | 115 => ⟨S64x384x1, .i32⟩
  | 116 => ⟨S64x384, .i32⟩
  | 117 => ⟨S_, .i32⟩
  | 118 => ⟨S_, .i32⟩
  | 119 => ⟨S64x384, .i32⟩
  | 120 => ⟨S64x384, .i32⟩
  | 121 => ⟨S_, .f32⟩
  | 122 => ⟨S1x2048, .f32⟩
  | 123 => ⟨S2049x2048, .f32⟩
  | 124 => ⟨S_, .i32⟩
  | 125 => ⟨S64x384, .i32⟩
  | 126 => ⟨S64x384, .i1⟩
  | 127 => ⟨S_, .i32⟩
  | _ => ⟨S2048x2048, .f32⟩

abbrev hbmTy0_1 (i : Nat) : BufTy := match i % 128 with
  | 0 => ⟨S64x384, .i32⟩
  | 1 => ⟨S64x384, .i32⟩
  | 2 => ⟨S64x384, .i32⟩
  | 3 => ⟨S64x384x1, .i32⟩
  | 4 => ⟨S64x384x2048, .f32⟩
  | 5 => ⟨S12288, .f32⟩
  | 6 => ⟨S_, .f32⟩
  | 7 => ⟨S1, .f32⟩
  | 8 => ⟨S12289, .f32⟩
  | 9 => ⟨S_, .i32⟩
  | 10 => ⟨S64x384, .i32⟩
  | 11 => ⟨S64x384, .i1⟩
  | 12 => ⟨S_, .i32⟩
  | 13 => ⟨S64x384, .i32⟩
  | 14 => ⟨S64x384, .i32⟩
  | 15 => ⟨S64x384, .i32⟩
  | 16 => ⟨S64x384x1, .i32⟩
  | 17 => ⟨S64x384, .f32⟩
  | 18 => ⟨S64x384x1, .f32⟩
  | 19 => ⟨S64x384x2048, .f32⟩
  | 20 => ⟨S24576x2048, .f32⟩
  | 21 => ⟨S24576, .i32⟩
  | 22 => ⟨S_, .f32⟩
  | 23 => ⟨S2049x2048, .f32⟩
  | 24 => ⟨S24576x1, .i32⟩
  | 25 => ⟨S2049x2048, .f32⟩
  | 26 => ⟨S2048x2048, .f32⟩
  | 27 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | .local _ .vmem, ⟨0, _⟩ => ⟨S1x384x2048, .f32⟩
  | .local _ .vmem, ⟨1, _⟩ => ⟨S1x384x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x2048x128, .f32⟩
  | .local _ .vmem, ⟨7, _⟩ => ⟨S1x2048x128, .f32⟩
  | .local _ .vmem, ⟨8, _⟩ => ⟨S1x384x1, .f32⟩
  | .local _ .vmem, ⟨9, _⟩ => ⟨S1x384x1, .f32⟩
  | .local _ .vmem, ⟨10, _⟩ => ⟨S1x384x2048, .f32⟩
  | .local _ .vmem, ⟨11, _⟩ => ⟨S1x384x2048, .f32⟩
  | .local _ .vmem, ⟨12, _⟩ => ⟨S384x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S2048x256, .f32⟩
  | .local _ .vmem, ⟨20, _⟩ => ⟨S2048x256, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_call1_v0 : Ref sig .tc := ⟨.hbm, 29, rfl⟩
abbrev main_call1_v1_0 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_2 : Ref sig .tc := ⟨.hbm, 41, rfl⟩
abbrev main_v11 : Ref sig .tc := ⟨.hbm, 42, rfl⟩
abbrev main_c_3 : Ref sig .tc := ⟨.hbm, 43, rfl⟩
abbrev main_call2_v0 : Ref sig .tc := ⟨.hbm, 44, rfl⟩
abbrev main_call2_v1 : Ref sig .tc := ⟨.hbm, 45, rfl⟩
abbrev main_v12 : Ref sig .tc := ⟨.hbm, 46, rfl⟩
abbrev main_c_4 : Ref sig .tc := ⟨.hbm, 47, rfl⟩
abbrev main_v13 : Ref sig .tc := ⟨.hbm, 48, rfl⟩
abbrev main_v14 : Ref sig .tc := ⟨.hbm, 49, rfl⟩
abbrev main_c_5 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_6 : Ref sig .tc := ⟨.hbm, 55, rfl⟩
abbrev main_v19 : Ref sig .tc := ⟨.hbm, 56, rfl⟩
abbrev main_v20 : Ref sig .tc := ⟨.hbm, 57, rfl⟩
abbrev main_call3_call0_c : Ref sig .tc := ⟨.hbm, 58, rfl⟩
abbrev main_call3_call0_v0 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_7 : Ref sig .tc := ⟨.hbm, 63, rfl⟩
abbrev main_v24 : Ref sig .tc := ⟨.hbm, 64, rfl⟩
abbrev main_v25 : Ref sig .tc := ⟨.hbm, 65, rfl⟩
abbrev main_c_8 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_9 : Ref sig .tc := ⟨.hbm, 73, rfl⟩
abbrev main_v32 : Ref sig .tc := ⟨.hbm, 74, rfl⟩
abbrev main_v33 : Ref sig .tc := ⟨.hbm, 75, rfl⟩
abbrev main_c_10 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_c_11 : Ref sig .tc := ⟨.hbm, 80, rfl⟩
abbrev main_call4_v0 : Ref sig .tc := ⟨.hbm, 81, rfl⟩
abbrev main_call4_v1 : Ref sig .tc := ⟨.hbm, 82, rfl⟩
abbrev main_v37 : Ref sig .tc := ⟨.hbm, 83, rfl⟩
abbrev main_c_12 : Ref sig .tc := ⟨.hbm, 84, rfl⟩
abbrev main_v38 : Ref sig .tc := ⟨.hbm, 85, rfl⟩
abbrev main_c_13 : Ref sig .tc := ⟨.hbm, 86, rfl⟩
abbrev main_v39 : Ref sig .tc := ⟨.hbm, 87, rfl⟩
abbrev main_v40 : Ref sig .tc := ⟨.hbm, 88, rfl⟩
abbrev main_c_14 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_c_15 : Ref sig .tc := ⟨.hbm, 97, rfl⟩
abbrev main_v48 : Ref sig .tc := ⟨.hbm, 98, rfl⟩
abbrev main_v49 : Ref sig .tc := ⟨.hbm, 99, rfl⟩
abbrev main_c_16 : Ref sig .tc := ⟨.hbm, 100, rfl⟩
abbrev main_c_17 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v50 : Ref sig .tc := ⟨.hbm, 107, rfl⟩
abbrev main_c_18 : Ref sig .tc := ⟨.hbm, 108, rfl⟩
abbrev main_v51 : Ref sig .tc := ⟨.hbm, 109, rfl⟩
abbrev main_v52 : Ref sig .tc := ⟨.hbm, 110, rfl⟩
abbrev main_c_19 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_c_20 : Ref sig .tc := ⟨.hbm, 117, rfl⟩
abbrev main_call6_v0 : Ref sig .tc := ⟨.hbm, 118, rfl⟩
abbrev main_call6_v1 : Ref sig .tc := ⟨.hbm, 119, rfl⟩
abbrev main_v58 : Ref sig .tc := ⟨.hbm, 120, rfl⟩
abbrev main_cst : Ref sig .tc := ⟨.hbm, 121, rfl⟩
abbrev main_v59 : Ref sig .tc := ⟨.hbm, 122, rfl⟩
abbrev main_v60 : Ref sig .tc := ⟨.hbm, 123, rfl⟩
abbrev main_c_21 : Ref sig .tc := ⟨.hbm, 124, rfl⟩
abbrev main_v61 : Ref sig .tc := ⟨.hbm, 125, rfl⟩
abbrev main_v62 : Ref sig .tc := ⟨.hbm, 126, rfl⟩
abbrev main_c_22 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_23 : Ref sig .tc := ⟨.hbm, 134, rfl⟩
abbrev main_v69 : Ref sig .tc := ⟨.hbm, 135, rfl⟩
abbrev main_v70 : Ref sig .tc := ⟨.hbm, 136, rfl⟩
abbrev main_c_24 : Ref sig .tc := ⟨.hbm, 137, rfl⟩
abbrev main_v71 : Ref sig .tc := ⟨.hbm, 138, rfl⟩
abbrev main_v72 : Ref sig .tc := ⟨.hbm, 139, rfl⟩
abbrev main_c_25 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_26 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32_17 : BitVec 32 := 0#32
  let v31 : BitVec 1 := Scalar.cmpi .ne v30 c0_i32_17
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 11], ![false, false]⟩

def k1_cond2 (i : grid1.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S2048x6_S12288 : S2048x6.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S24577 : S_.BroadcastsInDim S24577 (![] : Fin 0 → Fin S24577.rank)
  slices_S24577_S24576_0 : S24577.Slices ![0] S24576
  shapeCasts_S24576_S64x384 : S24576.ShapeCasts S64x384
  bcast_S_S64x384 : S_.BroadcastsInDim S64x384 (![] : Fin 0 → Fin S64x384.rank)
  bcast_S64x384_S64x384x1_0_1 : S64x384.BroadcastsInDim S64x384x1 (![0, 1] : Fin 2 → Fin S64x384x1.rank)
  bcast_S_S1x2048 : S_.BroadcastsInDim S1x2048 (![] : Fin 0 → Fin S1x2048.rank)
  concatenates_S2048x2048_S1x2048_S2049x2048_d0 : Shape.Concatenates [S2048x2048, S1x2048] S2049x2048 0
  bcast_S_S1 : S_.BroadcastsInDim S1 (![] : Fin 0 → Fin S1.rank)
  concatenates_S12288_S1_S12289_d0 : Shape.Concatenates [S12288, S1] S12289 0
  inb_S384x2048_S384x2048_0_0 : ∀ a, (![0, 0] : Fin 2 → Nat) a + S384x2048.size a ≤ S384x2048.size a
  h_S384x2048 : 0 < S384x2048.numel
  shapeCasts_S384x2048_S384x2048 : S384x2048.ShapeCasts S384x2048
  inb_S1x384x2048_S1x384x2048_0_0_0 : ∀ a, (![0, 0, 0] : Fin 3 → Nat) a + S1x384x2048.size a ≤ S1x384x2048.size a
  h_S1x384x2048 : 0 < S1x384x2048.numel
  shapeCasts_S1x384x2048_S384x2048 : S1x384x2048.ShapeCasts S384x2048
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  concatenates_S128x2048_S128x2048_S256x2048_d0 : Shape.Concatenates [S128x2048, S128x2048] S256x2048 0
  slices_S384x256_o0_0_S384x128 : S384x256.Slices ![0, 0] S384x128
  slices_S384x256_o0_128_S384x128 : S384x256.Slices ![0, 128] S384x128
  inb_S1x384x1_S1x384x1_0_0_0 : ∀ a, (![0, 0, 0] : Fin 3 → Nat) a + S1x384x1.size a ≤ S1x384x1.size a
  h_S1x384x1 : 0 < S1x384x1.numel
  shapeCasts_S1x384x1_S384x1 : S1x384x1.ShapeCasts S384x1
  broadcasts_S384x1_S384x2048 : S384x1.Broadcasts S384x2048
  shapeCasts_S384x2048_S1x384x2048 : S384x2048.ShapeCasts S1x384x2048
  shapeCasts_S64x384x2048_S24576x2048 : S64x384x2048.ShapeCasts S24576x2048
  shapeCasts_S64x384_S24576 : S64x384.ShapeCasts S24576
  bcast_S_S2049x2048 : S_.BroadcastsInDim S2049x2048 (![] : Fin 0 → Fin S2049x2048.rank)
  bcast_S24576_S24576x1_0 : S24576.BroadcastsInDim S24576x1 (![0] : Fin 1 → Fin S24576x1.rank)
  slices_S2049x2048_S2048x2048_0_0 : S2049x2048.Slices ![0, 0] S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  gather_S12288_S12288x1_S12288_n_0_n_n_0_1_1_wf : GatherDims.WF S12288 S12288x1 S12288 [] [0] [] [0] [] 1 ![1]
  scatter_S64_S12288x1_S12288_n_0_0_1_wf : ScatterDims.WF S64 S12288x1 S12288 [] [0] [0] 1
  gather_S64_S12288x1_S12288_n_0_n_n_0_1_1_wf : GatherDims.WF S64 S12288x1 S12288 [] [0] [] [0] [] 1 ![1]
  scatter_S24577_S12288x1_S12288_n_0_0_1_wf : ScatterDims.WF S24577 S12288x1 S12288 [] [0] [0] 1
  gather_S12288_S64x384x1_S64x384_n_0_n_n_0_2_1_wf : GatherDims.WF S12288 S64x384x1 S64x384 [] [0] [] [0] [] 2 ![1]
  gather_S2049x2048_S64x384x1_S64x384x2048_2_0_n_n_0_2_12048_wf : GatherDims.WF S2049x2048 S64x384x1 S64x384x2048 [2] [0] [] [0] [] 2 ![1, 2048]
  gather_S12289_S64x384x1_S64x384_n_0_n_n_0_2_1_wf : GatherDims.WF S12289 S64x384x1 S64x384 [] [0] [] [0] [] 2 ![1]
  dot_S384x2048_S256x2048_S384x256_1_1_0_0_n_n_wf : DotDims.WF S384x2048 S256x2048 S384x256 [1] [1] [0] [0] [] []
  dot_S384x128_S2048x128_S384x2048_1_1_0_0_n_n_wf : DotDims.WF S384x128 S2048x128 S384x2048 [1] [1] [0] [0] [] []
  scatter_S2049x2048_S24576x1_S24576x2048_1_0_0_1_wf : ScatterDims.WF S2049x2048 S24576x1 S24576x2048 [1] [0] [0] 1
  dot_S256x2048_S256x2048_S256x256_1_1_0_0_n_n_wf : DotDims.WF S256x2048 S256x2048 S256x256 [1] [1] [0] [0] [] []
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x2048.size a ≤ S64x384x2048.size a
  hwx0_0 : ∀ i : grid0.Coords, EltTy.bits .f32 = 32 ∨ (Rect.block (s := S64x384x2048) S1x384x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S64x1408x2048.size a
  hwx0_1 : ∀ i : grid0.Coords, EltTy.bits .f32 = 32 ∨ (Rect.block (s := S64x1408x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S64x1408x2048.size a
  hwx0_2 : ∀ i : grid0.Coords, EltTy.bits .f32 = 32 ∨ (Rect.block (s := S64x1408x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S64x2048x1408.size a
  hwx0_3 : ∀ i : grid0.Coords, EltTy.bits .f32 = 32 ∨ (Rect.block (s := S64x2048x1408) S1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x384x1.size a ≤ S64x384x1.size a
  hwx0_4 : ∀ i : grid0.Coords, EltTy.bits .f32 = 32 ∨ (Rect.block (s := S64x384x1) S1x384x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x384x2048.size a ≤ S64x384x2048.size a
  hwx0_5 : ∀ i : grid0.Coords, EltTy.bits .f32 = 32 ∨ (Rect.block (s := S64x384x2048) S1x384x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2816x2048.size a
  hwx1_1 : ∀ i : grid1.Coords, EltTy.bits .f32 = 32 ∨ (Rect.block (s := S2816x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2816x2048.size a
  hwx1_2 : ∀ i : grid1.Coords, EltTy.bits .f32 = 32 ∨ (Rect.block (s := S2816x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S2048x2816.size a
  hwx1_3 : ∀ i : grid1.Coords, EltTy.bits .f32 = 32 ∨ (Rect.block (s := S2048x2816) S2048x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S2048x2048.size a
  hwx1_4 : ∀ i : grid1.Coords, EltTy.bits .f32 = 32 ∨ (Rect.block (s := S2048x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S2048x2048.size a
  hwx1_5 : ∀ i : grid1.Coords, EltTy.bits .f32 = 32 ∨ (Rect.block (s := S2048x2048) S256x2048.size (cc1_transform_5 i) (hinb1_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S12288_S12288x1_S12288_n_0_n_n_0_1_1 : GatherDims S12288 S12288x1 S12288 where
  offsetDims := []
  collapsedSliceDims := [0]
  operandBatchingDims := []
  startIndicesBatchingDims := []
  startIndexMap := [0]
  indexVectorDim := 1
  sliceSizes := ![1]
  wf := gather_S12288_S12288x1_S12288_n_0_n_n_0_1_1_wf
def scatter_S64_S12288x1_S12288_n_0_0_1 : ScatterDims S64 S12288x1 S12288 where
  updateWindowDims := []
  insertedWindowDims := [0]
  scatterDimsToOperandDims := [0]
  indexVectorDim := 1
  wf := scatter_S64_S12288x1_S12288_n_0_0_1_wf
def gather_S64_S12288x1_S12288_n_0_n_n_0_1_1 : GatherDims S64 S12288x1 S12288 where
  offsetDims := []
  collapsedSliceDims := [0]
  operandBatchingDims := []
  startIndicesBatchingDims := []
  startIndexMap := [0]
  indexVectorDim := 1
  sliceSizes := ![1]
  wf := gather_S64_S12288x1_S12288_n_0_n_n_0_1_1_wf
def scatter_S24577_S12288x1_S12288_n_0_0_1 : ScatterDims S24577 S12288x1 S12288 where
  updateWindowDims := []
  insertedWindowDims := [0]
  scatterDimsToOperandDims := [0]
  indexVectorDim := 1
  wf := scatter_S24577_S12288x1_S12288_n_0_0_1_wf
def gather_S12288_S64x384x1_S64x384_n_0_n_n_0_2_1 : GatherDims S12288 S64x384x1 S64x384 where
  offsetDims := []
  collapsedSliceDims := [0]
  operandBatchingDims := []
  startIndicesBatchingDims := []
  startIndexMap := [0]
  indexVectorDim := 2
  sliceSizes := ![1]
  wf := gather_S12288_S64x384x1_S64x384_n_0_n_n_0_2_1_wf
def gather_S2049x2048_S64x384x1_S64x384x2048_2_0_n_n_0_2_12048 : GatherDims S2049x2048 S64x384x1 S64x384x2048 where
  offsetDims := [2]
  collapsedSliceDims := [0]
  operandBatchingDims := []
  startIndicesBatchingDims := []
  startIndexMap := [0]
  indexVectorDim := 2
  sliceSizes := ![1, 2048]
  wf := gather_S2049x2048_S64x384x1_S64x384x2048_2_0_n_n_0_2_12048_wf
def gather_S12289_S64x384x1_S64x384_n_0_n_n_0_2_1 : GatherDims S12289 S64x384x1 S64x384 where
  offsetDims := []
  collapsedSliceDims := [0]
  operandBatchingDims := []
  startIndicesBatchingDims := []
  startIndexMap := [0]
  indexVectorDim := 2
  sliceSizes := ![1]
  wf := gather_S12289_S64x384x1_S64x384_n_0_n_n_0_2_1_wf
def dot_S384x2048_S256x2048_S384x256_1_1_0_0_n_n : DotDims S384x2048 S256x2048 S384x256 where
  lhsContracting := [1]
  rhsContracting := [1]
  lhsNonContracting := [0]
  rhsNonContracting := [0]
  lhsBatch := []
  rhsBatch := []
  wf := dot_S384x2048_S256x2048_S384x256_1_1_0_0_n_n_wf
def dot_S384x128_S2048x128_S384x2048_1_1_0_0_n_n : DotDims S384x128 S2048x128 S384x2048 where
  lhsContracting := [1]
  rhsContracting := [1]
  lhsNonContracting := [0]
  rhsNonContracting := [0]
  lhsBatch := []
  rhsBatch := []
  wf := dot_S384x128_S2048x128_S384x2048_1_1_0_0_n_n_wf
def scatter_S2049x2048_S24576x1_S24576x2048_1_0_0_1 : ScatterDims S2049x2048 S24576x1 S24576x2048 where
  updateWindowDims := [1]
  insertedWindowDims := [0]
  scatterDimsToOperandDims := [0]
  indexVectorDim := 1
  wf := scatter_S2049x2048_S24576x1_S24576x2048_1_0_0_1_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_v67) S1x384x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v78) S1x384x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v79) S1x384x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v85) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v86) S256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2048x2048 : Shape := ⟨2, ![2048, 2048]⟩
abbrev S2048x6 : Shape := ⟨2, ![2048, 6]⟩
abbrev S64x1408x2048 : Shape := ⟨3, ![64, 1408, 2048]⟩
abbrev S64x2048x1408 : Shape := ⟨3, ![64, 2048, 1408]⟩
abbrev S2816x2048 : Shape := ⟨2, ![2816, 2048]⟩
abbrev S2048x2816 : Shape := ⟨2, ![2048, 2816]⟩
abbrev S12288 : Shape := ⟨1, ![12288]⟩
abbrev S_ : Shape := ⟨0, ![]⟩
abbrev S12288x1 : Shape := ⟨2, ![12288, 1]⟩
abbrev S64 : Shape := ⟨1, ![64]⟩
abbrev S24577 : Shape := ⟨1, ![24577]⟩
abbrev S24576 : Shape := ⟨1, ![24576]⟩
abbrev S64x384 : Shape := ⟨2, ![64, 384]⟩
abbrev S64x384x1 : Shape := ⟨3, ![64, 384, 1]⟩
abbrev S1x2048 : Shape := ⟨2, ![1, 2048]⟩
abbrev S2049x2048 : Shape := ⟨2, ![2049, 2048]⟩
abbrev S64x384x2048 : Shape := ⟨3, ![64, 384, 2048]⟩
abbrev S64x384x1408 : Shape := ⟨3, ![64, 384, 1408]⟩
abbrev S1 : Shape := ⟨1, ![1]⟩
abbrev S12289 : Shape := ⟨1, ![12289]⟩
abbrev S24576x2048 : Shape := ⟨2, ![24576, 2048]⟩
abbrev S24576x1 : Shape := ⟨2, ![24576, 1]⟩

abbrev nBuf : Space → Nat
  | .hbm => 186
  | .vmem => 0
  | .smem => 0
  | _ => 0

abbrev hbmTy0_0 (i : Nat) : BufTy := match i % 128 with
  | 0 => ⟨S2048x2048, .f32⟩
  | 1 => ⟨S2048x6, .f32⟩
  | 2 => ⟨S2048x6, .i32⟩
  | 3 => ⟨S64x1408x2048, .f32⟩
  | 4 => ⟨S64x2048x1408, .f32⟩
  | 5 => ⟨S64x1408x2048, .f32⟩
  | 6 => ⟨S2816x2048, .f32⟩
  | 7 => ⟨S2048x2816, .f32⟩
  | 8 => ⟨S2816x2048, .f32⟩
  | 9 => ⟨S12288, .i32⟩
  | 10 => ⟨S12288, .i32⟩
  | 11 => ⟨S_, .i32⟩
  | 12 => ⟨S_, .i32⟩
  | 13 => ⟨S12288, .i32⟩
  | 14 => ⟨S12288, .i32⟩
  | 15 => ⟨S12288, .i32⟩
  | 16 => ⟨S_, .i32⟩
  | 17 => ⟨S12288, .i32⟩
  | 18 => ⟨S12288, .i1⟩
  | 19 => ⟨S12288, .i32⟩
  | 20 => ⟨S12288, .i32⟩
  | 21 => ⟨S_, .i32⟩
  | 22 => ⟨S12288, .i32⟩
  | 23 => ⟨S12288, .i1⟩
  | 24 => ⟨S12288, .i1⟩
  | 25 => ⟨S_, .i32⟩
  | 26 => ⟨S12288, .i32⟩
  | 27 => ⟨S12288, .i32⟩
  | 28 => ⟨S12288, .i32⟩
  | 29 => ⟨S12288, .i32⟩
  | 30 => ⟨S12288, .i32⟩
  | 31 => ⟨S12288, .i32⟩
  | 32 => ⟨S_, .i32⟩
  | 33 => ⟨S12288, .i32⟩
  | 34 => ⟨S12288, .i1⟩
  | 35 => ⟨S_, .i32⟩
  | 36 => ⟨S12288, .i32⟩
  | 37 => ⟨S12288, .i32⟩
  | 38 => ⟨S12288, .i32⟩
  | 39 => ⟨S12288x1, .i32⟩
  | 40 => ⟨S12288, .i32⟩
  | 41 => ⟨S_, .i32⟩
  | 42 => ⟨S64, .i32⟩
  | 43 => ⟨S_, .i32⟩
  | 44 => ⟨S_, .i32⟩
  | 45 => ⟨S12288, .i32⟩
  | 46 => ⟨S12288, .i32⟩
  | 47 => ⟨S_, .i32⟩
  | 48 => ⟨S12288, .i32⟩
  | 49 => ⟨S12288, .i1⟩
  | 50 => ⟨S_, .i32⟩
  | 51 => ⟨S12288, .i32⟩
  | 52 => ⟨S12288, .i32⟩
  | 53 => ⟨S12288, .i32⟩
  | 54 => ⟨S12288x1, .i32⟩
  | 55 => ⟨S_, .i32⟩
  | 56 => ⟨S12288, .i32⟩
  | 57 => ⟨S64, .i32⟩
  | 58 => ⟨S_, .i32⟩
  | 59 => ⟨S_, .i32⟩
  | 60 => ⟨S64, .i32⟩
  | 61 => ⟨S64, .i32⟩
  | 62 => ⟨S12288, .i32⟩
  | 63 => ⟨S_, .i32⟩
  | 64 => ⟨S12288, .i32⟩
  | 65 => ⟨S12288, .i1⟩
  | 66 => ⟨S_, .i32⟩
  | 67 => ⟨S12288, .i32⟩
  | 68 => ⟨S12288, .i32⟩
  | 69 => ⟨S12288, .i32⟩
  | 70 => ⟨S12288x1, .i32⟩
  | 71 => ⟨S12288, .i32⟩
  | 72 => ⟨S12288, .i32⟩
  | 73 => ⟨S_, .i32⟩
  | 74 => ⟨S12288, .i32⟩
  | 75 => ⟨S12288, .i1⟩
  | 76 => ⟨S_, .i32⟩
  | 77 => ⟨S12288, .i32⟩
  | 78 => ⟨S12288, .i32⟩
  | 79 => ⟨S12288, .i32⟩
  | 80 => ⟨S_, .i32⟩
  | 81 => ⟨S_, .i32⟩
  | 82 => ⟨S12288, .i32⟩
  | 83 => ⟨S12288, .i32⟩
  | 84 => ⟨S_, .i32⟩
  | 85 => ⟨S24577, .i32⟩
  | 86 => ⟨S_, .i32⟩
  | 87 => ⟨S12288, .i32⟩
  | 88 => ⟨S12288, .i1⟩
  | 89 => ⟨S_, .i32⟩
  | 90 => ⟨S12288, .i32⟩
  | 91 => ⟨S12288, .i32⟩
  | 92 => ⟨S12288, .i32⟩
  | 93 => ⟨S12288x1, .i32⟩
  | 94 => ⟨S24577, .i32⟩
  | 95 => ⟨S24576, .i32⟩
  | 96 => ⟨S64x384, .i32⟩
  | 97 => ⟨S_, .i32⟩
  | 98 => ⟨S64x384, .i32⟩
  | 99 => ⟨S64x384, .i1⟩
  | 100 => ⟨S_, .i32⟩
  | 101 => ⟨S_, .i32⟩
  | 102 => ⟨S_, .i32⟩
  | 103 => ⟨S64x384, .i32⟩
  | 104 => ⟨S64x384, .i32⟩
  | 105 => ⟨S_, .i32⟩
  | 106 => ⟨S64x384, .i32⟩
  | 107 => ⟨S64x384, .i32⟩
  | 108 => ⟨S_, .i32⟩
  | 109 => ⟨S64x384, .i32⟩
  | 110 => ⟨S64x384, .i1⟩
  | 111 => ⟨S_, .i32⟩
  | 112 => ⟨S64x384, .i32⟩
  | 113 => ⟨S64x384, .i32⟩
  | 114 => ⟨S64x384, .i32⟩
  | 115 => ⟨S64x384x1, .i32⟩
  | 116 => ⟨S64x384, .i32⟩
  | 117 => ⟨S_, .i32⟩
  | 118 => ⟨S_, .i32⟩
  | 119 => ⟨S64x384, .i32⟩
  | 120 => ⟨S64x384, .i32⟩
  | 121 => ⟨S_, .f32⟩
  | 122 => ⟨S1x2048, .f32⟩
  | 123 => ⟨S2049x2048, .f32⟩
  | 124 => ⟨S_, .i32⟩
  | 125 => ⟨S64x384, .i32⟩
  | 126 => ⟨S64x384, .i1⟩
  | 127 => ⟨S_, .i32⟩
  | _ => ⟨S2048x2048, .f32⟩

abbrev hbmTy0_1 (i : Nat) : BufTy := match i % 128 with
  | 0 => ⟨S64x384, .i32⟩
  | 1 => ⟨S64x384, .i32⟩
  | 2 => ⟨S64x384, .i32⟩
  | 3 => ⟨S64x384x1, .i32⟩
  | 4 => ⟨S64x384x2048, .f32⟩
  | 5 => ⟨S64x384x1408, .f32⟩
  | 6 => ⟨S64x384x1408, .f32⟩
  | 7 => ⟨S64x384x1408, .f32⟩
  | 8 => ⟨S_, .f32⟩
  | 9 => ⟨S64x384x1408, .f32⟩
  | 10 => ⟨S64x384x1408, .f32⟩
  | 11 => ⟨S_, .f32⟩
  | 12 => ⟨S64x384x1408, .f32⟩
  | 13 => ⟨S64x384x1408, .f32⟩
  | 14 => ⟨S64x384x1408, .f32⟩
  | 15 => ⟨S64x384x1408, .f32⟩
  | 16 => ⟨S64x384x1408, .f32⟩
  | 17 => ⟨S64x384x2048, .f32⟩
  | 18 => ⟨S12288, .f32⟩
  | 19 => ⟨S_, .f32⟩
  | 20 => ⟨S1, .f32⟩
  | 21 => ⟨S12289, .f32⟩
  | 22 => ⟨S_, .i32⟩
  | 23 => ⟨S64x384, .i32⟩
  | 24 => ⟨S64x384, .i1⟩
  | 25 => ⟨S_, .i32⟩
  | 26 => ⟨S64x384, .i32⟩
  | 27 => ⟨S64x384, .i32⟩
  | 28 => ⟨S64x384, .i32⟩
  | 29 => ⟨S64x384x1, .i32⟩
  | 30 => ⟨S64x384, .f32⟩
  | 31 => ⟨S64x384x1, .f32⟩
  | 32 => ⟨S64x384x2048, .f32⟩
  | 33 => ⟨S64x384x2048, .f32⟩
  | 34 => ⟨S24576x2048, .f32⟩
  | 35 => ⟨S24576, .i32⟩
  | 36 => ⟨S_, .f32⟩
  | 37 => ⟨S2049x2048, .f32⟩
  | 38 => ⟨S24576x1, .i32⟩
  | 39 => ⟨S2049x2048, .f32⟩
  | 40 => ⟨S2048x2048, .f32⟩
  | 41 => ⟨S2048x2816, .f32⟩
  | 42 => ⟨S2048x2816, .f32⟩
  | 43 => ⟨S2048x2816, .f32⟩
  | 44 => ⟨S2048x2816, .f32⟩
  | 45 => ⟨S_, .f32⟩
  | 46 => ⟨S2048x2816, .f32⟩
  | 47 => ⟨S2048x2816, .f32⟩
  | 48 => ⟨S_, .f32⟩
  | 49 => ⟨S2048x2816, .f32⟩
  | 50 => ⟨S2048x2816, .f32⟩
  | 51 => ⟨S2048x2816, .f32⟩
  | 52 => ⟨S2048x2816, .f32⟩
  | 53 => ⟨S2048x2816, .f32⟩
  | 54 => ⟨S2048x2816, .f32⟩
  | 55 => ⟨S2816x2048, .f32⟩
  | 56 => ⟨S2048x2048, .f32⟩
  | 57 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_call1_v0 : Ref sig .tc := ⟨.hbm, 29, rfl⟩
abbrev main_call1_v1_0 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_2 : Ref sig .tc := ⟨.hbm, 41, rfl⟩
abbrev main_v11 : Ref sig .tc := ⟨.hbm, 42, rfl⟩
abbrev main_c_3 : Ref sig .tc := ⟨.hbm, 43, rfl⟩
abbrev main_call2_v0 : Ref sig .tc := ⟨.hbm, 44, rfl⟩
abbrev main_call2_v1 : Ref sig .tc := ⟨.hbm, 45, rfl⟩
abbrev main_v12 : Ref sig .tc := ⟨.hbm, 46, rfl⟩
abbrev main_c_4 : Ref sig .tc := ⟨.hbm, 47, rfl⟩
abbrev main_v13 : Ref sig .tc := ⟨.hbm, 48, rfl⟩
abbrev main_v14 : Ref sig .tc := ⟨.hbm, 49, rfl⟩
abbrev main_c_5 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_6 : Ref sig .tc := ⟨.hbm, 55, rfl⟩
abbrev main_v19 : Ref sig .tc := ⟨.hbm, 56, rfl⟩
abbrev main_v20 : Ref sig .tc := ⟨.hbm, 57, rfl⟩
abbrev main_call3_call0_c : Ref sig .tc := ⟨.hbm, 58, rfl⟩
abbrev main_call3_call0_v0 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_7 : Ref sig .tc := ⟨.hbm, 63, rfl⟩
abbrev main_v24 : Ref sig .tc := ⟨.hbm, 64, rfl⟩
abbrev main_v25 : Ref sig .tc := ⟨.hbm, 65, rfl⟩
abbrev main_c_8 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_9 : Ref sig .tc := ⟨.hbm, 73, rfl⟩
abbrev main_v32 : Ref sig .tc := ⟨.hbm, 74, rfl⟩
abbrev main_v33 : Ref sig .tc := ⟨.hbm, 75, rfl⟩
abbrev main_c_10 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_c_11 : Ref sig .tc := ⟨.hbm, 80, rfl⟩
abbrev main_call4_v0 : Ref sig .tc := ⟨.hbm, 81, rfl⟩
abbrev main_call4_v1 : Ref sig .tc := ⟨.hbm, 82, rfl⟩
abbrev main_v37 : Ref sig .tc := ⟨.hbm, 83, rfl⟩
abbrev main_c_12 : Ref sig .tc := ⟨.hbm, 84, rfl⟩
abbrev main_v38 : Ref sig .tc := ⟨.hbm, 85, rfl⟩
abbrev main_c_13 : Ref sig .tc := ⟨.hbm, 86, rfl⟩
abbrev main_v39 : Ref sig .tc := ⟨.hbm, 87, rfl⟩
abbrev main_v40 : Ref sig .tc := ⟨.hbm, 88, rfl⟩
abbrev main_c_14 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_c_15 : Ref sig .tc := ⟨.hbm, 97, rfl⟩
abbrev main_v48 : Ref sig .tc := ⟨.hbm, 98, rfl⟩
abbrev main_v49 : Ref sig .tc := ⟨.hbm, 99, rfl⟩
abbrev main_c_16 : Ref sig .tc := ⟨.hbm, 100, rfl⟩
abbrev main_c_17 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v50 : Ref sig .tc := ⟨.hbm, 107, rfl⟩
abbrev main_c_18 : Ref sig .tc := ⟨.hbm, 108, rfl⟩
abbrev main_v51 : Ref sig .tc := ⟨.hbm, 109, rfl⟩
abbrev main_v52 : Ref sig .tc := ⟨.hbm, 110, rfl⟩
abbrev main_c_19 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_c_20 : Ref sig .tc := ⟨.hbm, 117, rfl⟩
abbrev main_call6_v0 : Ref sig .tc := ⟨.hbm, 118, rfl⟩
abbrev main_call6_v1 : Ref sig .tc := ⟨.hbm, 119, rfl⟩
abbrev main_v58 : Ref sig .tc := ⟨.hbm, 120, rfl⟩
abbrev main_cst : Ref sig .tc := ⟨.hbm, 121, rfl⟩
abbrev main_v59 : Ref sig .tc := ⟨.hbm, 122, rfl⟩
abbrev main_v60 : Ref sig .tc := ⟨.hbm, 123, rfl⟩
abbrev main_c_21 : Ref sig .tc := ⟨.hbm, 124, rfl⟩
abbrev main_v61 : Ref sig .tc := ⟨.hbm, 125, rfl⟩
abbrev main_v62 : Ref sig .tc := ⟨.hbm, 126, rfl⟩
abbrev main_c_22 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_call7_v0 : Ref sig .tc := ⟨.hbm, 134, rfl⟩
abbrev main_call7_v1 : Ref sig .tc := ⟨.hbm, 135, rfl⟩
abbrev main_call7_cst : Ref sig .tc := ⟨.hbm, 136, rfl⟩
abbrev main_call7_v2 : Ref sig .tc := ⟨.hbm, 137, rfl⟩
abbrev main_call7_v3 : Ref sig .tc := ⟨.hbm, 138, rfl⟩
abbrev main_call7_cst_0 : Ref sig .tc := ⟨.hbm, 139, rfl⟩
abbrev main_call7_v4 : Ref sig .tc := ⟨.hbm, 140, rfl⟩
abbrev main_call7_v5 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_cst_23 : Ref sig .tc := ⟨.hbm, 147, rfl⟩
abbrev main_v74 : Ref sig .tc := ⟨.hbm, 148, rfl⟩
abbrev main_v75 : Ref sig .tc := ⟨.hbm, 149, rfl⟩
abbrev main_c_24 : Ref sig .tc := ⟨.hbm, 150, rfl⟩
abbrev main_v76 : Ref sig .tc := ⟨.hbm, 151, rfl⟩
abbrev main_v77 : Ref sig .tc := ⟨.hbm, 152, rfl⟩
abbrev main_c_25 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_cst_26 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_call8_v0 : Ref sig .tc := ⟨.hbm, 171, rfl⟩
abbrev main_call8_v1 : Ref sig .tc := ⟨.hbm, 172, rfl⟩
abbrev main_call8_cst : Ref sig .tc := ⟨.hbm, 173, rfl⟩
abbrev main_call8_v2 : Ref sig .tc := ⟨.hbm, 174, rfl⟩
abbrev main_call8_v3 : Ref sig .tc := ⟨.hbm, 175, rfl⟩
abbrev main_call8_cst_0 : Ref sig .tc := ⟨.hbm, 176, rfl⟩
abbrev main_call8_v4 : Ref sig .tc := ⟨.hbm, 177, rfl⟩
abbrev main_call8_v5 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩

abbrev nD : Nat := 1
abbrev τ : Topo := Topo.v7x

variable {F : FTy → Type} [FloatOps F]

class Facts₀ : Prop where
  shapeCasts_S2048x6_S12288 : S2048x6.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S24577 : S_.BroadcastsInDim S24577 (![] : Fin 0 → Fin S24577.rank)
  slices_S24577_S24576_0 : S24577.Slices ![0] S24576
  shapeCasts_S24576_S64x384 : S24576.ShapeCasts S64x384
  bcast_S_S64x384 : S_.BroadcastsInDim S64x384 (![] : Fin 0 → Fin S64x384.rank)
  bcast_S64x384_S64x384x1_0_1 : S64x384.BroadcastsInDim S64x384x1 (![0, 1] : Fin 2 → Fin S64x384x1.rank)
  bcast_S_S1x2048 : S_.BroadcastsInDim S1x2048 (![] : Fin 0 → Fin S1x2048.rank)
  concatenates_S2048x2048_S1x2048_S2049x2048_d0 : Shape.Concatenates [S2048x2048, S1x2048] S2049x2048 0
  bcast_S_S64x384x1408 : S_.BroadcastsInDim S64x384x1408 (![] : Fin 0 → Fin S64x384x1408.rank)
  bcast_S_S1 : S_.BroadcastsInDim S1 (![] : Fin 0 → Fin S1.rank)
  concatenates_S12288_S1_S12289_d0 : Shape.Concatenates [S12288, S1] S12289 0
  bcast_S64x384x1_S64x384x2048_0_1_2 : S64x384x1.BroadcastsInDim S64x384x2048 (![0, 1, 2] : Fin 3 → Fin S64x384x2048.rank)
  shapeCasts_S64x384x2048_S24576x2048 : S64x384x2048.ShapeCasts S24576x2048
  shapeCasts_S64x384_S24576 : S64x384.ShapeCasts S24576
  bcast_S_S2049x2048 : S_.BroadcastsInDim S2049x2048 (![] : Fin 0 → Fin S2049x2048.rank)
  bcast_S24576_S24576x1_0 : S24576.BroadcastsInDim S24576x1 (![0] : Fin 1 → Fin S24576x1.rank)
  slices_S2049x2048_S2048x2048_0_0 : S2049x2048.Slices ![0, 0] S2048x2048
  transposes_S2816x2048_S2048x2816_1_0 : S2816x2048.Transposes [1, 0] S2048x2816
  bcast_S_S2048x2816 : S_.BroadcastsInDim S2048x2816 (![] : Fin 0 → Fin S2048x2816.rank)
  transposes_S2048x2816_S2816x2048_1_0 : S2048x2816.Transposes [1, 0] S2816x2048
  gather_S12288_S12288x1_S12288_n_0_n_n_0_1_1_wf : GatherDims.WF S12288 S12288x1 S12288 [] [0] [] [0] [] 1 ![1]
  scatter_S64_S12288x1_S12288_n_0_0_1_wf : ScatterDims.WF S64 S12288x1 S12288 [] [0] [0] 1
  gather_S64_S12288x1_S12288_n_0_n_n_0_1_1_wf : GatherDims.WF S64 S12288x1 S12288 [] [0] [] [0] [] 1 ![1]
  scatter_S24577_S12288x1_S12288_n_0_0_1_wf : ScatterDims.WF S24577 S12288x1 S12288 [] [0] [0] 1
  gather_S12288_S64x384x1_S64x384_n_0_n_n_0_2_1_wf : GatherDims.WF S12288 S64x384x1 S64x384 [] [0] [] [0] [] 2 ![1]
  gather_S2049x2048_S64x384x1_S64x384x2048_2_0_n_n_0_2_12048_wf : GatherDims.WF S2049x2048 S64x384x1 S64x384x2048 [2] [0] [] [0] [] 2 ![1, 2048]
  dot_S64x384x2048_S64x1408x2048_S64x384x1408_2_2_1_1_0_0_wf : DotDims.WF S64x384x2048 S64x1408x2048 S64x384x1408 [2] [2] [1] [1] [0] [0]
  dot_S64x384x1408_S64x2048x1408_S64x384x2048_2_2_1_1_0_0_wf : DotDims.WF S64x384x1408 S64x2048x1408 S64x384x2048 [2] [2] [1] [1] [0] [0]
  gather_S12289_S64x384x1_S64x384_n_0_n_n_0_2_1_wf : GatherDims.WF S12289 S64x384x1 S64x384 [] [0] [] [0] [] 2 ![1]
  scatter_S2049x2048_S24576x1_S24576x2048_1_0_0_1_wf : ScatterDims.WF S2049x2048 S24576x1 S24576x2048 [1] [0] [0] 1
  dot_S2048x2048_S2048x2816_S2048x2816_1_0_0_1_n_n_wf : DotDims.WF S2048x2048 S2048x2816 S2048x2816 [1] [0] [0] [1] [] []
  dot_S2048x2816_S2816x2048_S2048x2048_1_0_0_1_n_n_wf : DotDims.WF S2048x2816 S2816x2048 S2048x2048 [1] [0] [0] [1] [] []

variable [Facts₀]

def comparator_i32_i32_d0 : BitVec 32 × BitVec 32 → BitVec 32 × BitVec 32 → BitVec 1 :=
  fun l r =>
    let v2 := IntOp.cmpi .slt l.1 r.1
    v2
def gather_S12288_S12288x1_S12288_n_0_n_n_0_1_1 : GatherDims S12288 S12288x1 S12288 where
  offsetDims := []
  collapsedSliceDims := [0]
  operandBatchingDims := []
  startIndicesBatchingDims := []
  startIndexMap := [0]
  indexVectorDim := 1
  sliceSizes := ![1]
  wf := gather_S12288_S12288x1_S12288_n_0_n_n_0_1_1_wf
def scatter_S64_S12288x1_S12288_n_0_0_1 : ScatterDims S64 S12288x1 S12288 where
  updateWindowDims := []
  insertedWindowDims := [0]
  scatterDimsToOperandDims := [0]
  indexVectorDim := 1
  wf := scatter_S64_S12288x1_S12288_n_0_0_1_wf
def gather_S64_S12288x1_S12288_n_0_n_n_0_1_1 : GatherDims S64 S12288x1 S12288 where
  offsetDims := []
  collapsedSliceDims := [0]
  operandBatchingDims := []
  startIndicesBatchingDims := []
  startIndexMap := [0]
  indexVectorDim := 1
  sliceSizes := ![1]
  wf := gather_S64_S12288x1_S12288_n_0_n_n_0_1_1_wf
def scatter_S24577_S12288x1_S12288_n_0_0_1 : ScatterDims S24577 S12288x1 S12288 where
  updateWindowDims := []
  insertedWindowDims := [0]
  scatterDimsToOperandDims := [0]
  indexVectorDim := 1
  wf := scatter_S24577_S12288x1_S12288_n_0_0_1_wf
def gather_S12288_S64x384x1_S64x384_n_0_n_n_0_2_1 : GatherDims S12288 S64x384x1 S64x384 where
  offsetDims := []
  collapsedSliceDims := [0]
  operandBatchingDims := []
  startIndicesBatchingDims := []
  startIndexMap := [0]
  indexVectorDim := 2
  sliceSizes := ![1]
  wf := gather_S12288_S64x384x1_S64x384_n_0_n_n_0_2_1_wf
def gather_S2049x2048_S64x384x1_S64x384x2048_2_0_n_n_0_2_12048 : GatherDims S2049x2048 S64x384x1 S64x384x2048 where
  offsetDims := [2]
  collapsedSliceDims := [0]
  operandBatchingDims := []
  startIndicesBatchingDims := []
  startIndexMap := [0]
  indexVectorDim := 2
  sliceSizes := ![1, 2048]
  wf := gather_S2049x2048_S64x384x1_S64x384x2048_2_0_n_n_0_2_12048_wf
def dot_S64x384x2048_S64x1408x2048_S64x384x1408_2_2_1_1_0_0 : DotDims S64x384x2048 S64x1408x2048 S64x384x1408 where
  lhsContracting := [2]
  rhsContracting := [2]
  lhsNonContracting := [1]
  rhsNonContracting := [1]
  lhsBatch := [0]
  rhsBatch := [0]
  wf := dot_S64x384x2048_S64x1408x2048_S64x384x1408_2_2_1_1_0_0_wf
def dot_S64x384x1408_S64x2048x1408_S64x384x2048_2_2_1_1_0_0 : DotDims S64x384x1408 S64x2048x1408 S64x384x2048 where
  lhsContracting := [2]
  rhsContracting := [2]
  lhsNonContracting := [1]
  rhsNonContracting := [1]
  lhsBatch := [0]
  rhsBatch := [0]
  wf := dot_S64x384x1408_S64x2048x1408_S64x384x2048_2_2_1_1_0_0_wf
def gather_S12289_S64x384x1_S64x384_n_0_n_n_0_2_1 : GatherDims S12289 S64x384x1 S64x384 where
  offsetDims := []
  collapsedSliceDims := [0]
  operandBatchingDims := []
  startIndicesBatchingDims := []
  startIndexMap := [0]
  indexVectorDim := 2
  sliceSizes := ![1]
  wf := gather_S12289_S64x384x1_S64x384_n_0_n_n_0_2_1_wf
def scatter_S2049x2048_S24576x1_S24576x2048_1_0_0_1 : ScatterDims S2049x2048 S24576x1 S24576x2048 where
  updateWindowDims := [1]
  insertedWindowDims := [0]
  scatterDimsToOperandDims := [0]
  indexVectorDim := 1
  wf := scatter_S2049x2048_S24576x1_S24576x2048_1_0_0_1_wf
def dot_S2048x2048_S2048x2816_S2048x2816_1_0_0_1_n_n : DotDims S2048x2048 S2048x2816 S2048x2816 where
  lhsContracting := [1]
  rhsContracting := [0]
  lhsNonContracting := [0]
  rhsNonContracting := [1]
  lhsBatch := []
  rhsBatch := []
  wf := dot_S2048x2048_S2048x2816_S2048x2816_1_0_0_1_n_n_wf
def dot_S2048x2816_S2816x2048_S2048x2048_1_0_0_1_n_n : DotDims S2048x2816 S2816x2048 S2048x2048 where
  lhsContracting := [1]
  rhsContracting := [0]
  lhsNonContracting := [0]
  rhsNonContracting := [1]
  lhsBatch := []
  rhsBatch := []
  wf := dot_S2048x2816_S2816x2048_S2048x2048_1_0_0_1_n_n_wf

class Facts : Prop extends Facts₀ where

variable [Facts]
-- ==== Proof.KB.Base0.lean ====
/-
  Region 0 of the program, the part every case of its kernel body shares: which grid points take which branch of
  the body's two conditionals (the accumulator is cleared at the first point of each row of the grid and the output
  block is stored at the last), where the output window is idle, the staging and scratch memrefs by name, each
  input window's block at a point read off the array the region finds, and the region's invariant with the
  accumulator scratch as an owned memref.  Everything is stated at a PARAMETER `V`: the buffer contents when the
  region is entered.
-/
import proofs.«120388_j80376017977412_2_alg».proof.Proof.Gen.Kernel.Launch
import proofs.«120388_j80376017977412_2_alg».proof.Proof.Gen.Kernel.Skeleton
import proofs.«120388_j80376017977412_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The body clears the accumulator: the first conditional's test, from the grid coordinates. -/
abbrev cond0_0 (i : grid0.Coords) : Prop := (Scalar.cmpi .ne (Scalar.extui (Scalar.cmpi .eq (BitVec.ofNat 32 (i 1).val) 0#32)) 0#32) = 1#1
/-- It holds at the first point of each row of the grid. -/
theorem hcond0_0 : ∀ t : Fin cfg0.N, cond0_0 (grid0.coords t) ↔ t.val % 11 = 0 :=
  (by decide +kernel : ∀ t : Fin grid0.N, cond0_0 (grid0.coords t) ↔ t.val % 11 = 0)

/-- The body stores the output block: the second conditional's test. -/
abbrev cond0_1 (i : grid0.Coords) : Prop := k0_cond2 i = 1#1
/-- It holds at the last point of each row of the grid. -/
theorem hcond0_1 : ∀ t : Fin cfg0.N, cond0_1 (grid0.coords t) ↔ t.val % 11 = 10 :=
  (by decide +kernel : ∀ t : Fin grid0.N, cond0_1 (grid0.coords t) ↔ t.val % 11 = 10)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the output block is not stored the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it is stored the window is live. -/
theorem liveAt0_5 : ∀ t : Fin cfg0.N, cond0_1 (grid0.coords t) → cfg0.idle 5 (grid0.coords t) = false := by decide +kernel

/-- One staging buffer of the output window, through which its contents are stated. -/
abbrev VO0_5 : View sig .tc .vmem S1x384x2048 .f32 := (Memref.whole cc0_stg5_0 : Memref sig .tc .vmem S1x384x2048 .f32).view
abbrev ms0_0 (t : Fin cfg0.N) : Memref sig .tc .vmem S1x384x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x384x2048 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S384x2048 .f32 := Memref.whole cc0_scratch0
abbrev VS0_0 : View sig .tc .vmem S384x2048 .f32 := scM0_0.view

/-- The core's other scoped buffers — the other region's staging buffers and accumulator — each whole at some
    contents: they ride through this region untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The scoped buffers no window of this region stages: the accumulator and the rest. -/
theorem scoped_out0 (c : Dev nD) :
    (Pipeline.scopedRest (Ix := Unit) (Name := ℕ) (U := UR sig nD τ) (Lvl := ℕ) (Val := Elt F) spec0 c : sProp 𝕄)
      ⊢ iprop((∃ d, owns (c : Thread nD τ) scM0_0 fullShare d) ∗ Rest0 c) := by
  rw [scopedRest0_eq]; unfold Rest0; simp only [scM0_0, owns_whole]; exact .rfl
theorem scoped_in0 (c : Dev nD) :
    iprop((∃ d, owns (c : Thread nD τ) scM0_0 fullShare d) ∗ Rest0 c)
      ⊢ (Pipeline.scopedRest (Ix := Unit) (Name := ℕ) (U := UR sig nD τ) (Lvl := ℕ) (Val := Elt F) spec0 c : sProp 𝕄) := by
  rw [scopedRest0_eq]; unfold Rest0; simp only [scM0_0, owns_whole]; exact .rfl

end Cert.Kernel.Gen

end
-- ==== Proof.KB.Run0A.lean ====
/-
  The kernel body of region 0 run as a whole in the case where the accumulator is cleared first and the output block is not stored (the first point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KB.Base0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) :
    Σ' (L5 : List (View.Piece (Elt F) S1x384x2048 .f32)), { LS0 : List (View.Piece (Elt F) S384x2048 .f32) //
      ∀ (xi5 : Vec F S1x384x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__expert_ffn_kernel i arg2 harg2 arg3 harg3 arg4 harg4 arg5 harg5 arg6 harg6 arg7 harg7 arg8 harg8) K } := by
  refine ⟨[], ?_, fun xi5 E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Gen

end
-- ==== Proof.KB.Run0B.lean ====
/-
  The kernel body of region 0 run as a whole in the case where the accumulator is neither cleared nor is the output block stored (a middle point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KB.Base0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) :
    Σ' (L5 : List (View.Piece (Elt F) S1x384x2048 .f32)), { LS0 : List (View.Piece (Elt F) S384x2048 .f32) //
      ∀ (xi5 : Vec F S1x384x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__expert_ffn_kernel i arg2 harg2 arg3 harg3 arg4 harg4 arg5 harg5 arg6 harg6 arg7 harg7 arg8 harg8) K } := by
  refine ⟨[], ?_, fun xi5 E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Gen

end
-- ==== Proof.KB.Run0C.lean ====
/-
  The kernel body of region 0 run as a whole in the case where the accumulator is not cleared and the output block is stored (the last point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KB.Base0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) :
    Σ' (L5 : List (View.Piece (Elt F) S1x384x2048 .f32)), { LS0 : List (View.Piece (Elt F) S384x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__expert_ffn_kernel i arg2 harg2 arg3 harg3 arg4 harg4 arg5 harg5 arg6 harg6 arg7 harg7 arg8 harg8) K } := by
  refine ⟨?_, ?_, fun E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Gen

end
-- ==== Proof.KB.Region0.lean ====
/-
  Region 0: what its kernel leaves, point by point.  The accumulator scratch is carried from one grid point to
  the next, so its contents after a point are defined by recursion on the point: at the first point of a row of
  the grid the body clears it and adds that point's block product; at every later point it adds the point's block
  product to what the point before left; at the last point of a row the body also stores the output block, computed
  from the accumulator.  From that: the pipeline's proof data (each input window's buffer at its block, the output
  window's at what the last point of the row stored, the invariant holding the accumulator at the recursion's value)
  and the body obligation at every point — a case split on the point's position in its row, each case the body's
  whole run in that case.  All at a parameter `V`, the buffer contents when the region is entered.
-/
import proofs.«120388_j80376017977412_2_alg».proof.Proof.KB.Run0A
import proofs.«120388_j80376017977412_2_alg».proof.Proof.KB.Run0B
import proofs.«120388_j80376017977412_2_alg».proof.Proof.KB.Run0C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the stores into the accumulator cover it. -/
theorem scover0_A_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (y : S384x2048.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S384x2048.size (by sl_kernel_rfl) y

/-- What case A leaves in the accumulator: its stores read back. -/
def sout0_A_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) : Vec F S384x2048 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- What case A leaves in the output window's buffer (it stores nothing there: a placeholder nothing consults). -/
def out0_A_5 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) : Vec F S1x384x2048 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- Case B: the stores into the accumulator cover it. -/
theorem scover0_B_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) (y : S384x2048.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S384x2048.size (by sl_kernel_rfl) y

/-- What case B leaves in the accumulator: its stores read back. -/
def sout0_B_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) : Vec F S384x2048 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- What case B leaves in the output window's buffer (it stores nothing there: a placeholder nothing consults). -/
def out0_B_5 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) : Vec F S1x384x2048 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Case C: the stores into the accumulator cover it. -/
theorem scover0_C_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) (y : S384x2048.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S384x2048.size (by sl_kernel_rfl) y

/-- What case C leaves in the accumulator: its stores read back. -/
def sout0_C_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) : Vec F S384x2048 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-- What case C leaves in the output window's buffer. -/
def out0_C_5 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) : Vec F S1x384x2048 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- Case C: the store into the output window's buffer covers it. -/
theorem cover0_C_5 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) (y : S1x384x2048.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1x384x2048.size (by sl_kernel_rfl) y

/-- THE ACCUMULATION.  What the output window's buffer and the accumulator hold after the body at position `n`. -/
def outsAt0 (c : Dev nD) : (n : ℕ) → n < cfg0.N → Vec F S1x384x2048 .f32 × Vec F S384x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => absurd (show 0 % 11 = 10 from (hcond0_1 ⟨0, hn⟩).mp h) (by decide)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => absurd (show 0 % 11 = 10 from (hcond0_1 ⟨0, hn⟩).mp h) (by decide)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 11 = 0 then
      if h1 : (n + 1) % 11 = 10 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 11 = 10 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a first point of a row: the clearing case's contents. -/
theorem outsAt0_A (c : Dev nD) (t : Fin cfg0.N) (h0 : t.val % 11 = 0) (h1 : ¬t.val % 11 = 10) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- At a middle point of a row: the adding case's contents, over what the point before left. -/
theorem outsAt0_B (c : Dev nD) (t : Fin cfg0.N) (h0 : ¬t.val % 11 = 0) (h1 : ¬t.val % 11 = 10) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a last point of a row: the storing case's contents, over what the point before left. -/
theorem outsAt0_C (c : Dev nD) (t : Fin cfg0.N) (h0 : ¬t.val % 11 = 0) (h1 : t.val % 11 = 10) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position `n`: before the first point the accumulator holds anything; afterwards what
    the point before left.  Beside it the other scoped buffers and the generator register, untouched. -/
def PhiS0 (c : Dev nD) : (n : ℕ) → n ≤ cfg0.N → sProp 𝕄
  | 0, _ => iprop(iprop((∃ d, owns (c : Thread nD τ) scM0_0 fullShare d) ∗ Rest0 c) ∗ (∃ r, prngReg c r))
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) :
    PhiS0 V c n h = iprop(iprop((∃ d, owns (c : Thread nD τ) scM0_0 fullShare d) ∗ Rest0 c) ∗ (∃ r, prngReg c r)) := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-- The proof data of the region's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: each input's memref holds its block; the point's position in its row says which case it is in;
    the invariant hands the body the accumulator at what the point before left (at anything at the very first point) and
    takes it back at what this point leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 704 := lt_of_lt_of_eq t.isLt (show cfg0.N = 704 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 11 = 0
  · have h1 : ¬t.val % 11 = 10 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold sout0_A_0; (try dsimp only)
    by_cases hz : t.val = 0
    ·
      rw [PhiS0_castSucc V c t, PhiS0_zero V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 11 = 10
    · have hz : t.val ≠ 0 := by omega
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_5 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · have hz : t.val ≠ 0 := by omega
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point, from the scoped buffers no window stages and the generator register. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = PhiS0 V c 0 (Nat.zero_le _) from rfl, PhiS0_zero V c 0 _ rfl]
  iintro ⟨Hp, Hr⟩
  isplitl [Hr]
  · iapply (scoped_out0 c); iexact Hr
  iexact Hp

/-- After the last point the invariant gives the scoped buffers and the generator register back: the accumulator's
    named contents are forgotten. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 704 := N_0; omega)]
  iintro ⟨⟨HS0, HR⟩, Hg⟩
  isplitl [Hg]; · iexact Hg
  iapply (scoped_in0 c)
  isplitl [HS0]
  · iexists _; iexact HS0
  iexact HR

end Cert.Kernel.Gen

end
-- ==== Proof.KB.Base1.lean ====
/-
  Region 1 of the program, the part every case of its kernel body shares: which grid points take which branch of
  the body's two conditionals (the accumulator is cleared at the first point of each row of the grid and the output
  block is stored at the last), where the output window is idle, the staging and scratch memrefs by name, each
  input window's block at a point read off the array the region finds, and the region's invariant with the
  accumulator scratch as an owned memref.  Everything is stated at a PARAMETER `V`: the buffer contents when the
  region is entered.
-/
import proofs.«120388_j80376017977412_2_alg».proof.Proof.Gen.Kernel.Launch
import proofs.«120388_j80376017977412_2_alg».proof.Proof.Gen.Kernel.Skeleton
import proofs.«120388_j80376017977412_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body clears the accumulator: the first conditional's test, from the grid coordinates. -/
abbrev cond1_0 (i : grid1.Coords) : Prop := (Scalar.cmpi .ne (Scalar.extui (Scalar.cmpi .eq (BitVec.ofNat 32 (i 1).val) 0#32)) 0#32) = 1#1
/-- It holds at the first point of each row of the grid. -/
theorem hcond1_0 : ∀ t : Fin cfg1.N, cond1_0 (grid1.coords t) ↔ t.val % 11 = 0 :=
  (by decide +kernel : ∀ t : Fin grid1.N, cond1_0 (grid1.coords t) ↔ t.val % 11 = 0)

/-- The body stores the output block: the second conditional's test. -/
abbrev cond1_1 (i : grid1.Coords) : Prop := k1_cond2 i = 1#1
/-- It holds at the last point of each row of the grid. -/
theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the output block is not stored the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it is stored the window is live. -/
theorem liveAt1_5 : ∀ t : Fin cfg1.N, cond1_1 (grid1.coords t) → cfg1.idle 5 (grid1.coords t) = false := by decide +kernel

/-- One staging buffer of the output window, through which its contents are stated. -/
abbrev VO1_5 : View sig .tc .vmem S256x2048 .f32 := (Memref.whole cc1_stg5_0 : Memref sig .tc .vmem S256x2048 .f32).view
abbrev ms1_0 (t : Fin cfg1.N) : Memref sig .tc .vmem S256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x2048 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from point to point. -/
abbrev scM1_0 : Memref sig .tc .vmem S256x2048 .f32 := Memref.whole cc1_scratch0
abbrev VS1_0 : View sig .tc .vmem S256x2048 .f32 := scM1_0.view

/-- The core's other scoped buffers — the other region's staging buffers and accumulator — each whole at some
    contents: they ride through this region untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The scoped buffers no window of this region stages: the accumulator and the rest. -/
theorem scoped_out1 (c : Dev nD) :
    (Pipeline.scopedRest (Ix := Unit) (Name := ℕ) (U := UR sig nD τ) (Lvl := ℕ) (Val := Elt F) spec1 c : sProp 𝕄)
      ⊢ iprop((∃ d, owns (c : Thread nD τ) scM1_0 fullShare d) ∗ Rest1 c) := by
  rw [scopedRest1_eq]; unfold Rest1; simp only [scM1_0, owns_whole]
  iintro ⟨H0, H1, H2, H3, H4, H5, H6, H7, H8, H9, H10, H11, H12, HS⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12
theorem scoped_in1 (c : Dev nD) :
    iprop((∃ d, owns (c : Thread nD τ) scM1_0 fullShare d) ∗ Rest1 c)
      ⊢ (Pipeline.scopedRest (Ix := Unit) (Name := ℕ) (U := UR sig nD τ) (Lvl := ℕ) (Val := Elt F) spec1 c : sProp 𝕄) := by
  rw [scopedRest1_eq]; unfold Rest1; simp only [scM1_0, owns_whole]
  iintro ⟨HS, H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS

end Cert.Kernel.Gen

end
-- ==== Proof.KB.Run1A.lean ====
/-
  The kernel body of region 1 run as a whole in the case where the accumulator is cleared first and the output block is not stored (the first point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KB.Base1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i)
    (x0 : Vec F S256x2048 .f32) (x1 : Vec F S256x2048 .f32) (x2 : Vec F S256x2048 .f32) (x3 : Vec F S2048x256 .f32) (x4 : Vec F S256x2048 .f32) :
    Σ' (L5 : List (View.Piece (Elt F) S256x2048 .f32)), { LS0 : List (View.Piece (Elt F) S256x2048 .f32) //
      ∀ (xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__shared_ffn_kernel i arg2 harg2 arg3 harg3 arg4 harg4 arg5 harg5 arg6 harg6 arg7 harg7 arg8 harg8) K } := by
  refine ⟨[], ?_, fun xi5 E K => ?run⟩
  case run =>
    simp only [cc1__shared_ffn_kernel_eq_skeleton]; unfold cc1__shared_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Gen

end
-- ==== Proof.KB.Run1B.lean ====
/-
  The kernel body of region 1 run as a whole in the case where the accumulator is neither cleared nor is the output block stored (a middle point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KB.Base1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) :
    Σ' (L5 : List (View.Piece (Elt F) S256x2048 .f32)), { LS0 : List (View.Piece (Elt F) S256x2048 .f32) //
      ∀ (xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__shared_ffn_kernel i arg2 harg2 arg3 harg3 arg4 harg4 arg5 harg5 arg6 harg6 arg7 harg7 arg8 harg8) K } := by
  refine ⟨[], ?_, fun xi5 E K => ?run⟩
  case run =>
    simp only [cc1__shared_ffn_kernel_eq_skeleton]; unfold cc1__shared_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Gen

end
-- ==== Proof.KB.Run1C.lean ====
/-
  The kernel body of region 1 run as a whole in the case where the accumulator is not cleared and the output block is stored (the last point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KB.Base1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) :
    Σ' (L5 : List (View.Piece (Elt F) S256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__shared_ffn_kernel i arg2 harg2 arg3 harg3 arg4 harg4 arg5 harg5 arg6 harg6 arg7 harg7 arg8 harg8) K } := by
  refine ⟨?_, ?_, fun E K => ?run⟩
  case run =>
    simp only [cc1__shared_ffn_kernel_eq_skeleton]; unfold cc1__shared_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Gen

end
-- ==== Proof.KB.Region1.lean ====
/-
  Region 1: what its kernel leaves, point by point.  The accumulator scratch is carried from one grid point to
  the next, so its contents after a point are defined by recursion on the point: at the first point of a row of
  the grid the body clears it and adds that point's block product; at every later point it adds the point's block
  product to what the point before left; at the last point of a row the body also stores the output block, computed
  from the accumulator.  From that: the pipeline's proof data (each input window's buffer at its block, the output
  window's at what the last point of the row stored, the invariant holding the accumulator at the recursion's value)
  and the body obligation at every point — a case split on the point's position in its row, each case the body's
  whole run in that case.  All at a parameter `V`, the buffer contents when the region is entered.
-/
import proofs.«120388_j80376017977412_2_alg».proof.Proof.KB.Run1A
import proofs.«120388_j80376017977412_2_alg».proof.Proof.KB.Run1B
import proofs.«120388_j80376017977412_2_alg».proof.Proof.KB.Run1C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the stores into the accumulator cover it. -/
theorem scover1_A_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i)
    (x0 : Vec F S256x2048 .f32) (x1 : Vec F S256x2048 .f32) (x2 : Vec F S256x2048 .f32) (x3 : Vec F S2048x256 .f32) (x4 : Vec F S256x2048 .f32) (y : S256x2048.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S256x2048.size (by sl_kernel_rfl) y

/-- What case A leaves in the accumulator: its stores read back. -/
def sout1_A_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i)
    (x0 : Vec F S256x2048 .f32) (x1 : Vec F S256x2048 .f32) (x2 : Vec F S256x2048 .f32) (x3 : Vec F S2048x256 .f32) (x4 : Vec F S256x2048 .f32) : Vec F S256x2048 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case A leaves in the output window's buffer (it stores nothing there: a placeholder nothing consults). -/
def out1_A_5 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i)
    (x0 : Vec F S256x2048 .f32) (x1 : Vec F S256x2048 .f32) (x2 : Vec F S256x2048 .f32) (x3 : Vec F S2048x256 .f32) (x4 : Vec F S256x2048 .f32) : Vec F S256x2048 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case B: the stores into the accumulator cover it. -/
theorem scover1_B_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) (y : S256x2048.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S256x2048.size (by sl_kernel_rfl) y

/-- What case B leaves in the accumulator: its stores read back. -/
def sout1_B_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) : Vec F S256x2048 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- What case B leaves in the output window's buffer (it stores nothing there: a placeholder nothing consults). -/
def out1_B_5 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) : Vec F S256x2048 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case C: the stores into the accumulator cover it. -/
theorem scover1_C_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) (y : S256x2048.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S256x2048.size (by sl_kernel_rfl) y

/-- What case C leaves in the accumulator: its stores read back. -/
def sout1_C_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) : Vec F S256x2048 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-- What case C leaves in the output window's buffer. -/
def out1_C_5 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) : Vec F S256x2048 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C: the store into the output window's buffer covers it. -/
theorem cover1_C_5 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) (y : S256x2048.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S256x2048.size (by sl_kernel_rfl) y

/-- THE ACCUMULATION.  What the output window's buffer and the accumulator hold after the body at position `n`. -/
def outsAt1 (c : Dev nD) : (n : ℕ) → n < cfg1.N → Vec F S256x2048 .f32 × Vec F S256x2048 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => absurd (show 0 % 11 = 10 from (hcond1_1 ⟨0, hn⟩).mp h) (by decide)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => absurd (show 0 % 11 = 10 from (hcond1_1 ⟨0, hn⟩).mp h) (by decide)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 11 = 0 then
      if h1 : (n + 1) % 11 = 10 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 11 = 10 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- At a first point of a row: the clearing case's contents. -/
theorem outsAt1_A (c : Dev nD) (t : Fin cfg1.N) (h0 : t.val % 11 = 0) (h1 : ¬t.val % 11 = 10) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a middle point of a row: the adding case's contents, over what the point before left. -/
theorem outsAt1_B (c : Dev nD) (t : Fin cfg1.N) (h0 : ¬t.val % 11 = 0) (h1 : ¬t.val % 11 = 10) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a last point of a row: the storing case's contents, over what the point before left. -/
theorem outsAt1_C (c : Dev nD) (t : Fin cfg1.N) (h0 : ¬t.val % 11 = 0) (h1 : t.val % 11 = 10) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position `n`: before the first point the accumulator holds anything; afterwards what
    the point before left.  Beside it the other scoped buffers and the generator register, untouched. -/
def PhiS1 (c : Dev nD) : (n : ℕ) → n ≤ cfg1.N → sProp 𝕄
  | 0, _ => iprop(iprop((∃ d, owns (c : Thread nD τ) scM1_0 fullShare d) ∗ Rest1 c) ∗ (∃ r, prngReg c r))
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) :
    PhiS1 V c n h = iprop(iprop((∃ d, owns (c : Thread nD τ) scM1_0 fullShare d) ∗ Rest1 c) ∗ (∃ r, prngReg c r)) := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-- The proof data of the region's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: each input's memref holds its block; the point's position in its row says which case it is in;
    the invariant hands the body the accumulator at what the point before left (at anything at the very first point) and
    takes it back at what this point leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 88 := lt_of_lt_of_eq t.isLt (show cfg1.N = 88 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 11 = 0
  · have h1 : ¬t.val % 11 = 10 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0; (try dsimp only)
    by_cases hz : t.val = 0
    ·
      rw [PhiS1_castSucc V c t, PhiS1_zero V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 11 = 10
    · have hz : t.val ≠ 0 := by omega
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · have hz : t.val ≠ 0 := by omega
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point, from the scoped buffers no window stages and the generator register. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  iintro ⟨Hp, Hr⟩
  isplitl [Hr]
  · iapply (scoped_out1 c); iexact Hr
  iexact Hp

/-- After the last point the invariant gives the scoped buffers and the generator register back: the accumulator's
    named contents are forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 88 := N_1; omega)]
  iintro ⟨⟨HS0, HR⟩, Hg⟩
  isplitl [Hg]; · iexact Hg
  iapply (scoped_in1 c)
  isplitl [HS0]
  · iexists _; iexact HS0
  iexact HR

end Cert.Kernel.Gen

end
-- ==== Proof.KB.RunAll.lean ====
/-
  The whole program as a run: @main is fourteen stretches of host operations, the first kernel region, one more
  stretch, the second kernel region.  Each region is entered from the buffer contents the items before it left
  and leaves its arrays at what its pipeline's write-backs make of them; the accumulator scratch of each kernel
  lives inside its region's invariant.  The result: from any memory with zero counters every weakly fair
  execution terminates, nothing faults, and EVERY unscoped buffer ends at a named value — the fold of the
  host operations and the regions' write-backs over the launch memory.  The arguments end as launched.
-/
import proofs.«120388_j80376017977412_2_alg».proof.Proof.KB.Region0
import proofs.«120388_j80376017977412_2_alg».proof.Proof.KB.Region1
import proofs.«120388_j80376017977412_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's entry contents read at the TensorCore's references. -/
abbrev VE0 : (c : Dev nD) → (b : Ref sig .tc) → Buf (Elt F) ((c : Thread nD τ).loc b) := fun c b => V14 m c b
/-- At region 0's exit: its arrays at what the pipeline leaves, every other buffer as entered. -/
def W15 (c : Dev nD) : Valuation τ sig (Elt F) :=
  Pipeline.withArrays spec0 c (V14 m c) fun w => (dat0 (VE0 m) c).arrAt w cfg0.N
theorem W15_arr (c : Dev nD) (w : Fin cfg0.W) :
    W15 m c (Proc.devRef .tc (Pipeline.arrRef spec0 w)) = (dat0 (VE0 m) c).arrAt w cfg0.N := by
  unfold W15; exact Pipeline.withArrays_arr spec0 launch0.win.arr_inj c _ _ w
theorem W15_of_ne (c : Dev nD) (b : Ref sig .tc) (hb : ∀ w, Pipeline.arrRef spec0 w ≠ b) :
    W15 m c (Proc.devRef .tc b) = V14 m c (Proc.devRef .tc b) := by
  unfold W15; exact Pipeline.withArrays_of_ne spec0 c _ _ b hb
abbrev VX0 : (c : Dev nD) → (b : Ref sig .tc) → Buf (Elt F) ((c : Thread nD τ).loc b) := fun c b => W15 m c b
theorem hF0 (c : Dev nD) (w : Fin cfg0.W) : (dat0 (VE0 m) c).arrAt w cfg0.N = VX0 m c (Pipeline.arrRef spec0 w) :=
  (W15_arr m c w).symm
theorem hrest0 (c : Dev nD) : ∀ b, b ∉ Finset.univ.image (Pipeline.arrRef spec0) → VX0 m c b = VE0 m c b :=
  fun b hb => W15_of_ne m c b fun w e => hb (Finset.mem_image.mpr ⟨w, Finset.mem_univ _, e⟩)

/-- After the host stretch between the regions (region 1's entry). -/
abbrev W16 : Dev nD → Valuation τ sig (Elt F) := fun c => StableHlo.after hostOps1 (W15 m c)
abbrev VE1 : (c : Dev nD) → (b : Ref sig .tc) → Buf (Elt F) ((c : Thread nD τ).loc b) := fun c b => W16 m c b
/-- At region 1's exit. -/
def W17 (c : Dev nD) : Valuation τ sig (Elt F) :=
  Pipeline.withArrays spec1 c (W16 m c) fun w => (dat1 (VE1 m) c).arrAt w cfg1.N
theorem W17_arr (c : Dev nD) (w : Fin cfg1.W) :
    W17 m c (Proc.devRef .tc (Pipeline.arrRef spec1 w)) = (dat1 (VE1 m) c).arrAt w cfg1.N := by
  unfold W17; exact Pipeline.withArrays_arr spec1 launch1.win.arr_inj c _ _ w
theorem W17_of_ne (c : Dev nD) (b : Ref sig .tc) (hb : ∀ w, Pipeline.arrRef spec1 w ≠ b) :
    W17 m c (Proc.devRef .tc b) = W16 m c (Proc.devRef .tc b) := by
  unfold W17; exact Pipeline.withArrays_of_ne spec1 c _ _ b hb
abbrev VX1 : (c : Dev nD) → (b : Ref sig .tc) → Buf (Elt F) ((c : Thread nD τ).loc b) := fun c b => W17 m c b
theorem hF1 (c : Dev nD) (w : Fin cfg1.W) : (dat1 (VE1 m) c).arrAt w cfg1.N = VX1 m c (Pipeline.arrRef spec1 w) :=
  (W17_arr m c w).symm
theorem hrest1 (c : Dev nD) : ∀ b, b ∉ Finset.univ.image (Pipeline.arrRef spec1) → VX1 m c b = VE1 m c b :=
  fun b hb => W17_of_ne m c b fun w e => hb (Finset.mem_image.mpr ⟨w, Finset.mem_univ _, e⟩)

/-! ### The arguments end as launched: no host operation writes one, and a region only reads it -/

theorem V14_main_arg0 (c : Dev nD) : V14 m c (Proc.devRef .tc main_arg0) = m ((c : Thread nD τ).loc main_arg0) :=
  (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem W15_main_arg0 (c : Dev nD) : W15 m c (Proc.devRef .tc main_arg0) = m ((c : Thread nD τ).loc main_arg0) :=
  (W15_of_ne m c main_arg0 (by decide)).trans (V14_main_arg0 m c)
theorem W16_main_arg0 (c : Dev nD) : W16 m c (Proc.devRef .tc main_arg0) = m ((c : Thread nD τ).loc main_arg0) :=
  (StableHlo.after_of_writes_sub hostOps1 _ hostOps1_writes (r := main_arg0) (by decide)).trans (W15_main_arg0 m c)
theorem W17_main_arg0 (c : Dev nD) : W17 m c (Proc.devRef .tc main_arg0) = m ((c : Thread nD τ).loc main_arg0) :=
  ((W17_arr m c 0).trans (((dat1 (VE1 m) c).arrAt_in 0 rfl _).trans (A_eq1 (VE1 m) c 0))).trans (W16_main_arg0 m c)
theorem V14_main_arg1 (c : Dev nD) : V14 m c (Proc.devRef .tc main_arg1) = m ((c : Thread nD τ).loc main_arg1) :=
  (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem W15_main_arg1 (c : Dev nD) : W15 m c (Proc.devRef .tc main_arg1) = m ((c : Thread nD τ).loc main_arg1) :=
  (W15_of_ne m c main_arg1 (by decide)).trans (V14_main_arg1 m c)
theorem W16_main_arg1 (c : Dev nD) : W16 m c (Proc.devRef .tc main_arg1) = m ((c : Thread nD τ).loc main_arg1) :=
  (StableHlo.after_of_writes_sub hostOps1 _ hostOps1_writes (r := main_arg1) (by decide)).trans (W15_main_arg1 m c)
theorem W17_main_arg1 (c : Dev nD) : W17 m c (Proc.devRef .tc main_arg1) = m ((c : Thread nD τ).loc main_arg1) :=
  (W17_of_ne m c main_arg1 (by decide)).trans (W16_main_arg1 m c)
theorem V14_main_arg2 (c : Dev nD) : V14 m c (Proc.devRef .tc main_arg2) = m ((c : Thread nD τ).loc main_arg2) :=
  (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem W15_main_arg2 (c : Dev nD) : W15 m c (Proc.devRef .tc main_arg2) = m ((c : Thread nD τ).loc main_arg2) :=
  (W15_of_ne m c main_arg2 (by decide)).trans (V14_main_arg2 m c)
theorem W16_main_arg2 (c : Dev nD) : W16 m c (Proc.devRef .tc main_arg2) = m ((c : Thread nD τ).loc main_arg2) :=
  (StableHlo.after_of_writes_sub hostOps1 _ hostOps1_writes (r := main_arg2) (by decide)).trans (W15_main_arg2 m c)
theorem W17_main_arg2 (c : Dev nD) : W17 m c (Proc.devRef .tc main_arg2) = m ((c : Thread nD τ).loc main_arg2) :=
  (W17_of_ne m c main_arg2 (by decide)).trans (W16_main_arg2 m c)
theorem V14_main_arg3 (c : Dev nD) : V14 m c (Proc.devRef .tc main_arg3) = m ((c : Thread nD τ).loc main_arg3) :=
  (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem W15_main_arg3 (c : Dev nD) : W15 m c (Proc.devRef .tc main_arg3) = m ((c : Thread nD τ).loc main_arg3) :=
  ((W15_arr m c 1).trans (((dat0 (VE0 m) c).arrAt_in 1 rfl _).trans (A_eq0 (VE0 m) c 1))).trans (V14_main_arg3 m c)
theorem W16_main_arg3 (c : Dev nD) : W16 m c (Proc.devRef .tc main_arg3) = m ((c : Thread nD τ).loc main_arg3) :=
  (StableHlo.after_of_writes_sub hostOps1 _ hostOps1_writes (r := main_arg3) (by decide)).trans (W15_main_arg3 m c)
theorem W17_main_arg3 (c : Dev nD) : W17 m c (Proc.devRef .tc main_arg3) = m ((c : Thread nD τ).loc main_arg3) :=
  (W17_of_ne m c main_arg3 (by decide)).trans (W16_main_arg3 m c)
theorem V14_main_arg4 (c : Dev nD) : V14 m c (Proc.devRef .tc main_arg4) = m ((c : Thread nD τ).loc main_arg4) :=
  (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem W15_main_arg4 (c : Dev nD) : W15 m c (Proc.devRef .tc main_arg4) = m ((c : Thread nD τ).loc main_arg4) :=
  ((W15_arr m c 3).trans (((dat0 (VE0 m) c).arrAt_in 3 rfl _).trans (A_eq0 (VE0 m) c 3))).trans (V14_main_arg4 m c)
theorem W16_main_arg4 (c : Dev nD) : W16 m c (Proc.devRef .tc main_arg4) = m ((c : Thread nD τ).loc main_arg4) :=
  (StableHlo.after_of_writes_sub hostOps1 _ hostOps1_writes (r := main_arg4) (by decide)).trans (W15_main_arg4 m c)
theorem W17_main_arg4 (c : Dev nD) : W17 m c (Proc.devRef .tc main_arg4) = m ((c : Thread nD τ).loc main_arg4) :=
  (W17_of_ne m c main_arg4 (by decide)).trans (W16_main_arg4 m c)
theorem V14_main_arg5 (c : Dev nD) : V14 m c (Proc.devRef .tc main_arg5) = m ((c : Thread nD τ).loc main_arg5) :=
  (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem W15_main_arg5 (c : Dev nD) : W15 m c (Proc.devRef .tc main_arg5) = m ((c : Thread nD τ).loc main_arg5) :=
  ((W15_arr m c 2).trans (((dat0 (VE0 m) c).arrAt_in 2 rfl _).trans (A_eq0 (VE0 m) c 2))).trans (V14_main_arg5 m c)
theorem W16_main_arg5 (c : Dev nD) : W16 m c (Proc.devRef .tc main_arg5) = m ((c : Thread nD τ).loc main_arg5) :=
  (StableHlo.after_of_writes_sub hostOps1 _ hostOps1_writes (r := main_arg5) (by decide)).trans (W15_main_arg5 m c)
theorem W17_main_arg5 (c : Dev nD) : W17 m c (Proc.devRef .tc main_arg5) = m ((c : Thread nD τ).loc main_arg5) :=
  (W17_of_ne m c main_arg5 (by decide)).trans (W16_main_arg5 m c)
theorem V14_main_arg6 (c : Dev nD) : V14 m c (Proc.devRef .tc main_arg6) = m ((c : Thread nD τ).loc main_arg6) :=
  (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem W15_main_arg6 (c : Dev nD) : W15 m c (Proc.devRef .tc main_arg6) = m ((c : Thread nD τ).loc main_arg6) :=
  (W15_of_ne m c main_arg6 (by decide)).trans (V14_main_arg6 m c)
theorem W16_main_arg6 (c : Dev nD) : W16 m c (Proc.devRef .tc main_arg6) = m ((c : Thread nD τ).loc main_arg6) :=
  (StableHlo.after_of_writes_sub hostOps1 _ hostOps1_writes (r := main_arg6) (by decide)).trans (W15_main_arg6 m c)
theorem W17_main_arg6 (c : Dev nD) : W17 m c (Proc.devRef .tc main_arg6) = m ((c : Thread nD τ).loc main_arg6) :=
  ((W17_arr m c 1).trans (((dat1 (VE1 m) c).arrAt_in 1 rfl _).trans (A_eq1 (VE1 m) c 1))).trans (W16_main_arg6 m c)
theorem V14_main_arg7 (c : Dev nD) : V14 m c (Proc.devRef .tc main_arg7) = m ((c : Thread nD τ).loc main_arg7) :=
  (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem W15_main_arg7 (c : Dev nD) : W15 m c (Proc.devRef .tc main_arg7) = m ((c : Thread nD τ).loc main_arg7) :=
  (W15_of_ne m c main_arg7 (by decide)).trans (V14_main_arg7 m c)
theorem W16_main_arg7 (c : Dev nD) : W16 m c (Proc.devRef .tc main_arg7) = m ((c : Thread nD τ).loc main_arg7) :=
  (StableHlo.after_of_writes_sub hostOps1 _ hostOps1_writes (r := main_arg7) (by decide)).trans (W15_main_arg7 m c)
theorem W17_main_arg7 (c : Dev nD) : W17 m c (Proc.devRef .tc main_arg7) = m ((c : Thread nD τ).loc main_arg7) :=
  ((W17_arr m c 3).trans (((dat1 (VE1 m) c).arrAt_in 3 rfl _).trans (A_eq1 (VE1 m) c 3))).trans (W16_main_arg7 m c)
theorem V14_main_arg8 (c : Dev nD) : V14 m c (Proc.devRef .tc main_arg8) = m ((c : Thread nD τ).loc main_arg8) :=
  (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
theorem W15_main_arg8 (c : Dev nD) : W15 m c (Proc.devRef .tc main_arg8) = m ((c : Thread nD τ).loc main_arg8) :=
  (W15_of_ne m c main_arg8 (by decide)).trans (V14_main_arg8 m c)
theorem W16_main_arg8 (c : Dev nD) : W16 m c (Proc.devRef .tc main_arg8) = m ((c : Thread nD τ).loc main_arg8) :=
  (StableHlo.after_of_writes_sub hostOps1 _ hostOps1_writes (r := main_arg8) (by decide)).trans (W15_main_arg8 m c)
theorem W17_main_arg8 (c : Dev nD) : W17 m c (Proc.devRef .tc main_arg8) = m ((c : Thread nD τ).loc main_arg8) :=
  ((W17_arr m c 2).trans (((dat1 (VE1 m) c).arrAt_in 2 rfl _).trans (A_eq1 (VE1 m) c 2))).trans (W16_main_arg8 m c)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W15 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VE0 m) c).Φ 0 from rfl]
    iintro ⟨Hp, -, Hr⟩
    iapply (hin0 (VE0 m) c)
    isplitl [Hp]; · iexact Hp
    iexact Hr
  hout c := by
    rw [Pipeline.ownSems0_none, show (pdats m 0 c).Φ (Fin.last _) = (dat0 (VE0 m) c).Φ (Fin.last cfg0.N) from rfl]
    refine (hout0 (VE0 m) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W16 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VE1 m) c).Φ 0 from rfl]
    iintro ⟨Hp, -, Hr⟩
    iapply (hin1 (VE1 m) c)
    isplitl [Hp]; · iexact Hp
    iexact Hr
  hout c := by
    rw [Pipeline.ownSems0_none, show (pdats m 1 c).Φ (Fin.last _) = (dat1 (VE1 m) c).Φ (Fin.last cfg1.N) from rfl]
    refine (hout1 (VE1 m) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsAll : List (Pipeline.Seg (pcfgs (F := F)) adm (pdats m) () defs₀ 𝒱₀ L lv) :=
  [ .host (seg0 m 𝒱₀ L lv E),
    .host (seg1 m 𝒱₀ L lv E),
    .host (seg2 m 𝒱₀ L lv E),
    .host (seg3 m 𝒱₀ L lv E),
    .host (seg4 m 𝒱₀ L lv E),
    .host (seg5 m 𝒱₀ L lv E),
    .host (seg6 m 𝒱₀ L lv E),
    .host (seg7 m 𝒱₀ L lv E),
    .host (seg8 m 𝒱₀ L lv E),
    .host (seg9 m 𝒱₀ L lv E),
    .host (seg10 m 𝒱₀ L lv E),
    .host (seg11 m 𝒱₀ L lv E),
    .host (seg12 m 𝒱₀ L lv E),
    .host (seg13 m 𝒱₀ L lv E),
    .region (reg0 m),
    .host (hseg1 m),
    .region (reg1 m) ]

set_option backward.isDefEq.respectTransparency.types false in
/-- THE RUN: every weakly fair execution of @main from memory `m` with zero counters terminates, nothing faulting,
    and every unscoped buffer of every core ends at the fold's value `W17`. -/
theorem run_all : θ_run defs (onTc (τ := τ) (main (F := F))) ⟨m, fun _ => 0, ρ⟩ (fun r => ∀ (c : Dev nD), ∀ b ∈ Pipeline.ucRefs τ sig,
      r.2.mem (((c : Thread nD τ)).1, b) = W17 m c b) :=
  Pipeline.θ_run_regions_kit (pcfgs (F := F)) adm (pdats m) () cellOf_inj emb₁ defs₀ 𝒱₀ L lv m ρ main (segsAll m)
    (fun c Q => by
      rewrite [main_chain c, Pipeline.Seg.run_eq_chain,
        show (segsAll m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          Prog.lift (.customCall (Pipeline.entry 0) ()),
          StableHlo.seq hostOps1,
          Prog.lift (.customCall (Pipeline.entry 1) ()) ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W17_main_arg0 m c),
      (h c _ (mem_uc main_arg1 (by decide))).trans (W17_main_arg1 m c),
      (h c _ (mem_uc main_arg2 (by decide))).trans (W17_main_arg2 m c),
      (h c _ (mem_uc main_arg3 (by decide))).trans (W17_main_arg3 m c),
      (h c _ (mem_uc main_arg4 (by decide))).trans (W17_main_arg4 m c),
      (h c _ (mem_uc main_arg5 (by decide))).trans (W17_main_arg5 m c),
      (h c _ (mem_uc main_arg6 (by decide))).trans (W17_main_arg6 m c),
      (h c _ (mem_uc main_arg7 (by decide))).trans (W17_main_arg7 m c),
      (h c _ (mem_uc main_arg8 (by decide))).trans (W17_main_arg8 m c)⟩) (run_all m ρ)

end Cert.Kernel.Gen

end
-- ==== Proof.KI.Base0.lean ====
/-
  Region 0 of the program, the part every case of its kernel body shares: which grid points take which branch of
  the body's two conditionals (the accumulator is cleared at the first point of each row of the grid and the output
  block is stored at the last), where the output window is idle, the staging and scratch memrefs by name, each
  input window's block at a point read off the array the region finds, and the region's invariant with the
  accumulator scratch as an owned memref.  Everything is stated at a PARAMETER `V`: the buffer contents when the
  region is entered.
-/
import proofs.«120388_j80376017977412_2_alg».proof.Proof.Gen.KernelIdeal.Launch
import proofs.«120388_j80376017977412_2_alg».proof.Proof.Gen.KernelIdeal.Skeleton
import proofs.«120388_j80376017977412_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The body clears the accumulator: the first conditional's test, from the grid coordinates. -/
abbrev cond0_0 (i : grid0.Coords) : Prop := (Scalar.cmpi .ne (Scalar.extui (Scalar.cmpi .eq (BitVec.ofNat 32 (i 1).val) 0#32)) 0#32) = 1#1
/-- It holds at the first point of each row of the grid. -/
theorem hcond0_0 : ∀ t : Fin cfg0.N, cond0_0 (grid0.coords t) ↔ t.val % 11 = 0 :=
  (by decide +kernel : ∀ t : Fin grid0.N, cond0_0 (grid0.coords t) ↔ t.val % 11 = 0)

/-- The body stores the output block: the second conditional's test. -/
abbrev cond0_1 (i : grid0.Coords) : Prop := k0_cond2 i = 1#1
/-- It holds at the last point of each row of the grid. -/
theorem hcond0_1 : ∀ t : Fin cfg0.N, cond0_1 (grid0.coords t) ↔ t.val % 11 = 10 :=
  (by decide +kernel : ∀ t : Fin grid0.N, cond0_1 (grid0.coords t) ↔ t.val % 11 = 10)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the output block is not stored the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it is stored the window is live. -/
theorem liveAt0_5 : ∀ t : Fin cfg0.N, cond0_1 (grid0.coords t) → cfg0.idle 5 (grid0.coords t) = false := by decide +kernel

/-- One staging buffer of the output window, through which its contents are stated. -/
abbrev VO0_5 : View sig .tc .vmem S1x384x2048 .f32 := (Memref.whole cc0_stg5_0 : Memref sig .tc .vmem S1x384x2048 .f32).view
abbrev ms0_0 (t : Fin cfg0.N) : Memref sig .tc .vmem S1x384x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x384x2048 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S384x2048 .f32 := Memref.whole cc0_scratch0
abbrev VS0_0 : View sig .tc .vmem S384x2048 .f32 := scM0_0.view

/-- The core's other scoped buffers — the other region's staging buffers and accumulator — each whole at some
    contents: they ride through this region untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The scoped buffers no window of this region stages: the accumulator and the rest. -/
theorem scoped_out0 (c : Dev nD) :
    (Pipeline.scopedRest (Ix := Unit) (Name := ℕ) (U := UR sig nD τ) (Lvl := ℕ) (Val := Elt F) spec0 c : sProp 𝕄)
      ⊢ iprop((∃ d, owns (c : Thread nD τ) scM0_0 fullShare d) ∗ Rest0 c) := by
  rw [scopedRest0_eq]; unfold Rest0; simp only [scM0_0, owns_whole]; exact .rfl
theorem scoped_in0 (c : Dev nD) :
    iprop((∃ d, owns (c : Thread nD τ) scM0_0 fullShare d) ∗ Rest0 c)
      ⊢ (Pipeline.scopedRest (Ix := Unit) (Name := ℕ) (U := UR sig nD τ) (Lvl := ℕ) (Val := Elt F) spec0 c : sProp 𝕄) := by
  rw [scopedRest0_eq]; unfold Rest0; simp only [scM0_0, owns_whole]; exact .rfl

end Cert.KernelIdeal.Gen

end
-- ==== Proof.KI.Run0A.lean ====
/-
  The kernel body of region 0 run as a whole in the case where the accumulator is cleared first and the output block is not stored (the first point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KI.Base0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) :
    Σ' (L5 : List (View.Piece (Elt F) S1x384x2048 .f32)), { LS0 : List (View.Piece (Elt F) S384x2048 .f32) //
      ∀ (xi5 : Vec F S1x384x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__expert_ffn_kernel i arg2 harg2 arg3 harg3 arg4 harg4 arg5 harg5 arg6 harg6 arg7 harg7 arg8 harg8) K } := by
  refine ⟨[], ?_, fun xi5 E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Gen

end
-- ==== Proof.KI.Run0B.lean ====
/-
  The kernel body of region 0 run as a whole in the case where the accumulator is neither cleared nor is the output block stored (a middle point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KI.Base0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) :
    Σ' (L5 : List (View.Piece (Elt F) S1x384x2048 .f32)), { LS0 : List (View.Piece (Elt F) S384x2048 .f32) //
      ∀ (xi5 : Vec F S1x384x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__expert_ffn_kernel i arg2 harg2 arg3 harg3 arg4 harg4 arg5 harg5 arg6 harg6 arg7 harg7 arg8 harg8) K } := by
  refine ⟨[], ?_, fun xi5 E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Gen

end
-- ==== Proof.KI.Run0C.lean ====
/-
  The kernel body of region 0 run as a whole in the case where the accumulator is not cleared and the output block is stored (the last point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KI.Base0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) :
    Σ' (L5 : List (View.Piece (Elt F) S1x384x2048 .f32)), { LS0 : List (View.Piece (Elt F) S384x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__expert_ffn_kernel i arg2 harg2 arg3 harg3 arg4 harg4 arg5 harg5 arg6 harg6 arg7 harg7 arg8 harg8) K } := by
  refine ⟨?_, ?_, fun E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Gen

end
-- ==== Proof.KI.Region0.lean ====
/-
  Region 0: what its kernel leaves, point by point.  The accumulator scratch is carried from one grid point to
  the next, so its contents after a point are defined by recursion on the point: at the first point of a row of
  the grid the body clears it and adds that point's block product; at every later point it adds the point's block
  product to what the point before left; at the last point of a row the body also stores the output block, computed
  from the accumulator.  From that: the pipeline's proof data (each input window's buffer at its block, the output
  window's at what the last point of the row stored, the invariant holding the accumulator at the recursion's value)
  and the body obligation at every point — a case split on the point's position in its row, each case the body's
  whole run in that case.  All at a parameter `V`, the buffer contents when the region is entered.
-/
import proofs.«120388_j80376017977412_2_alg».proof.Proof.KI.Run0A
import proofs.«120388_j80376017977412_2_alg».proof.Proof.KI.Run0B
import proofs.«120388_j80376017977412_2_alg».proof.Proof.KI.Run0C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the stores into the accumulator cover it. -/
theorem scover0_A_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (y : S384x2048.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S384x2048.size (by sl_kernel_rfl) y

/-- What case A leaves in the accumulator: its stores read back. -/
def sout0_A_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) : Vec F S384x2048 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- What case A leaves in the output window's buffer (it stores nothing there: a placeholder nothing consults). -/
def out0_A_5 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) : Vec F S1x384x2048 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- Case B: the stores into the accumulator cover it. -/
theorem scover0_B_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) (y : S384x2048.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S384x2048.size (by sl_kernel_rfl) y

/-- What case B leaves in the accumulator: its stores read back. -/
def sout0_B_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) : Vec F S384x2048 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- What case B leaves in the output window's buffer (it stores nothing there: a placeholder nothing consults). -/
def out0_B_5 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) : Vec F S1x384x2048 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Case C: the stores into the accumulator cover it. -/
theorem scover0_C_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) (y : S384x2048.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S384x2048.size (by sl_kernel_rfl) y

/-- What case C leaves in the accumulator: its stores read back. -/
def sout0_C_0 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) : Vec F S384x2048 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-- What case C leaves in the output window's buffer. -/
def out0_C_5 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) : Vec F S1x384x2048 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- Case C: the store into the output window's buffer covers it. -/
theorem cover0_C_5 (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i)
    (x0 : Vec F S1x384x2048 .f32) (x1 : Vec F S1x128x2048 .f32) (x2 : Vec F S1x128x2048 .f32) (x3 : Vec F S1x2048x128 .f32) (x4 : Vec F S1x384x1 .f32) (xs0 : Vec F S384x2048 .f32) (y : S1x384x2048.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1x384x2048.size (by sl_kernel_rfl) y

/-- THE ACCUMULATION.  What the output window's buffer and the accumulator hold after the body at position `n`. -/
def outsAt0 (c : Dev nD) : (n : ℕ) → n < cfg0.N → Vec F S1x384x2048 .f32 × Vec F S384x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => absurd (show 0 % 11 = 10 from (hcond0_1 ⟨0, hn⟩).mp h) (by decide)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => absurd (show 0 % 11 = 10 from (hcond0_1 ⟨0, hn⟩).mp h) (by decide)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 11 = 0 then
      if h1 : (n + 1) % 11 = 10 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 11 = 10 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a first point of a row: the clearing case's contents. -/
theorem outsAt0_A (c : Dev nD) (t : Fin cfg0.N) (h0 : t.val % 11 = 0) (h1 : ¬t.val % 11 = 10) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- At a middle point of a row: the adding case's contents, over what the point before left. -/
theorem outsAt0_B (c : Dev nD) (t : Fin cfg0.N) (h0 : ¬t.val % 11 = 0) (h1 : ¬t.val % 11 = 10) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a last point of a row: the storing case's contents, over what the point before left. -/
theorem outsAt0_C (c : Dev nD) (t : Fin cfg0.N) (h0 : ¬t.val % 11 = 0) (h1 : t.val % 11 = 10) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position `n`: before the first point the accumulator holds anything; afterwards what
    the point before left.  Beside it the other scoped buffers and the generator register, untouched. -/
def PhiS0 (c : Dev nD) : (n : ℕ) → n ≤ cfg0.N → sProp 𝕄
  | 0, _ => iprop(iprop((∃ d, owns (c : Thread nD τ) scM0_0 fullShare d) ∗ Rest0 c) ∗ (∃ r, prngReg c r))
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) :
    PhiS0 V c n h = iprop(iprop((∃ d, owns (c : Thread nD τ) scM0_0 fullShare d) ∗ Rest0 c) ∗ (∃ r, prngReg c r)) := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-- The proof data of the region's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: each input's memref holds its block; the point's position in its row says which case it is in;
    the invariant hands the body the accumulator at what the point before left (at anything at the very first point) and
    takes it back at what this point leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 704 := lt_of_lt_of_eq t.isLt (show cfg0.N = 704 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 11 = 0
  · have h1 : ¬t.val % 11 = 10 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold sout0_A_0; (try dsimp only)
    by_cases hz : t.val = 0
    ·
      rw [PhiS0_castSucc V c t, PhiS0_zero V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 11 = 10
    · have hz : t.val ≠ 0 := by omega
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_5 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · have hz : t.val ≠ 0 := by omega
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point, from the scoped buffers no window stages and the generator register. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = PhiS0 V c 0 (Nat.zero_le _) from rfl, PhiS0_zero V c 0 _ rfl]
  iintro ⟨Hp, Hr⟩
  isplitl [Hr]
  · iapply (scoped_out0 c); iexact Hr
  iexact Hp

/-- After the last point the invariant gives the scoped buffers and the generator register back: the accumulator's
    named contents are forgotten. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 704 := N_0; omega)]
  iintro ⟨⟨HS0, HR⟩, Hg⟩
  isplitl [Hg]; · iexact Hg
  iapply (scoped_in0 c)
  isplitl [HS0]
  · iexists _; iexact HS0
  iexact HR

end Cert.KernelIdeal.Gen

end
-- ==== Proof.KI.Base1.lean ====
/-
  Region 1 of the program, the part every case of its kernel body shares: which grid points take which branch of
  the body's two conditionals (the accumulator is cleared at the first point of each row of the grid and the output
  block is stored at the last), where the output window is idle, the staging and scratch memrefs by name, each
  input window's block at a point read off the array the region finds, and the region's invariant with the
  accumulator scratch as an owned memref.  Everything is stated at a PARAMETER `V`: the buffer contents when the
  region is entered.
-/
import proofs.«120388_j80376017977412_2_alg».proof.Proof.Gen.KernelIdeal.Launch
import proofs.«120388_j80376017977412_2_alg».proof.Proof.Gen.KernelIdeal.Skeleton
import proofs.«120388_j80376017977412_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body clears the accumulator: the first conditional's test, from the grid coordinates. -/
abbrev cond1_0 (i : grid1.Coords) : Prop := (Scalar.cmpi .ne (Scalar.extui (Scalar.cmpi .eq (BitVec.ofNat 32 (i 1).val) 0#32)) 0#32) = 1#1
/-- It holds at the first point of each row of the grid. -/
theorem hcond1_0 : ∀ t : Fin cfg1.N, cond1_0 (grid1.coords t) ↔ t.val % 11 = 0 :=
  (by decide +kernel : ∀ t : Fin grid1.N, cond1_0 (grid1.coords t) ↔ t.val % 11 = 0)

/-- The body stores the output block: the second conditional's test. -/
abbrev cond1_1 (i : grid1.Coords) : Prop := k1_cond2 i = 1#1
/-- It holds at the last point of each row of the grid. -/
theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the output block is not stored the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it is stored the window is live. -/
theorem liveAt1_5 : ∀ t : Fin cfg1.N, cond1_1 (grid1.coords t) → cfg1.idle 5 (grid1.coords t) = false := by decide +kernel

/-- One staging buffer of the output window, through which its contents are stated. -/
abbrev VO1_5 : View sig .tc .vmem S256x2048 .f32 := (Memref.whole cc1_stg5_0 : Memref sig .tc .vmem S256x2048 .f32).view
abbrev ms1_0 (t : Fin cfg1.N) : Memref sig .tc .vmem S256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x2048 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from point to point. -/
abbrev scM1_0 : Memref sig .tc .vmem S256x2048 .f32 := Memref.whole cc1_scratch0
abbrev VS1_0 : View sig .tc .vmem S256x2048 .f32 := scM1_0.view

/-- The core's other scoped buffers — the other region's staging buffers and accumulator — each whole at some
    contents: they ride through this region untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The scoped buffers no window of this region stages: the accumulator and the rest. -/
theorem scoped_out1 (c : Dev nD) :
    (Pipeline.scopedRest (Ix := Unit) (Name := ℕ) (U := UR sig nD τ) (Lvl := ℕ) (Val := Elt F) spec1 c : sProp 𝕄)
      ⊢ iprop((∃ d, owns (c : Thread nD τ) scM1_0 fullShare d) ∗ Rest1 c) := by
  rw [scopedRest1_eq]; unfold Rest1; simp only [scM1_0, owns_whole]
  iintro ⟨H0, H1, H2, H3, H4, H5, H6, H7, H8, H9, H10, H11, H12, HS⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12
theorem scoped_in1 (c : Dev nD) :
    iprop((∃ d, owns (c : Thread nD τ) scM1_0 fullShare d) ∗ Rest1 c)
      ⊢ (Pipeline.scopedRest (Ix := Unit) (Name := ℕ) (U := UR sig nD τ) (Lvl := ℕ) (Val := Elt F) spec1 c : sProp 𝕄) := by
  rw [scopedRest1_eq]; unfold Rest1; simp only [scM1_0, owns_whole]
  iintro ⟨HS, H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS

end Cert.KernelIdeal.Gen

end
-- ==== Proof.KI.Run1A.lean ====
/-
  The kernel body of region 1 run as a whole in the case where the accumulator is cleared first and the output block is not stored (the first point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KI.Base1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i)
    (x0 : Vec F S256x2048 .f32) (x1 : Vec F S256x2048 .f32) (x2 : Vec F S256x2048 .f32) (x3 : Vec F S2048x256 .f32) (x4 : Vec F S256x2048 .f32) :
    Σ' (L5 : List (View.Piece (Elt F) S256x2048 .f32)), { LS0 : List (View.Piece (Elt F) S256x2048 .f32) //
      ∀ (xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__shared_ffn_kernel i arg2 harg2 arg3 harg3 arg4 harg4 arg5 harg5 arg6 harg6 arg7 harg7 arg8 harg8) K } := by
  refine ⟨[], ?_, fun xi5 E K => ?run⟩
  case run =>
    simp only [cc1__shared_ffn_kernel_eq_skeleton]; unfold cc1__shared_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Gen

end
-- ==== Proof.KI.Run1B.lean ====
/-
  The kernel body of region 1 run as a whole in the case where the accumulator is neither cleared nor is the output block stored (a middle point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KI.Base1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) :
    Σ' (L5 : List (View.Piece (Elt F) S256x2048 .f32)), { LS0 : List (View.Piece (Elt F) S256x2048 .f32) //
      ∀ (xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__shared_ffn_kernel i arg2 harg2 arg3 harg3 arg4 harg4 arg5 harg5 arg6 harg6 arg7 harg7 arg8 harg8) K } := by
  refine ⟨[], ?_, fun xi5 E K => ?run⟩
  case run =>
    simp only [cc1__shared_ffn_kernel_eq_skeleton]; unfold cc1__shared_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Gen

end
-- ==== Proof.KI.Run1C.lean ====
/-
  The kernel body of region 1 run as a whole in the case where the accumulator is not cleared and the output block is stored (the last point of a row of the grid): on whole staging memrefs, the
  input windows' at their contents, the body runs to the end without a fault, leaves the inputs as they were,
  and leaves in the accumulator (and, where it stores it, in the output window's buffer) the pieces its stores
  wrote, which the run itself finds.
-/
import proofs.«120388_j80376017977412_2_alg».proof.Proof.KI.Base1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) :
    Σ' (L5 : List (View.Piece (Elt F) S256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__shared_ffn_kernel i arg2 harg2 arg3 harg3 arg4 harg4 arg5 harg5 arg6 harg6 arg7 harg7 arg8 harg8) K } := by
  refine ⟨?_, ?_, fun E K => ?run⟩
  case run =>
    simp only [cc1__shared_ffn_kernel_eq_skeleton]; unfold cc1__shared_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Gen

end
-- ==== Proof.KI.Region1.lean ====
/-
  Region 1: what its kernel leaves, point by point.  The accumulator scratch is carried from one grid point to
  the next, so its contents after a point are defined by recursion on the point: at the first point of a row of
  the grid the body clears it and adds that point's block product; at every later point it adds the point's block
  product to what the point before left; at the last point of a row the body also stores the output block, computed
  from the accumulator.  From that: the pipeline's proof data (each input window's buffer at its block, the output
  window's at what the last point of the row stored, the invariant holding the accumulator at the recursion's value)
  and the body obligation at every point — a case split on the point's position in its row, each case the body's
  whole run in that case.  All at a parameter `V`, the buffer contents when the region is entered.
-/
import proofs.«120388_j80376017977412_2_alg».proof.Proof.KI.Run1A
import proofs.«120388_j80376017977412_2_alg».proof.Proof.KI.Run1B
import proofs.«120388_j80376017977412_2_alg».proof.Proof.KI.Run1C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the stores into the accumulator cover it. -/
theorem scover1_A_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i)
    (x0 : Vec F S256x2048 .f32) (x1 : Vec F S256x2048 .f32) (x2 : Vec F S256x2048 .f32) (x3 : Vec F S2048x256 .f32) (x4 : Vec F S256x2048 .f32) (y : S256x2048.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S256x2048.size (by sl_kernel_rfl) y

/-- What case A leaves in the accumulator: its stores read back. -/
def sout1_A_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i)
    (x0 : Vec F S256x2048 .f32) (x1 : Vec F S256x2048 .f32) (x2 : Vec F S256x2048 .f32) (x3 : Vec F S2048x256 .f32) (x4 : Vec F S256x2048 .f32) : Vec F S256x2048 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case A leaves in the output window's buffer (it stores nothing there: a placeholder nothing consults). -/
def out1_A_5 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i)
    (x0 : Vec F S256x2048 .f32) (x1 : Vec F S256x2048 .f32) (x2 : Vec F S256x2048 .f32) (x3 : Vec F S2048x256 .f32) (x4 : Vec F S256x2048 .f32) : Vec F S256x2048 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case B: the stores into the accumulator cover it. -/
theorem scover1_B_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) (y : S256x2048.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S256x2048.size (by sl_kernel_rfl) y

/-- What case B leaves in the accumulator: its stores read back. -/
def sout1_B_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) : Vec F S256x2048 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- What case B leaves in the output window's buffer (it stores nothing there: a placeholder nothing consults). -/
def out1_B_5 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) : Vec F S256x2048 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case C: the stores into the accumulator cover it. -/
theorem scover1_C_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) (y : S256x2048.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S256x2048.size (by sl_kernel_rfl) y

/-- What case C leaves in the accumulator: its stores read back. -/
def sout1_C_0 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) : Vec F S256x2048 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-- What case C leaves in the output window's buffer. -/
def out1_C_5 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) : Vec F S256x2048 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C: the store into the output window's buffer covers it. -/
theorem cover1_C_5 (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i)
    (x0 : Vec F S256x2048 .f32) (x1 : Vec F S256x2048 .f32) (x2 : Vec F S256x2048 .f32) (x3 : Vec F S2048x256 .f32) (x4 : Vec F S256x2048 .f32) (xs0 : Vec F S256x2048 .f32) (y : S256x2048.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S256x2048.size (by sl_kernel_rfl) y

/-- THE ACCUMULATION.  What the output window's buffer and the accumulator hold after the body at position `n`. -/
def outsAt1 (c : Dev nD) : (n : ℕ) → n < cfg1.N → Vec F S256x2048 .f32 × Vec F S256x2048 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => absurd (show 0 % 11 = 10 from (hcond1_1 ⟨0, hn⟩).mp h) (by decide)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => absurd (show 0 % 11 = 10 from (hcond1_1 ⟨0, hn⟩).mp h) (by decide)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 11 = 0 then
      if h1 : (n + 1) % 11 = 10 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 11 = 10 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- At a first point of a row: the clearing case's contents. -/
theorem outsAt1_A (c : Dev nD) (t : Fin cfg1.N) (h0 : t.val % 11 = 0) (h1 : ¬t.val % 11 = 10) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a middle point of a row: the adding case's contents, over what the point before left. -/
theorem outsAt1_B (c : Dev nD) (t : Fin cfg1.N) (h0 : ¬t.val % 11 = 0) (h1 : ¬t.val % 11 = 10) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a last point of a row: the storing case's contents, over what the point before left. -/
theorem outsAt1_C (c : Dev nD) (t : Fin cfg1.N) (h0 : ¬t.val % 11 = 0) (h1 : t.val % 11 = 10) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position `n`: before the first point the accumulator holds anything; afterwards what
    the point before left.  Beside it the other scoped buffers and the generator register, untouched. -/
def PhiS1 (c : Dev nD) : (n : ℕ) → n ≤ cfg1.N → sProp 𝕄
  | 0, _ => iprop(iprop((∃ d, owns (c : Thread nD τ) scM1_0 fullShare d) ∗ Rest1 c) ∗ (∃ r, prngReg c r))
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) :
    PhiS1 V c n h = iprop(iprop((∃ d, owns (c : Thread nD τ) scM1_0 fullShare d) ∗ Rest1 c) ∗ (∃ r, prngReg c r)) := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-- The proof data of the region's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: each input's memref holds its block; the point's position in its row says which case it is in;
    the invariant hands the body the accumulator at what the point before left (at anything at the very first point) and
    takes it back at what this point leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 88 := lt_of_lt_of_eq t.isLt (show cfg1.N = 88 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 11 = 0
  · have h1 : ¬t.val % 11 = 10 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0; (try dsimp only)
    by_cases hz : t.val = 0
    ·
      rw [PhiS1_castSucc V c t, PhiS1_zero V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 11 = 10
    · have hz : t.val ≠ 0 := by omega
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · have hz : t.val ≠ 0 := by omega
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point, from the scoped buffers no window stages and the generator register. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  iintro ⟨Hp, Hr⟩
  isplitl [Hr]
  · iapply (scoped_out1 c); iexact Hr
  iexact Hp

/-- After the last point the invariant gives the scoped buffers and the generator register back: the accumulator's
    named contents are forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 88 := N_1; omega)]
  iintro ⟨⟨HS0, HR⟩, Hg⟩
  isplitl [Hg]; · iexact Hg
  iapply (scoped_in1 c)
  isplitl [HS0]
  · iexists _; iexact HS0
  iexact HR

end Cert.KernelIdeal.Gen

end
-- ==== Proof.KI.RunAll.lean ====
/-
  The whole program as a run: @main is fourteen stretches of host operations, the first kernel region, one more
  stretch, the second kernel region.  Each region is entered from the buffer contents the items before it left
  and leaves its arrays at what its pipeline's write-backs make of them; the accumulator scratch of each kernel
  lives inside its region's invariant.  The result: from any memory with zero counters every weakly fair
  execution terminates, nothing faults, and EVERY unscoped buffer ends at a named value — the fold of the
  host operations and the regions' write-backs over the launch memory.  The arguments end as launched.
-/
import proofs.«120388_j80376017977412_2_alg».proof.Proof.KI.Region0
import proofs.«120388_j80376017977412_2_alg».proof.Proof.KI.Region1
import proofs.«120388_j80376017977412_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's entry contents read at the TensorCore's references. -/
abbrev VE0 : (c : Dev nD) → (b : Ref sig .tc) → Buf (Elt F) ((c : Thread nD τ).loc b) := fun c b => V14 m c b
/-- At region 0's exit: its arrays at what the pipeline leaves, every other buffer as entered. -/
def W15 (c : Dev nD) : Valuation τ sig (Elt F) :=
  Pipeline.withArrays spec0 c (V14 m c) fun w => (dat0 (VE0 m) c).arrAt w cfg0.N
theorem W15_arr (c : Dev nD) (w : Fin cfg0.W) :
    W15 m c (Proc.devRef .tc (Pipeline.arrRef spec0 w)) = (dat0 (VE0 m) c).arrAt w cfg0.N := by
  unfold W15; exact Pipeline.withArrays_arr spec0 launch0.win.arr_inj c _ _ w
theorem W15_of_ne (c : Dev nD) (b : Ref sig .tc) (hb : ∀ w, Pipeline.arrRef spec0 w ≠ b) :
    W15 m c (Proc.devRef .tc b) = V14 m c (Proc.devRef .tc b) := by
  unfold W15; exact Pipeline.withArrays_of_ne spec0 c _ _ b hb
abbrev VX0 : (c : Dev nD) → (b : Ref sig .tc) → Buf (Elt F) ((c : Thread nD τ).loc b) := fun c b => W15 m c b
theorem hF0 (c : Dev nD) (w : Fin cfg0.W) : (dat0 (VE0 m) c).arrAt w cfg0.N = VX0 m c (Pipeline.arrRef spec0 w) :=
  (W15_arr m c w).symm
theorem hrest0 (c : Dev nD) : ∀ b, b ∉ Finset.univ.image (Pipeline.arrRef spec0) → VX0 m c b = VE0 m c b :=
  fun b hb => W15_of_ne m c b fun w e => hb (Finset.mem_image.mpr ⟨w, Finset.mem_univ _, e⟩)

/-- After the host stretch between the regions (region 1's entry). -/
abbrev W16 : Dev nD → Valuation τ sig (Elt F) := fun c => StableHlo.after hostOps1 (W15 m c)
abbrev VE1 : (c : Dev nD) → (b : Ref sig .tc) → Buf (Elt F) ((c : Thread nD τ).loc b) := fun c b => W16 m c b
/-- At region 1's exit. -/
def W17 (c : Dev nD) : Valuation τ sig (Elt F) :=
  Pipeline.withArrays spec1 c (W16 m c) fun w => (dat1 (VE1 m) c).arrAt w cfg1.N
theorem W17_arr (c : Dev nD) (w : Fin cfg1.W) :
    W17 m c (Proc.devRef .tc (Pipeline.arrRef spec1 w)) = (dat1 (VE1 m) c).arrAt w cfg1.N := by
  unfold W17; exact Pipeline.withArrays_arr spec1 launch1.win.arr_inj c _ _ w
theorem W17_of_ne (c : Dev nD) (b : Ref sig .tc) (hb : ∀ w, Pipeline.arrRef spec1 w ≠ b) :
    W17 m c (Proc.devRef .tc b) = W16 m c (Proc.devRef .tc b) := by
  unfold W17; exact Pipeline.withArrays_of_ne spec1 c _ _ b hb
abbrev VX1 : (c : Dev nD) → (b : Ref sig .tc) → Buf (Elt F) ((c : Thread nD τ).loc b) := fun c b => W17 m c b
theorem hF1 (c : Dev nD) (w : Fin cfg1.W) : (dat1 (VE1 m) c).arrAt w cfg1.N = VX1 m c (Pipeline.arrRef spec1 w) :=
  (W17_arr m c w).symm
theorem hrest1 (c : Dev nD) : ∀ b, b ∉ Finset.univ.image (Pipeline.arrRef spec1) → VX1 m c b = VE1 m c b :=
  fun b hb => W17_of_ne m c b fun w e => hb (Finset.mem_image.mpr ⟨w, Finset.mem_univ _, e⟩)

/-! ### The arguments end as launched: no host operation writes one, and a region only reads it -/

theorem V14_main_arg0 (c : Dev nD) : V14 m c (Proc.devRef .tc main_arg0) = m ((c : Thread nD τ).loc main_arg0) :=
  (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem W15_main_arg0 (c : Dev nD) : W15 m c (Proc.devRef .tc main_arg0) = m ((c : Thread nD τ).loc main_arg0) :=
  (W15_of_ne m c main_arg0 (by decide)).trans (V14_main_arg0 m c)
theorem W16_main_arg0 (c : Dev nD) : W16 m c (Proc.devRef .tc main_arg0) = m ((c : Thread nD τ).loc main_arg0) :=
  (StableHlo.after_of_writes_sub hostOps1 _ hostOps1_writes (r := main_arg0) (by decide)).trans (W15_main_arg0 m c)
theorem W17_main_arg0 (c : Dev nD) : W17 m c (Proc.devRef .tc main_arg0) = m ((c : Thread nD τ).loc main_arg0) :=
  ((W17_arr m c 0).trans (((dat1 (VE1 m) c).arrAt_in 0 rfl _).trans (A_eq1 (VE1 m) c 0))).trans (W16_main_arg0 m c)
theorem V14_main_arg1 (c : Dev nD) : V14 m c (Proc.devRef .tc main_arg1) = m ((c : Thread nD τ).loc main_arg1) :=
  (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem W15_main_arg1 (c : Dev nD) : W15 m c (Proc.devRef .tc main_arg1) = m ((c : Thread nD τ).loc main_arg1) :=
  (W15_of_ne m c main_arg1 (by decide)).trans (V14_main_arg1 m c)
theorem W16_main_arg1 (c : Dev nD) : W16 m c (Proc.devRef .tc main_arg1) = m ((c : Thread nD τ).loc main_arg1) :=
  (StableHlo.after_of_writes_sub hostOps1 _ hostOps1_writes (r := main_arg1) (by decide)).trans (W15_main_arg1 m c)
theorem W17_main_arg1 (c : Dev nD) : W17 m c (Proc.devRef .tc main_arg1) = m ((c : Thread nD τ).loc main_arg1) :=
  (W17_of_ne m c main_arg1 (by decide)).trans (W16_main_arg1 m c)
theorem V14_main_arg2 (c : Dev nD) : V14 m c (Proc.devRef .tc main_arg2) = m ((c : Thread nD τ).loc main_arg2) :=
  (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem W15_main_arg2 (c : Dev nD) : W15 m c (Proc.devRef .tc main_arg2) = m ((c : Thread nD τ).loc main_arg2) :=
  (W15_of_ne m c main_arg2 (by decide)).trans (V14_main_arg2 m c)
theorem W16_main_arg2 (c : Dev nD) : W16 m c (Proc.devRef .tc main_arg2) = m ((c : Thread nD τ).loc main_arg2) :=
  (StableHlo.after_of_writes_sub hostOps1 _ hostOps1_writes (r := main_arg2) (by decide)).trans (W15_main_arg2 m c)
theorem W17_main_arg2 (c : Dev nD) : W17 m c (Proc.devRef .tc main_arg2) = m ((c : Thread nD τ).loc main_arg2) :=
  (W17_of_ne m c main_arg2 (by decide)).trans (W16_main_arg2 m c)
theorem V14_main_arg3 (c : Dev nD) : V14 m c (Proc.devRef .tc main_arg3) = m ((c : Thread nD τ).loc main_arg3) :=
  (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem W15_main_arg3 (c : Dev nD) : W15 m c (Proc.devRef .tc main_arg3) = m ((c : Thread nD τ).loc main_arg3) :=
  ((W15_arr m c 1).trans (((dat0 (VE0 m) c).arrAt_in 1 rfl _).trans (A_eq0 (VE0 m) c 1))).trans (V14_main_arg3 m c)
theorem W16_main_arg3 (c : Dev nD) : W16 m c (Proc.devRef .tc main_arg3) = m ((c : Thread nD τ).loc main_arg3) :=
  (StableHlo.after_of_writes_sub hostOps1 _ hostOps1_writes (r := main_arg3) (by decide)).trans (W15_main_arg3 m c)
theorem W17_main_arg3 (c : Dev nD) : W17 m c (Proc.devRef .tc main_arg3) = m ((c : Thread nD τ).loc main_arg3) :=
  (W17_of_ne m c main_arg3 (by decide)).trans (W16_main_arg3 m c)
theorem V14_main_arg4 (c : Dev nD) : V14 m c (Proc.devRef .tc main_arg4) = m ((c : Thread nD τ).loc main_arg4) :=
  (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem W15_main_arg4 (c : Dev nD) : W15 m c (Proc.devRef .tc main_arg4) = m ((c : Thread nD τ).loc main_arg4) :=
  ((W15_arr m c 3).trans (((dat0 (VE0 m) c).arrAt_in 3 rfl _).trans (A_eq0 (VE0 m) c 3))).trans (V14_main_arg4 m c)
theorem W16_main_arg4 (c : Dev nD) : W16 m c (Proc.devRef .tc main_arg4) = m ((c : Thread nD τ).loc main_arg4) :=
  (StableHlo.after_of_writes_sub hostOps1 _ hostOps1_writes (r := main_arg4) (by decide)).trans (W15_main_arg4 m c)
theorem W17_main_arg4 (c : Dev nD) : W17 m c (Proc.devRef .tc main_arg4) = m ((c : Thread nD τ).loc main_arg4) :=
  (W17_of_ne m c main_arg4 (by decide)).trans (W16_main_arg4 m c)
theorem V14_main_arg5 (c : Dev nD) : V14 m c (Proc.devRef .tc main_arg5) = m ((c : Thread nD τ).loc main_arg5) :=
  (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem W15_main_arg5 (c : Dev nD) : W15 m c (Proc.devRef .tc main_arg5) = m ((c : Thread nD τ).loc main_arg5) :=
  ((W15_arr m c 2).trans (((dat0 (VE0 m) c).arrAt_in 2 rfl _).trans (A_eq0 (VE0 m) c 2))).trans (V14_main_arg5 m c)
theorem W16_main_arg5 (c : Dev nD) : W16 m c (Proc.devRef .tc main_arg5) = m ((c : Thread nD τ).loc main_arg5) :=
  (StableHlo.after_of_writes_sub hostOps1 _ hostOps1_writes (r := main_arg5) (by decide)).trans (W15_main_arg5 m c)
theorem W17_main_arg5 (c : Dev nD) : W17 m c (Proc.devRef .tc main_arg5) = m ((c : Thread nD τ).loc main_arg5) :=
  (W17_of_ne m c main_arg5 (by decide)).trans (W16_main_arg5 m c)
theorem V14_main_arg6 (c : Dev nD) : V14 m c (Proc.devRef .tc main_arg6) = m ((c : Thread nD τ).loc main_arg6) :=
  (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem W15_main_arg6 (c : Dev nD) : W15 m c (Proc.devRef .tc main_arg6) = m ((c : Thread nD τ).loc main_arg6) :=
  (W15_of_ne m c main_arg6 (by decide)).trans (V14_main_arg6 m c)
theorem W16_main_arg6 (c : Dev nD) : W16 m c (Proc.devRef .tc main_arg6) = m ((c : Thread nD τ).loc main_arg6) :=
  (StableHlo.after_of_writes_sub hostOps1 _ hostOps1_writes (r := main_arg6) (by decide)).trans (W15_main_arg6 m c)
theorem W17_main_arg6 (c : Dev nD) : W17 m c (Proc.devRef .tc main_arg6) = m ((c : Thread nD τ).loc main_arg6) :=
  ((W17_arr m c 1).trans (((dat1 (VE1 m) c).arrAt_in 1 rfl _).trans (A_eq1 (VE1 m) c 1))).trans (W16_main_arg6 m c)
theorem V14_main_arg7 (c : Dev nD) : V14 m c (Proc.devRef .tc main_arg7) = m ((c : Thread nD τ).loc main_arg7) :=
  (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem W15_main_arg7 (c : Dev nD) : W15 m c (Proc.devRef .tc main_arg7) = m ((c : Thread nD τ).loc main_arg7) :=
  (W15_of_ne m c main_arg7 (by decide)).trans (V14_main_arg7 m c)
theorem W16_main_arg7 (c : Dev nD) : W16 m c (Proc.devRef .tc main_arg7) = m ((c : Thread nD τ).loc main_arg7) :=
  (StableHlo.after_of_writes_sub hostOps1 _ hostOps1_writes (r := main_arg7) (by decide)).trans (W15_main_arg7 m c)
theorem W17_main_arg7 (c : Dev nD) : W17 m c (Proc.devRef .tc main_arg7) = m ((c : Thread nD τ).loc main_arg7) :=
  ((W17_arr m c 3).trans (((dat1 (VE1 m) c).arrAt_in 3 rfl _).trans (A_eq1 (VE1 m) c 3))).trans (W16_main_arg7 m c)
theorem V14_main_arg8 (c : Dev nD) : V14 m c (Proc.devRef .tc main_arg8) = m ((c : Thread nD τ).loc main_arg8) :=
  (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
theorem W15_main_arg8 (c : Dev nD) : W15 m c (Proc.devRef .tc main_arg8) = m ((c : Thread nD τ).loc main_arg8) :=
  (W15_of_ne m c main_arg8 (by decide)).trans (V14_main_arg8 m c)
theorem W16_main_arg8 (c : Dev nD) : W16 m c (Proc.devRef .tc main_arg8) = m ((c : Thread nD τ).loc main_arg8) :=
  (StableHlo.after_of_writes_sub hostOps1 _ hostOps1_writes (r := main_arg8) (by decide)).trans (W15_main_arg8 m c)
theorem W17_main_arg8 (c : Dev nD) : W17 m c (Proc.devRef .tc main_arg8) = m ((c : Thread nD τ).loc main_arg8) :=
  ((W17_arr m c 2).trans (((dat1 (VE1 m) c).arrAt_in 2 rfl _).trans (A_eq1 (VE1 m) c 2))).trans (W16_main_arg8 m c)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W15 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VE0 m) c).Φ 0 from rfl]
    iintro ⟨Hp, -, Hr⟩
    iapply (hin0 (VE0 m) c)
    isplitl [Hp]; · iexact Hp
    iexact Hr
  hout c := by
    rw [Pipeline.ownSems0_none, show (pdats m 0 c).Φ (Fin.last _) = (dat0 (VE0 m) c).Φ (Fin.last cfg0.N) from rfl]
    refine (hout0 (VE0 m) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W16 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VE1 m) c).Φ 0 from rfl]
    iintro ⟨Hp, -, Hr⟩
    iapply (hin1 (VE1 m) c)
    isplitl [Hp]; · iexact Hp
    iexact Hr
  hout c := by
    rw [Pipeline.ownSems0_none, show (pdats m 1 c).Φ (Fin.last _) = (dat1 (VE1 m) c).Φ (Fin.last cfg1.N) from rfl]
    refine (hout1 (VE1 m) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsAll : List (Pipeline.Seg (pcfgs (F := F)) adm (pdats m) () defs₀ 𝒱₀ L lv) :=
  [ .host (seg0 m 𝒱₀ L lv E),
    .host (seg1 m 𝒱₀ L lv E),
    .host (seg2 m 𝒱₀ L lv E),
    .host (seg3 m 𝒱₀ L lv E),
    .host (seg4 m 𝒱₀ L lv E),
    .host (seg5 m 𝒱₀ L lv E),
    .host (seg6 m 𝒱₀ L lv E),
    .host (seg7 m 𝒱₀ L lv E),
    .host (seg8 m 𝒱₀ L lv E),
    .host (seg9 m 𝒱₀ L lv E),
    .host (seg10 m 𝒱₀ L lv E),
    .host (seg11 m 𝒱₀ L lv E),
    .host (seg12 m 𝒱₀ L lv E),
    .host (seg13 m 𝒱₀ L lv E),
    .region (reg0 m),
    .host (hseg1 m),
    .region (reg1 m) ]

set_option backward.isDefEq.respectTransparency.types false in
/-- THE RUN: every weakly fair execution of @main from memory `m` with zero counters terminates, nothing faulting,
    and every unscoped buffer of every core ends at the fold's value `W17`. -/
theorem run_all : θ_run defs (onTc (τ := τ) (main (F := F))) ⟨m, fun _ => 0, ρ⟩ (fun r => ∀ (c : Dev nD), ∀ b ∈ Pipeline.ucRefs τ sig,
      r.2.mem (((c : Thread nD τ)).1, b) = W17 m c b) :=
  Pipeline.θ_run_regions_kit (pcfgs (F := F)) adm (pdats m) () cellOf_inj emb₁ defs₀ 𝒱₀ L lv m ρ main (segsAll m)
    (fun c Q => by
      rewrite [main_chain c, Pipeline.Seg.run_eq_chain,
        show (segsAll m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          Prog.lift (.customCall (Pipeline.entry 0) ()),
          StableHlo.seq hostOps1,
          Prog.lift (.customCall (Pipeline.entry 1) ()) ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W17_main_arg0 m c),
      (h c _ (mem_uc main_arg1 (by decide))).trans (W17_main_arg1 m c),
      (h c _ (mem_uc main_arg2 (by decide))).trans (W17_main_arg2 m c),
      (h c _ (mem_uc main_arg3 (by decide))).trans (W17_main_arg3 m c),
      (h c _ (mem_uc main_arg4 (by decide))).trans (W17_main_arg4 m c),
      (h c _ (mem_uc main_arg5 (by decide))).trans (W17_main_arg5 m c),
      (h c _ (mem_uc main_arg6 (by decide))).trans (W17_main_arg6 m c),
      (h c _ (mem_uc main_arg7 (by decide))).trans (W17_main_arg7 m c),
      (h c _ (mem_uc main_arg8 (by decide))).trans (W17_main_arg8 m c)⟩) (run_all m ρ)

end Cert.KernelIdeal.Gen

end
-- ==== Proof.KI.Acc0.lean ====
/-
  Region 0: the accumulation in closed form.  Each case of the kernel body leaves in the accumulator exactly one
  whole-buffer store, whose payload is the body's block update applied to the blocks the point loads and to what the
  accumulator held (the cleared accumulator at the first point of a row of the grid); the last point of a row also
  stores the output block, computed from the updated accumulator.  So the accumulator after point `n` is the running
  chain of updates along the row, by induction on the point.
-/
import proofs.«120388_j80376017977412_2_alg».proof.Proof.KI.Region0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point of a row: the accumulator ends at the block update of what it held. -/
theorem sout0_B_eq (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : ¬cond0_1 i) (x0 : Vec F S1x384x2048 .f32) (x1 : Vec F S1x128x2048 .f32) (x2 : Vec F S1x128x2048 .f32) (x3 : Vec F S1x2048x128 .f32) (x4 : Vec F S1x384x1 .f32) (xs0 : Vec F S384x2048 .f32) :
    sout0_B_0 c i arg2 harg2 arg3 harg3 arg4 harg4 arg5 harg5 arg6 harg6 arg7 harg7 arg8 harg8 hc0 hc1 x0 x1 x2 x3 x4 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg4.read_unread, harg5.read_unread, harg6.read_unread, harg8.read_unread, View.ld_unit_zero (S := S1x384x2048) hz3, View.ld_unit_zero (S := S1x128x2048) hz3, View.ld_unit_zero (S := S1x2048x128) hz3, View.ld_unit_zero (S := S1x384x1) hz3, View.ld_unit_zero (S := S384x2048) hz2]

/-- The first point of a row: the accumulator ends at the block update of the cleared accumulator. -/
theorem sout0_A_eq (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : cond0_0 i) (hc1 : ¬cond0_1 i) (x0 : Vec F S1x384x2048 .f32) (x1 : Vec F S1x128x2048 .f32) (x2 : Vec F S1x128x2048 .f32) (x3 : Vec F S1x2048x128 .f32) (x4 : Vec F S1x384x1 .f32) :
    sout0_A_0 c i arg2 harg2 arg3 harg3 arg4 harg4 arg5 harg5 arg6 harg6 arg7 harg7 arg8 harg8 hc0 hc1 x0 x1 x2 x3 x4 = k0_pay2 x0 x1 x2 x3 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S384x2048) hz2, View.readCov_unit_zero (S := S384x2048) _ hz2]
  simp only [View.readAt_eq_ld, harg2.read_unread, harg3.read_unread, harg4.read_unread, harg5.read_unread, harg6.read_unread, harg8.read_unread, View.ld_unit_zero (S := S1x384x2048) hz3, View.ld_unit_zero (S := S1x128x2048) hz3, View.ld_unit_zero (S := S1x2048x128) hz3, View.ld_unit_zero (S := S1x384x1) hz3, View.ld_unit_zero (S := S384x2048) hz2]

/-- The last point of a row: the accumulator as at a middle point, -/
theorem sout0_C_eq (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i) (x0 : Vec F S1x384x2048 .f32) (x1 : Vec F S1x128x2048 .f32) (x2 : Vec F S1x128x2048 .f32) (x3 : Vec F S1x2048x128 .f32) (x4 : Vec F S1x384x1 .f32) (xs0 : Vec F S384x2048 .f32) :
    sout0_C_0 c i arg2 harg2 arg3 harg3 arg4 harg4 arg5 harg5 arg6 harg6 arg7 harg7 arg8 harg8 hc0 hc1 x0 x1 x2 x3 x4 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S1x384x2048) hz3, View.ld_unit_zero (S := S1x128x2048) hz3, View.ld_unit_zero (S := S1x2048x128) hz3, View.ld_unit_zero (S := S1x384x1) hz3, View.ld_unit_zero (S := S384x2048) hz2]

/-- and the output block stored from it. -/
theorem out0_C_eq (c : Dev nD) (i : grid0.Coords) (arg2 : Memref sig .tc .vmem S1x384x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x384x1 .f32) (harg6 : arg6.IsWhole) (arg7 : Memref sig .tc .vmem S1x384x2048 .f32) (harg7 : arg7.IsWhole) (arg8 : Memref sig .tc .vmem S384x2048 .f32) (harg8 : arg8.IsWhole) (hc0 : ¬cond0_0 i) (hc1 : cond0_1 i) (x0 : Vec F S1x384x2048 .f32) (x1 : Vec F S1x128x2048 .f32) (x2 : Vec F S1x128x2048 .f32) (x3 : Vec F S1x2048x128 .f32) (x4 : Vec F S1x384x1 .f32) (xs0 : Vec F S384x2048 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 x3 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3, View.readCov_unit_zero (S := S384x2048) _ hz2]
  simp only [View.readAt_eq_ld, harg2.read_unread, harg3.read_unread, harg4.read_unread, harg5.read_unread, harg6.read_unread, harg8.read_unread, View.ld_unit_zero (S := S1x384x2048) hz3, View.ld_unit_zero (S := S1x128x2048) hz3, View.ld_unit_zero (S := S1x2048x128) hz3, View.ld_unit_zero (S := S1x384x1) hz3, View.ld_unit_zero (S := S384x2048) hz2]

variable (V : (c : Dev nD) → (b : Ref sig .tc) → Buf (Elt F) ((c : Thread nD τ).loc b))

/-- The running accumulator after point `n`: restarted from the cleared accumulator at the first point of each row. -/
def acc0 (c : Dev nD) : (n : ℕ) → n < cfg0.N → Vec F S384x2048 .f32
  | 0, h => k0_pay2 (iblk0 V c 0 ⟨0, h⟩) (iblk0 V c 1 ⟨0, h⟩) (iblk0 V c 2 ⟨0, h⟩) (iblk0 V c 3 ⟨0, h⟩) k0_pay1
  | n + 1, h =>
    if (n + 1) % 11 = 0 then k0_pay2 (iblk0 V c 0 ⟨n + 1, h⟩) (iblk0 V c 1 ⟨n + 1, h⟩) (iblk0 V c 2 ⟨n + 1, h⟩) (iblk0 V c 3 ⟨n + 1, h⟩) k0_pay1
    else k0_pay2 (iblk0 V c 0 ⟨n + 1, h⟩) (iblk0 V c 1 ⟨n + 1, h⟩) (iblk0 V c 2 ⟨n + 1, h⟩) (iblk0 V c 3 ⟨n + 1, h⟩) (acc0 c n (Nat.lt_of_succ_lt h))

/-- What the region's proof data say the accumulator holds after point `n` IS the running accumulator. -/
theorem outsAt0_snd (c : Dev nD) : ∀ (n : ℕ) (h : n < cfg0.N), (outsAt0 V c n h).2 = acc0 V c n h
  | 0, h => by
    rw [outsAt0_A V c ⟨0, h⟩ (Nat.zero_mod _) (fun h' => absurd (show 0 % 11 = 10 from h') (by decide))]
    dsimp only
    rw [sout0_A_eq]
    rfl
  | n + 1, h => by
    by_cases h0 : (n + 1) % 11 = 0
    · have h1 : ¬(n + 1) % 11 = 10 := by omega
      rw [outsAt0_A V c ⟨n + 1, h⟩ h0 h1]
      dsimp only
      rw [sout0_A_eq]; unfold acc0; rw [if_pos h0]
    · by_cases h1 : (n + 1) % 11 = 10
      · rw [outsAt0_C V c ⟨n + 1, h⟩ h0 h1]
        dsimp only
        rw [sout0_C_eq]; unfold acc0; rw [if_neg h0]
        exact congrArg (k0_pay2 _ _ _ _) (outsAt0_snd c n (Nat.lt_of_succ_lt h))
      · rw [outsAt0_B V c ⟨n + 1, h⟩ h0 h1]
        dsimp only
        rw [sout0_B_eq]; unfold acc0; rw [if_neg h0]
        exact congrArg (k0_pay2 _ _ _ _) (outsAt0_snd c n (Nat.lt_of_succ_lt h))

/-- At the last point of a row the output window's buffer holds the output block computed from the running accumulator. -/
theorem outsAt0_fst (c : Dev nD) (t : Fin cfg0.N) (h1 : t.val % 11 = 10) :
    (outsAt0 V c t.val t.isLt).1 = k0_pay3 (acc0 V c t.val t.isLt) (iblk0 V c 4 t) := by
  have h0 : ¬t.val % 11 = 0 := by omega
  have e2 := outsAt0_snd V c t.val t.isLt
  rw [outsAt0_C V c t h0 h1] at e2 ⊢
  dsimp only at e2 ⊢
  rw [out0_C_eq]
  rw [sout0_C_eq] at e2
  rw [e2]

end Cert.KernelIdeal.Gen

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.LibFusedUpProjection.lean ====
/-
  Two projections fused into one matrix product: a general lemma.

  A feed-forward block often needs `x · w1ᵀ` and `x · w3ᵀ` for two weight matrices `w1, w3 : [N, K]` of one
  shape.  A kernel may stack the two weight matrices on top of each other into one `[2N, K]` matrix, take ONE
  product `x · [w1; w3]ᵀ : [M, 2N]` into a zero accumulator, and cut the result into its left and right halves.
  At the exact extended reals the left half is `x · w1ᵀ` and the right half is `x · w3ᵀ`, entry by entry: column
  `q` of the fused product is row `q` of the stack, which is row `q` of `w1` when `q < N` and row `q - N` of
  `w3` otherwise.  Generic in `M`, `N`, `K`; the stacked extent is a parameter `N2` with `N2 = N + N`.
-/
import Idealize.ShloMosaic.PureOps.Ideal
import Idealize.ShloMosaic.PureOps.Ideal.Laws
import Idealize.ShloMosaic.Lib.ValueIdx
import Idealize.ShloMosaic.Lib.Pipeline.Value
import proofs.«120388_j80376017977412_2_alg».proof.Proof.LibMatmulNT

noncomputable section

namespace Cert.LibFusedUpProjection

open Idealize.ShloMosaic Idealize.ShloMosaic.ValueIdx

variable {M N N2 K : ℕ}

/-- Row `q < N` of the stack `[w1; w3]` is row `q` of `w1`. -/
theorem stack_top {φ : FTy} (hN2 : N2 = N + N)
    (hcat : Shape.Concatenates [(⟨2, ![N, K]⟩ : Shape), (⟨2, ![N, K]⟩ : Shape)] (⟨2, ![N2, K]⟩ : Shape) 0)
    (w1 w3 : FVec Ideal (⟨2, ![N, K]⟩ : Shape) φ) (q : Fin N) (e : Fin K) :
    concatenate (⟨2, ![N2, K]⟩ : Shape) 0 [⟨(⟨2, ![N, K]⟩ : Shape), w1⟩, ⟨(⟨2, ![N, K]⟩ : Shape), w3⟩] hcat
        (ix2 ⟨q.val, by omega⟩ e) = w1 (ix2 q e) := by
  refine concatenate_pair_apply_left (0 : Fin (⟨2, ![N2, K]⟩ : Shape).rank) w1 w3 hcat _ rfl (ix2 q e) fun b => ?_
  match b with
  | ⟨0, _⟩ => rfl
  | ⟨1, _⟩ => rfl

/-- Row `N + q` of the stack `[w1; w3]` is row `q` of `w3`. -/
theorem stack_bottom {φ : FTy} (hN2 : N2 = N + N)
    (hcat : Shape.Concatenates [(⟨2, ![N, K]⟩ : Shape), (⟨2, ![N, K]⟩ : Shape)] (⟨2, ![N2, K]⟩ : Shape) 0)
    (w1 w3 : FVec Ideal (⟨2, ![N, K]⟩ : Shape) φ) (q : Fin N) (e : Fin K) :
    concatenate (⟨2, ![N2, K]⟩ : Shape) 0 [⟨(⟨2, ![N, K]⟩ : Shape), w1⟩, ⟨(⟨2, ![N, K]⟩ : Shape), w3⟩] hcat
        (ix2 ⟨N + q.val, by omega⟩ e) = w3 (ix2 q e) := by
  refine concatenate_pair_apply_right (0 : Fin (⟨2, ![N2, K]⟩ : Shape).rank) w1 w3 hcat _ rfl rfl (ix2 q e)
    (fun b hb => ?_) ?_
  · match b with
    | ⟨0, _⟩ => exact absurd rfl hb
    | ⟨1, _⟩ => rfl
  · show q.val + N = N + q.val
    omega

variable (wf : DotDims.WF (⟨2, ![M, K]⟩ : Shape) (⟨2, ![N2, K]⟩ : Shape) (⟨2, ![M, N2]⟩ : Shape) [1] [1] [0] [0] [] [])

/-- The LEFT half of the fused product is the product with the first weight matrix: entry `(p, q)` is row `p` of
    `x` against row `q` of `w1`. -/
theorem left_half {φ₁ φ₂ : FTy} (hN2 : N2 = N + N) (prec : Option ContractPrecision)
    (hcat : Shape.Concatenates [(⟨2, ![N, K]⟩ : Shape), (⟨2, ![N, K]⟩ : Shape)] (⟨2, ![N2, K]⟩ : Shape) 0)
    (hsl : (⟨2, ![M, N2]⟩ : Shape).Slices ![0, 0] (⟨2, ![M, N]⟩ : Shape))
    (x : FVec Ideal (⟨2, ![M, K]⟩ : Shape) φ₁) (w1 w3 : FVec Ideal (⟨2, ![N, K]⟩ : Shape) φ₂) (p : Fin M) (q : Fin N) :
    extractStridedSlice (⟨2, ![M, N]⟩ : Shape) ![0, 0]
        (FloatOps.matmul (LibMatmulNT.dims wf) prec x
          (concatenate (⟨2, ![N2, K]⟩ : Shape) 0 [⟨(⟨2, ![N, K]⟩ : Shape), w1⟩, ⟨(⟨2, ![N, K]⟩ : Shape), w3⟩] hcat)
          (constant (F := Ideal) (⟨2, ![M, N2]⟩ : Shape) .f32 0x00000000#32)) hsl (ix2 p q)
      = ∑ e : Fin K, x (ix2 p e) * w1 (ix2 q e) := by
  rw [extractStridedSlice_apply ![0, 0] _ hsl (ix2 p q) (ix2 p ⟨q.val, by omega⟩) (fun a => by
    match a with
    | ⟨0, _⟩ => exact (Nat.zero_add _).symm
    | ⟨1, _⟩ => exact (Nat.zero_add _).symm)]
  rw [LibMatmulNT.matmul_zero_apply wf prec x _ p ⟨q.val, by omega⟩]
  exact Finset.sum_congr rfl fun e _ => by rw [stack_top hN2 hcat w1 w3 q e]

/-- The RIGHT half of the fused product is the product with the second weight matrix: entry `(p, q)` is row `p`
    of `x` against row `q` of `w3`. -/
theorem right_half {φ₁ φ₂ : FTy} (hN2 : N2 = N + N) (prec : Option ContractPrecision)
    (hcat : Shape.Concatenates [(⟨2, ![N, K]⟩ : Shape), (⟨2, ![N, K]⟩ : Shape)] (⟨2, ![N2, K]⟩ : Shape) 0)
    (hsl : (⟨2, ![M, N2]⟩ : Shape).Slices ![0, N] (⟨2, ![M, N]⟩ : Shape))
    (x : FVec Ideal (⟨2, ![M, K]⟩ : Shape) φ₁) (w1 w3 : FVec Ideal (⟨2, ![N, K]⟩ : Shape) φ₂) (p : Fin M) (q : Fin N) :
    extractStridedSlice (⟨2, ![M, N]⟩ : Shape) ![0, N]
        (FloatOps.matmul (LibMatmulNT.dims wf) prec x
          (concatenate (⟨2, ![N2, K]⟩ : Shape) 0 [⟨(⟨2, ![N, K]⟩ : Shape), w1⟩, ⟨(⟨2, ![N, K]⟩ : Shape), w3⟩] hcat)
          (constant (F := Ideal) (⟨2, ![M, N2]⟩ : Shape) .f32 0x00000000#32)) hsl (ix2 p q)
      = ∑ e : Fin K, x (ix2 p e) * w3 (ix2 q e) := by
  rw [extractStridedSlice_apply ![0, N] _ hsl (ix2 p q) (ix2 p ⟨N + q.val, by omega⟩) (fun a => by
    match a with
    | ⟨0, _⟩ => exact (Nat.zero_add _).symm
    | ⟨1, _⟩ => rfl)]
  rw [LibMatmulNT.matmul_zero_apply wf prec x _ p ⟨N + q.val, by omega⟩]
  exact Finset.sum_congr rfl fun e _ => by rw [stack_bottom hN2 hcat w1 w3 q e]

end Cert.LibFusedUpProjection

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.KI.Pay0.lean ====
/-
  The first kernel's block arithmetic read at an index, at the exact extended reals.

  One grid point of the routed-expert kernel holds: the expert's gathered tokens `x0 : [1, 384, 2048]`, a block of
  128 rows of each up-projection `x1, x2 : [1, 128, 2048]`, the matching 128 columns of the down-projection
  `x3 : [1, 2048, 128]`, and the accumulator `s : [384, 2048]`.  The body adds to the accumulator, at `(p, d)`,
  the sum over the block's 128 hidden units `k` of `silu (x0 p · x1 k) * (x0 p · x2 k) * x3 d k`; the cleared
  accumulator is zero; and the stored output block is the accumulator times the token's routing weight.
-/
import proofs.«120388_j80376017977412_2_alg».proof.Proof.Gen.KernelIdeal.Skeleton
import proofs.«120388_j80376017977412_2_alg».proof.Proof.LibMatmulNT
import proofs.«120388_j80376017977412_2_alg».proof.Proof.LibFusedUpProjection
import proofs.«120388_j80376017977412_2_alg».proof.Proof.LibColumnBroadcast
import Idealize.ShloMosaic.Lib.ValueLayout
import Idealize.ShloMosaic.Lib.ValueIdx
import Idealize.ShloMosaic.Lib.Pipeline.Value

noncomputable section

namespace Cert.KernelIdeal.Pay0

open Idealize.ShloMosaic Idealize.ShloMosaic.ValueIdx Cert.KernelIdeal Cert.KernelIdeal.Gen

/-- Row `p` of the tokens against row `k` of a projection block. -/
def dotRow (x0 : Vec Ideal S1x384x2048 .f32) (w : Vec Ideal S1x128x2048 .f32) (p : Fin 384) (k : Fin 128) : EReal :=
  ∑ e : Fin 2048, x0 (ix3 (0 : Fin 1) p e) * w (ix3 (0 : Fin 1) k e)

/-- The gated hidden unit `k` of token `p`: `silu (x0 p · x1 k) * (x0 p · x2 k)`. -/
def hidden (x0 : Vec Ideal S1x384x2048 .f32) (x1 x2 : Vec Ideal S1x128x2048 .f32) (p : Fin 384) (k : Fin 128) : EReal :=
  (dotRow x0 x1 p k * Ideal.logistic (dotRow x0 x1 p k)) * dotRow x0 x2 p k

/-- The cleared accumulator is zero everywhere. -/
theorem pay1_apply (j : S384x2048.Idx) : k0_pay1 (F := Ideal) j = 0 := by
  unfold k0_pay1
  (try dsimp only)
  refine (congrFun (shapeCast_self _ _) j).trans ?_
  exact Ideal.ofBits_zero_f32

/-- One point's update of the accumulator, at `(p, d)`. -/
theorem pay2_apply (x0 : Vec Ideal S1x384x2048 .f32) (x1 x2 : Vec Ideal S1x128x2048 .f32) (x3 : Vec Ideal S1x2048x128 .f32)
    (s : Vec Ideal S384x2048 .f32) (p : Fin 384) (d : Fin 2048) :
    k0_pay2 x0 x1 x2 x3 s (ix2 p d) = s (ix2 p d) + ∑ k : Fin 128, hidden x0 x1 x2 p k * x3 (ix3 (0 : Fin 1) d k) := by
  unfold k0_pay2
  (try dsimp only)
  refine (congrFun (shapeCast_self _ _) (ix2 p d)).trans ?_
  refine congrArg (s (ix2 p d) + ·) ?_
  refine (LibMatmulNT.matmul_zero_apply dot_S384x128_S2048x128_S384x2048_1_1_0_0_n_n_wf none _ _ p d).trans ?_
  refine Finset.sum_congr rfl fun k _ => ?_
  have E17 := (LibFusedUpProjection.left_half (M := 384) (N := 128) (N2 := 256) (K := 2048)
      dot_S384x2048_S256x2048_S384x256_1_1_0_0_n_n_wf rfl none concatenates_S128x2048_S128x2048_S256x2048_d0 slices_S384x256_o0_0_S384x128
      (truncf .bf16 (shapeCast S384x2048 x0 shapeCasts_S1x384x2048_S384x2048) bitsLt_bf16_f32)
      (truncf .bf16 (shapeCast S128x2048 x1 shapeCasts_S1x128x2048_S128x2048) bitsLt_bf16_f32)
      (truncf .bf16 (shapeCast S128x2048 x2 shapeCasts_S1x128x2048_S128x2048) bitsLt_bf16_f32) p k).trans
    (Finset.sum_congr rfl fun e _ => congrArg₂ (· * ·) (shapeCast_1ab_ab_apply x0 _ p e) (shapeCast_1ab_ab_apply x1 _ k e))
  have E18 := (LibFusedUpProjection.right_half (M := 384) (N := 128) (N2 := 256) (K := 2048)
      dot_S384x2048_S256x2048_S384x256_1_1_0_0_n_n_wf rfl none concatenates_S128x2048_S128x2048_S256x2048_d0 slices_S384x256_o0_128_S384x128
      (truncf .bf16 (shapeCast S384x2048 x0 shapeCasts_S1x384x2048_S384x2048) bitsLt_bf16_f32)
      (truncf .bf16 (shapeCast S128x2048 x1 shapeCasts_S1x128x2048_S128x2048) bitsLt_bf16_f32)
      (truncf .bf16 (shapeCast S128x2048 x2 shapeCasts_S1x128x2048_S128x2048) bitsLt_bf16_f32) p k).trans
    (Finset.sum_congr rfl fun e _ => congrArg₂ (· * ·) (shapeCast_1ab_ab_apply x0 _ p e) (shapeCast_1ab_ab_apply x2 _ k e))
  have E3 : shapeCast S2048x128 x3 shapeCasts_S1x2048x128_S2048x128 (ix2 d k) = x3 (ix3 (0 : Fin 1) d k) :=
    shapeCast_1ab_ab_apply x3 _ d k
  exact congrArg₂ (· * ·) (congrArg₂ (· * ·) (congrArg₂ (· * ·) E17 (congrArg Ideal.logistic E17)) E18) E3

/-- The stored output block: the accumulator times the token's routing weight. -/
theorem pay3_apply (s : Vec Ideal S384x2048 .f32) (x4 : Vec Ideal S1x384x1 .f32) (u : Fin 1) (p : Fin 384) (d : Fin 2048) :
    k0_pay3 s x4 (ix3 u p d) = s (ix2 p d) * x4 (ix3 (0 : Fin 1) p (0 : Fin 1)) := by
  unfold k0_pay3
  (try dsimp only)
  refine (shapeCast_ab_1ab_apply _ _ u p d).trans ?_
  refine congrArg (s (ix2 p d) * ·) ?_
  refine (Cert.Layout.broadcastTo_a1_ab_apply _ _ p d).trans ?_
  exact shapeCast_1ab_ab_apply x4 _ p (0 : Fin 1)

end Cert.KernelIdeal.Pay0

end
-- ==== Proof.LibBlockedSum.lean ====
/-
  A sum accumulated block by block: a general lemma.

  A long sum `∑ n < J * b, g n` (the contraction of a matrix product, say) is often computed in `J` consecutive
  blocks of `b` terms: an accumulator is cleared, and block `j` adds its partial sum `∑ k < b, g (j * b + k)` to
  it.  In any commutative additive monoid — the extended reals with their addition among them, where no
  finiteness is needed — the accumulator ends at the whole sum.  Three statements:

    * `sum_blocks`: the whole sum is the sum over the blocks of the blocks' partial sums;
    * `accum_eq_sum`: an accumulator that starts at `0 + blk 0` and adds `blk (n + 1)` at step `n + 1` holds
      `∑ j ≤ n, blk j` after step `n`;
    * `accum_blocks`: the two together, the accumulator after the last of `J` blocks is the whole sum.
-/
import Mathlib.Algebra.BigOperators.Fin
import Mathlib.Algebra.BigOperators.Intervals
import Mathlib.Logic.Equiv.Fin.Basic

namespace Cert.LibBlockedSum

variable {A : Type} [AddCommMonoid A]

/-- Position `k` of block `j` is a position of the whole range. -/
theorem pos_lt {J b : ℕ} (j : Fin J) (k : Fin b) : j.val * b + k.val < J * b :=
  calc j.val * b + k.val < j.val * b + b := Nat.add_lt_add_left k.isLt _
    _ = (j.val + 1) * b := (Nat.succ_mul _ _).symm
    _ ≤ J * b := Nat.mul_le_mul_right _ j.isLt

/-- A sum over `J * b` positions is the sum over the `J` blocks of each block's `b` terms. -/
theorem sum_blocks (J b : ℕ) (g : Fin (J * b) → A) :
    ∑ n : Fin (J * b), g n = ∑ j : Fin J, ∑ k : Fin b, g ⟨j.val * b + k.val, pos_lt j k⟩ := by
  rw [← Equiv.sum_comp finProdFinEquiv g, Fintype.sum_prod_type]
  refine Finset.sum_congr rfl fun j _ => Finset.sum_congr rfl fun k _ => congrArg g (Fin.ext ?_)
  show k.val + b * j.val = j.val * b + k.val
  rw [Nat.mul_comm, Nat.add_comm]

/-- A running total: started at `0 + blk 0`, with `blk (n + 1)` added at step `n + 1`, it holds the sum of the
    first `n + 1` blocks after step `n`. -/
theorem accum_eq_sum (blk acc : ℕ → A) (h0 : acc 0 = 0 + blk 0) (hs : ∀ n, acc (n + 1) = acc n + blk (n + 1)) (n : ℕ) :
    acc n = ∑ j ∈ Finset.range (n + 1), blk j := by
  induction n with
  | zero => rw [h0, zero_add, Finset.sum_range_one]
  | succ n ih => rw [hs n, ih, Finset.sum_range_succ _ (n + 1)]

/-- The same when only the first `J` steps are constrained (a grid of `J` points along the accumulation axis). -/
theorem accum_eq_sum_of_lt {J : ℕ} (blk acc : ℕ → A) (h0 : acc 0 = 0 + blk 0)
    (hs : ∀ n, n + 1 < J → acc (n + 1) = acc n + blk (n + 1)) (n : ℕ) (hn : n < J) :
    acc n = ∑ j ∈ Finset.range (n + 1), blk j := by
  induction n with
  | zero => rw [h0, zero_add, Finset.sum_range_one]
  | succ n ih => rw [hs n hn, ih (Nat.lt_of_succ_lt hn), Finset.sum_range_succ _ (n + 1)]

/-- An accumulator fed the `J` blocks' partial sums of `g`, one block per step, ends at the whole sum of `g`. -/
theorem accum_blocks (J b : ℕ) (g : Fin ((J + 1) * b) → A) (acc : ℕ → A)
    (h0 : acc 0 = 0 + ∑ k : Fin b, g ⟨(0 : Fin (J + 1)).val * b + k.val, pos_lt 0 k⟩)
    (hs : ∀ n (hn : n + 1 < J + 1), acc (n + 1) = acc n + ∑ k : Fin b, g ⟨(⟨n + 1, hn⟩ : Fin (J + 1)).val * b + k.val, pos_lt ⟨n + 1, hn⟩ k⟩) :
    acc J = ∑ n : Fin ((J + 1) * b), g n := by
  let blk : ℕ → A := fun j => if hj : j < J + 1 then ∑ k : Fin b, g ⟨(⟨j, hj⟩ : Fin (J + 1)).val * b + k.val, pos_lt ⟨j, hj⟩ k⟩ else 0
  have hb : ∀ (j : ℕ) (hj : j < J + 1), blk j = ∑ k : Fin b, g ⟨(⟨j, hj⟩ : Fin (J + 1)).val * b + k.val, pos_lt ⟨j, hj⟩ k⟩ :=
    fun j hj => dif_pos hj
  have h := accum_eq_sum_of_lt (J := J + 1) blk acc (by rw [h0, hb 0 (Nat.succ_pos J)]; rfl)
    (fun n hn => by rw [hs n hn, hb (n + 1) hn]) J (Nat.lt_succ_self J)
  rw [h, sum_blocks (J + 1) b g, ← Fin.sum_univ_eq_sum_range blk (J + 1)]
  exact Finset.sum_congr rfl fun j _ => hb j.val j.isLt

end Cert.LibBlockedSum
-- ==== Proof.KI.Val0.lean ====
/-
  Region 0 in closed form: what the routed-expert kernel leaves in its result array, as ONE function of the arrays the
  region finds.  Grid point `t` works on expert `t / 11` and on the block `t % 11` of 128 hidden units; the blocks
  the point loads are the corresponding pieces of the whole arrays; so the running accumulator after the point is
  the sum, over the blocks `j ≤ t % 11` and the block's units `k`, of `hidden (e, p, 128 j + k) * W2 (e, d, 128 j + k)`,
  by induction on the point; the last point of a row stores that sum over all 1408 units times the routing weight;
  and those stored blocks tile the result array.
-/
import proofs.«120388_j80376017977412_2_alg».proof.Proof.KI.Acc0
import proofs.«120388_j80376017977412_2_alg».proof.Proof.KI.Pay0
import proofs.«120388_j80376017977412_2_alg».proof.Proof.LibBlockedSum
import Idealize.ShloMosaic.Lib.Pipeline.Value
import Idealize.ShloMosaic.Lib.ValueIdx

set_option maxRecDepth 16384

noncomputable section

namespace Cert.KernelIdeal.Val0

open Idealize.ShloMosaic Idealize.ShloMosaic.TcCoe Idealize.ShloMosaic.ValueIdx Idealize.SL.Sem
open Idealize.ShloMosaic.Pipeline (Dat)
open Cert.KernelIdeal Cert.KernelIdeal.Gen

/-! ## The specification: whole-array functions -/

/-- Token `p` of expert `e` against row `n` of that expert's projection. -/
def dotAll (X : FVec Ideal S64x384x2048 .f32) (W : FVec Ideal S64x1408x2048 .f32) (e : Fin 64) (p : Fin 384) (n : Fin 1408) : EReal :=
  ∑ q : Fin 2048, X (ix3 e p q) * W (ix3 e n q)

/-- The gated hidden unit `n` of token `p` of expert `e`. -/
def hid (X : FVec Ideal S64x384x2048 .f32) (W1 W3 : FVec Ideal S64x1408x2048 .f32) (e : Fin 64) (p : Fin 384) (n : Fin 1408) : EReal :=
  (dotAll X W1 e p n * Ideal.logistic (dotAll X W1 e p n)) * dotAll X W3 e p n

/-- Term `n` of the down-projection sum, the expert and the unit given as natural numbers (zero out of range). -/
def term (X : FVec Ideal S64x384x2048 .f32) (W1 W3 : FVec Ideal S64x1408x2048 .f32) (W2 : FVec Ideal S64x2048x1408 .f32)
    (e : ℕ) (p : Fin 384) (d : Fin 2048) (n : ℕ) : EReal :=
  if h : e < 64 ∧ n < 1408 then hid X W1 W3 ⟨e, h.1⟩ p ⟨n, h.2⟩ * W2 (ix3 ⟨e, h.1⟩ d ⟨n, h.2⟩) else 0

/-- The routed experts' weighted rows: entry `(e, p, d)`. -/
def rows (X : FVec Ideal S64x384x2048 .f32) (W1 W3 : FVec Ideal S64x1408x2048 .f32) (W2 : FVec Ideal S64x2048x1408 .f32)
    (WG : FVec Ideal S64x384x1 .f32) (e : Fin 64) (p : Fin 384) (d : Fin 2048) : EReal :=
  (∑ n : Fin 1408, hid X W1 W3 e p n * W2 (ix3 e d n)) * WG (ix3 e p (0 : Fin 1))

/-- The result array of the region as one function. -/
def G0 (X : FVec Ideal S64x384x2048 .f32) (W1 W3 : FVec Ideal S64x1408x2048 .f32) (W2 : FVec Ideal S64x2048x1408 .f32)
    (WG : FVec Ideal S64x384x1 .f32) : FVec Ideal S64x384x2048 .f32 := fun i => rows X W1 W3 W2 WG (i 0) (i 1) (i 2)

variable (V : (c : Dev nD) → (b : Ref sig .tc) → Buf (Elt Ideal) ((c : Thread nD τ).loc b))

/-! ## The printed index maps, decided over the grid -/

theorem idx_facts : ∀ t : Fin cfg0.N,
    win0_0.index t (0 : Fin 3) = t.val / 11 ∧ win0_0.index t (1 : Fin 3) = 0 ∧ win0_0.index t (2 : Fin 3) = 0
    ∧ win0_1.index t (0 : Fin 3) = t.val / 11 ∧ win0_1.index t (1 : Fin 3) = t.val % 11 ∧ win0_1.index t (2 : Fin 3) = 0
    ∧ win0_2.index t (0 : Fin 3) = t.val / 11 ∧ win0_2.index t (1 : Fin 3) = t.val % 11 ∧ win0_2.index t (2 : Fin 3) = 0
    ∧ win0_3.index t (0 : Fin 3) = t.val / 11 ∧ win0_3.index t (1 : Fin 3) = 0 ∧ win0_3.index t (2 : Fin 3) = t.val % 11
    ∧ win0_4.index t (0 : Fin 3) = t.val / 11 ∧ win0_4.index t (1 : Fin 3) = 0 ∧ win0_4.index t (2 : Fin 3) = 0
    ∧ win0_5.index t (0 : Fin 3) = t.val / 11 ∧ win0_5.index t (1 : Fin 3) = 0 ∧ win0_5.index t (2 : Fin 3) = 0 :=
  (by decide +kernel : ∀ t : Fin grid0.N, _)

theorem tN (t : Fin cfg0.N) : t.val < 704 := lt_of_lt_of_eq t.isLt (show cfg0.N = 704 from N_0)

/-- The expert a point works on, and the hidden unit `k` of its block. -/
def eOf (t : Fin cfg0.N) : Fin 64 := ⟨t.val / 11, by have := tN t; omega⟩
def nOf (t : Fin cfg0.N) (k : Fin 128) : Fin 1408 := ⟨t.val % 11 * 128 + k.val, by have := k.isLt; have := Nat.mod_lt t.val (show 0 < 11 by decide); omega⟩

/-! ## The blocks a point loads are pieces of the whole arrays -/

theorem blk0 (c : Dev nD) (t : Fin cfg0.N) (u : Fin 1) (p : Fin 384) (q : Fin 2048) :
    (iblk0 V c 0 t : Vec Ideal S1x384x2048 .f32) (ix3 u p q) = (V c main_v67 : FVec Ideal S64x384x2048 .f32) (ix3 (eOf t) p q) := by
  obtain ⟨e0, e1, e2, -⟩ := idx_facts t
  unfold iblk0
  rw [View.read_apply]
  show V c main_v67 _ = V c main_v67 _
  congr 1
  funext a
  apply Fin.ext
  match a with
  | ⟨0, _⟩ => show win0_0.index t (0 : Fin 3) * 1 + 1 * u.val = t.val / 11; have := u.isLt; omega
  | ⟨1, _⟩ => show win0_0.index t (1 : Fin 3) * 384 + 1 * p.val = p.val; omega
  | ⟨2, _⟩ => show win0_0.index t (2 : Fin 3) * 2048 + 1 * q.val = q.val; omega

theorem blk1 (c : Dev nD) (t : Fin cfg0.N) (u : Fin 1) (k : Fin 128) (q : Fin 2048) :
    (iblk0 V c 1 t : Vec Ideal S1x128x2048 .f32) (ix3 u k q) = (V c main_arg3 : FVec Ideal S64x1408x2048 .f32) (ix3 (eOf t) (nOf t k) q) := by
  obtain ⟨-, -, -, e0, e1, e2, -⟩ := idx_facts t
  unfold iblk0
  rw [View.read_apply]
  show V c main_arg3 _ = V c main_arg3 _
  congr 1
  funext a
  apply Fin.ext
  match a with
  | ⟨0, _⟩ => show win0_1.index t (0 : Fin 3) * 1 + 1 * u.val = t.val / 11; have := u.isLt; omega
  | ⟨1, _⟩ => show win0_1.index t (1 : Fin 3) * 128 + 1 * k.val = t.val % 11 * 128 + k.val; omega
  | ⟨2, _⟩ => show win0_1.index t (2 : Fin 3) * 2048 + 1 * q.val = q.val; omega

theorem blk2 (c : Dev nD) (t : Fin cfg0.N) (u : Fin 1) (k : Fin 128) (q : Fin 2048) :
    (iblk0 V c 2 t : Vec Ideal S1x128x2048 .f32) (ix3 u k q) = (V c main_arg5 : FVec Ideal S64x1408x2048 .f32) (ix3 (eOf t) (nOf t k) q) := by
  obtain ⟨-, -, -, -, -, -, e0, e1, e2, -⟩ := idx_facts t
  unfold iblk0
  rw [View.read_apply]
  show V c main_arg5 _ = V c main_arg5 _
  congr 1
  funext a
  apply Fin.ext
  match a with
  | ⟨0, _⟩ => show win0_2.index t (0 : Fin 3) * 1 + 1 * u.val = t.val / 11; have := u.isLt; omega
  | ⟨1, _⟩ => show win0_2.index t (1 : Fin 3) * 128 + 1 * k.val = t.val % 11 * 128 + k.val; omega
  | ⟨2, _⟩ => show win0_2.index t (2 : Fin 3) * 2048 + 1 * q.val = q.val; omega

theorem blk3 (c : Dev nD) (t : Fin cfg0.N) (u : Fin 1) (d : Fin 2048) (k : Fin 128) :
    (iblk0 V c 3 t : Vec Ideal S1x2048x128 .f32) (ix3 u d k) = (V c main_arg4 : FVec Ideal S64x2048x1408 .f32) (ix3 (eOf t) d (nOf t k)) := by
  obtain ⟨-, -, -, -, -, -, -, -, -, e0, e1, e2, -⟩ := idx_facts t
  unfold iblk0
  rw [View.read_apply]
  show V c main_arg4 _ = V c main_arg4 _
  congr 1
  funext a
  apply Fin.ext
  match a with
  | ⟨0, _⟩ => show win0_3.index t (0 : Fin 3) * 1 + 1 * u.val = t.val / 11; have := u.isLt; omega
  | ⟨1, _⟩ => show win0_3.index t (1 : Fin 3) * 2048 + 1 * d.val = d.val; omega
  | ⟨2, _⟩ => show win0_3.index t (2 : Fin 3) * 128 + 1 * k.val = t.val % 11 * 128 + k.val; omega

theorem blk4 (c : Dev nD) (t : Fin cfg0.N) (u : Fin 1) (p : Fin 384) (z : Fin 1) :
    (iblk0 V c 4 t : Vec Ideal S1x384x1 .f32) (ix3 u p z) = (V c main_v78 : FVec Ideal S64x384x1 .f32) (ix3 (eOf t) p (0 : Fin 1)) := by
  obtain ⟨-, -, -, -, -, -, -, -, -, -, -, -, e0, e1, e2, -⟩ := idx_facts t
  unfold iblk0
  rw [View.read_apply]
  show V c main_v78 _ = V c main_v78 _
  congr 1
  funext a
  apply Fin.ext
  match a with
  | ⟨0, _⟩ => show win0_4.index t (0 : Fin 3) * 1 + 1 * u.val = t.val / 11; have := u.isLt; omega
  | ⟨1, _⟩ => show win0_4.index t (1 : Fin 3) * 384 + 1 * p.val = p.val; omega
  | ⟨2, _⟩ => show win0_4.index t (2 : Fin 3) * 1 + 1 * z.val = 0; have := z.isLt; omega

/-! ## One point's contribution -/

theorem dotRow1 (c : Dev nD) (t : Fin cfg0.N) (p : Fin 384) (k : Fin 128) :
    Pay0.dotRow (iblk0 V c 0 t) (iblk0 V c 1 t) p k = dotAll (V c main_v67) (V c main_arg3) (eOf t) p (nOf t k) :=
  Finset.sum_congr rfl fun q _ => congrArg₂ (· * ·) (blk0 V c t 0 p q) (blk1 V c t 0 k q)

theorem dotRow3 (c : Dev nD) (t : Fin cfg0.N) (p : Fin 384) (k : Fin 128) :
    Pay0.dotRow (iblk0 V c 0 t) (iblk0 V c 2 t) p k = dotAll (V c main_v67) (V c main_arg5) (eOf t) p (nOf t k) :=
  Finset.sum_congr rfl fun q _ => congrArg₂ (· * ·) (blk0 V c t 0 p q) (blk2 V c t 0 k q)

/-- The sum a point adds at `(p, d)`: the terms of its expert over its block of hidden units. -/
theorem point_sum (c : Dev nD) (t : Fin cfg0.N) (p : Fin 384) (d : Fin 2048) :
    ∑ k : Fin 128, Pay0.hidden (iblk0 V c 0 t) (iblk0 V c 1 t) (iblk0 V c 2 t) p k * (iblk0 V c 3 t : Vec Ideal S1x2048x128 .f32) (ix3 (0 : Fin 1) d k)
      = ∑ k : Fin 128, term (V c main_v67) (V c main_arg3) (V c main_arg5) (V c main_arg4) (t.val / 11) p d (t.val % 11 * 128 + k.val) := by
  refine Finset.sum_congr rfl fun k _ => ?_
  have hb : t.val / 11 < 64 ∧ t.val % 11 * 128 + k.val < 1408 := ⟨(eOf t).isLt, (nOf t k).isLt⟩
  unfold term
  rw [dif_pos hb]
  unfold Pay0.hidden hid
  rw [dotRow1, dotRow3, blk3]
  rfl

/-! ## The running accumulator in closed form -/

abbrev T (c : Dev nD) := term (V c main_v67) (V c main_arg3) (V c main_arg5) (V c main_arg4)

theorem acc0_apply (c : Dev nD) : ∀ (n : ℕ) (h : n < cfg0.N) (p : Fin 384) (d : Fin 2048),
    acc0 V c n h (ix2 p d) = ∑ j ∈ Finset.range (n % 11 + 1), ∑ k : Fin 128, T V c (n / 11) p d (j * 128 + k.val)
  | 0, h, p, d => by
    have e : acc0 V c 0 h = k0_pay2 (iblk0 V c 0 ⟨0, h⟩) (iblk0 V c 1 ⟨0, h⟩) (iblk0 V c 2 ⟨0, h⟩) (iblk0 V c 3 ⟨0, h⟩) (k0_pay1 (F := Ideal)) := rfl
    rw [e, Pay0.pay2_apply, Pay0.pay1_apply, zero_add, point_sum V c ⟨0, h⟩ p d]
    show _ = ∑ j ∈ Finset.range 1, _
    rw [Finset.sum_range_one]
    rfl
  | n + 1, h, p, d => by
    by_cases h0 : (n + 1) % 11 = 0
    · have e : acc0 V c (n + 1) h = k0_pay2 (iblk0 V c 0 ⟨n + 1, h⟩) (iblk0 V c 1 ⟨n + 1, h⟩) (iblk0 V c 2 ⟨n + 1, h⟩) (iblk0 V c 3 ⟨n + 1, h⟩) (k0_pay1 (F := Ideal)) := by
        show (if (n + 1) % 11 = 0 then _ else _) = _
        rw [if_pos h0]
      rw [e, Pay0.pay2_apply, Pay0.pay1_apply, zero_add, point_sum V c ⟨n + 1, h⟩ p d, h0, Finset.sum_range_one]
    · have e : acc0 V c (n + 1) h = k0_pay2 (iblk0 V c 0 ⟨n + 1, h⟩) (iblk0 V c 1 ⟨n + 1, h⟩) (iblk0 V c 2 ⟨n + 1, h⟩) (iblk0 V c 3 ⟨n + 1, h⟩) (acc0 V c n (Nat.lt_of_succ_lt h)) := by
        show (if (n + 1) % 11 = 0 then _ else _) = _
        rw [if_neg h0]
      have hd : (n + 1) / 11 = n / 11 := by omega
      have hm : (n + 1) % 11 = n % 11 + 1 := by omega
      rw [e, Pay0.pay2_apply, acc0_apply c n (Nat.lt_of_succ_lt h) p d, point_sum V c ⟨n + 1, h⟩ p d]
      show _ + ∑ k : Fin 128, T V c ((n + 1) / 11) p d ((n + 1) % 11 * 128 + k.val) = _
      rw [hd, hm, Finset.sum_range_succ _ (n % 11 + 1)]

/-- Over a whole row of the grid the accumulated sum is the sum over all 1408 hidden units. -/
theorem row_sum (c : Dev nD) (e : Fin 64) (p : Fin 384) (d : Fin 2048) :
    ∑ j ∈ Finset.range (10 + 1), ∑ k : Fin 128, T V c e.val p d (j * 128 + k.val)
      = ∑ n : Fin 1408, hid (V c main_v67) (V c main_arg3) (V c main_arg5) e p n * (V c main_arg4 : FVec Ideal S64x2048x1408 .f32) (ix3 e d n) := by
  have hs := LibBlockedSum.sum_blocks 11 128 (fun n : Fin (11 * 128) => T V c e.val p d n.val)
  rw [← Fin.sum_univ_eq_sum_range (fun j => ∑ k : Fin 128, T V c e.val p d (j * 128 + k.val)) 11]
  refine hs.symm.trans ?_
  refine Finset.sum_congr rfl fun n _ => ?_
  show term _ _ _ _ e.val p d n.val = _
  unfold term
  rw [dif_pos ⟨e.isLt, n.isLt⟩]

/-! ## What the last point of a row writes back, the cover, and the array -/

theorem flushed_eq (c : Dev nD) (t : Fin cfg0.N) (hf : (cfg0.win 5).flush t = true) :
    (dat0 V c).flushed 5 t = ((cfg0.win 5).blk t).view.read (Elt Ideal)
      (G0 (V c main_v67) (V c main_arg3) (V c main_arg5) (V c main_arg4) (V c main_v78)) := by
  have h1 : t.val % 11 = 10 := (flush0_5 t).mp hf
  obtain ⟨-, -, -, -, -, -, -, -, -, -, -, -, -, -, -, e0, e1, e2⟩ := idx_facts t
  show (cfg0.win 5).cut (grid0.coords t) ((dat0 V c).after 5 t) = _
  rw [after0_5, outsAt0_fst V c t h1]
  funext j
  obtain ⟨u, p, d, rfl⟩ : ∃ (u : Fin 1) (p : Fin 384) (d : Fin 2048), j = ix3 u p d := ⟨j 0, j 1, j 2, eq_ix3 j⟩
  have hemb : ((cfg0.win 5).blk t).view.emb (ix3 u p d) = (ix3 (eOf t) p d : S64x384x2048.Idx) := by
    funext a
    apply Fin.ext
    match a with
    | ⟨0, _⟩ => show win0_5.index t (0 : Fin 3) * 1 + 1 * u.val = t.val / 11; have := u.isLt; omega
    | ⟨1, _⟩ => show win0_5.index t (1 : Fin 3) * 384 + 1 * p.val = p.val; omega
    | ⟨2, _⟩ => show win0_5.index t (2 : Fin 3) * 2048 + 1 * d.val = d.val; omega
  show k0_pay3 (acc0 V c t.val t.isLt) (iblk0 V c 4 t) (ix3 u p d) = G0 _ _ _ _ _ (((cfg0.win 5).blk t).view.emb (ix3 u p d))
  rw [hemb, Pay0.pay3_apply, acc0_apply V c t.val t.isLt p d, blk4 V c t 0 p 0, h1]
  show _ = rows _ _ _ _ _ (eOf t) p d
  unfold rows
  rw [← row_sum V c (eOf t) p d]
  rfl

theorem mem_blk (t : Fin cfg0.N) (i : S64x384x2048.Idx) :
    i ∈ ((cfg0.win 5).blk t).view.set ↔ ∀ a : Fin 3, win0_5.index t a * S1x384x2048.size a ≤ (i a).val ∧ (i a).val < win0_5.index t a * S1x384x2048.size a + S1x384x2048.size a := by
  show i ∈ ((View.whole main_v79).slice (win0_5.rect t)).set ↔ _
  rw [View.set_slice_whole, Rect.mem_set_unit]
  exact Iff.rfl

/-- Every index of the result array lies in the block the last point of its expert's row writes back. -/
theorem cover (i : S64x384x2048.Idx) : ∃ t : Fin cfg0.N, (cfg0.win 5).flush t = true ∧ i ∈ ((cfg0.win 5).blk t).view.set := by
  have hi0 : (i 0).val < 64 := (i 0).isLt
  have hi1 : (i 1).val < 384 := (i 1).isLt
  have hi2 : (i 2).val < 2048 := (i 2).isLt
  let t : Fin cfg0.N := ⟨(i 0).val * 11 + 10, by rw [show cfg0.N = 704 from N_0]; omega⟩
  have htv : t.val = (i 0).val * 11 + 10 := rfl
  obtain ⟨-, -, -, -, -, -, -, -, -, -, -, -, -, -, -, e0, e1, e2⟩ := idx_facts t
  refine ⟨t, (flush0_5 t).mpr (by rw [htv]; omega), ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 384 ≤ (i 1).val ∧ (i 1).val < win0_5.index t (1 : Fin 3) * 384 + 384; omega
  | ⟨2, _⟩ => show win0_5.index t (2 : Fin 3) * 2048 ≤ (i 2).val ∧ (i 2).val < win0_5.index t (2 : Fin 3) * 2048 + 2048; omega

/-- THE ARRAY after the region: the routed experts' weighted rows of the arrays the region finds. -/
theorem final (c : Dev nD) : (dat0 V c).arrAt 5 cfg0.N = G0 (V c main_v67) (V c main_arg3) (V c main_arg5) (V c main_arg4) (V c main_v78) :=
  (dat0 V c).arrAt_eq_of_cover 5 _ (fun t hf => flushed_eq V c t hf) cover

end Cert.KernelIdeal.Val0

end
-- ==== Proof.KI.Acc1.lean ====
/-
  Region 1: the accumulation in closed form.  Each case of the kernel body leaves in the accumulator exactly one
  whole-buffer store, whose payload is the body's block update applied to the blocks the point loads and to what the
  accumulator held (the cleared accumulator at the first point of a row of the grid); the last point of a row also
  stores the output block, computed from the updated accumulator.  So the accumulator after point `n` is the running
  chain of updates along the row, by induction on the point.
-/
import proofs.«120388_j80376017977412_2_alg».proof.Proof.KI.Region1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point of a row: the accumulator ends at the block update of what it held. -/
theorem sout1_B_eq (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : ¬cond1_1 i) (x0 : Vec F S256x2048 .f32) (x1 : Vec F S256x2048 .f32) (x2 : Vec F S256x2048 .f32) (x3 : Vec F S2048x256 .f32) (x4 : Vec F S256x2048 .f32) (xs0 : Vec F S256x2048 .f32) :
    sout1_B_0 c i arg2 harg2 arg3 harg3 arg4 harg4 arg5 harg5 arg6 harg6 arg7 harg7 arg8 harg8 hc0 hc1 x0 x1 x2 x3 x4 xs0 = k1_pay2 x0 x1 x2 x3 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  rw [View.canon_unit_zero hz2]
  simp only [View.readAt_eq_ld, harg2.read_unread, harg3.read_unread, harg4.read_unread, harg5.read_unread, harg6.read_unread, harg8.read_unread, View.ld_unit_zero (S := S256x2048) hz2, View.ld_unit_zero (S := S2048x256) hz2]

/-- The first point of a row: the accumulator ends at the block update of the cleared accumulator. -/
theorem sout1_A_eq (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : cond1_0 i) (hc1 : ¬cond1_1 i) (x0 : Vec F S256x2048 .f32) (x1 : Vec F S256x2048 .f32) (x2 : Vec F S256x2048 .f32) (x3 : Vec F S2048x256 .f32) (x4 : Vec F S256x2048 .f32) :
    sout1_A_0 c i arg2 harg2 arg3 harg3 arg4 harg4 arg5 harg5 arg6 harg6 arg7 harg7 arg8 harg8 hc0 hc1 x0 x1 x2 x3 x4 = k1_pay2 x0 x1 x2 x3 k1_pay1 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread, harg6.read_unread, harg8.read_unread, View.ld_unit_zero (S := S256x2048) hz2, View.ld_unit_zero (S := S2048x256) hz2]

/-- The last point of a row: the accumulator as at a middle point, -/
theorem sout1_C_eq (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i) (x0 : Vec F S256x2048 .f32) (x1 : Vec F S256x2048 .f32) (x2 : Vec F S256x2048 .f32) (x3 : Vec F S2048x256 .f32) (x4 : Vec F S256x2048 .f32) (xs0 : Vec F S256x2048 .f32) :
    sout1_C_0 c i arg2 harg2 arg3 harg3 arg4 harg4 arg5 harg5 arg6 harg6 arg7 harg7 arg8 harg8 hc0 hc1 x0 x1 x2 x3 x4 xs0 = k1_pay2 x0 x1 x2 x3 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2]
  simp only [View.readAt_eq_ld, harg2.read_unread, harg3.read_unread, harg4.read_unread, harg5.read_unread, harg6.read_unread, harg8.read_unread, View.ld_unit_zero (S := S256x2048) hz2, View.ld_unit_zero (S := S2048x256) hz2]

/-- and the output block stored from it. -/
theorem out1_C_eq (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (hc0 : ¬cond1_0 i) (hc1 : cond1_1 i) (x0 : Vec F S256x2048 .f32) (x1 : Vec F S256x2048 .f32) (x2 : Vec F S256x2048 .f32) (x3 : Vec F S2048x256 .f32) (x4 : Vec F S256x2048 .f32) (xs0 : Vec F S256x2048 .f32) :
    out1_C_5 c i arg2 harg2 arg3 harg3 arg4 harg4 arg5 harg5 arg6 harg6 arg7 harg7 arg8 harg8 hc0 hc1 x0 x1 x2 x3 x4 xs0 = k1_pay3 (k1_pay2 x0 x1 x2 x3 xs0) x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2, View.readCov_unit_zero (S := S256x2048) _ hz2]
  simp only [View.readAt_eq_ld, harg2.read_unread, harg3.read_unread, harg4.read_unread, harg5.read_unread, harg6.read_unread, harg8.read_unread, View.ld_unit_zero (S := S256x2048) hz2, View.ld_unit_zero (S := S2048x256) hz2]

variable (V : (c : Dev nD) → (b : Ref sig .tc) → Buf (Elt F) ((c : Thread nD τ).loc b))

/-- The running accumulator after point `n`: restarted from the cleared accumulator at the first point of each row. -/
def acc1 (c : Dev nD) : (n : ℕ) → n < cfg1.N → Vec F S256x2048 .f32
  | 0, h => k1_pay2 (iblk1 V c 0 ⟨0, h⟩) (iblk1 V c 1 ⟨0, h⟩) (iblk1 V c 2 ⟨0, h⟩) (iblk1 V c 3 ⟨0, h⟩) k1_pay1
  | n + 1, h =>
    if (n + 1) % 11 = 0 then k1_pay2 (iblk1 V c 0 ⟨n + 1, h⟩) (iblk1 V c 1 ⟨n + 1, h⟩) (iblk1 V c 2 ⟨n + 1, h⟩) (iblk1 V c 3 ⟨n + 1, h⟩) k1_pay1
    else k1_pay2 (iblk1 V c 0 ⟨n + 1, h⟩) (iblk1 V c 1 ⟨n + 1, h⟩) (iblk1 V c 2 ⟨n + 1, h⟩) (iblk1 V c 3 ⟨n + 1, h⟩) (acc1 c n (Nat.lt_of_succ_lt h))

/-- What the region's proof data say the accumulator holds after point `n` IS the running accumulator. -/
theorem outsAt1_snd (c : Dev nD) : ∀ (n : ℕ) (h : n < cfg1.N), (outsAt1 V c n h).2 = acc1 V c n h
  | 0, h => by
    rw [outsAt1_A V c ⟨0, h⟩ (Nat.zero_mod _) (fun h' => absurd (show 0 % 11 = 10 from h') (by decide))]
    dsimp only
    rw [sout1_A_eq]
    rfl
  | n + 1, h => by
    by_cases h0 : (n + 1) % 11 = 0
    · have h1 : ¬(n + 1) % 11 = 10 := by omega
      rw [outsAt1_A V c ⟨n + 1, h⟩ h0 h1]
      dsimp only
      rw [sout1_A_eq]; unfold acc1; rw [if_pos h0]
    · by_cases h1 : (n + 1) % 11 = 10
      · rw [outsAt1_C V c ⟨n + 1, h⟩ h0 h1]
        dsimp only
        rw [sout1_C_eq]; unfold acc1; rw [if_neg h0]
        exact congrArg (k1_pay2 _ _ _ _) (outsAt1_snd c n (Nat.lt_of_succ_lt h))
      · rw [outsAt1_B V c ⟨n + 1, h⟩ h0 h1]
        dsimp only
        rw [sout1_B_eq]; unfold acc1; rw [if_neg h0]
        exact congrArg (k1_pay2 _ _ _ _) (outsAt1_snd c n (Nat.lt_of_succ_lt h))

/-- At the last point of a row the output window's buffer holds the output block computed from the running accumulator. -/
theorem outsAt1_fst (c : Dev nD) (t : Fin cfg1.N) (h1 : t.val % 11 = 10) :
    (outsAt1 V c t.val t.isLt).1 = k1_pay3 (acc1 V c t.val t.isLt) (iblk1 V c 4 t) := by
  have h0 : ¬t.val % 11 = 0 := by omega
  have e2 := outsAt1_snd V c t.val t.isLt
  rw [outsAt1_C V c t h0 h1] at e2 ⊢
  dsimp only at e2 ⊢
  rw [out1_C_eq]
  rw [sout1_C_eq] at e2
  rw [e2]

end Cert.KernelIdeal.Gen

end
-- ==== Proof.KI.Pay1.lean ====
/-
  The second kernel's block arithmetic read at an index, at the exact extended reals.

  One grid point of the shared-expert kernel holds a tile of 256 tokens `x : [256, 2048]`, a block of 256 rows of
  each up-projection `w1, w3 : [256, 2048]`, the matching 256 columns of the down-projection `w2 : [2048, 256]`,
  and the accumulator `s : [256, 2048]`.  The body adds to the accumulator, at `(p, d)`, the sum over the block's
  256 hidden units `k` of `silu (x p · w1 k) * (x p · w3 k) * w2 d k`; the cleared accumulator is zero; and the
  stored output block is the accumulator plus the routed experts' contribution.
-/
import proofs.«120388_j80376017977412_2_alg».proof.Proof.Gen.KernelIdeal.Skeleton
import proofs.«120388_j80376017977412_2_alg».proof.Proof.LibMatmulNT
import Idealize.ShloMosaic.Lib.ValueLayout
import Idealize.ShloMosaic.Lib.ValueIdx
import Idealize.ShloMosaic.Lib.Pipeline.Value

noncomputable section

namespace Cert.KernelIdeal.Pay1

open Idealize.ShloMosaic Idealize.ShloMosaic.ValueIdx Cert.KernelIdeal Cert.KernelIdeal.Gen

/-- Row `p` of the token tile against row `k` of a projection block. -/
def dotRow (x w : Vec Ideal S256x2048 .f32) (p k : Fin 256) : EReal :=
  ∑ e : Fin 2048, x (ix2 p e) * w (ix2 k e)

/-- The gated hidden unit `k` of token `p`. -/
def hidden (x w1 w3 : Vec Ideal S256x2048 .f32) (p k : Fin 256) : EReal :=
  (dotRow x w1 p k * Ideal.logistic (dotRow x w1 p k)) * dotRow x w3 p k

/-- The cleared accumulator is zero everywhere. -/
theorem pay1_apply (j : S256x2048.Idx) : k1_pay1 (F := Ideal) j = 0 := by
  unfold k1_pay1
  (try dsimp only)
  refine (congrFun (shapeCast_self _ _) j).trans ?_
  exact Ideal.ofBits_zero_f32

/-- One point's update of the accumulator, at `(p, d)`. -/
theorem pay2_apply (x w1 w3 : Vec Ideal S256x2048 .f32) (w2 : Vec Ideal S2048x256 .f32)
    (s : Vec Ideal S256x2048 .f32) (p : Fin 256) (d : Fin 2048) :
    k1_pay2 x w1 w3 w2 s (ix2 p d) = s (ix2 p d) + ∑ k : Fin 256, hidden x w1 w3 p k * w2 (ix2 d k) := by
  unfold k1_pay2
  (try dsimp only)
  refine (congrFun (shapeCast_self _ _) (ix2 p d)).trans ?_
  refine congrArg (s (ix2 p d) + ·) ?_
  refine (LibMatmulNT.matmul_zero_apply dot_S256x256_S2048x256_S256x2048_1_1_0_0_n_n_wf none _ _ p d).trans ?_
  refine Finset.sum_congr rfl fun k _ => ?_
  have E1 := LibMatmulNT.matmul_zero_apply dot_S256x2048_S256x2048_S256x256_1_1_0_0_n_n_wf none
    (truncf .bf16 x bitsLt_bf16_f32) (truncf .bf16 w1 bitsLt_bf16_f32) p k
  have E3 := LibMatmulNT.matmul_zero_apply dot_S256x2048_S256x2048_S256x256_1_1_0_0_n_n_wf none
    (truncf .bf16 x bitsLt_bf16_f32) (truncf .bf16 w3 bitsLt_bf16_f32) p k
  exact congrArg (· * w2 (ix2 d k)) (congrArg₂ (· * ·) (congrArg₂ (· * ·) E1 (congrArg Ideal.logistic E1)) E3)

/-- The stored output block: the accumulator plus the routed contribution. -/
theorem pay3_apply (s y : Vec Ideal S256x2048 .f32) (j : S256x2048.Idx) :
    k1_pay3 s y j = s j + y j := by
  unfold k1_pay3
  (try dsimp only)
  exact congrArg (s j + ·) (congrFun (shapeCast_self _ _) j)

end Cert.KernelIdeal.Pay1

end
-- ==== Proof.KI.Val1.lean ====
/-
  Region 1 in closed form: what the shared-expert kernel leaves in its result array, as ONE function of the arrays the
  region finds.  Grid point `t` works on the tile `t / 11` of 256 tokens and on the block `t % 11` of 256 hidden
  units; the running accumulator after the point is the sum over the blocks `j ≤ t % 11` and the block's units `k` of
  `hidden (r, 256 j + k) * sw2 (d, 256 j + k)`, by induction on the point; the last point of a row stores that sum
  over all 2816 units plus the routed contribution; and those stored blocks tile the result array.
-/
import proofs.«120388_j80376017977412_2_alg».proof.Proof.KI.Acc1
import proofs.«120388_j80376017977412_2_alg».proof.Proof.KI.Pay1
import proofs.«120388_j80376017977412_2_alg».proof.Proof.LibBlockedSum
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx Idealize.SL.Sem
open Idealize.ShloMosaic.Pipeline (Dat)
open Cert.KernelIdeal Cert.KernelIdeal.Gen

/-! ## The specification: whole-array functions -/

/-- Token `r` against row `n` of a projection. -/
def dotAll (X : FVec Ideal S2048x2048 .f32) (W : FVec Ideal S2816x2048 .f32) (r : Fin 2048) (n : Fin 2816) : EReal :=
  ∑ q : Fin 2048, X (ix2 r q) * W (ix2 n q)

/-- The gated hidden unit `n` of token `r`. -/
def hid (X : FVec Ideal S2048x2048 .f32) (W1 W3 : FVec Ideal S2816x2048 .f32) (r : Fin 2048) (n : Fin 2816) : EReal :=
  (dotAll X W1 r n * Ideal.logistic (dotAll X W1 r n)) * dotAll X W3 r n

/-- Term `n` of the down-projection sum, the token and the unit given as natural numbers (zero out of range). -/
def term (X : FVec Ideal S2048x2048 .f32) (W1 W3 : FVec Ideal S2816x2048 .f32) (W2 : FVec Ideal S2048x2816 .f32)
    (r : ℕ) (d : Fin 2048) (n : ℕ) : EReal :=
  if h : r < 2048 ∧ n < 2816 then hid X W1 W3 ⟨r, h.1⟩ ⟨n, h.2⟩ * W2 (ix2 d ⟨n, h.2⟩) else 0

/-- The shared expert's output plus the routed contribution: entry `(r, d)`. -/
def outAt (X : FVec Ideal S2048x2048 .f32) (W1 W3 : FVec Ideal S2816x2048 .f32) (W2 : FVec Ideal S2048x2816 .f32)
    (Y : FVec Ideal S2048x2048 .f32) (r d : Fin 2048) : EReal :=
  (∑ n : Fin 2816, hid X W1 W3 r n * W2 (ix2 d n)) + Y (ix2 r d)

/-- The result array of the region as one function. -/
def G1 (X : FVec Ideal S2048x2048 .f32) (W1 W3 : FVec Ideal S2816x2048 .f32) (W2 : FVec Ideal S2048x2816 .f32)
    (Y : FVec Ideal S2048x2048 .f32) : FVec Ideal S2048x2048 .f32 := fun i => outAt X W1 W3 W2 Y (i 0) (i 1)

variable (V : (c : Dev nD) → (b : Ref sig .tc) → Buf (Elt Ideal) ((c : Thread nD τ).loc b))

/-! ## The printed index maps, decided over the grid -/

theorem idx_facts : ∀ t : Fin cfg1.N,
    win1_0.index t (0 : Fin 2) = t.val / 11 ∧ win1_0.index t (1 : Fin 2) = 0
    ∧ win1_1.index t (0 : Fin 2) = t.val % 11 ∧ win1_1.index t (1 : Fin 2) = 0
    ∧ win1_2.index t (0 : Fin 2) = t.val % 11 ∧ win1_2.index t (1 : Fin 2) = 0
    ∧ win1_3.index t (0 : Fin 2) = 0 ∧ win1_3.index t (1 : Fin 2) = t.val % 11
    ∧ win1_4.index t (0 : Fin 2) = t.val / 11 ∧ win1_4.index t (1 : Fin 2) = 0
    ∧ win1_5.index t (0 : Fin 2) = t.val / 11 ∧ win1_5.index t (1 : Fin 2) = 0 :=
  (by decide +kernel : ∀ t : Fin grid1.N, _)

theorem tN (t : Fin cfg1.N) : t.val < 88 := lt_of_lt_of_eq t.isLt (show cfg1.N = 88 from N_1)

/-- The token row `p` of a point's tile, and the hidden unit `k` of its block. -/
def rOf (t : Fin cfg1.N) (p : Fin 256) : Fin 2048 := ⟨t.val / 11 * 256 + p.val, by have := tN t; have := p.isLt; omega⟩
def nOf (t : Fin cfg1.N) (k : Fin 256) : Fin 2816 := ⟨t.val % 11 * 256 + k.val, by have := k.isLt; have := Nat.mod_lt t.val (show 0 < 11 by decide); omega⟩

/-! ## The blocks a point loads are pieces of the whole arrays -/

theorem blk0 (c : Dev nD) (t : Fin cfg1.N) (p : Fin 256) (q : Fin 2048) :
    (iblk1 V c 0 t : Vec Ideal S256x2048 .f32) (ix2 p q) = (V c main_arg0 : FVec Ideal S2048x2048 .f32) (ix2 (rOf t p) q) := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 256 + 1 * p.val = t.val / 11 * 256 + p.val; omega
  | ⟨1, _⟩ => show win1_0.index t (1 : Fin 2) * 2048 + 1 * q.val = q.val; omega

theorem blk1 (c : Dev nD) (t : Fin cfg1.N) (k : Fin 256) (q : Fin 2048) :
    (iblk1 V c 1 t : Vec Ideal S256x2048 .f32) (ix2 k q) = (V c main_arg6 : FVec Ideal S2816x2048 .f32) (ix2 (nOf t k) q) := by
  obtain ⟨-, -, e0, e1, -⟩ := idx_facts t
  unfold iblk1
  rw [View.read_apply]
  show V c main_arg6 _ = V c main_arg6 _
  congr 1
  funext a
  apply Fin.ext
  match a with
  | ⟨0, _⟩ => show win1_1.index t (0 : Fin 2) * 256 + 1 * k.val = t.val % 11 * 256 + k.val; omega
  | ⟨1, _⟩ => show win1_1.index t (1 : Fin 2) * 2048 + 1 * q.val = q.val; omega

theorem blk2 (c : Dev nD) (t : Fin cfg1.N) (k : Fin 256) (q : Fin 2048) :
    (iblk1 V c 2 t : Vec Ideal S256x2048 .f32) (ix2 k q) = (V c main_arg8 : FVec Ideal S2816x2048 .f32) (ix2 (nOf t k) q) := by
  obtain ⟨-, -, -, -, e0, e1, -⟩ := idx_facts t
  unfold iblk1
  rw [View.read_apply]
  show V c main_arg8 _ = V c main_arg8 _
  congr 1
  funext a
  apply Fin.ext
  match a with
  | ⟨0, _⟩ => show win1_2.index t (0 : Fin 2) * 256 + 1 * k.val = t.val % 11 * 256 + k.val; omega
  | ⟨1, _⟩ => show win1_2.index t (1 : Fin 2) * 2048 + 1 * q.val = q.val; omega

theorem blk3 (c : Dev nD) (t : Fin cfg1.N) (d : Fin 2048) (k : Fin 256) :
    (iblk1 V c 3 t : Vec Ideal S2048x256 .f32) (ix2 d k) = (V c main_arg7 : FVec Ideal S2048x2816 .f32) (ix2 d (nOf t k)) := by
  obtain ⟨-, -, -, -, -, -, e0, e1, -⟩ := idx_facts t
  unfold iblk1
  rw [View.read_apply]
  show V c main_arg7 _ = V c main_arg7 _
  congr 1
  funext a
  apply Fin.ext
  match a with
  | ⟨0, _⟩ => show win1_3.index t (0 : Fin 2) * 2048 + 1 * d.val = d.val; omega
  | ⟨1, _⟩ => show win1_3.index t (1 : Fin 2) * 256 + 1 * k.val = t.val % 11 * 256 + k.val; omega

theorem blk4 (c : Dev nD) (t : Fin cfg1.N) (p : Fin 256) (d : Fin 2048) :
    (iblk1 V c 4 t : Vec Ideal S256x2048 .f32) (ix2 p d) = (V c main_v85 : FVec Ideal S2048x2048 .f32) (ix2 (rOf t p) d) := by
  obtain ⟨-, -, -, -, -, -, -, -, e0, e1, -⟩ := idx_facts t
  unfold iblk1
  rw [View.read_apply]
  show V c main_v85 _ = V c main_v85 _
  congr 1
  funext a
  apply Fin.ext
  match a with
  | ⟨0, _⟩ => show win1_4.index t (0 : Fin 2) * 256 + 1 * p.val = t.val / 11 * 256 + p.val; omega
  | ⟨1, _⟩ => show win1_4.index t (1 : Fin 2) * 2048 + 1 * d.val = d.val; omega

/-! ## One point's contribution -/

theorem dotRow1 (c : Dev nD) (t : Fin cfg1.N) (p k : Fin 256) :
    Pay1.dotRow (iblk1 V c 0 t) (iblk1 V c 1 t) p k = dotAll (V c main_arg0) (V c main_arg6) (rOf t p) (nOf t k) :=
  Finset.sum_congr rfl fun q _ => congrArg₂ (· * ·) (blk0 V c t p q) (blk1 V c t k q)

theorem dotRow3 (c : Dev nD) (t : Fin cfg1.N) (p k : Fin 256) :
    Pay1.dotRow (iblk1 V c 0 t) (iblk1 V c 2 t) p k = dotAll (V c main_arg0) (V c main_arg8) (rOf t p) (nOf t k) :=
  Finset.sum_congr rfl fun q _ => congrArg₂ (· * ·) (blk0 V c t p q) (blk2 V c t k q)

abbrev T (c : Dev nD) := term (V c main_arg0) (V c main_arg6) (V c main_arg8) (V c main_arg7)

/-- The sum a point adds at `(p, d)`: the terms of its token over its block of hidden units. -/
theorem point_sum (c : Dev nD) (t : Fin cfg1.N) (p : Fin 256) (d : Fin 2048) :
    ∑ k : Fin 256, Pay1.hidden (iblk1 V c 0 t) (iblk1 V c 1 t) (iblk1 V c 2 t) p k * (iblk1 V c 3 t : Vec Ideal S2048x256 .f32) (ix2 d k)
      = ∑ k : Fin 256, T V c (t.val / 11 * 256 + p.val) d (t.val % 11 * 256 + k.val) := by
  refine Finset.sum_congr rfl fun k _ => ?_
  have hb : t.val / 11 * 256 + p.val < 2048 ∧ t.val % 11 * 256 + k.val < 2816 := ⟨(rOf t p).isLt, (nOf t k).isLt⟩
  show _ = term _ _ _ _ _ _ _
  unfold term
  rw [dif_pos hb]
  unfold Pay1.hidden hid
  rw [dotRow1, dotRow3, blk3]
  rfl

/-! ## The running accumulator in closed form -/

theorem acc1_apply (c : Dev nD) : ∀ (n : ℕ) (h : n < cfg1.N) (p : Fin 256) (d : Fin 2048),
    acc1 V c n h (ix2 p d) = ∑ j ∈ Finset.range (n % 11 + 1), ∑ k : Fin 256, T V c (n / 11 * 256 + p.val) d (j * 256 + k.val)
  | 0, h, p, d => by
    have e : acc1 V c 0 h = k1_pay2 (iblk1 V c 0 ⟨0, h⟩) (iblk1 V c 1 ⟨0, h⟩) (iblk1 V c 2 ⟨0, h⟩) (iblk1 V c 3 ⟨0, h⟩) (k1_pay1 (F := Ideal)) := rfl
    rw [e, Pay1.pay2_apply, Pay1.pay1_apply, zero_add, point_sum V c ⟨0, h⟩ p d]
    show _ = ∑ j ∈ Finset.range 1, _
    rw [Finset.sum_range_one]
    rfl
  | n + 1, h, p, d => by
    by_cases h0 : (n + 1) % 11 = 0
    · have e : acc1 V c (n + 1) h = k1_pay2 (iblk1 V c 0 ⟨n + 1, h⟩) (iblk1 V c 1 ⟨n + 1, h⟩) (iblk1 V c 2 ⟨n + 1, h⟩) (iblk1 V c 3 ⟨n + 1, h⟩) (k1_pay1 (F := Ideal)) := by
        show (if (n + 1) % 11 = 0 then _ else _) = _
        rw [if_pos h0]
      rw [e, Pay1.pay2_apply, Pay1.pay1_apply, zero_add, point_sum V c ⟨n + 1, h⟩ p d, h0, Finset.sum_range_one]
    · have e : acc1 V c (n + 1) h = k1_pay2 (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)) := by
        show (if (n + 1) % 11 = 0 then _ else _) = _
        rw [if_neg h0]
      have hd : (n + 1) / 11 = n / 11 := by omega
      have hm : (n + 1) % 11 = n % 11 + 1 := by omega
      rw [e, Pay1.pay2_apply, acc1_apply c n (Nat.lt_of_succ_lt h) p d, point_sum V c ⟨n + 1, h⟩ p d]
      show _ + ∑ k : Fin 256, T V c ((n + 1) / 11 * 256 + p.val) d ((n + 1) % 11 * 256 + k.val) = _
      rw [hd, hm, Finset.sum_range_succ _ (n % 11 + 1)]

/-- Over a whole row of the grid the accumulated sum is the sum over all 2816 hidden units. -/
theorem row_sum (c : Dev nD) (r d : Fin 2048) :
    ∑ j ∈ Finset.range (10 + 1), ∑ k : Fin 256, T V c r.val d (j * 256 + k.val)
      = ∑ n : Fin 2816, hid (V c main_arg0) (V c main_arg6) (V c main_arg8) r n * (V c main_arg7 : FVec Ideal S2048x2816 .f32) (ix2 d n) := by
  have hs := LibBlockedSum.sum_blocks 11 256 (fun n : Fin (11 * 256) => T V c r.val d n.val)
  rw [← Fin.sum_univ_eq_sum_range (fun j => ∑ k : Fin 256, T V c r.val d (j * 256 + k.val)) 11]
  refine hs.symm.trans ?_
  refine Finset.sum_congr rfl fun n _ => ?_
  show term _ _ _ _ r.val d n.val = _
  unfold term
  rw [dif_pos ⟨r.isLt, n.isLt⟩]

/-! ## What the last point of a row writes back, the cover, and the array -/

theorem flushed_eq (c : Dev nD) (t : Fin cfg1.N) (hf : (cfg1.win 5).flush t = true) :
    (dat1 V c).flushed 5 t = ((cfg1.win 5).blk t).view.read (Elt Ideal)
      (G1 (V c main_arg0) (V c main_arg6) (V c main_arg8) (V c main_arg7) (V c main_v85)) := by
  have h1 : t.val % 11 = 10 := (flush1_5 t).mp hf
  obtain ⟨-, -, -, -, -, -, -, -, -, -, e0, e1⟩ := idx_facts t
  show (cfg1.win 5).cut (grid1.coords t) ((dat1 V c).after 5 t) = _
  rw [after1_5, outsAt1_fst V c t h1]
  funext j
  obtain ⟨p, d, rfl⟩ : ∃ (p : Fin 256) (d : Fin 2048), j = ix2 p d := ⟨j 0, j 1, eq_ix2 j⟩
  have hemb : ((cfg1.win 5).blk t).view.emb (ix2 p d) = (ix2 (rOf t p) d : S2048x2048.Idx) := by
    funext a
    apply Fin.ext
    match a with
    | ⟨0, _⟩ => show win1_5.index t (0 : Fin 2) * 256 + 1 * p.val = t.val / 11 * 256 + p.val; omega
    | ⟨1, _⟩ => show win1_5.index t (1 : Fin 2) * 2048 + 1 * d.val = d.val; omega
  show k1_pay3 (acc1 V c t.val t.isLt) (iblk1 V c 4 t) (ix2 p d) = G1 _ _ _ _ _ (((cfg1.win 5).blk t).view.emb (ix2 p d))
  rw [hemb, Pay1.pay3_apply, acc1_apply V c t.val t.isLt p d, blk4 V c t p d, h1]
  show _ = outAt _ _ _ _ _ (rOf t p) d
  unfold outAt
  rw [← row_sum V c (rOf t p) d]
  rfl

theorem mem_blk (t : Fin cfg1.N) (i : S2048x2048.Idx) :
    i ∈ ((cfg1.win 5).blk t).view.set ↔ ∀ a : Fin 2, win1_5.index t a * S256x2048.size a ≤ (i a).val ∧ (i a).val < win1_5.index t a * S256x2048.size a + S256x2048.size a := by
  show i ∈ ((View.whole main_v86).slice (win1_5.rect t)).set ↔ _
  rw [View.set_slice_whole, Rect.mem_set_unit]
  exact Iff.rfl

/-- Every index of the result array lies in the block the last point of its tile's row writes back. -/
theorem cover (i : S2048x2048.Idx) : ∃ t : Fin cfg1.N, (cfg1.win 5).flush t = true ∧ i ∈ ((cfg1.win 5).blk t).view.set := by
  have hi0 : (i 0).val < 2048 := (i 0).isLt
  have hi1 : (i 1).val < 2048 := (i 1).isLt
  let t : Fin cfg1.N := ⟨(i 0).val / 256 * 11 + 10, by rw [show cfg1.N = 88 from N_1]; omega⟩
  have htv : t.val = (i 0).val / 256 * 11 + 10 := rfl
  obtain ⟨-, -, -, -, -, -, -, -, -, -, e0, e1⟩ := idx_facts t
  refine ⟨t, (flush1_5 t).mpr (by rw [htv]; omega), ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 2048 ≤ (i 1).val ∧ (i 1).val < win1_5.index t (1 : Fin 2) * 2048 + 2048; omega

/-- THE ARRAY after the region: the shared expert's output plus the routed contribution. -/
theorem final (c : Dev nD) : (dat1 V c).arrAt 5 cfg1.N = G1 (V c main_arg0) (V c main_arg6) (V c main_arg8) (V c main_arg7) (V c main_v85) :=
  (dat1 V c).arrAt_eq_of_cover 5 _ (fun t hf => flushed_eq V c t hf) cover

end Cert.KernelIdeal.Val1

end
-- ==== Proof.KI.KVal.lean ====
/-
  The kernel program's result as ONE expression of the argument arrays and of three arrays its host prefix computes
  (the gathered tokens, the routing weights, the token ids): the second region's array is the shared expert's output
  plus what the host stretch between the regions makes — a scatter-add by token id — of the first region's array,
  the routed experts' weighted rows.
-/
import proofs.«120388_j80376017977412_2_alg».proof.Proof.KI.RunAll
import proofs.«120388_j80376017977412_2_alg».proof.Proof.KI.Val0
import proofs.«120388_j80376017977412_2_alg».proof.Proof.KI.Val1
import Idealize.ShloMosaic.Lib.StableHlo.Run

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The host stretch between the regions: the expert rows scattered onto their tokens and summed, the padding row cut off. -/
def routedK (rows : FVec Ideal S64x384x2048 .f32) (tok : IVec S64x384 32) : FVec Ideal S2048x2048 .f32 :=
  extractStridedSlice S2048x2048 ![0, 0]
    (Host.scatterAdd (F := Ideal) scatter_S2049x2048_S24576x1_S24576x2048_1_0_0_1
      (broadcastInDim S2049x2048 ![] bcast_S_S2049x2048 (constant (F := Ideal) S_ .f32 0x00000000#32))
      (broadcastInDim S24576x1 ![0] bcast_S24576_S24576x1_0 (shapeCast S24576 tok shapeCasts_S64x384_S24576))
      (shapeCast S24576x2048 rows shapeCasts_S64x384x2048_S24576x2048))
    slices_S2049x2048_S2048x2048_0_0

attribute [local irreducible] Host.scatterAdd in
theorem v85_eq (c : Dev nD) :
    (W16 m c (Proc.devRef .tc main_v85) : FVec Ideal S2048x2048 .f32)
      = routedK (W15 m c (Proc.devRef .tc main_v79)) (W15 m c (Proc.devRef .tc main_v58)) := by
  show StableHlo.after hostOps1 (W15 m c) (Proc.devRef .tc main_v85) = _
  after_results
  rfl

/-- The result buffer after the run. -/
theorem result_eq (c : Dev nD) :
    (W17 m c (Proc.devRef .tc main_v86) : FVec Ideal S2048x2048 .f32)
      = Val1.G1 (m ((c : Thread nD τ).loc main_arg0)) (m ((c : Thread nD τ).loc main_arg6)) (m ((c : Thread nD τ).loc main_arg8))
          (m ((c : Thread nD τ).loc main_arg7))
          (routedK (Val0.G0 (V14 m c (Proc.devRef .tc main_v67)) (m ((c : Thread nD τ).loc main_arg3)) (m ((c : Thread nD τ).loc main_arg5))
              (m ((c : Thread nD τ).loc main_arg4)) (V14 m c (Proc.devRef .tc main_v78)))
            (V14 m c (Proc.devRef .tc main_v58))) := by
  have h1 : W17 m c (Proc.devRef .tc main_v86) = (dat1 (VE1 m) c).arrAt 5 cfg1.N := W17_arr m c 5
  have h0 : W15 m c (Proc.devRef .tc main_v79) = (dat0 (VE0 m) c).arrAt 5 cfg0.N := W15_arr m c 5
  have h58 : W15 m c (Proc.devRef .tc main_v58) = V14 m c (Proc.devRef .tc main_v58) := W15_of_ne m c main_v58 (by decide)
  rw [h1, Val1.final (VE1 m) c]
  show Val1.G1 (W16 m c (Proc.devRef .tc main_arg0)) (W16 m c (Proc.devRef .tc main_arg6)) (W16 m c (Proc.devRef .tc main_arg8))
    (W16 m c (Proc.devRef .tc main_arg7)) (W16 m c (Proc.devRef .tc main_v85)) = _
  rw [W16_main_arg0, W16_main_arg6, W16_main_arg8, W16_main_arg7, v85_eq, h0, h58, Val0.final (VE0 m) c]
  show Val1.G1 _ _ _ _ (routedK (Val0.G0 (V14 m c (Proc.devRef .tc main_v67)) (V14 m c (Proc.devRef .tc main_arg3)) (V14 m c (Proc.devRef .tc main_arg5))
    (V14 m c (Proc.devRef .tc main_arg4)) (V14 m c (Proc.devRef .tc main_v78))) _) = _
  rw [V14_main_arg3, V14_main_arg5, V14_main_arg4]

end Cert.KernelIdeal.KVal

end
-- ==== Proof.RefRun.lean ====
import proofs.«120388_j80376017977412_2_alg».proof.Defs
import proofs.«120388_j80376017977412_2_alg».proof.Proof.Gen.ReferenceIdeal
import proofs.«120388_j80376017977412_2_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference program as one straight line

@main calls ten outlined functions (one of them, the cumulative sum, through a second); a call executes the callee's
body on the operands, so the program is the straight line of its own operations with each callee's operations in
place of the call, over that call's buffers. The line is stated in four consecutive pieces (the first and last are
@main's first and last windows; the middle window is cut where the expert matmuls begin), and the run, the frame and
the arguments' invariance are read off the line. -/

/-- @main's first window, in order, the calls unfolded: the token–expert pairs' flat expert index sorted, the per-expert counts and offsets, each pair's slot in its expert's block. -/
abbrev ops0 : List (HloOp τ sig (Elt F)) :=
  [ reshape main_arg2 main_v0 rfl shapeCasts_S2048x6_S12288,
    nullary main_v1 (iotaInDim S12288 32 0),
    nullary main_c (constantI S_ 32 6#32),
    TRef.unary (.of main_c : TRef sig ⟨S_, .i32⟩) main_call0.v0 id,
    TRef.unary main_call0.v0 main_call0.v1 (broadcastInDim S12288 ![] bcast_S_S12288),
    TRef.binary (.of main_v1 : TRef sig ⟨S12288, .i32⟩) main_call0.v1 main_call0.v2 Host.divsi,
    TRef.unary (.of main_v1 : TRef sig ⟨S12288, .i32⟩) main_call0.v3 signi,
    TRef.unary main_call0.v0 main_call0.v4 signi,
    TRef.unary main_call0.v4 main_call0.v5 (broadcastInDim S12288 ![] bcast_S_S12288),
    TRef.binary main_call0.v3 main_call0.v5 main_call0.v6 (cmpi .ne),
    TRef.unary main_call0.v0 main_call0.v7 (broadcastInDim S12288 ![] bcast_S_S12288),
    TRef.binary (.of main_v1 : TRef sig ⟨S12288, .i32⟩) main_call0.v7 main_call0.v8 Host.remsi,
    TRef.nullary main_call0.c (constantI S_ 32 0#32),
    TRef.unary main_call0.c main_call0.v9 (broadcastInDim S12288 ![] bcast_S_S12288),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S12288 ![] bcast_S_S12288),
    TRef.binary main_call0.v2 main_call0.v12 main_call0.v13 subi,
    TRef.ternary main_call0.v11 main_call0.v13 main_call0.v2 main_call0.call0.v0 select,
    TRef.nullary main_call1.v0 (iotaInDim S12288 32 0),
    TRef.binary (.of main_v0 : TRef sig ⟨S12288, .i32⟩) main_call1.v0 main_call1.v1_0 (fun x y => (Host.sort2 S12288 0 comparator_i32_i32_d0 x y).1),
    TRef.binary (.of main_v0 : TRef sig ⟨S12288, .i32⟩) main_call1.v0 main_call1.v1_1 (fun x y => (Host.sort2 S12288 0 comparator_i32_i32_d0 x y).2),
    nullary main_c_0 (constantI S_ 32 0#32),
    unary main_c_0 main_v4 (broadcastInDim S12288 ![] bcast_S_S12288 : (⟨S_, .i32⟩ : BufTy).Contents (Elt F) → (⟨S12288, .i32⟩ : BufTy).Contents (Elt F)),
    binary main_v3 main_v4 main_v5 (cmpi .slt : (⟨S12288, .i32⟩ : BufTy).Contents (Elt F) → (⟨S12288, .i32⟩ : BufTy).Contents (Elt F) → (⟨S12288, .i1⟩ : BufTy).Contents (Elt F)),
    nullary main_c_1 (constantI S_ 32 12288#32),
    unary main_c_1 main_v6 (broadcastInDim S12288 ![] bcast_S_S12288 : (⟨S_, .i32⟩ : BufTy).Contents (Elt F) → (⟨S12288, .i32⟩ : BufTy).Contents (Elt F)),
    binary main_v3 main_v6 main_v7 (addi : (⟨S12288, .i32⟩ : BufTy).Contents (Elt F) → (⟨S12288, .i32⟩ : BufTy).Contents (Elt F) → (⟨S12288, .i32⟩ : BufTy).Contents (Elt F)),
    ternary main_v5 main_v7 main_v3 main_v8 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v8 main_v9 (broadcastInDim S12288x1 ![0] bcast_S12288_S12288x1_0 : (⟨S12288, .i32⟩ : BufTy).Contents (Elt F) → (⟨S12288x1, .i32⟩ : BufTy).Contents (Elt F)),
    binary main_v0 main_v9 main_v10 ((fun x i => Host.gather gather_S12288_S12288x1_S12288_n_0_n_n_0_1_1 x i) : (⟨S12288, .i32⟩ : BufTy).Contents (Elt F) → (⟨S12288x1, .i32⟩ : BufTy).Contents (Elt F) → (⟨S12288, .i32⟩ : BufTy).Contents (Elt F)),
    nullary main_c_2 (constantI S_ 32 0#32),
    unary main_c_2 main_v11 (broadcastInDim S64 ![] bcast_S_S64 : (⟨S_, .i32⟩ : BufTy).Contents (Elt F) → (⟨S64, .i32⟩ : BufTy).Contents (Elt F)),
    nullary main_c_3 (constantI S_ 32 0#32),
    TRef.unary (.of main_c_3 : TRef sig ⟨S_, .i32⟩) main_call2.v0 id,
    TRef.unary main_call2.v0 main_call2.v1 (broadcastInDim S12288 ![] bcast_S_S12288),
    TRef.binary main_call2.v1 (.of main_v0 : TRef sig ⟨S12288, .i32⟩) main_call2.v2 maxsi,
    nullary main_c_4 (constantI S_ 32 0#32),
    unary main_c_4 main_v13 (broadcastInDim S12288 ![] bcast_S_S12288 : (⟨S_, .i32⟩ : BufTy).Contents (Elt F) → (⟨S12288, .i32⟩ : BufTy).Contents (Elt F)),
    binary main_v12 main_v13 main_v14 (cmpi .slt : (⟨S12288, .i32⟩ : BufTy).Contents (Elt F) → (⟨S12288, .i32⟩ : BufTy).Contents (Elt F) → (⟨S12288, .i1⟩ : BufTy).Contents (Elt F)),
    nullary main_c_5 (constantI S_ 32 64#32),
    unary main_c_5 main_v15 (broadcastInDim S12288 ![] bcast_S_S12288 : (⟨S_, .i32⟩ : BufTy).Contents (Elt F) → (⟨S12288, .i32⟩ : BufTy).Contents (Elt F)),
    binary main_v12 main_v15 main_v16 (addi : (⟨S12288, .i32⟩ : BufTy).Contents (Elt F) → (⟨S12288, .i32⟩ : BufTy).Contents (Elt F) → (⟨S12288, .i32⟩ : BufTy).Contents (Elt F)),
    ternary main_v14 main_v16 main_v12 main_v17 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v17 main_v18 (broadcastInDim S12288x1 ![0] bcast_S12288_S12288x1_0 : (⟨S12288, .i32⟩ : BufTy).Contents (Elt F) → (⟨S12288x1, .i32⟩ : BufTy).Contents (Elt F)),
    nullary main_c_6 (constantI S_ 32 1#32),
    unary main_c_6 main_v19 (broadcastInDim S12288 ![] bcast_S_S12288 : (⟨S_, .i32⟩ : BufTy).Contents (Elt F) → (⟨S12288, .i32⟩ : BufTy).Contents (Elt F)),
    ternary main_v11 main_v18 main_v19 main_v20 ((fun x i u => Host.scatter scatter_S64_S12288x1_S12288_n_0_0_1 IntOp.addi x i u) : (⟨S64, .i32⟩ : BufTy).Contents (Elt F) → (⟨S12288x1, .i32⟩ : BufTy).Contents (Elt F) → (⟨S12288, .i32⟩ : BufTy).Contents (Elt F) → (⟨S64, .i32⟩ : BufTy).Contents (Elt F)),
    TRef.nullary main_call3.call0.c (constantI S_ 32 0#32),
    TRef.unary main_call3.call0.c main_call3.call0.v0 (broadcastInDim S_ ![] bcast_S_S_),
    TRef.binary (.of main_v20 : TRef sig ⟨S64, .i32⟩) main_call3.call0.v0 main_call3.call0.v1 (fun x v => Host.reduceWindow IntOp.addi ![64] ![1] ![63] ![0] x v reduceWindows_S64_S64_w64s1p63_0 h_S_),
    binary main_v21 main_v20 main_v22 (subi : (⟨S64, .i32⟩ : BufTy).Contents (Elt F) → (⟨S64, .i32⟩ : BufTy).Contents (Elt F) → (⟨S64, .i32⟩ : BufTy).Contents (Elt F)),
    nullary main_v23 (iotaInDim S12288 32 0),
    nullary main_c_7 (constantI S_ 32 0#32),
    unary main_c_7 main_v24 (broadcastInDim S12288 ![] bcast_S_S12288 : (⟨S_, .i32⟩ : BufTy).Contents (Elt F) → (⟨S12288, .i32⟩ : BufTy).Contents (Elt F)),
    binary main_v10 main_v24 main_v25 (cmpi .slt : (⟨S12288, .i32⟩ : BufTy).Contents (Elt F) → (⟨S12288, .i32⟩ : BufTy).Contents (Elt F) → (⟨S12288, .i1⟩ : BufTy).Contents (Elt F)),
    nullary main_c_8 (constantI S_ 32 64#32),
    unary main_c_8 main_v26 (broadcastInDim S12288 ![] bcast_S_S12288 : (⟨S_, .i32⟩ : BufTy).Contents (Elt F) → (⟨S12288, .i32⟩ : BufTy).Contents (Elt F)),
    binary main_v10 main_v26 main_v27 (addi : (⟨S12288, .i32⟩ : BufTy).Contents (Elt F) → (⟨S12288, .i32⟩ : BufTy).Contents (Elt F) → (⟨S12288, .i32⟩ : BufTy).Contents (Elt F)),
    ternary main_v25 main_v27 main_v10 main_v28 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v28 main_v29 (broadcastInDim S12288x1 ![0] bcast_S12288_S12288x1_0 : (⟨S12288, .i32⟩ : BufTy).Contents (Elt F) → (⟨S12288x1, .i32⟩ : BufTy).Contents (Elt F)),
    binary main_v22 main_v29 main_v30 ((fun x i => Host.gather gather_S64_S12288x1_S12288_n_0_n_n_0_1_1 x i) : (⟨S64, .i32⟩ : BufTy).Contents (Elt F) → (⟨S12288x1, .i32⟩ : BufTy).Contents (Elt F) → (⟨S12288, .i32⟩ : BufTy).Contents (Elt F)),
    binary main_v23 main_v30 main_v31 (subi : (⟨S12288, .i32⟩ : BufTy).Contents (Elt F) → (⟨S12288, .i32⟩ : BufTy).Contents (Elt F) → (⟨S12288, .i32⟩ : BufTy).Contents (Elt F)),
    nullary main_c_9 (constantI S_ 32 384#32),
    unary main_c_9 main_v32 (broadcastInDim S12288 ![] bcast_S_S12288 : (⟨S_, .i32⟩ : BufTy).Contents (Elt F) → (⟨S12288, .i32⟩ : BufTy).Contents (Elt F)),
    binary main_v31 main_v32 main_v33 (cmpi .slt : (⟨S12288, .i32⟩ : BufTy).Contents (Elt F) → (⟨S12288, .i32⟩ : BufTy).Contents (Elt F) → (⟨S12288, .i1⟩ : BufTy).Contents (Elt F)),
    nullary main_c_10 (constantI S_ 32 384#32),
    unary main_c_10 main_v34 (broadcastInDim S12288 ![] bcast_S_S12288 : (⟨S_, .i32⟩ : BufTy).Contents (Elt F) → (⟨S12288, .i32⟩ : BufTy).Contents (Elt F)),
    binary main_v10 main_v34 main_v35 (muli : (⟨S12288, .i32⟩ : BufTy).Contents (Elt F) → (⟨S12288, .i32⟩ : BufTy).Contents (Elt F) → (⟨S12288, .i32⟩ : BufTy).Contents (Elt F)),
    binary main_v35 main_v31 main_v36 (addi : (⟨S12288, .i32⟩ : BufTy).Contents (Elt F) → (⟨S12288, .i32⟩ : BufTy).Contents (Elt F) → (⟨S12288, .i32⟩ : BufTy).Contents (Elt F)),
    nullary main_c_11 (constantI S_ 32 24576#32),
    TRef.unary (.of main_c_11 : TRef sig ⟨S_, .i32⟩) main_call4.v0 id,
    TRef.unary main_call4.v0 main_call4.v1 (broadcastInDim S12288 ![] bcast_S_S12288),
    TRef.ternary (.of main_v33 : TRef sig ⟨S12288, .i1⟩) (.of main_v36 : TRef sig ⟨S12288, .i32⟩) main_call4.v1 main_call4.v2 select,
    nullary main_c_12 (constantI S_ 32 12288#32),
    unary main_c_12 main_v38 (broadcastInDim S24577 ![] bcast_S_S24577 : (⟨S_, .i32⟩ : BufTy).Contents (Elt F) → (⟨S24577, .i32⟩ : BufTy).Contents (Elt F)),
    nullary main_c_13 (constantI S_ 32 0#32),
    unary main_c_13 main_v39 (broadcastInDim S12288 ![] bcast_S_S12288 : (⟨S_, .i32⟩ : BufTy).Contents (Elt F) → (⟨S12288, .i32⟩ : BufTy).Contents (Elt F)),
    binary main_v37 main_v39 main_v40 (cmpi .slt : (⟨S12288, .i32⟩ : BufTy).Contents (Elt F) → (⟨S12288, .i32⟩ : BufTy).Contents (Elt F) → (⟨S12288, .i1⟩ : BufTy).Contents (Elt F)),
    nullary main_c_14 (constantI S_ 32 24577#32),
    unary main_c_14 main_v41 (broadcastInDim S12288 ![] bcast_S_S12288 : (⟨S_, .i32⟩ : BufTy).Contents (Elt F) → (⟨S12288, .i32⟩ : BufTy).Contents (Elt F)),
    binary main_v37 main_v41 main_v42 (addi : (⟨S12288, .i32⟩ : BufTy).Contents (Elt F) → (⟨S12288, .i32⟩ : BufTy).Contents (Elt F) → (⟨S12288, .i32⟩ : BufTy).Contents (Elt F)),
    ternary main_v40 main_v42 main_v37 main_v43 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) ]

theorem ops0_sub : (ops0 : List (HloOp τ sig (Elt F))).Forall fun op => op.bufs ⊆ tcRefs τ sig :=
  ⟨reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., binary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub ..⟩

/-- The references `ops0`'s operations write, in order. -/
abbrev ops0_W : List (Ref sig .tc) := [main_v0, main_v1, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v2, main_call1_v0, main_call1_v1_0, main_v3, main_c_0, main_v4, main_v5, main_c_1, main_v6, main_v7, main_v8, main_v9, main_v10, main_c_2, main_v11, main_c_3, main_call2_v0, main_call2_v1, main_v12, main_c_4, main_v13, main_v14, main_c_5, main_v15, main_v16, main_v17, main_v18, main_c_6, main_v19, main_v20, main_call3_call0_c, main_call3_call0_v0, main_v21, main_v22, main_v23, main_c_7, main_v24, main_v25, main_c_8, main_v26, main_v27, main_v28, main_v29, main_v30, main_v31, main_c_9, main_v32, main_v33, main_c_10, main_v34, main_v35, main_v36, main_c_11, main_call4_v0, main_call4_v1, main_v37, main_c_12, main_v38, main_c_13, main_v39, main_v40, main_c_14, main_v41, main_v42, main_v43]

theorem ops0_writes : (ops0 : List (HloOp τ sig (Elt F))).Forall fun op => op.writes ⊆ (ops0_W.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- The second window up to the gather of the token rows: the slot table scattered and reshaped, each slot's token index, the tokens' rows gathered per slot. -/
abbrev ops1a : List (HloOp τ sig (Elt F)) :=
  [ unary main_v43 main_v44 (broadcastInDim S12288x1 ![0] bcast_S12288_S12288x1_0 : (⟨S12288, .i32⟩ : BufTy).Contents (Elt F) → (⟨S12288x1, .i32⟩ : BufTy).Contents (Elt F)),
    ternary main_v38 main_v44 main_v3 main_v45 ((fun x i u => Host.scatter scatter_S24577_S12288x1_S12288_n_0_0_1 (fun _ b => b) x i u) : (⟨S24577, .i32⟩ : BufTy).Contents (Elt F) → (⟨S12288x1, .i32⟩ : BufTy).Contents (Elt F) → (⟨S12288, .i32⟩ : BufTy).Contents (Elt F) → (⟨S24577, .i32⟩ : BufTy).Contents (Elt F)),
    unary main_v45 main_v46 ((extractStridedSlice S24576 ![0] · slices_S24577_S24576_0) : (⟨S24577, .i32⟩ : BufTy).Contents (Elt F) → (⟨S24576, .i32⟩ : BufTy).Contents (Elt F)),
    reshape main_v46 main_v47 rfl shapeCasts_S24576_S64x384,
    nullary main_c_15 (constantI S_ 32 12288#32),
    unary main_c_15 main_v48 (broadcastInDim S64x384 ![] bcast_S_S64x384 : (⟨S_, .i32⟩ : BufTy).Contents (Elt F) → (⟨S64x384, .i32⟩ : BufTy).Contents (Elt F)),
    binary main_v47 main_v48 main_v49 (cmpi .slt : (⟨S64x384, .i32⟩ : BufTy).Contents (Elt F) → (⟨S64x384, .i32⟩ : BufTy).Contents (Elt F) → (⟨S64x384, .i1⟩ : BufTy).Contents (Elt F)),
    nullary main_c_16 (constantI S_ 32 0#32),
    nullary main_c_17 (constantI S_ 32 12287#32),
    TRef.unary (.of main_c_16 : TRef sig ⟨S_, .i32⟩) main_call5.v0 id,
    TRef.unary main_call5.v0 main_call5.v1 (broadcastInDim S64x384 ![] bcast_S_S64x384),
    TRef.binary main_call5.v1 (.of main_v47 : TRef sig ⟨S64x384, .i32⟩) main_call5.v2 maxsi,
    TRef.unary (.of main_c_17 : TRef sig ⟨S_, .i32⟩) main_call5.v3 id,
    TRef.unary main_call5.v3 main_call5.v4 (broadcastInDim S64x384 ![] bcast_S_S64x384),
    TRef.binary main_call5.v4 main_call5.v2 main_call5.v5 minsi,
    nullary main_c_18 (constantI S_ 32 0#32),
    unary main_c_18 main_v51 (broadcastInDim S64x384 ![] bcast_S_S64x384 : (⟨S_, .i32⟩ : BufTy).Contents (Elt F) → (⟨S64x384, .i32⟩ : BufTy).Contents (Elt F)),
    binary main_v50 main_v51 main_v52 (cmpi .slt : (⟨S64x384, .i32⟩ : BufTy).Contents (Elt F) → (⟨S64x384, .i32⟩ : BufTy).Contents (Elt F) → (⟨S64x384, .i1⟩ : BufTy).Contents (Elt F)),
    nullary main_c_19 (constantI S_ 32 12288#32),
    unary main_c_19 main_v53 (broadcastInDim S64x384 ![] bcast_S_S64x384 : (⟨S_, .i32⟩ : BufTy).Contents (Elt F) → (⟨S64x384, .i32⟩ : BufTy).Contents (Elt F)),
    binary main_v50 main_v53 main_v54 (addi : (⟨S64x384, .i32⟩ : BufTy).Contents (Elt F) → (⟨S64x384, .i32⟩ : BufTy).Contents (Elt F) → (⟨S64x384, .i32⟩ : BufTy).Contents (Elt F)),
    ternary main_v52 main_v54 main_v50 main_v55 (select : (⟨S64x384, .i1⟩ : BufTy).Contents (Elt F) → (⟨S64x384, .i32⟩ : BufTy).Contents (Elt F) → (⟨S64x384, .i32⟩ : BufTy).Contents (Elt F) → (⟨S64x384, .i32⟩ : BufTy).Contents (Elt F)),
    unary main_v55 main_v56 (broadcastInDim S64x384x1 ![0, 1] bcast_S64x384_S64x384x1_0_1 : (⟨S64x384, .i32⟩ : BufTy).Contents (Elt F) → (⟨S64x384x1, .i32⟩ : BufTy).Contents (Elt F)),
    binary main_v2 main_v56 main_v57 ((fun x i => Host.gather gather_S12288_S64x384x1_S64x384_n_0_n_n_0_2_1 x i) : (⟨S12288, .i32⟩ : BufTy).Contents (Elt F) → (⟨S64x384x1, .i32⟩ : BufTy).Contents (Elt F) → (⟨S64x384, .i32⟩ : BufTy).Contents (Elt F)),
    nullary main_c_20 (constantI S_ 32 2048#32),
    TRef.unary (.of main_c_20 : TRef sig ⟨S_, .i32⟩) main_call6.v0 id,
    TRef.unary main_call6.v0 main_call6.v1 (broadcastInDim S64x384 ![] bcast_S_S64x384),
    TRef.ternary (.of main_v49 : TRef sig ⟨S64x384, .i1⟩) (.of main_v57 : TRef sig ⟨S64x384, .i32⟩) main_call6.v1 main_call6.v2 select,
    nullary main_cst (constant S_ .f32 0x00000000#32),
    unary main_cst main_v59 (broadcastInDim S1x2048 ![] bcast_S_S1x2048 : (⟨S_, .f32⟩ : BufTy).Contents (Elt F) → (⟨S1x2048, .f32⟩ : BufTy).Contents (Elt F)),
    binary main_arg0 main_v59 main_v60 ((fun a b => concatenate S2049x2048 0 [⟨S2048x2048, a⟩, ⟨S1x2048, b⟩] concatenates_S2048x2048_S1x2048_S2049x2048_d0) : (⟨S2048x2048, .f32⟩ : BufTy).Contents (Elt F) → (⟨S1x2048, .f32⟩ : BufTy).Contents (Elt F) → (⟨S2049x2048, .f32⟩ : BufTy).Contents (Elt F)),
    nullary main_c_21 (constantI S_ 32 0#32),
    unary main_c_21 main_v61 (broadcastInDim S64x384 ![] bcast_S_S64x384 : (⟨S_, .i32⟩ : BufTy).Contents (Elt F) → (⟨S64x384, .i32⟩ : BufTy).Contents (Elt F)),
    binary main_v58 main_v61 main_v62 (cmpi .slt : (⟨S64x384, .i32⟩ : BufTy).Contents (Elt F) → (⟨S64x384, .i32⟩ : BufTy).Contents (Elt F) → (⟨S64x384, .i1⟩ : BufTy).Contents (Elt F)),
    nullary main_c_22 (constantI S_ 32 2049#32),
    unary main_c_22 main_v63 (broadcastInDim S64x384 ![] bcast_S_S64x384 : (⟨S_, .i32⟩ : BufTy).Contents (Elt F) → (⟨S64x384, .i32⟩ : BufTy).Contents (Elt F)),
    binary main_v58 main_v63 main_v64 (addi : (⟨S64x384, .i32⟩ : BufTy).Contents (Elt F) → (⟨S64x384, .i32⟩ : BufTy).Contents (Elt F) → (⟨S64x384, .i32⟩ : BufTy).Contents (Elt F)),
    ternary main_v62 main_v64 main_v58 main_v65 (select : (⟨S64x384, .i1⟩ : BufTy).Contents (Elt F) → (⟨S64x384, .i32⟩ : BufTy).Contents (Elt F) → (⟨S64x384, .i32⟩ : BufTy).Contents (Elt F) → (⟨S64x384, .i32⟩ : BufTy).Contents (Elt F)),
    unary main_v65 main_v66 (broadcastInDim S64x384x1 ![0, 1] bcast_S64x384_S64x384x1_0_1 : (⟨S64x384, .i32⟩ : BufTy).Contents (Elt F) → (⟨S64x384x1, .i32⟩ : BufTy).Contents (Elt F)),
    binary main_v60 main_v66 main_v67 ((fun x i => Host.gather gather_S2049x2048_S64x384x1_S64x384x2048_2_0_n_n_0_2_12048 x i) : (⟨S2049x2048, .f32⟩ : BufTy).Contents (Elt F) → (⟨S64x384x1, .i32⟩ : BufTy).Contents (Elt F) → (⟨S64x384x2048, .f32⟩ : BufTy).Contents (Elt F)) ]

theorem ops1a_sub : (ops1a : List (HloOp τ sig (Elt F))).Forall fun op => op.bufs ⊆ tcRefs τ sig :=
  ⟨unary_bufs_sub .., ternary_bufs_sub .., unary_bufs_sub .., reshape_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The references `ops1a`'s operations write, in order. -/
abbrev ops1a_W : List (Ref sig .tc) := [main_v44, main_v45, main_v46, main_v47, main_c_15, main_v48, main_v49, main_c_16, main_c_17, main_call5_v0, main_call5_v1, main_call5_v2, main_call5_v3, main_call5_v4, main_v50, main_c_18, main_v51, main_v52, main_c_19, main_v53, main_v54, main_v55, main_v56, main_v57, main_c_20, main_call6_v0, main_call6_v1, main_v58, main_cst, main_v59, main_v60, main_c_21, main_v61, main_v62, main_c_22, main_v63, main_v64, main_v65, main_v66, main_v67]

theorem ops1a_writes : (ops1a : List (HloOp τ sig (Elt F))).Forall fun op => op.writes ⊆ (ops1a_W.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- The second window from the first expert matmul: the gated expert MLP per slot, the routing weights gathered per slot, the weighted rows scatter-added per token. -/
abbrev ops1b : List (HloOp τ sig (Elt F)) :=
  [ binary main_v67 main_arg3 main_v68 ((fun l r => Host.dotGeneral dot_S64x384x2048_S64x1408x2048_S64x384x1408_2_2_1_1_0_0 none l r) : (⟨S64x384x2048, .f32⟩ : BufTy).Contents (Elt F) → (⟨S64x1408x2048, .f32⟩ : BufTy).Contents (Elt F) → (⟨S64x384x1408, .f32⟩ : BufTy).Contents (Elt F)),
    TRef.unary (.of main_v68 : TRef sig ⟨S64x384x1408, .f32⟩) main_call7.v0 Host.negf,
    TRef.unary main_call7.v0 main_call7.v1 Host.exp,
    TRef.nullary main_call7.cst (constant S_ .f32 0x3F800000#32),
    TRef.unary main_call7.cst main_call7.v2 (broadcastInDim S64x384x1408 ![] bcast_S_S64x384x1408),
    TRef.binary main_call7.v2 main_call7.v1 main_call7.v3 addf,
    TRef.nullary main_call7.cst_0 (constant S_ .f32 0x3F800000#32),
    TRef.unary main_call7.cst_0 main_call7.v4 (broadcastInDim S64x384x1408 ![] bcast_S_S64x384x1408),
    TRef.binary main_call7.v4 main_call7.v3 main_call7.v5 Host.divf,
    TRef.binary (.of main_v68 : TRef sig ⟨S64x384x1408, .f32⟩) main_call7.v5 main_call7.v6 mulf,
    binary main_v67 main_arg5 main_v70 ((fun l r => Host.dotGeneral dot_S64x384x2048_S64x1408x2048_S64x384x1408_2_2_1_1_0_0 none l r) : (⟨S64x384x2048, .f32⟩ : BufTy).Contents (Elt F) → (⟨S64x1408x2048, .f32⟩ : BufTy).Contents (Elt F) → (⟨S64x384x1408, .f32⟩ : BufTy).Contents (Elt F)),
    binary main_v69 main_v70 main_v71 (mulf : (⟨S64x384x1408, .f32⟩ : BufTy).Contents (Elt F) → (⟨S64x384x1408, .f32⟩ : BufTy).Contents (Elt F) → (⟨S64x384x1408, .f32⟩ : BufTy).Contents (Elt F)),
    binary main_v71 main_arg4 main_v72 ((fun l r => Host.dotGeneral dot_S64x384x1408_S64x2048x1408_S64x384x2048_2_2_1_1_0_0 none l r) : (⟨S64x384x1408, .f32⟩ : BufTy).Contents (Elt F) → (⟨S64x2048x1408, .f32⟩ : BufTy).Contents (Elt F) → (⟨S64x384x2048, .f32⟩ : BufTy).Contents (Elt F)),
    reshape main_arg1 main_v73 rfl shapeCasts_S2048x6_S12288,
    nullary main_cst_23 (constant S_ .f32 0x00000000#32),
    unary main_cst_23 main_v74 (broadcastInDim S1 ![] bcast_S_S1 : (⟨S_, .f32⟩ : BufTy).Contents (Elt F) → (⟨S1, .f32⟩ : BufTy).Contents (Elt F)),
    binary main_v73 main_v74 main_v75 ((fun a b => concatenate S12289 0 [⟨S12288, a⟩, ⟨S1, b⟩] concatenates_S12288_S1_S12289_d0) : (⟨S12288, .f32⟩ : BufTy).Contents (Elt F) → (⟨S1, .f32⟩ : BufTy).Contents (Elt F) → (⟨S12289, .f32⟩ : BufTy).Contents (Elt F)),
    nullary main_c_24 (constantI S_ 32 0#32),
    unary main_c_24 main_v76 (broadcastInDim S64x384 ![] bcast_S_S64x384 : (⟨S_, .i32⟩ : BufTy).Contents (Elt F) → (⟨S64x384, .i32⟩ : BufTy).Contents (Elt F)),
    binary main_v47 main_v76 main_v77 (cmpi .slt : (⟨S64x384, .i32⟩ : BufTy).Contents (Elt F) → (⟨S64x384, .i32⟩ : BufTy).Contents (Elt F) → (⟨S64x384, .i1⟩ : BufTy).Contents (Elt F)),
    nullary main_c_25 (constantI S_ 32 12289#32),
    unary main_c_25 main_v78 (broadcastInDim S64x384 ![] bcast_S_S64x384 : (⟨S_, .i32⟩ : BufTy).Contents (Elt F) → (⟨S64x384, .i32⟩ : BufTy).Contents (Elt F)),
    binary main_v47 main_v78 main_v79 (addi : (⟨S64x384, .i32⟩ : BufTy).Contents (Elt F) → (⟨S64x384, .i32⟩ : BufTy).Contents (Elt F) → (⟨S64x384, .i32⟩ : BufTy).Contents (Elt F)),
    ternary main_v77 main_v79 main_v47 main_v80 (select : (⟨S64x384, .i1⟩ : BufTy).Contents (Elt F) → (⟨S64x384, .i32⟩ : BufTy).Contents (Elt F) → (⟨S64x384, .i32⟩ : BufTy).Contents (Elt F) → (⟨S64x384, .i32⟩ : BufTy).Contents (Elt F)),
    unary main_v80 main_v81 (broadcastInDim S64x384x1 ![0, 1] bcast_S64x384_S64x384x1_0_1 : (⟨S64x384, .i32⟩ : BufTy).Contents (Elt F) → (⟨S64x384x1, .i32⟩ : BufTy).Contents (Elt F)),
    binary main_v75 main_v81 main_v82 ((fun x i => Host.gather gather_S12289_S64x384x1_S64x384_n_0_n_n_0_2_1 x i) : (⟨S12289, .f32⟩ : BufTy).Contents (Elt F) → (⟨S64x384x1, .i32⟩ : BufTy).Contents (Elt F) → (⟨S64x384, .f32⟩ : BufTy).Contents (Elt F)),
    unary main_v82 main_v83 (broadcastInDim S64x384x1 ![0, 1] bcast_S64x384_S64x384x1_0_1 : (⟨S64x384, .f32⟩ : BufTy).Contents (Elt F) → (⟨S64x384x1, .f32⟩ : BufTy).Contents (Elt F)),
    unary main_v83 main_v84 (broadcastInDim S64x384x2048 ![0, 1, 2] bcast_S64x384x1_S64x384x2048_0_1_2 : (⟨S64x384x1, .f32⟩ : BufTy).Contents (Elt F) → (⟨S64x384x2048, .f32⟩ : BufTy).Contents (Elt F)),
    binary main_v72 main_v84 main_v85 (mulf : (⟨S64x384x2048, .f32⟩ : BufTy).Contents (Elt F) → (⟨S64x384x2048, .f32⟩ : BufTy).Contents (Elt F) → (⟨S64x384x2048, .f32⟩ : BufTy).Contents (Elt F)),
    reshape main_v85 main_v86 rfl shapeCasts_S64x384x2048_S24576x2048,
    reshape main_v58 main_v87 rfl shapeCasts_S64x384_S24576,
    nullary main_cst_26 (constant S_ .f32 0x00000000#32),
    unary main_cst_26 main_v88 (broadcastInDim S2049x2048 ![] bcast_S_S2049x2048 : (⟨S_, .f32⟩ : BufTy).Contents (Elt F) → (⟨S2049x2048, .f32⟩ : BufTy).Contents (Elt F)),
    unary main_v87 main_v89 (broadcastInDim S24576x1 ![0] bcast_S24576_S24576x1_0 : (⟨S24576, .i32⟩ : BufTy).Contents (Elt F) → (⟨S24576x1, .i32⟩ : BufTy).Contents (Elt F)),
    ternary main_v88 main_v89 main_v86 main_v90 ((fun x i u => Host.scatterAdd scatter_S2049x2048_S24576x1_S24576x2048_1_0_0_1 x i u) : (⟨S2049x2048, .f32⟩ : BufTy).Contents (Elt F) → (⟨S24576x1, .i32⟩ : BufTy).Contents (Elt F) → (⟨S24576x2048, .f32⟩ : BufTy).Contents (Elt F) → (⟨S2049x2048, .f32⟩ : BufTy).Contents (Elt F)) ]

theorem ops1b_sub : (ops1b : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub .., reshape_bufs_sub .., nullary_bufs_sub .., unary_bufs_sub .., unary_bufs_sub .., ternary_bufs_sub ..⟩

/-- The references `ops1b`'s operations write, in order. -/
abbrev ops1b_W : List (Ref sig .tc) := [main_v68, main_call7_v0, main_call7_v1, main_call7_cst, main_call7_v2, main_call7_v3, main_call7_cst_0, main_call7_v4, main_call7_v5, main_v69, main_v70, main_v71, main_v72, main_v73, main_cst_23, main_v74, main_v75, main_c_24, main_v76, main_v77, main_c_25, main_v78, main_v79, main_v80, main_v81, main_v82, main_v83, main_v84, main_v85, main_v86, main_v87, main_cst_26, main_v88, main_v89, main_v90]

theorem ops1b_writes : (ops1b : List (HloOp τ sig (Elt F))).Forall fun op => op.writes ⊆ (ops1b_W.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- The last window: the scatter's slice to the tokens, the shared gated MLP, the sum of the two. -/
abbrev ops2 : List (HloOp τ sig (Elt F)) :=
  [ unary main_v90 main_v91 ((extractStridedSlice S2048x2048 ![0, 0] · slices_S2049x2048_S2048x2048_0_0) : (⟨S2049x2048, .f32⟩ : BufTy).Contents (Elt F) → (⟨S2048x2048, .f32⟩ : BufTy).Contents (Elt F)),
    unary main_arg6 main_v92 ((transpose S2048x2816 [1, 0] · transposes_S2816x2048_S2048x2816_1_0) : (⟨S2816x2048, .f32⟩ : BufTy).Contents (Elt F) → (⟨S2048x2816, .f32⟩ : BufTy).Contents (Elt F)),
    binary main_arg0 main_v92 main_v93 ((fun l r => Host.dotGeneral dot_S2048x2048_S2048x2816_S2048x2816_1_0_0_1_n_n none l r) : (⟨S2048x2048, .f32⟩ : BufTy).Contents (Elt F) → (⟨S2048x2816, .f32⟩ : BufTy).Contents (Elt F) → (⟨S2048x2816, .f32⟩ : BufTy).Contents (Elt F)),
    TRef.unary (.of main_v93 : TRef sig ⟨S2048x2816, .f32⟩) main_call8.v0 Host.negf,
    TRef.unary main_call8.v0 main_call8.v1 Host.exp,
    TRef.nullary main_call8.cst (constant S_ .f32 0x3F800000#32),
    TRef.unary main_call8.cst main_call8.v2 (broadcastInDim S2048x2816 ![] bcast_S_S2048x2816),
    TRef.binary main_call8.v2 main_call8.v1 main_call8.v3 addf,
    TRef.nullary main_call8.cst_0 (constant S_ .f32 0x3F800000#32),
    TRef.unary main_call8.cst_0 main_call8.v4 (broadcastInDim S2048x2816 ![] bcast_S_S2048x2816),
    TRef.binary main_call8.v4 main_call8.v3 main_call8.v5 Host.divf,
    TRef.binary (.of main_v93 : TRef sig ⟨S2048x2816, .f32⟩) main_call8.v5 main_call8.v6 mulf,
    unary main_arg8 main_v95 ((transpose S2048x2816 [1, 0] · transposes_S2816x2048_S2048x2816_1_0) : (⟨S2816x2048, .f32⟩ : BufTy).Contents (Elt F) → (⟨S2048x2816, .f32⟩ : BufTy).Contents (Elt F)),
    binary main_arg0 main_v95 main_v96 ((fun l r => Host.dotGeneral dot_S2048x2048_S2048x2816_S2048x2816_1_0_0_1_n_n none l r) : (⟨S2048x2048, .f32⟩ : BufTy).Contents (Elt F) → (⟨S2048x2816, .f32⟩ : BufTy).Contents (Elt F) → (⟨S2048x2816, .f32⟩ : BufTy).Contents (Elt F)),
    binary main_v94 main_v96 main_v97 (mulf : (⟨S2048x2816, .f32⟩ : BufTy).Contents (Elt F) → (⟨S2048x2816, .f32⟩ : BufTy).Contents (Elt F) → (⟨S2048x2816, .f32⟩ : BufTy).Contents (Elt F)),
    unary main_arg7 main_v98 ((transpose S2816x2048 [1, 0] · transposes_S2048x2816_S2816x2048_1_0) : (⟨S2048x2816, .f32⟩ : BufTy).Contents (Elt F) → (⟨S2816x2048, .f32⟩ : BufTy).Contents (Elt F)),
    binary main_v97 main_v98 main_v99 ((fun l r => Host.dotGeneral dot_S2048x2816_S2816x2048_S2048x2048_1_0_0_1_n_n none l r) : (⟨S2048x2816, .f32⟩ : BufTy).Contents (Elt F) → (⟨S2816x2048, .f32⟩ : BufTy).Contents (Elt F) → (⟨S2048x2048, .f32⟩ : BufTy).Contents (Elt F)),
    binary main_v91 main_v99 main_v100 (addf : (⟨S2048x2048, .f32⟩ : BufTy).Contents (Elt F) → (⟨S2048x2048, .f32⟩ : BufTy).Contents (Elt F) → (⟨S2048x2048, .f32⟩ : BufTy).Contents (Elt F)) ]

theorem ops2_sub : (ops2 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub .., unary_bufs_sub .., binary_bufs_sub .., binary_bufs_sub ..⟩

/-- The references `ops2`'s operations write, in order. -/
abbrev ops2_W : List (Ref sig .tc) := [main_v91, main_v92, main_v93, main_call8_v0, main_call8_v1, main_call8_cst, main_call8_v2, main_call8_v3, main_call8_cst_0, main_call8_v4, main_call8_v5, main_v94, main_v95, main_v96, main_v97, main_v98, main_v99, main_v100]

theorem ops2_writes : (ops2 : List (HloOp τ sig (Elt F))).Forall fun op => op.writes ⊆ (ops2_W.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- @main's operations, in order, the calls unfolded. -/
abbrev ops : List (HloOp τ sig (Elt F)) := ops0 ++ (ops1a ++ (ops1b ++ ops2))

/-- The fold over two lines one after the other is the second's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 16384 in
set_option maxHeartbeats 4000000 in
theorem part0_eq (c : Dev nD) : main_part0 (F := F) c = seq ops0 := by
  simp only [main_part0, fn_where.body, fn_floor_divide.body, fn_argsort.body, fn_clip.body, fn_cumsum_0.body, fn_cumsum.body, fn_where_1.body, fn_clip_2.body, fn_where_3.body, fn_silu.body, fn_silu_4.body, seq, bind_assoc, pure_bind] <;> rfl

set_option maxRecDepth 16384 in
set_option maxHeartbeats 4000000 in
theorem part1_eq (c : Dev nD) : main_part1 (F := F) c = seq (ops1a ++ ops1b) := by
  rw [seq_append]
  simp only [main_part1, fn_where.body, fn_floor_divide.body, fn_argsort.body, fn_clip.body, fn_cumsum_0.body, fn_cumsum.body, fn_where_1.body, fn_clip_2.body, fn_where_3.body, fn_silu.body, fn_silu_4.body, seq, bind_assoc, pure_bind] <;> rfl

set_option maxRecDepth 16384 in
set_option maxHeartbeats 4000000 in
theorem part2_eq (c : Dev nD) : main_part2 (F := F) c = seq ops2 := by
  simp only [main_part2, fn_where.body, fn_floor_divide.body, fn_argsort.body, fn_clip.body, fn_cumsum_0.body, fn_cumsum.body, fn_where_1.body, fn_clip_2.body, fn_where_3.body, fn_silu.body, fn_silu_4.body, seq, bind_assoc, pure_bind] <;> rfl

/-- @main is that straight line: each window is its piece (the callees' definitions unfolded at their calls, sequencing
    reassociated), and the windows run in order are the pieces' concatenation run as one. -/
theorem main_eq (c : Dev nD) : main (F := F) c = seq ops := by
  have e : (ops : List (HloOp τ sig (Elt F))) = ops0 ++ ((ops1a ++ ops1b) ++ ops2) := by
    simp only [ops, List.append_assoc]
  rw [e, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1a_sub, List.forall_append.mpr ⟨ops1b_sub, ops2_sub⟩⟩⟩

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are not written -/

/-- Every reference the line writes. -/
abbrev ops_W : List (Ref sig .tc) := ops0_W ++ (ops1a_W ++ (ops1b_W ++ ops2_W))

theorem writes_mono {l : List (HloOp τ sig (Elt F))} {W W' : List (Ref sig .tc)} (hWW : ∀ r ∈ W, r ∈ W')
    (h : l.Forall fun op => op.writes ⊆ (W.map (Proc.devRef (τ := τ) .tc)).toFinset) :
    l.Forall fun op => op.writes ⊆ (W'.map (Proc.devRef (τ := τ) .tc)).toFinset := by
  rw [List.forall_iff_forall_mem] at h ⊢
  intro op hop b hb
  obtain ⟨y, hy, he⟩ := List.mem_map.mp (List.mem_toFinset.mp (h op hop hb))
  exact List.mem_toFinset.mpr (List.mem_map.mpr ⟨y, hWW y hy, he⟩)

theorem ops_writes : (ops : List (HloOp τ sig (Elt F))).Forall fun op => op.writes ⊆ (ops_W.map (Proc.devRef (τ := τ) .tc)).toFinset :=
  List.forall_append.mpr ⟨writes_mono (fun r h => List.mem_append_left _ h) ops0_writes,
    List.forall_append.mpr ⟨writes_mono (fun r h => List.mem_append_right _ (List.mem_append_left _ h)) ops1a_writes,
      List.forall_append.mpr ⟨writes_mono (fun r h => List.mem_append_right _ (List.mem_append_right _ (List.mem_append_left _ h))) ops1b_writes,
        writes_mono (fun r h => List.mem_append_right _ (List.mem_append_right _ (List.mem_append_right _ h))) ops2_writes⟩⟩⟩

theorem arg0_eq (V : Valuation τ sig (Elt F)) : after ops V (main_arg0 : DevRef τ sig) = V (main_arg0 : DevRef τ sig) :=
  after_of_writes_sub ops V ops_writes (by decide)
theorem arg1_eq (V : Valuation τ sig (Elt F)) : after ops V (main_arg1 : DevRef τ sig) = V (main_arg1 : DevRef τ sig) :=
  after_of_writes_sub ops V ops_writes (by decide)
theorem arg2_eq (V : Valuation τ sig (Elt F)) : after ops V (main_arg2 : DevRef τ sig) = V (main_arg2 : DevRef τ sig) :=
  after_of_writes_sub ops V ops_writes (by decide)
theorem arg3_eq (V : Valuation τ sig (Elt F)) : after ops V (main_arg3 : DevRef τ sig) = V (main_arg3 : DevRef τ sig) :=
  after_of_writes_sub ops V ops_writes (by decide)
theorem arg4_eq (V : Valuation τ sig (Elt F)) : after ops V (main_arg4 : DevRef τ sig) = V (main_arg4 : DevRef τ sig) :=
  after_of_writes_sub ops V ops_writes (by decide)
theorem arg5_eq (V : Valuation τ sig (Elt F)) : after ops V (main_arg5 : DevRef τ sig) = V (main_arg5 : DevRef τ sig) :=
  after_of_writes_sub ops V ops_writes (by decide)
theorem arg6_eq (V : Valuation τ sig (Elt F)) : after ops V (main_arg6 : DevRef τ sig) = V (main_arg6 : DevRef τ sig) :=
  after_of_writes_sub ops V ops_writes (by decide)
theorem arg7_eq (V : Valuation τ sig (Elt F)) : after ops V (main_arg7 : DevRef τ sig) = V (main_arg7 : DevRef τ sig) :=
  after_of_writes_sub ops V ops_writes (by decide)
theorem arg8_eq (V : Valuation τ sig (Elt F)) : after ops V (main_arg8 : DevRef τ sig) = V (main_arg8 : DevRef τ sig) :=
  after_of_writes_sub ops V ops_writes (by decide)

/-! ## The frame -/

/-- The reference runs and its argument arrays end unchanged: the run's final contents are the fold's, which no
    operation of the line changes at an argument. -/
theorem frame : @Cert.frame_ReferenceIdeal Cert.ReferenceIdeal.Gen.facts Cert.Pre_finite_inputs.Gen.facts :=
  fun m ρ _ => (θ_run defs _ _).mono (fun r h c =>
    ⟨(h c main_arg0).trans (arg0_eq _),
     (h c main_arg1).trans (arg1_eq _),
     (h c main_arg2).trans (arg2_eq _),
     (h c main_arg3).trans (arg3_eq _),
     (h c main_arg4).trans (arg4_eq _),
     (h c main_arg5).trans (arg5_eq _),
     (h c main_arg6).trans (arg6_eq _),
     (h c main_arg7).trans (arg7_eq _),
     (h c main_arg8).trans (arg8_eq _)⟩) (run_main m ρ)

end Cert.ReferenceIdeal.RefRun

end
-- ==== Proof.RefValue.lean ====
import proofs.«120388_j80376017977412_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the gathered rows, the gathered weights and the slot table

From the first expert matmul on, the reference is a pure function of ten arrays: the token rows gathered per
(expert, slot) `xg`, the routing weights gathered per slot `wg`, each slot's token index `tok` (the row one past the
tokens for an empty slot), the tokens `x` and the six weight arrays. It is the sum of the routed part — per slot the
gated MLP of the slot's row under its expert's weights, scaled by the slot's weight, scatter-added at the slot's token
row, the extra row dropped — and the shared gated MLP of every token. -/

/-- `h * (1 / (1 + exp (-h)))` elementwise, on the experts' hidden blocks. -/
def siluE (h : FVec F S64x384x1408 .f32) : FVec F S64x384x1408 .f32 :=
  mulf h (Host.divf (broadcastInDim S64x384x1408 ![] bcast_S_S64x384x1408 (constant S_ .f32 0x3F800000#32)) (addf (broadcastInDim S64x384x1408 ![] bcast_S_S64x384x1408 (constant S_ .f32 0x3F800000#32)) (Host.exp (Host.negf h))))

/-- `h * (1 / (1 + exp (-h)))` elementwise, on the shared hidden block. -/
def siluS (h : FVec F S2048x2816 .f32) : FVec F S2048x2816 .f32 :=
  mulf h (Host.divf (broadcastInDim S2048x2816 ![] bcast_S_S2048x2816 (constant S_ .f32 0x3F800000#32)) (addf (broadcastInDim S2048x2816 ![] bcast_S_S2048x2816 (constant S_ .f32 0x3F800000#32)) (Host.exp (Host.negf h))))

/-- Per expert and slot, the gated MLP of the slot's row: `(silu (xg · W1ᵀ) * (xg · W3ᵀ)) · W2ᵀ`, batched over the experts. -/
def expertRows (xg : FVec F S64x384x2048 .f32) (W1 : FVec F S64x1408x2048 .f32) (W2 : FVec F S64x2048x1408 .f32)
    (W3 : FVec F S64x1408x2048 .f32) : FVec F S64x384x2048 .f32 :=
  Host.dotGeneral dot_S64x384x1408_S64x2048x1408_S64x384x2048_2_2_1_1_0_0 none (mulf (siluE (Host.dotGeneral dot_S64x384x2048_S64x1408x2048_S64x384x1408_2_2_1_1_0_0 none xg W1)) (Host.dotGeneral dot_S64x384x2048_S64x1408x2048_S64x384x1408_2_2_1_1_0_0 none xg W3)) W2

/-- The routed part: the slots' rows scaled by their weights, scatter-added at their tokens' rows of a zero array with one
    extra row, that row dropped. -/
def routed (xg : FVec F S64x384x2048 .f32) (wg : FVec F S64x384 .f32) (tok : IVec S64x384 32)
    (W1 : FVec F S64x1408x2048 .f32) (W2 : FVec F S64x2048x1408 .f32) (W3 : FVec F S64x1408x2048 .f32) : FVec F S2048x2048 .f32 :=
  extractStridedSlice S2048x2048 ![0, 0] (Host.scatterAdd scatter_S2049x2048_S24576x1_S24576x2048_1_0_0_1 (broadcastInDim S2049x2048 ![] bcast_S_S2049x2048 (constant S_ .f32 0x00000000#32)) (broadcastInDim S24576x1 ![0] bcast_S24576_S24576x1_0 (shapeCast S24576 tok shapeCasts_S64x384_S24576)) (shapeCast S24576x2048 (mulf (expertRows xg W1 W2 W3) (broadcastInDim S64x384x2048 ![0, 1, 2] bcast_S64x384x1_S64x384x2048_0_1_2 (broadcastInDim S64x384x1 ![0, 1] bcast_S64x384_S64x384x1_0_1 wg))) shapeCasts_S64x384x2048_S24576x2048)) slices_S2049x2048_S2048x2048_0_0

/-- The shared part: `(silu (x · sw1ᵀ) * (x · sw3ᵀ)) · sw2ᵀ`. -/
def shared (x : FVec F S2048x2048 .f32) (sw1 : FVec F S2816x2048 .f32) (sw2 : FVec F S2048x2816 .f32)
    (sw3 : FVec F S2816x2048 .f32) : FVec F S2048x2048 .f32 :=
  Host.dotGeneral dot_S2048x2816_S2816x2048_S2048x2048_1_0_0_1_n_n none (mulf (siluS (Host.dotGeneral dot_S2048x2048_S2048x2816_S2048x2816_1_0_0_1_n_n none x (transpose S2048x2816 [1, 0] sw1 transposes_S2816x2048_S2048x2816_1_0))) (Host.dotGeneral dot_S2048x2048_S2048x2816_S2048x2816_1_0_0_1_n_n none x (transpose S2048x2816 [1, 0] sw3 transposes_S2816x2048_S2048x2816_1_0))) (transpose S2816x2048 [1, 0] sw2 transposes_S2048x2816_S2816x2048_1_0)

/-- The reference's result from the first expert matmul on, as one term of its ten operands. -/
def tail (xg : FVec F S64x384x2048 .f32) (wg : FVec F S64x384 .f32) (tok : IVec S64x384 32) (x : FVec F S2048x2048 .f32)
    (W1 : FVec F S64x1408x2048 .f32) (W2 : FVec F S64x2048x1408 .f32) (W3 : FVec F S64x1408x2048 .f32)
    (sw1 : FVec F S2816x2048 .f32) (sw2 : FVec F S2048x2816 .f32) (sw3 : FVec F S2816x2048 .f32) : FVec F S2048x2048 .f32 :=
  addf (routed xg wg tok W1 W2 W3) (shared x sw1 sw2 sw3)

/-! ## The fold at the result buffer -/

/-- The line cut where the expert matmuls begin. -/
theorem ops_cut : (ops : List (HloOp τ sig (Elt F))) = (ops0 ++ ops1a) ++ (ops1b ++ ops2) := by
  simp only [ops, List.append_assoc]

theorem pre_writes : (ops0 ++ ops1a : List (HloOp τ sig (Elt F))).Forall fun op =>
    op.writes ⊆ ((ops0_W ++ ops1a_W).map (Proc.devRef (τ := τ) .tc)).toFinset :=
  List.forall_append.mpr ⟨writes_mono (fun r h => List.mem_append_left _ h) ops0_writes,
    writes_mono (fun r h => List.mem_append_right _ h) ops1a_writes⟩

/-- The operations before the cut write no argument. -/
theorem pre_arg (V : Valuation τ sig (Elt F)) {r : Ref sig .tc} (h : r ∉ ops0_W ++ ops1a_W) :
    after (ops0 ++ ops1a) V (Proc.devRef .tc r) = V (Proc.devRef .tc r) :=
  after_of_writes_sub _ V pre_writes h

attribute [local irreducible] Host.gather Host.scatter Host.scatterAdd Host.sort2 in
set_option maxRecDepth 16384 in
set_option maxHeartbeats 4000000 in
/-- The result buffer's final contents are `tail` of the final contents of the gathered rows, the gathered weights and
    the slot table, and of the arguments: past the cut each operation's result at its own buffer is its function's value
    and at any other buffer what was there, the three intermediate buffers are not written again once computed, and the
    composed term is `tail`'s by unfolding. -/
theorem out_eq (V : Valuation τ sig (Elt F)) :
    after ops V (main_v100 : DevRef τ sig)
      = tail (after ops V (main_v67 : DevRef τ sig)) (after ops V (main_v82 : DevRef τ sig)) (after ops V (main_v58 : DevRef τ sig))
          (V (main_arg0 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  rw [ops_cut, after_append',
    ← pre_arg V (r := main_arg0) (by decide), ← pre_arg V (r := main_arg3) (by decide), ← pre_arg V (r := main_arg4) (by decide),
    ← pre_arg V (r := main_arg5) (by decide), ← pre_arg V (r := main_arg6) (by decide), ← pre_arg V (r := main_arg7) (by decide),
    ← pre_arg V (r := main_arg8) (by decide)]
  generalize after (ops0 ++ ops1a) V = W
  rw [after_append']
  after_results_simp
  rfl

end Cert.ReferenceIdeal.RefRun

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«120388_j80376017977412_2_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.LibDotBatchedNT.lean ====
/-
  A batched matrix product against a transposed right factor, read at an index at the exact extended reals: a
  general lemma.

  The einsum `'bmk,bnk->bmn'`: with dimension numbers that take axis 0 of both factors as the batch axis and contract
  axis 2 of a `[B, M, K]` left factor with axis 2 of a `[B, N, K]` right factor (the result `[B, M, N]`), entry
  `(b, p, q)` of the host's product is the sum over `e` of `lhs (b, p, e) * rhs (b, q, e)`: within batch member
  `b`, row `p` of the left factor against row `q` of the right one.  Generic in the four extents.
-/
import Idealize.ShloMosaic.PureOps.Ideal
import Idealize.ShloMosaic.PureOps.Ideal.Laws
import Idealize.ShloMosaic.Lib.ValueIdx

noncomputable section

namespace Cert.LibDotBatchedNT

open Idealize.ShloMosaic Idealize.ShloMosaic.ValueIdx

variable {B M N K : ℕ}

/-- The dimension numbers "within each batch member, rows against rows": batch axis 0 of each factor, contract
    axis 2 with axis 2, keep axis 1 of each factor. -/
abbrev dims (wf : DotDims.WF (⟨3, ![B, M, K]⟩ : Shape) (⟨3, ![B, N, K]⟩ : Shape) (⟨3, ![B, M, N]⟩ : Shape) [2] [2] [1] [1] [0] [0]) :
    DotDims (⟨3, ![B, M, K]⟩ : Shape) (⟨3, ![B, N, K]⟩ : Shape) (⟨3, ![B, M, N]⟩ : Shape) where
  lhsContracting := [2]
  rhsContracting := [2]
  lhsNonContracting := [1]
  rhsNonContracting := [1]
  lhsBatch := [0]
  rhsBatch := [0]
  wf := wf

variable (wf : DotDims.WF (⟨3, ![B, M, K]⟩ : Shape) (⟨3, ![B, N, K]⟩ : Shape) (⟨3, ![B, M, N]⟩ : Shape) [2] [2] [1] [1] [0] [0])

/-- The left index keeps the result's batch coordinate on its batch axis. -/
theorem lhsIdx_batch (j : (⟨3, ![B, M, N]⟩ : Shape).Idx) (k : (dims wf).contr.Idx) :
    ((dims wf).lhsIdx j k 0).val = (j 0).val := by
  unfold DotDims.lhsIdx
  rw [dif_pos (show (0 : Fin (⟨3, ![B, M, K]⟩ : Shape).rank) ∈ (dims wf).lhsBatch from List.mem_singleton.mpr rfl)]
  rfl

/-- The left index keeps the result's row coordinate on its row axis. -/
theorem lhsIdx_row (j : (⟨3, ![B, M, N]⟩ : Shape).Idx) (k : (dims wf).contr.Idx) :
    ((dims wf).lhsIdx j k 1).val = (j 1).val := by
  unfold DotDims.lhsIdx
  rw [dif_neg (show ¬(1 : Fin (⟨3, ![B, M, K]⟩ : Shape).rank) ∈ (dims wf).lhsBatch from
      fun h => Nat.one_ne_zero (congrArg Fin.val (List.mem_singleton.mp h))),
    dif_pos (show (1 : Fin (⟨3, ![B, M, K]⟩ : Shape).rank) ∈ (dims wf).lhsNonContracting from List.mem_singleton.mpr rfl)]
  rfl

/-- The right index keeps the result's batch coordinate on its batch axis. -/
theorem rhsIdx_batch (j : (⟨3, ![B, M, N]⟩ : Shape).Idx) (k : (dims wf).contr.Idx) :
    ((dims wf).rhsIdx j k 0).val = (j 0).val := by
  unfold DotDims.rhsIdx
  rw [dif_pos (show (0 : Fin (⟨3, ![B, N, K]⟩ : Shape).rank) ∈ (dims wf).rhsBatch from List.mem_singleton.mpr rfl)]
  rfl

/-- The right index puts the result's column coordinate on its row axis. -/
theorem rhsIdx_row (j : (⟨3, ![B, M, N]⟩ : Shape).Idx) (k : (dims wf).contr.Idx) :
    ((dims wf).rhsIdx j k 1).val = (j 2).val := by
  unfold DotDims.rhsIdx
  rw [dif_neg (show ¬(1 : Fin (⟨3, ![B, N, K]⟩ : Shape).rank) ∈ (dims wf).rhsBatch from
      fun h => Nat.one_ne_zero (congrArg Fin.val (List.mem_singleton.mp h))),
    dif_pos (show (1 : Fin (⟨3, ![B, N, K]⟩ : Shape).rank) ∈ (dims wf).rhsNonContracting from List.mem_singleton.mpr rfl)]
  rfl

/-- The left index at result `(b, p, q)` and contraction position `e` is `(b, p, e)`. -/
theorem lhsIdx_eq (b : Fin B) (p : Fin M) (q : Fin N) (e : Fin K) :
    (dims wf).lhsIdx (ix3 b p q) ((contrEquiv1 (dims wf) K rfl rfl).symm e) = ix3 b p e := by
  have he := contrEquiv1_symm_val (dims wf) K rfl rfl e
  funext a
  apply Fin.ext
  match a with
  | ⟨0, _⟩ => exact lhsIdx_batch wf _ _
  | ⟨1, _⟩ => exact lhsIdx_row wf _ _
  | ⟨2, _⟩ => exact ((dims wf).lhsIdx_val_of_single rfl _ _).trans he

/-- The right index at result `(b, p, q)` and contraction position `e` is `(b, q, e)`. -/
theorem rhsIdx_eq (b : Fin B) (p : Fin M) (q : Fin N) (e : Fin K) :
    (dims wf).rhsIdx (ix3 b p q) ((contrEquiv1 (dims wf) K rfl rfl).symm e) = ix3 b q e := by
  have he := contrEquiv1_symm_val (dims wf) K rfl rfl e
  funext a
  apply Fin.ext
  match a with
  | ⟨0, _⟩ => exact rhsIdx_batch wf _ _
  | ⟨1, _⟩ => exact rhsIdx_row wf _ _
  | ⟨2, _⟩ => exact ((dims wf).rhsIdx_val_of_single rfl _ _).trans he

/-- Entry `(b, p, q)` of the host's batched product: within batch member `b`, row `p` of `lhs` against row `q`
    of `rhs`. -/
theorem dotGeneral_apply {φ₁ φ₂ : FTy} (prec : Option ContractPrecision)
    (lhs : FVec Ideal (⟨3, ![B, M, K]⟩ : Shape) φ₁) (rhs : FVec Ideal (⟨3, ![B, N, K]⟩ : Shape) φ₂)
    (b : Fin B) (p : Fin M) (q : Fin N) :
    Host.dotGeneral (F := Ideal) (dims wf) prec lhs rhs (ix3 b p q)
      = ∑ e : Fin K, lhs (ix3 b p e) * rhs (ix3 b q e) := by
  unfold Host.dotGeneral
  rw [Ideal.dotGeneral_apply, ← Equiv.sum_comp (contrEquiv1 (dims wf) K rfl rfl).symm]
  refine Finset.sum_congr rfl fun e _ => ?_
  rw [lhsIdx_eq wf b p q e, rhsIdx_eq wf b p q e]

end Cert.LibDotBatchedNT

end
-- ==== Proof.LibSilu.lean ====
/-
  The SiLU activation, written two ways, is one function on the extended reals: a general lemma.

  SiLU is `x * sigmoid x`, with `sigmoid x = 1 / (1 + exp (-x))`.  A kernel writes the sigmoid as ONE operation
  (the logistic function) and multiplies; a host program spells it out: negate, exponential, add one, divide one
  by the sum, multiply.  At the exact extended reals the logistic function IS that expression (with its values
  `0` at `-inf` and `1` at `+inf`), so the two arrays agree entry by entry, at every extended real, infinite
  entries included.  The two arrays of ones may be any arrays whose every entry is `1` (a splat constant, a
  broadcast rank-0 constant).
-/
import Idealize.ShloMosaic.PureOps.Ideal
import Idealize.ShloMosaic.PureOps.Ideal.Laws

noncomputable section

namespace Cert.LibSilu

open Idealize.ShloMosaic

/-- The single-precision pattern of `1.0` denotes the real number one. -/
theorem ofBits_one : Ideal.ofBits .f32 0x3F800000#32 = 1 := by
  simp [Ideal.ofBits, Ideal.ieee, -EReal.coe_mul]; norm_num

/-- Every entry of the splat constant `1.0` is one. -/
theorem constant_one_apply {s : Shape} (i : s.Idx) : constant (F := Ideal) s .f32 0x3F800000#32 i = 1 := ofBits_one

/-- The sigmoid spelt out on the host — one divided by (one plus the exponential of the negation) — is the logistic
    function, entry by entry. -/
theorem host_sigmoid_eq_logistic {s : Shape} (one one' x : FVec Ideal s .f32)
    (h1 : ∀ i, one i = 1) (h1' : ∀ i, one' i = 1) :
    Host.divf one' (addf one (Host.exp (Host.negf x))) = logistic x := by
  funext i
  show FloatOps.hostDivf (one' i) (FloatOps.addf (one i) (FloatOps.hostUnary .exp (FloatOps.hostNegf (x i))))
    = FloatOps.logistic (x i)
  rw [h1 i, h1' i]
  rfl

/-- SiLU with the sigmoid spelt out on the host is SiLU through the logistic function. -/
theorem host_silu_eq {s : Shape} (one one' x : FVec Ideal s .f32) (h1 : ∀ i, one i = 1) (h1' : ∀ i, one' i = 1) :
    mulf x (Host.divf one' (addf one (Host.exp (Host.negf x)))) = mulf x (logistic x) := by
  rw [host_sigmoid_eq_logistic one one' x h1 h1']

/-- One entry of SiLU through the logistic function: `x * (1 / (1 + exp (-x)))` on the extended reals. -/
theorem silu_apply {s : Shape} (x : FVec Ideal s .f32) (i : s.Idx) :
    mulf x (logistic x) i = x i * Ideal.logistic (x i) := rfl

end Cert.LibSilu

end
-- ==== Proof.RefSpec.lean ====
/-
  The reference's float tail read at an index, at the exact extended reals.

  Its shared-expert branch is `(silu (x · sw1ᵀ) * (x · sw3ᵀ)) · sw2ᵀ` with the transposes spelt out and the sigmoid
  spelt as negate, exponential, add one, divide: entry `(r, d)` is the sum over the 2816 hidden units of
  `hidden (r, n) * sw2 (d, n)`.  Its routed branch's rows are the batched products of the gathered tokens with the
  experts' projections, gated the same way, times the routing weight: entry `(e, p, d)` is the sum over the
  1408 hidden units of `hidden (e, p, n) * W2 (e, d, n)`, times `wg (e, p)`.
-/
import proofs.«120388_j80376017977412_2_alg».proof.Proof.RefValue
import proofs.«120388_j80376017977412_2_alg».proof.Proof.KI.Val0
import proofs.«120388_j80376017977412_2_alg».proof.Proof.KI.Val1
import proofs.«120388_j80376017977412_2_alg».proof.Proof.LibDotNN
import proofs.«120388_j80376017977412_2_alg».proof.Proof.LibDotBatchedNT
import proofs.«120388_j80376017977412_2_alg».proof.Proof.LibSilu
import Idealize.ShloMosaic.Lib.ValueLayout
import Idealize.ShloMosaic.Lib.Pipeline.Value

noncomputable section

namespace Cert.RefSpec

open Idealize.ShloMosaic Idealize.ShloMosaic.ValueIdx
open Cert.ReferenceIdeal Cert.ReferenceIdeal.Gen Cert.ReferenceIdeal.RefRun

/-- A rank-0 constant `1.0` broadcast to any shape is one everywhere. -/
theorem bcast_one {s : Shape} (h : (⟨0, ![]⟩ : Shape).BroadcastsInDim s ![]) (i : s.Idx) :
    broadcastInDim s ![] h (constant (F := Ideal) (⟨0, ![]⟩ : Shape) .f32 0x3F800000#32) i = 1 := by
  unfold broadcastInDim
  exact LibSilu.ofBits_one

/-- The shared-expert branch at `(r, d)`. -/
theorem shared_apply (x : FVec Ideal S2048x2048 .f32) (sw1 : FVec Ideal S2816x2048 .f32) (sw2 : FVec Ideal S2048x2816 .f32)
    (sw3 : FVec Ideal S2816x2048 .f32) (r d : Fin 2048) :
    shared (F := Ideal) x sw1 sw2 sw3 (ix2 r d)
      = ∑ n : Fin 2816, Cert.KernelIdeal.Val1.hid x sw1 sw3 r n * sw2 (ix2 d n) := by
  unfold shared
  refine (LibDotNN.dotGeneral_apply dot_S2048x2816_S2816x2048_S2048x2048_1_0_0_1_n_n_wf none .single _ _ r d).trans ?_
  refine Finset.sum_congr rfl fun n _ => ?_
  have hA : ∀ (w : FVec Ideal S2816x2048 .f32),
      Host.dotGeneral (F := Ideal) dot_S2048x2048_S2048x2816_S2048x2816_1_0_0_1_n_n none x (transpose S2048x2816 [1, 0] w transposes_S2816x2048_S2048x2816_1_0) (ix2 r n)
        = Cert.KernelIdeal.Val1.dotAll x w r n := fun w =>
    (LibDotNN.dotGeneral_apply dot_S2048x2048_S2048x2816_S2048x2816_1_0_0_1_n_n_wf none .single _ _ r n).trans
      (Finset.sum_congr rfl fun q _ => congrArg (x (ix2 r q) * ·) (transpose_ix2_apply w _ q n))
  have hT : transpose S2816x2048 [1, 0] sw2 transposes_S2048x2816_S2816x2048_1_0 (ix2 n d) = sw2 (ix2 d n) :=
    transpose_ix2_apply sw2 _ n d
  rw [hT]
  refine congrArg (· * sw2 (ix2 d n)) ?_
  show (siluS (F := Ideal) _ (ix2 r n)) * _ = _
  unfold siluS
  rw [LibSilu.host_silu_eq _ _ _ (fun i => bcast_one _ i) (fun i => bcast_one _ i), LibSilu.silu_apply, hA sw1, hA sw3]
  rfl

/-- The routed branch's rows (before the scatter) at `(e, p, d)`. -/
theorem rows_apply (xg : FVec Ideal S64x384x2048 .f32) (wg : FVec Ideal S64x384 .f32)
    (W1 : FVec Ideal S64x1408x2048 .f32) (W2 : FVec Ideal S64x2048x1408 .f32) (W3 : FVec Ideal S64x1408x2048 .f32)
    (e : Fin 64) (p : Fin 384) (d : Fin 2048) :
    mulf (expertRows (F := Ideal) xg W1 W2 W3)
        (broadcastInDim S64x384x2048 ![0, 1, 2] bcast_S64x384x1_S64x384x2048_0_1_2 (broadcastInDim S64x384x1 ![0, 1] bcast_S64x384_S64x384x1_0_1 wg))
        (ix3 e p d)
      = (∑ n : Fin 1408, Cert.KernelIdeal.Val0.hid xg W1 W3 e p n * W2 (ix3 e d n)) * wg (ix2 e p) := by
  show expertRows (F := Ideal) xg W1 W2 W3 (ix3 e p d) * _ = _
  have hw : broadcastInDim S64x384x2048 ![0, 1, 2] bcast_S64x384x1_S64x384x2048_0_1_2 (broadcastInDim S64x384x1 ![0, 1] bcast_S64x384_S64x384x1_0_1 wg) (ix3 e p d) = wg (ix2 e p) := by
    refine (broadcastInDim_apply _ _ _ (ix3 e p d) (ix3 e p (0 : Fin 1)) fun a => ?_).trans ?_
    · match a with
      | ⟨0, _⟩ => rfl
      | ⟨1, _⟩ => rfl
      | ⟨2, _⟩ => rfl
    · refine broadcastInDim_apply _ _ _ (ix3 e p (0 : Fin 1)) (ix2 e p) fun a => ?_
      match a with
      | ⟨0, _⟩ => rfl
      | ⟨1, _⟩ => rfl
  rw [hw]
  refine congrArg (· * wg (ix2 e p)) ?_
  unfold expertRows
  refine (LibDotBatchedNT.dotGeneral_apply dot_S64x384x1408_S64x2048x1408_S64x384x2048_2_2_1_1_0_0_wf none _ _ e p d).trans ?_
  refine Finset.sum_congr rfl fun n _ => ?_
  refine congrArg (· * W2 (ix3 e d n)) ?_
  have hA : ∀ (w : FVec Ideal S64x1408x2048 .f32),
      Host.dotGeneral (F := Ideal) dot_S64x384x2048_S64x1408x2048_S64x384x1408_2_2_1_1_0_0 none xg w (ix3 e p n)
        = Cert.KernelIdeal.Val0.dotAll xg w e p n := fun w =>
    LibDotBatchedNT.dotGeneral_apply dot_S64x384x2048_S64x1408x2048_S64x384x1408_2_2_1_1_0_0_wf none xg w e p n
  show (siluE (F := Ideal) _ (ix3 e p n)) * _ = _
  unfold siluE
  rw [LibSilu.host_silu_eq _ _ _ (fun i => bcast_one _ i) (fun i => bcast_one _ i), LibSilu.silu_apply, hA W1, hA W3]
  rfl

end Cert.RefSpec

end
-- ==== Proof.Bridge.lean ====
/-
  The two programs compute one function.  Given the same gathered tokens, routing weights and token ids, the
  reference's float tail — the routed experts' weighted rows scattered onto their tokens, plus the shared expert —
  is the kernel program's result: the kernel's first region produces exactly the reference's weighted rows (the
  blocked sums over 1408 hidden units are the whole sums), the scatter-add between the regions is the reference's,
  and the second region adds the shared expert's output (again a blocked sum equal to the whole one) to it;
  addition on the extended reals commutes.
-/
import proofs.«120388_j80376017977412_2_alg».proof.Proof.KI.KVal
import proofs.«120388_j80376017977412_2_alg».proof.Proof.RefSpec

set_option maxRecDepth 16384

noncomputable section

namespace Cert.Bridge

open Idealize.ShloMosaic Idealize.ShloMosaic.ValueIdx
open Cert.KernelIdeal Cert.KernelIdeal.Gen

/-- The first region's array is the reference's weighted expert rows. -/
theorem rows_eq (xg : FVec Ideal S64x384x2048 .f32) (wg2 : FVec Ideal S64x384 .f32)
    (W1 : FVec Ideal S64x1408x2048 .f32) (W2 : FVec Ideal S64x2048x1408 .f32) (W3 : FVec Ideal S64x1408x2048 .f32) :
    Val0.G0 xg W1 W3 W2 (broadcastInDim S64x384x1 ![0, 1] bcast_S64x384_S64x384x1_0_1 wg2)
      = mulf (Cert.ReferenceIdeal.RefRun.expertRows (F := Ideal) xg W1 W2 W3)
          (broadcastInDim Cert.ReferenceIdeal.S64x384x2048 ![0, 1, 2] Cert.ReferenceIdeal.Gen.bcast_S64x384x1_S64x384x2048_0_1_2
            (broadcastInDim Cert.ReferenceIdeal.S64x384x1 ![0, 1] Cert.ReferenceIdeal.Gen.bcast_S64x384_S64x384x1_0_1 wg2)) := by
  funext i
  obtain ⟨e, p, d, rfl⟩ : ∃ (e : Fin 64) (p : Fin 384) (d : Fin 2048), i = ix3 e p d := ⟨i 0, i 1, i 2, eq_ix3 i⟩
  rw [RefSpec.rows_apply]
  show Val0.rows _ _ _ _ _ e p d = _
  unfold Val0.rows
  refine congrArg (_ * ·) ?_
  refine broadcastInDim_apply _ _ _ (ix3 e p (0 : Fin 1)) (ix2 e p) fun a => ?_
  match a with
  | ⟨0, _⟩ => rfl
  | ⟨1, _⟩ => rfl

attribute [local irreducible] Host.scatterAdd in
/-- The host stretch between the regions is the reference's scatter-add. -/
theorem routed_eq (xg : FVec Ideal S64x384x2048 .f32) (wg2 : FVec Ideal S64x384 .f32) (tok : IVec S64x384 32)
    (W1 : FVec Ideal S64x1408x2048 .f32) (W2 : FVec Ideal S64x2048x1408 .f32) (W3 : FVec Ideal S64x1408x2048 .f32) :
    KVal.routedK (Val0.G0 xg W1 W3 W2 (broadcastInDim S64x384x1 ![0, 1] bcast_S64x384_S64x384x1_0_1 wg2)) tok
      = Cert.ReferenceIdeal.RefRun.routed (F := Ideal) xg wg2 tok W1 W2 W3 := by
  rw [rows_eq]
  rfl

/-- THE BRIDGE: the reference's float tail is the kernel program's result expression. -/
theorem tail_eq (xg : FVec Ideal S64x384x2048 .f32) (wg2 : FVec Ideal S64x384 .f32) (tok : IVec S64x384 32)
    (x : FVec Ideal S2048x2048 .f32) (W1 : FVec Ideal S64x1408x2048 .f32) (W2 : FVec Ideal S64x2048x1408 .f32)
    (W3 : FVec Ideal S64x1408x2048 .f32) (sw1 : FVec Ideal S2816x2048 .f32) (sw2 : FVec Ideal S2048x2816 .f32)
    (sw3 : FVec Ideal S2816x2048 .f32) :
    Cert.ReferenceIdeal.RefRun.tail (F := Ideal) xg wg2 tok x W1 W2 W3 sw1 sw2 sw3
      = Val1.G1 x sw1 sw3 sw2
          (KVal.routedK (Val0.G0 xg W1 W3 W2 (broadcastInDim S64x384x1 ![0, 1] bcast_S64x384_S64x384x1_0_1 wg2)) tok) := by
  rw [routed_eq]
  funext i
  obtain ⟨r, d, rfl⟩ : ∃ (r d : Fin 2048), i = ix2 r d := ⟨i 0, i 1, eq_ix2 i⟩
  show Cert.ReferenceIdeal.RefRun.routed (F := Ideal) xg wg2 tok W1 W2 W3 (ix2 r d)
      + Cert.ReferenceIdeal.RefRun.shared (F := Ideal) x sw1 sw2 sw3 (ix2 r d) = Val1.outAt _ _ _ _ _ r d
  rw [RefSpec.shared_apply]
  unfold Val1.outAt
  exact add_comm _ _

end Cert.Bridge

end
-- ==== Proof.GlueStages.lean ====
import proofs.«120388_j80376017977412_2_alg».proof.Proof.RefRun
import proofs.«120388_j80376017977412_2_alg».proof.Proof.Gen.KernelIdeal.Regions

set_option maxRecDepth 16384

noncomputable section

namespace Cert.Glue

open Idealize.ShloMosaic Idealize.ShloMosaic.TcCoe Idealize.SL.Sem Idealize.ShloMosaic.StableHlo

variable {F : FTy → Type} [FloatOps F]

/-! ## The shared glue, stretch by stretch

Before its first kernel the kernel program runs, line for line, the operations the reference runs up to the gather of the
token rows and the gather of the routing weights: the same pure functions over buffers of its own. Stretch by stretch
(the kernel program's host stretches), if the two programs' buffers agree where both still read them on entry, they
agree on exit: on each side a written buffer's contents are its operation's function of the operands' contents, the
functions are the same, and the operands agree by hypothesis or were computed alike earlier in the stretch. -/

namespace R
open Cert.ReferenceIdeal Cert.ReferenceIdeal.Gen Cert.ReferenceIdeal.RefRun

/-- The reference's operations matching the kernel program's host stretch 0. -/
abbrev r0 : List (HloOp τ sig (Elt F)) :=
  [ reshape main_arg2 main_v0 rfl shapeCasts_S2048x6_S12288,
    nullary main_v1 (iotaInDim S12288 32 0),
    nullary main_c (constantI S_ 32 6#32) ]

/-- The reference's operations matching the kernel program's host stretch 1. -/
abbrev r1 : List (HloOp τ sig (Elt F)) :=
  [ TRef.unary (.of main_c : TRef sig ⟨S_, .i32⟩) main_call0.v0 id,
    TRef.unary main_call0.v0 main_call0.v1 (broadcastInDim S12288 ![] bcast_S_S12288),
    TRef.binary (.of main_v1 : TRef sig ⟨S12288, .i32⟩) main_call0.v1 main_call0.v2 Host.divsi,
    TRef.unary (.of main_v1 : TRef sig ⟨S12288, .i32⟩) main_call0.v3 signi,
    TRef.unary main_call0.v0 main_call0.v4 signi,
    TRef.unary main_call0.v4 main_call0.v5 (broadcastInDim S12288 ![] bcast_S_S12288),
    TRef.binary main_call0.v3 main_call0.v5 main_call0.v6 (cmpi .ne),
    TRef.unary main_call0.v0 main_call0.v7 (broadcastInDim S12288 ![] bcast_S_S12288),
    TRef.binary (.of main_v1 : TRef sig ⟨S12288, .i32⟩) main_call0.v7 main_call0.v8 Host.remsi,
    TRef.nullary main_call0.c (constantI S_ 32 0#32),
    TRef.unary main_call0.c main_call0.v9 (broadcastInDim S12288 ![] bcast_S_S12288),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S12288 ![] bcast_S_S12288),
    TRef.binary main_call0.v2 main_call0.v12 main_call0.v13 subi,
    TRef.ternary main_call0.v11 main_call0.v13 main_call0.v2 main_call0.call0.v0 select ]

/-- The reference's operations matching the kernel program's host stretch 2. -/
abbrev r2 : List (HloOp τ sig (Elt F)) :=
  [ TRef.nullary main_call1.v0 (iotaInDim S12288 32 0),
    TRef.binary (.of main_v0 : TRef sig ⟨S12288, .i32⟩) main_call1.v0 main_call1.v1_0 (fun x y => (Host.sort2 S12288 0 comparator_i32_i32_d0 x y).1),
    TRef.binary (.of main_v0 : TRef sig ⟨S12288, .i32⟩) main_call1.v0 main_call1.v1_1 (fun x y => (Host.sort2 S12288 0 comparator_i32_i32_d0 x y).2) ]

/-- The reference's operations matching the kernel program's host stretch 3. -/
abbrev r3 : List (HloOp τ sig (Elt F)) :=
  [ nullary main_c_0 (constantI S_ 32 0#32),
    unary main_c_0 main_v4 (broadcastInDim S12288 ![] bcast_S_S12288 : (⟨S_, .i32⟩ : BufTy).Contents (Elt F) → (⟨S12288, .i32⟩ : BufTy).Contents (Elt F)),
    binary main_v3 main_v4 main_v5 (cmpi .slt : (⟨S12288, .i32⟩ : BufTy).Contents (Elt F) → (⟨S12288, .i32⟩ : BufTy).Contents (Elt F) → (⟨S12288, .i1⟩ : BufTy).Contents (Elt F)),
    nullary main_c_1 (constantI S_ 32 12288#32),
    unary main_c_1 main_v6 (broadcastInDim S12288 ![] bcast_S_S12288 : (⟨S_, .i32⟩ : BufTy).Contents (Elt F) → (⟨S12288, .i32⟩ : BufTy).Contents (Elt F)),
    binary main_v3 main_v6 main_v7 (addi : (⟨S12288, .i32⟩ : BufTy).Contents (Elt F) → (⟨S12288, .i32⟩ : BufTy).Contents (Elt F) → (⟨S12288, .i32⟩ : BufTy).Contents (Elt F)),
    ternary main_v5 main_v7 main_v3 main_v8 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v8 main_v9 (broadcastInDim S12288x1 ![0] bcast_S12288_S12288x1_0 : (⟨S12288, .i32⟩ : BufTy).Contents (Elt F) → (⟨S12288x1, .i32⟩ : BufTy).Contents (Elt F)),
    binary main_v0 main_v9 main_v10 ((fun x i => Host.gather gather_S12288_S12288x1_S12288_n_0_n_n_0_1_1 x i) : (⟨S12288, .i32⟩ : BufTy).Contents (Elt F) → (⟨S12288x1, .i32⟩ : BufTy).Contents (Elt F) → (⟨S12288, .i32⟩ : BufTy).Contents (Elt F)),
    nullary main_c_2 (constantI S_ 32 0#32),
    unary main_c_2 main_v11 (broadcastInDim S64 ![] bcast_S_S64 : (⟨S_, .i32⟩ : BufTy).Contents (Elt F) → (⟨S64, .i32⟩ : BufTy).Contents (Elt F)),
    nullary main_c_3 (constantI S_ 32 0#32) ]

/-- The reference's operations matching the kernel program's host stretch 4. -/
abbrev r4 : List (HloOp τ sig (Elt F)) :=
  [ TRef.unary (.of main_c_3 : TRef sig ⟨S_, .i32⟩) main_call2.v0 id,
    TRef.unary main_call2.v0 main_call2.v1 (broadcastInDim S12288 ![] bcast_S_S12288),
    TRef.binary main_call2.v1 (.of main_v0 : TRef sig ⟨S12288, .i32⟩) main_call2.v2 maxsi ]

/-- The reference's operations matching the kernel program's host stretch 5. -/
abbrev r5 : List (HloOp τ sig (Elt F)) :=
  [ nullary main_c_4 (constantI S_ 32 0#32),
    unary main_c_4 main_v13 (broadcastInDim S12288 ![] bcast_S_S12288 : (⟨S_, .i32⟩ : BufTy).Contents (Elt F) → (⟨S12288, .i32⟩ : BufTy).Contents (Elt F)),
    binary main_v12 main_v13 main_v14 (cmpi .slt : (⟨S12288, .i32⟩ : BufTy).Contents (Elt F) → (⟨S12288, .i32⟩ : BufTy).Contents (Elt F) → (⟨S12288, .i1⟩ : BufTy).Contents (Elt F)),
    nullary main_c_5 (constantI S_ 32 64#32),
    unary main_c_5 main_v15 (broadcastInDim S12288 ![] bcast_S_S12288 : (⟨S_, .i32⟩ : BufTy).Contents (Elt F) → (⟨S12288, .i32⟩ : BufTy).Contents (Elt F)),
    binary main_v12 main_v15 main_v16 (addi : (⟨S12288, .i32⟩ : BufTy).Contents (Elt F) → (⟨S12288, .i32⟩ : BufTy).Contents (Elt F) → (⟨S12288, .i32⟩ : BufTy).Contents (Elt F)),
    ternary main_v14 main_v16 main_v12 main_v17 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v17 main_v18 (broadcastInDim S12288x1 ![0] bcast_S12288_S12288x1_0 : (⟨S12288, .i32⟩ : BufTy).Contents (Elt F) → (⟨S12288x1, .i32⟩ : BufTy).Contents (Elt F)),
    nullary main_c_6 (constantI S_ 32 1#32),
    unary main_c_6 main_v19 (broadcastInDim S12288 ![] bcast_S_S12288 : (⟨S_, .i32⟩ : BufTy).Contents (Elt F) → (⟨S12288, .i32⟩ : BufTy).Contents (Elt F)),
    ternary main_v11 main_v18 main_v19 main_v20 ((fun x i u => Host.scatter scatter_S64_S12288x1_S12288_n_0_0_1 IntOp.addi x i u) : (⟨S64, .i32⟩ : BufTy).Contents (Elt F) → (⟨S12288x1, .i32⟩ : BufTy).Contents (Elt F) → (⟨S12288, .i32⟩ : BufTy).Contents (Elt F) → (⟨S64, .i32⟩ : BufTy).Contents (Elt F)) ]

/-- The reference's operations matching the kernel program's host stretch 6. -/
abbrev r6 : List (HloOp τ sig (Elt F)) :=
  [ TRef.nullary main_call3.call0.c (constantI S_ 32 0#32),
    TRef.unary main_call3.call0.c main_call3.call0.v0 (broadcastInDim S_ ![] bcast_S_S_),
    TRef.binary (.of main_v20 : TRef sig ⟨S64, .i32⟩) main_call3.call0.v0 main_call3.call0.v1 (fun x v => Host.reduceWindow IntOp.addi ![64] ![1] ![63] ![0] x v reduceWindows_S64_S64_w64s1p63_0 h_S_) ]

/-- The reference's operations matching the kernel program's host stretch 7. -/
abbrev r7 : List (HloOp τ sig (Elt F)) :=
  [ binary main_v21 main_v20 main_v22 (subi : (⟨S64, .i32⟩ : BufTy).Contents (Elt F) → (⟨S64, .i32⟩ : BufTy).Contents (Elt F) → (⟨S64, .i32⟩ : BufTy).Contents (Elt F)),
    nullary main_v23 (iotaInDim S12288 32 0),
    nullary main_c_7 (constantI S_ 32 0#32),
    unary main_c_7 main_v24 (broadcastInDim S12288 ![] bcast_S_S12288 : (⟨S_, .i32⟩ : BufTy).Contents (Elt F) → (⟨S12288, .i32⟩ : BufTy).Contents (Elt F)),
    binary main_v10 main_v24 main_v25 (cmpi .slt : (⟨S12288, .i32⟩ : BufTy).Contents (Elt F) → (⟨S12288, .i32⟩ : BufTy).Contents (Elt F) → (⟨S12288, .i1⟩ : BufTy).Contents (Elt F)),
    nullary main_c_8 (constantI S_ 32 64#32),
    unary main_c_8 main_v26 (broadcastInDim S12288 ![] bcast_S_S12288 : (⟨S_, .i32⟩ : BufTy).Contents (Elt F) → (⟨S12288, .i32⟩ : BufTy).Contents (Elt F)),
    binary main_v10 main_v26 main_v27 (addi : (⟨S12288, .i32⟩ : BufTy).Contents (Elt F) → (⟨S12288, .i32⟩ : BufTy).Contents (Elt F) → (⟨S12288, .i32⟩ : BufTy).Contents (Elt F)),
    ternary main_v25 main_v27 main_v10 main_v28 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v28 main_v29 (broadcastInDim S12288x1 ![0] bcast_S12288_S12288x1_0 : (⟨S12288, .i32⟩ : BufTy).Contents (Elt F) → (⟨S12288x1, .i32⟩ : BufTy).Contents (Elt F)),
    binary main_v22 main_v29 main_v30 ((fun x i => Host.gather gather_S64_S12288x1_S12288_n_0_n_n_0_1_1 x i) : (⟨S64, .i32⟩ : BufTy).Contents (Elt F) → (⟨S12288x1, .i32⟩ : BufTy).Contents (Elt F) → (⟨S12288, .i32⟩ : BufTy).Contents (Elt F)),
    binary main_v23 main_v30 main_v31 (subi : (⟨S12288, .i32⟩ : BufTy).Contents (Elt F) → (⟨S12288, .i32⟩ : BufTy).Contents (Elt F) → (⟨S12288, .i32⟩ : BufTy).Contents (Elt F)),
    nullary main_c_9 (constantI S_ 32 384#32),
    unary main_c_9 main_v32 (broadcastInDim S12288 ![] bcast_S_S12288 : (⟨S_, .i32⟩ : BufTy).Contents (Elt F) → (⟨S12288, .i32⟩ : BufTy).Contents (Elt F)),
    binary main_v31 main_v32 main_v33 (cmpi .slt : (⟨S12288, .i32⟩ : BufTy).Contents (Elt F) → (⟨S12288, .i32⟩ : BufTy).Contents (Elt F) → (⟨S12288, .i1⟩ : BufTy).Contents (Elt F)),
    nullary main_c_10 (constantI S_ 32 384#32),
    unary main_c_10 main_v34 (broadcastInDim S12288 ![] bcast_S_S12288 : (⟨S_, .i32⟩ : BufTy).Contents (Elt F) → (⟨S12288, .i32⟩ : BufTy).Contents (Elt F)),
    binary main_v10 main_v34 main_v35 (muli : (⟨S12288, .i32⟩ : BufTy).Contents (Elt F) → (⟨S12288, .i32⟩ : BufTy).Contents (Elt F) → (⟨S12288, .i32⟩ : BufTy).Contents (Elt F)),
    binary main_v35 main_v31 main_v36 (addi : (⟨S12288, .i32⟩ : BufTy).Contents (Elt F) → (⟨S12288, .i32⟩ : BufTy).Contents (Elt F) → (⟨S12288, .i32⟩ : BufTy).Contents (Elt F)),
    nullary main_c_11 (constantI S_ 32 24576#32) ]

/-- The reference's operations matching the kernel program's host stretch 8. -/
abbrev r8 : List (HloOp τ sig (Elt F)) :=
  [ TRef.unary (.of main_c_11 : TRef sig ⟨S_, .i32⟩) main_call4.v0 id,
    TRef.unary main_call4.v0 main_call4.v1 (broadcastInDim S12288 ![] bcast_S_S12288),
    TRef.ternary (.of main_v33 : TRef sig ⟨S12288, .i1⟩) (.of main_v36 : TRef sig ⟨S12288, .i32⟩) main_call4.v1 main_call4.v2 select ]

/-- The reference's operations matching the kernel program's host stretch 9. -/
abbrev r9 : List (HloOp τ sig (Elt F)) :=
  [ nullary main_c_12 (constantI S_ 32 12288#32),
    unary main_c_12 main_v38 (broadcastInDim S24577 ![] bcast_S_S24577 : (⟨S_, .i32⟩ : BufTy).Contents (Elt F) → (⟨S24577, .i32⟩ : BufTy).Contents (Elt F)),
    nullary main_c_13 (constantI S_ 32 0#32),
    unary main_c_13 main_v39 (broadcastInDim S12288 ![] bcast_S_S12288 : (⟨S_, .i32⟩ : BufTy).Contents (Elt F) → (⟨S12288, .i32⟩ : BufTy).Contents (Elt F)),
    binary main_v37 main_v39 main_v40 (cmpi .slt : (⟨S12288, .i32⟩ : BufTy).Contents (Elt F) → (⟨S12288, .i32⟩ : BufTy).Contents (Elt F) → (⟨S12288, .i1⟩ : BufTy).Contents (Elt F)),
    nullary main_c_14 (constantI S_ 32 24577#32),
    unary main_c_14 main_v41 (broadcastInDim S12288 ![] bcast_S_S12288 : (⟨S_, .i32⟩ : BufTy).Contents (Elt F) → (⟨S12288, .i32⟩ : BufTy).Contents (Elt F)),
    binary main_v37 main_v41 main_v42 (addi : (⟨S12288, .i32⟩ : BufTy).Contents (Elt F) → (⟨S12288, .i32⟩ : BufTy).Contents (Elt F) → (⟨S12288, .i32⟩ : BufTy).Contents (Elt F)),
    ternary main_v40 main_v42 main_v37 main_v43 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v43 main_v44 (broadcastInDim S12288x1 ![0] bcast_S12288_S12288x1_0 : (⟨S12288, .i32⟩ : BufTy).Contents (Elt F) → (⟨S12288x1, .i32⟩ : BufTy).Contents (Elt F)),
    ternary main_v38 main_v44 main_v3 main_v45 ((fun x i u => Host.scatter scatter_S24577_S12288x1_S12288_n_0_0_1 (fun _ b => b) x i u) : (⟨S24577, .i32⟩ : BufTy).Contents (Elt F) → (⟨S12288x1, .i32⟩ : BufTy).Contents (Elt F) → (⟨S12288, .i32⟩ : BufTy).Contents (Elt F) → (⟨S24577, .i32⟩ : BufTy).Contents (Elt F)),
    unary main_v45 main_v46 ((extractStridedSlice S24576 ![0] · slices_S24577_S24576_0) : (⟨S24577, .i32⟩ : BufTy).Contents (Elt F) → (⟨S24576, .i32⟩ : BufTy).Contents (Elt F)),
    reshape main_v46 main_v47 rfl shapeCasts_S24576_S64x384,
    nullary main_c_15 (constantI S_ 32 12288#32),
    unary main_c_15 main_v48 (broadcastInDim S64x384 ![] bcast_S_S64x384 : (⟨S_, .i32⟩ : BufTy).Contents (Elt F) → (⟨S64x384, .i32⟩ : BufTy).Contents (Elt F)),
    binary main_v47 main_v48 main_v49 (cmpi .slt : (⟨S64x384, .i32⟩ : BufTy).Contents (Elt F) → (⟨S64x384, .i32⟩ : BufTy).Contents (Elt F) → (⟨S64x384, .i1⟩ : BufTy).Contents (Elt F)),
    nullary main_c_16 (constantI S_ 32 0#32),
    nullary main_c_17 (constantI S_ 32 12287#32) ]

/-- The reference's operations matching the kernel program's host stretch 10. -/
abbrev r10 : List (HloOp τ sig (Elt F)) :=
  [ TRef.unary (.of main_c_16 : TRef sig ⟨S_, .i32⟩) main_call5.v0 id,
    TRef.unary main_call5.v0 main_call5.v1 (broadcastInDim S64x384 ![] bcast_S_S64x384),
    TRef.binary main_call5.v1 (.of main_v47 : TRef sig ⟨S64x384, .i32⟩) main_call5.v2 maxsi,
    TRef.unary (.of main_c_17 : TRef sig ⟨S_, .i32⟩) main_call5.v3 id,
    TRef.unary main_call5.v3 main_call5.v4 (broadcastInDim S64x384 ![] bcast_S_S64x384),
    TRef.binary main_call5.v4 main_call5.v2 main_call5.v5 minsi ]

/-- The reference's operations matching the kernel program's host stretch 11. -/
abbrev r11 : List (HloOp τ sig (Elt F)) :=
  [ nullary main_c_18 (constantI S_ 32 0#32),
    unary main_c_18 main_v51 (broadcastInDim S64x384 ![] bcast_S_S64x384 : (⟨S_, .i32⟩ : BufTy).Contents (Elt F) → (⟨S64x384, .i32⟩ : BufTy).Contents (Elt F)),
    binary main_v50 main_v51 main_v52 (cmpi .slt : (⟨S64x384, .i32⟩ : BufTy).Contents (Elt F) → (⟨S64x384, .i32⟩ : BufTy).Contents (Elt F) → (⟨S64x384, .i1⟩ : BufTy).Contents (Elt F)),
    nullary main_c_19 (constantI S_ 32 12288#32),
    unary main_c_19 main_v53 (broadcastInDim S64x384 ![] bcast_S_S64x384 : (⟨S_, .i32⟩ : BufTy).Contents (Elt F) → (⟨S64x384, .i32⟩ : BufTy).Contents (Elt F)),
    binary main_v50 main_v53 main_v54 (addi : (⟨S64x384, .i32⟩ : BufTy).Contents (Elt F) → (⟨S64x384, .i32⟩ : BufTy).Contents (Elt F) → (⟨S64x384, .i32⟩ : BufTy).Contents (Elt F)),
    ternary main_v52 main_v54 main_v50 main_v55 (select : (⟨S64x384, .i1⟩ : BufTy).Contents (Elt F) → (⟨S64x384, .i32⟩ : BufTy).Contents (Elt F) → (⟨S64x384, .i32⟩ : BufTy).Contents (Elt F) → (⟨S64x384, .i32⟩ : BufTy).Contents (Elt F)),
    unary main_v55 main_v56 (broadcastInDim S64x384x1 ![0, 1] bcast_S64x384_S64x384x1_0_1 : (⟨S64x384, .i32⟩ : BufTy).Contents (Elt F) → (⟨S64x384x1, .i32⟩ : BufTy).Contents (Elt F)),
    binary main_v2 main_v56 main_v57 ((fun x i => Host.gather gather_S12288_S64x384x1_S64x384_n_0_n_n_0_2_1 x i) : (⟨S12288, .i32⟩ : BufTy).Contents (Elt F) → (⟨S64x384x1, .i32⟩ : BufTy).Contents (Elt F) → (⟨S64x384, .i32⟩ : BufTy).Contents (Elt F)),
    nullary main_c_20 (constantI S_ 32 2048#32) ]

/-- The reference's operations matching the kernel program's host stretch 12. -/
abbrev r12 : List (HloOp τ sig (Elt F)) :=
  [ TRef.unary (.of main_c_20 : TRef sig ⟨S_, .i32⟩) main_call6.v0 id,
    TRef.unary main_call6.v0 main_call6.v1 (broadcastInDim S64x384 ![] bcast_S_S64x384),
    TRef.ternary (.of main_v49 : TRef sig ⟨S64x384, .i1⟩) (.of main_v57 : TRef sig ⟨S64x384, .i32⟩) main_call6.v1 main_call6.v2 select ]

/-- The reference's operations matching the kernel program's host stretch 13 (and every operation after it). -/
abbrev r13 : List (HloOp τ sig (Elt F)) :=
  [ nullary main_cst (constant S_ .f32 0x00000000#32),
    unary main_cst main_v59 (broadcastInDim S1x2048 ![] bcast_S_S1x2048 : (⟨S_, .f32⟩ : BufTy).Contents (Elt F) → (⟨S1x2048, .f32⟩ : BufTy).Contents (Elt F)),
    binary main_arg0 main_v59 main_v60 ((fun a b => concatenate S2049x2048 0 [⟨S2048x2048, a⟩, ⟨S1x2048, b⟩] concatenates_S2048x2048_S1x2048_S2049x2048_d0) : (⟨S2048x2048, .f32⟩ : BufTy).Contents (Elt F) → (⟨S1x2048, .f32⟩ : BufTy).Contents (Elt F) → (⟨S2049x2048, .f32⟩ : BufTy).Contents (Elt F)),
    nullary main_c_21 (constantI S_ 32 0#32),
    unary main_c_21 main_v61 (broadcastInDim S64x384 ![] bcast_S_S64x384 : (⟨S_, .i32⟩ : BufTy).Contents (Elt F) → (⟨S64x384, .i32⟩ : BufTy).Contents (Elt F)),
    binary main_v58 main_v61 main_v62 (cmpi .slt : (⟨S64x384, .i32⟩ : BufTy).Contents (Elt F) → (⟨S64x384, .i32⟩ : BufTy).Contents (Elt F) → (⟨S64x384, .i1⟩ : BufTy).Contents (Elt F)),
    nullary main_c_22 (constantI S_ 32 2049#32),
    unary main_c_22 main_v63 (broadcastInDim S64x384 ![] bcast_S_S64x384 : (⟨S_, .i32⟩ : BufTy).Contents (Elt F) → (⟨S64x384, .i32⟩ : BufTy).Contents (Elt F)),
    binary main_v58 main_v63 main_v64 (addi : (⟨S64x384, .i32⟩ : BufTy).Contents (Elt F) → (⟨S64x384, .i32⟩ : BufTy).Contents (Elt F) → (⟨S64x384, .i32⟩ : BufTy).Contents (Elt F)),
    ternary main_v62 main_v64 main_v58 main_v65 (select : (⟨S64x384, .i1⟩ : BufTy).Contents (Elt F) → (⟨S64x384, .i32⟩ : BufTy).Contents (Elt F) → (⟨S64x384, .i32⟩ : BufTy).Contents (Elt F) → (⟨S64x384, .i32⟩ : BufTy).Contents (Elt F)),
    unary main_v65 main_v66 (broadcastInDim S64x384x1 ![0, 1] bcast_S64x384_S64x384x1_0_1 : (⟨S64x384, .i32⟩ : BufTy).Contents (Elt F) → (⟨S64x384x1, .i32⟩ : BufTy).Contents (Elt F)),
    binary main_v60 main_v66 main_v67 ((fun x i => Host.gather gather_S2049x2048_S64x384x1_S64x384x2048_2_0_n_n_0_2_12048 x i) : (⟨S2049x2048, .f32⟩ : BufTy).Contents (Elt F) → (⟨S64x384x1, .i32⟩ : BufTy).Contents (Elt F) → (⟨S64x384x2048, .f32⟩ : BufTy).Contents (Elt F)),
    binary main_v67 main_arg3 main_v68 ((fun l r => Host.dotGeneral dot_S64x384x2048_S64x1408x2048_S64x384x1408_2_2_1_1_0_0 none l r) : (⟨S64x384x2048, .f32⟩ : BufTy).Contents (Elt F) → (⟨S64x1408x2048, .f32⟩ : BufTy).Contents (Elt F) → (⟨S64x384x1408, .f32⟩ : BufTy).Contents (Elt F)),
    TRef.unary (.of main_v68 : TRef sig ⟨S64x384x1408, .f32⟩) main_call7.v0 Host.negf,
    TRef.unary main_call7.v0 main_call7.v1 Host.exp,
    TRef.nullary main_call7.cst (constant S_ .f32 0x3F800000#32),
    TRef.unary main_call7.cst main_call7.v2 (broadcastInDim S64x384x1408 ![] bcast_S_S64x384x1408),
    TRef.binary main_call7.v2 main_call7.v1 main_call7.v3 addf,
    TRef.nullary main_call7.cst_0 (constant S_ .f32 0x3F800000#32),
    TRef.unary main_call7.cst_0 main_call7.v4 (broadcastInDim S64x384x1408 ![] bcast_S_S64x384x1408),
    TRef.binary main_call7.v4 main_call7.v3 main_call7.v5 Host.divf,
    TRef.binary (.of main_v68 : TRef sig ⟨S64x384x1408, .f32⟩) main_call7.v5 main_call7.v6 mulf,
    binary main_v67 main_arg5 main_v70 ((fun l r => Host.dotGeneral dot_S64x384x2048_S64x1408x2048_S64x384x1408_2_2_1_1_0_0 none l r) : (⟨S64x384x2048, .f32⟩ : BufTy).Contents (Elt F) → (⟨S64x1408x2048, .f32⟩ : BufTy).Contents (Elt F) → (⟨S64x384x1408, .f32⟩ : BufTy).Contents (Elt F)),
    binary main_v69 main_v70 main_v71 (mulf : (⟨S64x384x1408, .f32⟩ : BufTy).Contents (Elt F) → (⟨S64x384x1408, .f32⟩ : BufTy).Contents (Elt F) → (⟨S64x384x1408, .f32⟩ : BufTy).Contents (Elt F)),
    binary main_v71 main_arg4 main_v72 ((fun l r => Host.dotGeneral dot_S64x384x1408_S64x2048x1408_S64x384x2048_2_2_1_1_0_0 none l r) : (⟨S64x384x1408, .f32⟩ : BufTy).Contents (Elt F) → (⟨S64x2048x1408, .f32⟩ : BufTy).Contents (Elt F) → (⟨S64x384x2048, .f32⟩ : BufTy).Contents (Elt F)),
    reshape main_arg1 main_v73 rfl shapeCasts_S2048x6_S12288,
    nullary main_cst_23 (constant S_ .f32 0x00000000#32),
    unary main_cst_23 main_v74 (broadcastInDim S1 ![] bcast_S_S1 : (⟨S_, .f32⟩ : BufTy).Contents (Elt F) → (⟨S1, .f32⟩ : BufTy).Contents (Elt F)),
    binary main_v73 main_v74 main_v75 ((fun a b => concatenate S12289 0 [⟨S12288, a⟩, ⟨S1, b⟩] concatenates_S12288_S1_S12289_d0) : (⟨S12288, .f32⟩ : BufTy).Contents (Elt F) → (⟨S1, .f32⟩ : BufTy).Contents (Elt F) → (⟨S12289, .f32⟩ : BufTy).Contents (Elt F)),
    nullary main_c_24 (constantI S_ 32 0#32),
    unary main_c_24 main_v76 (broadcastInDim S64x384 ![] bcast_S_S64x384 : (⟨S_, .i32⟩ : BufTy).Contents (Elt F) → (⟨S64x384, .i32⟩ : BufTy).Contents (Elt F)),
    binary main_v47 main_v76 main_v77 (cmpi .slt : (⟨S64x384, .i32⟩ : BufTy).Contents (Elt F) → (⟨S64x384, .i32⟩ : BufTy).Contents (Elt F) → (⟨S64x384, .i1⟩ : BufTy).Contents (Elt F)),
    nullary main_c_25 (constantI S_ 32 12289#32),
    unary main_c_25 main_v78 (broadcastInDim S64x384 ![] bcast_S_S64x384 : (⟨S_, .i32⟩ : BufTy).Contents (Elt F) → (⟨S64x384, .i32⟩ : BufTy).Contents (Elt F)),
    binary main_v47 main_v78 main_v79 (addi : (⟨S64x384, .i32⟩ : BufTy).Contents (Elt F) → (⟨S64x384, .i32⟩ : BufTy).Contents (Elt F) → (⟨S64x384, .i32⟩ : BufTy).Contents (Elt F)),
    ternary main_v77 main_v79 main_v47 main_v80 (select : (⟨S64x384, .i1⟩ : BufTy).Contents (Elt F) → (⟨S64x384, .i32⟩ : BufTy).Contents (Elt F) → (⟨S64x384, .i32⟩ : BufTy).Contents (Elt F) → (⟨S64x384, .i32⟩ : BufTy).Contents (Elt F)),
    unary main_v80 main_v81 (broadcastInDim S64x384x1 ![0, 1] bcast_S64x384_S64x384x1_0_1 : (⟨S64x384, .i32⟩ : BufTy).Contents (Elt F) → (⟨S64x384x1, .i32⟩ : BufTy).Contents (Elt F)),
    binary main_v75 main_v81 main_v82 ((fun x i => Host.gather gather_S12289_S64x384x1_S64x384_n_0_n_n_0_2_1 x i) : (⟨S12289, .f32⟩ : BufTy).Contents (Elt F) → (⟨S64x384x1, .i32⟩ : BufTy).Contents (Elt F) → (⟨S64x384, .f32⟩ : BufTy).Contents (Elt F)),
    unary main_v82 main_v83 (broadcastInDim S64x384x1 ![0, 1] bcast_S64x384_S64x384x1_0_1 : (⟨S64x384, .f32⟩ : BufTy).Contents (Elt F) → (⟨S64x384x1, .f32⟩ : BufTy).Contents (Elt F)),
    unary main_v83 main_v84 (broadcastInDim S64x384x2048 ![0, 1, 2] bcast_S64x384x1_S64x384x2048_0_1_2 : (⟨S64x384x1, .f32⟩ : BufTy).Contents (Elt F) → (⟨S64x384x2048, .f32⟩ : BufTy).Contents (Elt F)),
    binary main_v72 main_v84 main_v85 (mulf : (⟨S64x384x2048, .f32⟩ : BufTy).Contents (Elt F) → (⟨S64x384x2048, .f32⟩ : BufTy).Contents (Elt F) → (⟨S64x384x2048, .f32⟩ : BufTy).Contents (Elt F)),
    reshape main_v85 main_v86 rfl shapeCasts_S64x384x2048_S24576x2048,
    reshape main_v58 main_v87 rfl shapeCasts_S64x384_S24576,
    nullary main_cst_26 (constant S_ .f32 0x00000000#32),
    unary main_cst_26 main_v88 (broadcastInDim S2049x2048 ![] bcast_S_S2049x2048 : (⟨S_, .f32⟩ : BufTy).Contents (Elt F) → (⟨S2049x2048, .f32⟩ : BufTy).Contents (Elt F)),
    unary main_v87 main_v89 (broadcastInDim S24576x1 ![0] bcast_S24576_S24576x1_0 : (⟨S24576, .i32⟩ : BufTy).Contents (Elt F) → (⟨S24576x1, .i32⟩ : BufTy).Contents (Elt F)),
    ternary main_v88 main_v89 main_v86 main_v90 ((fun x i u => Host.scatterAdd scatter_S2049x2048_S24576x1_S24576x2048_1_0_0_1 x i u) : (⟨S2049x2048, .f32⟩ : BufTy).Contents (Elt F) → (⟨S24576x1, .i32⟩ : BufTy).Contents (Elt F) → (⟨S24576x2048, .f32⟩ : BufTy).Contents (Elt F) → (⟨S2049x2048, .f32⟩ : BufTy).Contents (Elt F)),
    unary main_v90 main_v91 ((extractStridedSlice S2048x2048 ![0, 0] · slices_S2049x2048_S2048x2048_0_0) : (⟨S2049x2048, .f32⟩ : BufTy).Contents (Elt F) → (⟨S2048x2048, .f32⟩ : BufTy).Contents (Elt F)),
    unary main_arg6 main_v92 ((transpose S2048x2816 [1, 0] · transposes_S2816x2048_S2048x2816_1_0) : (⟨S2816x2048, .f32⟩ : BufTy).Contents (Elt F) → (⟨S2048x2816, .f32⟩ : BufTy).Contents (Elt F)),
    binary main_arg0 main_v92 main_v93 ((fun l r => Host.dotGeneral dot_S2048x2048_S2048x2816_S2048x2816_1_0_0_1_n_n none l r) : (⟨S2048x2048, .f32⟩ : BufTy).Contents (Elt F) → (⟨S2048x2816, .f32⟩ : BufTy).Contents (Elt F) → (⟨S2048x2816, .f32⟩ : BufTy).Contents (Elt F)),
    TRef.unary (.of main_v93 : TRef sig ⟨S2048x2816, .f32⟩) main_call8.v0 Host.negf,
    TRef.unary main_call8.v0 main_call8.v1 Host.exp,
    TRef.nullary main_call8.cst (constant S_ .f32 0x3F800000#32),
    TRef.unary main_call8.cst main_call8.v2 (broadcastInDim S2048x2816 ![] bcast_S_S2048x2816),
    TRef.binary main_call8.v2 main_call8.v1 main_call8.v3 addf,
    TRef.nullary main_call8.cst_0 (constant S_ .f32 0x3F800000#32),
    TRef.unary main_call8.cst_0 main_call8.v4 (broadcastInDim S2048x2816 ![] bcast_S_S2048x2816),
    TRef.binary main_call8.v4 main_call8.v3 main_call8.v5 Host.divf,
    TRef.binary (.of main_v93 : TRef sig ⟨S2048x2816, .f32⟩) main_call8.v5 main_call8.v6 mulf,
    unary main_arg8 main_v95 ((transpose S2048x2816 [1, 0] · transposes_S2816x2048_S2048x2816_1_0) : (⟨S2816x2048, .f32⟩ : BufTy).Contents (Elt F) → (⟨S2048x2816, .f32⟩ : BufTy).Contents (Elt F)),
    binary main_arg0 main_v95 main_v96 ((fun l r => Host.dotGeneral dot_S2048x2048_S2048x2816_S2048x2816_1_0_0_1_n_n none l r) : (⟨S2048x2048, .f32⟩ : BufTy).Contents (Elt F) → (⟨S2048x2816, .f32⟩ : BufTy).Contents (Elt F) → (⟨S2048x2816, .f32⟩ : BufTy).Contents (Elt F)),
    binary main_v94 main_v96 main_v97 (mulf : (⟨S2048x2816, .f32⟩ : BufTy).Contents (Elt F) → (⟨S2048x2816, .f32⟩ : BufTy).Contents (Elt F) → (⟨S2048x2816, .f32⟩ : BufTy).Contents (Elt F)),
    unary main_arg7 main_v98 ((transpose S2816x2048 [1, 0] · transposes_S2048x2816_S2816x2048_1_0) : (⟨S2048x2816, .f32⟩ : BufTy).Contents (Elt F) → (⟨S2816x2048, .f32⟩ : BufTy).Contents (Elt F)),
    binary main_v97 main_v98 main_v99 ((fun l r => Host.dotGeneral dot_S2048x2816_S2816x2048_S2048x2048_1_0_0_1_n_n none l r) : (⟨S2048x2816, .f32⟩ : BufTy).Contents (Elt F) → (⟨S2816x2048, .f32⟩ : BufTy).Contents (Elt F) → (⟨S2048x2048, .f32⟩ : BufTy).Contents (Elt F)),
    binary main_v91 main_v99 main_v100 (addf : (⟨S2048x2048, .f32⟩ : BufTy).Contents (Elt F) → (⟨S2048x2048, .f32⟩ : BufTy).Contents (Elt F) → (⟨S2048x2048, .f32⟩ : BufTy).Contents (Elt F)) ]

/-- The reference's line, cut at the kernel program's host stretches. -/
theorem ops_split : (ops : List (HloOp τ sig (Elt F))) = r0 ++ (r1 ++ (r2 ++ (r3 ++ (r4 ++ (r5 ++ (r6 ++ (r7 ++ (r8 ++ (r9 ++ (r10 ++ (r11 ++ (r12 ++ (r13))))))))))))) := rfl

end R

open R

/-- The two programs' buffers agree where both still read them, at launch: main_arg0, main_arg1, main_arg2. -/
abbrev P0 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_arg2 : DevRef Cert.KernelIdeal.τ Cert.KernelIdeal.sig) = WR (Cert.ReferenceIdeal.main_arg2 : DevRef Cert.ReferenceIdeal.τ Cert.ReferenceIdeal.sig)

/-- The two programs' buffers agree where both still read them, entering host stretch 1: main_arg0, main_arg1, main_v0, main_v1, main_c. -/
abbrev P1 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v0 : DevRef Cert.KernelIdeal.τ Cert.KernelIdeal.sig) = WR (Cert.ReferenceIdeal.main_v0 : DevRef Cert.ReferenceIdeal.τ Cert.ReferenceIdeal.sig)
  ∧ WK (Cert.KernelIdeal.main_v1 : DevRef Cert.KernelIdeal.τ Cert.KernelIdeal.sig) = WR (Cert.ReferenceIdeal.main_v1 : DevRef Cert.ReferenceIdeal.τ Cert.ReferenceIdeal.sig)
  ∧ WK (Cert.KernelIdeal.main_c : DevRef Cert.KernelIdeal.τ Cert.KernelIdeal.sig) = WR (Cert.ReferenceIdeal.main_c : DevRef Cert.ReferenceIdeal.τ Cert.ReferenceIdeal.sig)

/-- The two programs' buffers agree where both still read them, entering host stretch 2: main_arg0, main_arg1, main_v0, main_v2. -/
abbrev P2 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v0 : DevRef Cert.KernelIdeal.τ Cert.KernelIdeal.sig) = WR (Cert.ReferenceIdeal.main_v0 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)

/-- The two programs' buffers agree where both still read them, entering host stretch 3: main_arg0, main_arg1, main_v0, main_v2, main_v3. -/
abbrev P3 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v0 : DevRef Cert.KernelIdeal.τ Cert.KernelIdeal.sig) = WR (Cert.ReferenceIdeal.main_v0 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v3 : DevRef Cert.KernelIdeal.τ Cert.KernelIdeal.sig) = WR (Cert.ReferenceIdeal.main_v3 : DevRef Cert.ReferenceIdeal.τ Cert.ReferenceIdeal.sig)

/-- The two programs' buffers agree where both still read them, entering host stretch 4: main_arg0, main_arg1, main_v0, main_v2, main_v3, main_v10, main_v11, main_c_3. -/
abbrev P4 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v0 : DevRef Cert.KernelIdeal.τ Cert.KernelIdeal.sig) = WR (Cert.ReferenceIdeal.main_v0 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v3 : DevRef Cert.KernelIdeal.τ Cert.KernelIdeal.sig) = WR (Cert.ReferenceIdeal.main_v3 : DevRef Cert.ReferenceIdeal.τ Cert.ReferenceIdeal.sig)
  ∧ WK (Cert.KernelIdeal.main_v10 : DevRef Cert.KernelIdeal.τ Cert.KernelIdeal.sig) = WR (Cert.ReferenceIdeal.main_v10 : DevRef Cert.ReferenceIdeal.τ Cert.ReferenceIdeal.sig)
  ∧ WK (Cert.KernelIdeal.main_v11 : DevRef Cert.KernelIdeal.τ Cert.KernelIdeal.sig) = WR (Cert.ReferenceIdeal.main_v11 : DevRef Cert.ReferenceIdeal.τ Cert.ReferenceIdeal.sig)
  ∧ WK (Cert.KernelIdeal.main_c_3 : DevRef Cert.KernelIdeal.τ Cert.KernelIdeal.sig) = WR (Cert.ReferenceIdeal.main_c_3 : DevRef Cert.ReferenceIdeal.τ Cert.ReferenceIdeal.sig)

/-- The two programs' buffers agree where both still read them, entering host stretch 5: main_arg0, main_arg1, main_v2, main_v3, main_v10, main_v11, main_v12. -/
abbrev P5 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v3 : DevRef Cert.KernelIdeal.τ Cert.KernelIdeal.sig) = WR (Cert.ReferenceIdeal.main_v3 : DevRef Cert.ReferenceIdeal.τ Cert.ReferenceIdeal.sig)
  ∧ WK (Cert.KernelIdeal.main_v10 : DevRef Cert.KernelIdeal.τ Cert.KernelIdeal.sig) = WR (Cert.ReferenceIdeal.main_v10 : DevRef Cert.ReferenceIdeal.τ Cert.ReferenceIdeal.sig)
  ∧ WK (Cert.KernelIdeal.main_v11 : DevRef Cert.KernelIdeal.τ Cert.KernelIdeal.sig) = WR (Cert.ReferenceIdeal.main_v11 : DevRef Cert.ReferenceIdeal.τ Cert.ReferenceIdeal.sig)
  ∧ WK (Cert.KernelIdeal.main_v12 : DevRef Cert.KernelIdeal.τ Cert.KernelIdeal.sig) = WR (Cert.ReferenceIdeal.main_v12 : DevRef Cert.ReferenceIdeal.τ Cert.ReferenceIdeal.sig)

/-- The two programs' buffers agree where both still read them, entering host stretch 6: main_arg0, main_arg1, main_v2, main_v3, main_v10, main_v20. -/
abbrev P6 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v3 : DevRef Cert.KernelIdeal.τ Cert.KernelIdeal.sig) = WR (Cert.ReferenceIdeal.main_v3 : DevRef Cert.ReferenceIdeal.τ Cert.ReferenceIdeal.sig)
  ∧ WK (Cert.KernelIdeal.main_v10 : DevRef Cert.KernelIdeal.τ Cert.KernelIdeal.sig) = WR (Cert.ReferenceIdeal.main_v10 : DevRef Cert.ReferenceIdeal.τ Cert.ReferenceIdeal.sig)
  ∧ WK (Cert.KernelIdeal.main_v20 : DevRef Cert.KernelIdeal.τ Cert.KernelIdeal.sig) = WR (Cert.ReferenceIdeal.main_v20 : DevRef Cert.ReferenceIdeal.τ Cert.ReferenceIdeal.sig)

/-- The two programs' buffers agree where both still read them, entering host stretch 7: main_arg0, main_arg1, main_v2, main_v3, main_v10, main_v20, main_v21. -/
abbrev P7 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v3 : DevRef Cert.KernelIdeal.τ Cert.KernelIdeal.sig) = WR (Cert.ReferenceIdeal.main_v3 : DevRef Cert.ReferenceIdeal.τ Cert.ReferenceIdeal.sig)
  ∧ WK (Cert.KernelIdeal.main_v10 : DevRef Cert.KernelIdeal.τ Cert.KernelIdeal.sig) = WR (Cert.ReferenceIdeal.main_v10 : DevRef Cert.ReferenceIdeal.τ Cert.ReferenceIdeal.sig)
  ∧ WK (Cert.KernelIdeal.main_v20 : DevRef Cert.KernelIdeal.τ Cert.KernelIdeal.sig) = WR (Cert.ReferenceIdeal.main_v20 : DevRef Cert.ReferenceIdeal.τ Cert.ReferenceIdeal.sig)
  ∧ WK (Cert.KernelIdeal.main_v21 : DevRef Cert.KernelIdeal.τ Cert.KernelIdeal.sig) = WR (Cert.ReferenceIdeal.main_v21 : DevRef Cert.ReferenceIdeal.τ Cert.ReferenceIdeal.sig)

/-- The two programs' buffers agree where both still read them, entering host stretch 8: main_arg0, main_arg1, main_v2, main_v3, main_v33, main_v36, main_c_11. -/
abbrev P8 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v3 : DevRef Cert.KernelIdeal.τ Cert.KernelIdeal.sig) = WR (Cert.ReferenceIdeal.main_v3 : DevRef Cert.ReferenceIdeal.τ Cert.ReferenceIdeal.sig)
  ∧ WK (Cert.KernelIdeal.main_v33 : DevRef Cert.KernelIdeal.τ Cert.KernelIdeal.sig) = WR (Cert.ReferenceIdeal.main_v33 : DevRef Cert.ReferenceIdeal.τ Cert.ReferenceIdeal.sig)
  ∧ WK (Cert.KernelIdeal.main_v36 : DevRef Cert.KernelIdeal.τ Cert.KernelIdeal.sig) = WR (Cert.ReferenceIdeal.main_v36 : DevRef Cert.ReferenceIdeal.τ Cert.ReferenceIdeal.sig)
  ∧ WK (Cert.KernelIdeal.main_c_11 : DevRef Cert.KernelIdeal.τ Cert.KernelIdeal.sig) = WR (Cert.ReferenceIdeal.main_c_11 : DevRef Cert.ReferenceIdeal.τ Cert.ReferenceIdeal.sig)

/-- The two programs' buffers agree where both still read them, entering host stretch 9: main_arg0, main_arg1, main_v2, main_v3, main_v37. -/
abbrev P9 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v3 : DevRef Cert.KernelIdeal.τ Cert.KernelIdeal.sig) = WR (Cert.ReferenceIdeal.main_v3 : DevRef Cert.ReferenceIdeal.τ Cert.ReferenceIdeal.sig)
  ∧ WK (Cert.KernelIdeal.main_v37 : DevRef Cert.KernelIdeal.τ Cert.KernelIdeal.sig) = WR (Cert.ReferenceIdeal.main_v37 : DevRef Cert.ReferenceIdeal.τ Cert.ReferenceIdeal.sig)

/-- The two programs' buffers agree where both still read them, entering host stretch 10: main_arg0, main_arg1, main_v2, main_v47, main_v49, main_c_16, main_c_17. -/
abbrev P10 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v47 : DevRef Cert.KernelIdeal.τ Cert.KernelIdeal.sig) = WR (Cert.ReferenceIdeal.main_v47 : DevRef Cert.ReferenceIdeal.τ Cert.ReferenceIdeal.sig)
  ∧ WK (Cert.KernelIdeal.main_v49 : DevRef Cert.KernelIdeal.τ Cert.KernelIdeal.sig) = WR (Cert.ReferenceIdeal.main_v49 : DevRef Cert.ReferenceIdeal.τ Cert.ReferenceIdeal.sig)
  ∧ WK (Cert.KernelIdeal.main_c_16 : DevRef Cert.KernelIdeal.τ Cert.KernelIdeal.sig) = WR (Cert.ReferenceIdeal.main_c_16 : DevRef Cert.ReferenceIdeal.τ Cert.ReferenceIdeal.sig)
  ∧ WK (Cert.KernelIdeal.main_c_17 : DevRef Cert.KernelIdeal.τ Cert.KernelIdeal.sig) = WR (Cert.ReferenceIdeal.main_c_17 : DevRef Cert.ReferenceIdeal.τ Cert.ReferenceIdeal.sig)

/-- The two programs' buffers agree where both still read them, entering host stretch 11: main_arg0, main_arg1, main_v2, main_v47, main_v49, main_v50. -/
abbrev P11 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v2 : DevRef Cert.KernelIdeal.τ Cert.KernelIdeal.sig) = WR (Cert.ReferenceIdeal.main_v2 : DevRef Cert.ReferenceIdeal.τ Cert.ReferenceIdeal.sig)
  ∧ WK (Cert.KernelIdeal.main_v47 : DevRef Cert.KernelIdeal.τ Cert.KernelIdeal.sig) = WR (Cert.ReferenceIdeal.main_v47 : DevRef Cert.ReferenceIdeal.τ Cert.ReferenceIdeal.sig)
  ∧ WK (Cert.KernelIdeal.main_v49 : DevRef Cert.KernelIdeal.τ Cert.KernelIdeal.sig) = WR (Cert.ReferenceIdeal.main_v49 : DevRef Cert.ReferenceIdeal.τ Cert.ReferenceIdeal.sig)
  ∧ WK (Cert.KernelIdeal.main_v50 : DevRef Cert.KernelIdeal.τ Cert.KernelIdeal.sig) = WR (Cert.ReferenceIdeal.main_v50 : DevRef Cert.ReferenceIdeal.τ Cert.ReferenceIdeal.sig)

/-- The two programs' buffers agree where both still read them, entering host stretch 12: main_arg0, main_arg1, main_v47, main_v49, main_v57, main_c_20. -/
abbrev P12 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v47 : DevRef Cert.KernelIdeal.τ Cert.KernelIdeal.sig) = WR (Cert.ReferenceIdeal.main_v47 : DevRef Cert.ReferenceIdeal.τ Cert.ReferenceIdeal.sig)
  ∧ WK (Cert.KernelIdeal.main_v49 : DevRef Cert.KernelIdeal.τ Cert.KernelIdeal.sig) = WR (Cert.ReferenceIdeal.main_v49 : DevRef Cert.ReferenceIdeal.τ Cert.ReferenceIdeal.sig)
  ∧ WK (Cert.KernelIdeal.main_v57 : DevRef Cert.KernelIdeal.τ Cert.KernelIdeal.sig) = WR (Cert.ReferenceIdeal.main_v57 : DevRef Cert.ReferenceIdeal.τ Cert.ReferenceIdeal.sig)
  ∧ WK (Cert.KernelIdeal.main_c_20 : DevRef Cert.KernelIdeal.τ Cert.KernelIdeal.sig) = WR (Cert.ReferenceIdeal.main_c_20 : DevRef Cert.ReferenceIdeal.τ Cert.ReferenceIdeal.sig)

/-- The two programs' buffers agree where both still read them, entering host stretch 13: main_arg0, main_arg1, main_v47, main_v58. -/
abbrev P13 (WK : Valuation Cert.KernelIdeal.τ Cert.KernelIdeal.sig (Elt F)) (WR : Valuation Cert.ReferenceIdeal.τ Cert.ReferenceIdeal.sig (Elt F)) : Prop :=
  WK (Cert.KernelIdeal.main_arg0 : DevRef Cert.KernelIdeal.τ Cert.KernelIdeal.sig) = WR (Cert.ReferenceIdeal.main_arg0 : DevRef Cert.ReferenceIdeal.τ Cert.ReferenceIdeal.sig)
  ∧ WK (Cert.KernelIdeal.main_arg1 : DevRef Cert.KernelIdeal.τ Cert.KernelIdeal.sig) = WR (Cert.ReferenceIdeal.main_arg1 : DevRef Cert.ReferenceIdeal.τ Cert.ReferenceIdeal.sig)
  ∧ WK (Cert.KernelIdeal.main_v47 : DevRef Cert.KernelIdeal.τ Cert.KernelIdeal.sig) = WR (Cert.ReferenceIdeal.main_v47 : DevRef Cert.ReferenceIdeal.τ Cert.ReferenceIdeal.sig)
  ∧ WK (Cert.KernelIdeal.main_v58 : DevRef Cert.KernelIdeal.τ Cert.KernelIdeal.sig) = WR (Cert.ReferenceIdeal.main_v58 : DevRef Cert.ReferenceIdeal.τ Cert.ReferenceIdeal.sig)

/-- The two programs' buffers agree where both still read them, at the end of the glue: main_v67, main_v58, main_v77 / main_v82. -/
abbrev P14 (WK : Valuation Cert.KernelIdeal.τ Cert.KernelIdeal.sig (Elt F)) (WR : Valuation Cert.ReferenceIdeal.τ Cert.ReferenceIdeal.sig (Elt F)) : Prop :=
  WK (Cert.KernelIdeal.main_v67 : DevRef Cert.KernelIdeal.τ Cert.KernelIdeal.sig) = WR (Cert.ReferenceIdeal.main_v67 : DevRef Cert.ReferenceIdeal.τ Cert.ReferenceIdeal.sig)
  ∧ WK (Cert.KernelIdeal.main_v58 : DevRef Cert.KernelIdeal.τ Cert.KernelIdeal.sig) = WR (Cert.ReferenceIdeal.main_v58 : DevRef Cert.ReferenceIdeal.τ Cert.ReferenceIdeal.sig)
  ∧ WK (Cert.KernelIdeal.main_v77 : DevRef Cert.KernelIdeal.τ Cert.KernelIdeal.sig) = WR (Cert.ReferenceIdeal.main_v82 : DevRef Cert.ReferenceIdeal.τ Cert.ReferenceIdeal.sig)

attribute [local irreducible] Host.gather Host.scatter Host.sort2 Host.reduceWindow in
set_option maxHeartbeats 4000000 in
theorem stage0 (WK : Valuation Cert.KernelIdeal.τ Cert.KernelIdeal.sig (Elt F)) (WR : Valuation Cert.ReferenceIdeal.τ Cert.ReferenceIdeal.sig (Elt F)) (h : P0 WK WR) :
    P1 (after Cert.KernelIdeal.Gen.hostOps0 WK) (after (r0 (F := F)) WR) := by
  obtain ⟨h0, h1, h2⟩ := h
  refine ⟨?_, ?_, ?_, ?_, ?_⟩
  all_goals after_results_simp
  all_goals (try simp only [h0, h1, h2])
  all_goals (try rfl)

attribute [local irreducible] Host.gather Host.scatter Host.sort2 Host.reduceWindow in
set_option maxHeartbeats 4000000 in
theorem stage1 (WK : Valuation Cert.KernelIdeal.τ Cert.KernelIdeal.sig (Elt F)) (WR : Valuation Cert.ReferenceIdeal.τ Cert.ReferenceIdeal.sig (Elt F)) (h : P1 WK WR) :
    P2 (after Cert.KernelIdeal.Gen.hostOps0_1 WK) (after (r1 (F := F)) WR) := by
  obtain ⟨h0, h1, h2, h3, h4⟩ := h
  refine ⟨?_, ?_, ?_, ?_⟩
  all_goals after_results_simp
  all_goals (try simp only [h0, h1, h2, h3, h4])
  all_goals (try rfl)

attribute [local irreducible] Host.gather Host.scatter Host.sort2 Host.reduceWindow in
set_option maxHeartbeats 4000000 in
theorem stage2 (WK : Valuation Cert.KernelIdeal.τ Cert.KernelIdeal.sig (Elt F)) (WR : Valuation Cert.ReferenceIdeal.τ Cert.ReferenceIdeal.sig (Elt F)) (h : P2 WK WR) :
    P3 (after Cert.KernelIdeal.Gen.hostOps0_2 WK) (after (r2 (F := F)) WR) := by
  obtain ⟨h0, h1, h2, h3⟩ := h
  refine ⟨?_, ?_, ?_, ?_, ?_⟩
  all_goals after_results_simp
  all_goals (try simp only [h0, h1, h2, h3])
  all_goals (try rfl)

attribute [local irreducible] Host.gather Host.scatter Host.sort2 Host.reduceWindow in
set_option maxHeartbeats 4000000 in
theorem stage3 (WK : Valuation Cert.KernelIdeal.τ Cert.KernelIdeal.sig (Elt F)) (WR : Valuation Cert.ReferenceIdeal.τ Cert.ReferenceIdeal.sig (Elt F)) (h : P3 WK WR) :
    P4 (after Cert.KernelIdeal.Gen.hostOps0_3 WK) (after (r3 (F := F)) WR) := by
  obtain ⟨h0, h1, h2, h3, h4⟩ := h
  refine ⟨?_, ?_, ?_, ?_, ?_, ?_, ?_, ?_⟩
  all_goals after_results_simp
  all_goals (try simp only [h0, h1, h2, h3, h4])
  all_goals (try rfl)

attribute [local irreducible] Host.gather Host.scatter Host.sort2 Host.reduceWindow in
set_option maxHeartbeats 4000000 in
theorem stage4 (WK : Valuation Cert.KernelIdeal.τ Cert.KernelIdeal.sig (Elt F)) (WR : Valuation Cert.ReferenceIdeal.τ Cert.ReferenceIdeal.sig (Elt F)) (h : P4 WK WR) :
    P5 (after Cert.KernelIdeal.Gen.hostOps0_4 WK) (after (r4 (F := F)) WR) := by
  obtain ⟨h0, h1, h2, h3, h4, h5, h6, h7⟩ := h
  refine ⟨?_, ?_, ?_, ?_, ?_, ?_, ?_⟩
  all_goals after_results_simp
  all_goals (try simp only [h0, h1, h2, h3, h4, h5, h6, h7])
  all_goals (try rfl)

attribute [local irreducible] Host.gather Host.scatter Host.sort2 Host.reduceWindow in
set_option maxHeartbeats 4000000 in
theorem stage5 (WK : Valuation Cert.KernelIdeal.τ Cert.KernelIdeal.sig (Elt F)) (WR : Valuation Cert.ReferenceIdeal.τ Cert.ReferenceIdeal.sig (Elt F)) (h : P5 WK WR) :
    P6 (after Cert.KernelIdeal.Gen.hostOps0_5 WK) (after (r5 (F := F)) WR) := by
  obtain ⟨h0, h1, h2, h3, h4, h5, h6⟩ := h
  refine ⟨?_, ?_, ?_, ?_, ?_, ?_⟩
  all_goals after_results_simp
  all_goals (try simp only [h0, h1, h2, h3, h4, h5, h6])
  all_goals (try rfl)

attribute [local irreducible] Host.gather Host.scatter Host.sort2 Host.reduceWindow in
set_option maxHeartbeats 4000000 in
theorem stage6 (WK : Valuation Cert.KernelIdeal.τ Cert.KernelIdeal.sig (Elt F)) (WR : Valuation Cert.ReferenceIdeal.τ Cert.ReferenceIdeal.sig (Elt F)) (h : P6 WK WR) :
    P7 (after Cert.KernelIdeal.Gen.hostOps0_6 WK) (after (r6 (F := F)) WR) := by
  obtain ⟨h0, h1, h2, h3, h4, h5⟩ := h
  refine ⟨?_, ?_, ?_, ?_, ?_, ?_, ?_⟩
  all_goals after_results_simp
  all_goals (try simp only [h0, h1, h2, h3, h4, h5])
  all_goals (try rfl)

attribute [local irreducible] Host.gather Host.scatter Host.sort2 Host.reduceWindow in
set_option maxHeartbeats 4000000 in
theorem stage7 (WK : Valuation Cert.KernelIdeal.τ Cert.KernelIdeal.sig (Elt F)) (WR : Valuation Cert.ReferenceIdeal.τ Cert.ReferenceIdeal.sig (Elt F)) (h : P7 WK WR) :
    P8 (after Cert.KernelIdeal.Gen.hostOps0_7 WK) (after (r7 (F := F)) WR) := by
  obtain ⟨h0, h1, h2, h3, h4, h5, h6⟩ := h
  refine ⟨?_, ?_, ?_, ?_, ?_, ?_, ?_⟩
  all_goals after_results_simp
  all_goals (try simp only [h0, h1, h2, h3, h4, h5, h6])
  all_goals (try rfl)

attribute [local irreducible] Host.gather Host.scatter Host.sort2 Host.reduceWindow in
set_option maxHeartbeats 4000000 in
theorem stage8 (WK : Valuation Cert.KernelIdeal.τ Cert.KernelIdeal.sig (Elt F)) (WR : Valuation Cert.ReferenceIdeal.τ Cert.ReferenceIdeal.sig (Elt F)) (h : P8 WK WR) :
    P9 (after Cert.KernelIdeal.Gen.hostOps0_8 WK) (after (r8 (F := F)) WR) := by
  obtain ⟨h0, h1, h2, h3, h4, h5, h6⟩ := h
  refine ⟨?_, ?_, ?_, ?_, ?_⟩
  all_goals after_results_simp
  all_goals (try simp only [h0, h1, h2, h3, h4, h5, h6])
  all_goals (try rfl)

attribute [local irreducible] Host.gather Host.scatter Host.sort2 Host.reduceWindow in
set_option maxHeartbeats 4000000 in
theorem stage9 (WK : Valuation Cert.KernelIdeal.τ Cert.KernelIdeal.sig (Elt F)) (WR : Valuation Cert.ReferenceIdeal.τ Cert.ReferenceIdeal.sig (Elt F)) (h : P9 WK WR) :
    P10 (after Cert.KernelIdeal.Gen.hostOps0_9 WK) (after (r9 (F := F)) WR) := by
  obtain ⟨h0, h1, h2, h3, h4⟩ := h
  refine ⟨?_, ?_, ?_, ?_, ?_, ?_, ?_⟩
  all_goals after_results_simp
  all_goals (try simp only [h0, h1, h2, h3, h4])
  all_goals (try rfl)

attribute [local irreducible] Host.gather Host.scatter Host.sort2 Host.reduceWindow in
set_option maxHeartbeats 4000000 in
theorem stage10 (WK : Valuation Cert.KernelIdeal.τ Cert.KernelIdeal.sig (Elt F)) (WR : Valuation Cert.ReferenceIdeal.τ Cert.ReferenceIdeal.sig (Elt F)) (h : P10 WK WR) :
    P11 (after Cert.KernelIdeal.Gen.hostOps0_10 WK) (after (r10 (F := F)) WR) := by
  obtain ⟨h0, h1, h2, h3, h4, h5, h6⟩ := h
  refine ⟨?_, ?_, ?_, ?_, ?_, ?_⟩
  all_goals after_results_simp
  all_goals (try simp only [h0, h1, h2, h3, h4, h5, h6])
  all_goals (try rfl)

attribute [local irreducible] Host.gather Host.scatter Host.sort2 Host.reduceWindow in
set_option maxHeartbeats 4000000 in
theorem stage11 (WK : Valuation Cert.KernelIdeal.τ Cert.KernelIdeal.sig (Elt F)) (WR : Valuation Cert.ReferenceIdeal.τ Cert.ReferenceIdeal.sig (Elt F)) (h : P11 WK WR) :
    P12 (after Cert.KernelIdeal.Gen.hostOps0_11 WK) (after (r11 (F := F)) WR) := by
  obtain ⟨h0, h1, h2, h3, h4, h5⟩ := h
  refine ⟨?_, ?_, ?_, ?_, ?_, ?_⟩
  all_goals after_results_simp
  all_goals (try simp only [h0, h1, h2, h3, h4, h5])
  all_goals (try rfl)

attribute [local irreducible] Host.gather Host.scatter Host.sort2 Host.reduceWindow in
set_option maxHeartbeats 4000000 in
theorem stage12 (WK : Valuation Cert.KernelIdeal.τ Cert.KernelIdeal.sig (Elt F)) (WR : Valuation Cert.ReferenceIdeal.τ Cert.ReferenceIdeal.sig (Elt F)) (h : P12 WK WR) :
    P13 (after Cert.KernelIdeal.Gen.hostOps0_12 WK) (after (r12 (F := F)) WR) := by
  obtain ⟨h0, h1, h2, h3, h4, h5⟩ := h
  refine ⟨?_, ?_, ?_, ?_⟩
  all_goals after_results_simp
  all_goals (try simp only [h0, h1, h2, h3, h4, h5])
  all_goals (try rfl)

end Cert.Glue

end
-- ==== Proof.Glue.lean ====
import proofs.«120388_j80376017977412_2_alg».proof.Proof.GlueStages

set_option maxRecDepth 16384

noncomputable section

namespace Cert.Glue

open Idealize.ShloMosaic Idealize.ShloMosaic.TcCoe Idealize.SL.Sem Idealize.ShloMosaic.StableHlo

variable {F : FTy → Type} [FloatOps F]

open R

/-! ## The last stretch

The kernel program's last host stretch before its first kernel pads the tokens with a zero row and gathers them per
slot, and pads the routing weights with a zero and gathers them per slot; the reference does the same around its expert
matmuls, which write other buffers. A concatenation's operands sit inside a list of shaped arrays: their contents are
read back one operation at a time. -/

attribute [local irreducible] Host.gather Host.scatter Host.scatterAdd Host.sort2 Host.reduceWindow in
set_option maxHeartbeats 16000000 in
theorem stage13 (WK : Valuation Cert.KernelIdeal.τ Cert.KernelIdeal.sig (Elt F)) (WR : Valuation Cert.ReferenceIdeal.τ Cert.ReferenceIdeal.sig (Elt F)) (h : P13 WK WR) :
    P14 (after Cert.KernelIdeal.Gen.hostOps0_13 WK) (after (r13 (F := F)) WR) := by
  obtain ⟨h0, h1, h2, h3⟩ := h
  refine ⟨?_, ?_, ?_⟩
  all_goals after_results_simp
  all_goals (repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))
  all_goals (try rw [h0])
  all_goals (try rw [h1])
  all_goals (try rw [h2])
  all_goals (try rw [h3])
  all_goals (try simp only [h0, h1, h2, h3])
  all_goals (try rfl)

/-- From memories agreeing on the tokens, the routing weights and the routing indices, the kernel program's buffers
    entering its first kernel and the reference's final buffers agree at the gathered rows, the slot table and the
    gathered weights. -/
theorem glue (m : (ℓ : Loc Cert.KernelIdeal.nD Cert.KernelIdeal.τ Cert.KernelIdeal.sig) → Buf (Elt F) ℓ) (c : Dev Cert.KernelIdeal.nD) (Vr : Valuation Cert.ReferenceIdeal.τ Cert.ReferenceIdeal.sig (Elt F))
    (h : P0 (Cert.KernelIdeal.Gen.V0 m c) Vr) :
    P14 (Cert.KernelIdeal.Gen.V14 m c) (after (Cert.ReferenceIdeal.RefRun.ops (F := F)) Vr) := by
  rw [R.ops_split]
  simp only [Cert.ReferenceIdeal.RefRun.after_append']
  exact stage13 _ _ (stage12 _ _ (stage11 _ _ (stage10 _ _ (stage9 _ _ (stage8 _ _ (stage7 _ _ (stage6 _ _ (stage5 _ _ (stage4 _ _ (stage3 _ _ (stage2 _ _ (stage1 _ _ (stage0 _ _ (h))))))))))))))

/-- The token rows gathered per (expert, slot). -/
theorem G1 (m : (ℓ : Loc Cert.KernelIdeal.nD Cert.KernelIdeal.τ Cert.KernelIdeal.sig) → Buf (Elt F) ℓ) (c : Dev Cert.KernelIdeal.nD) (Vr : Valuation Cert.ReferenceIdeal.τ Cert.ReferenceIdeal.sig (Elt F))
    (h0 : Vr (Cert.ReferenceIdeal.main_arg0 : DevRef Cert.ReferenceIdeal.τ Cert.ReferenceIdeal.sig) = m (c, (Cert.KernelIdeal.main_arg0 : DevRef Cert.KernelIdeal.τ Cert.KernelIdeal.sig)))
    (h1 : Vr (Cert.ReferenceIdeal.main_arg1 : DevRef Cert.ReferenceIdeal.τ Cert.ReferenceIdeal.sig) = m (c, (Cert.KernelIdeal.main_arg1 : DevRef Cert.KernelIdeal.τ Cert.KernelIdeal.sig)))
    (h2 : Vr (Cert.ReferenceIdeal.main_arg2 : DevRef Cert.ReferenceIdeal.τ Cert.ReferenceIdeal.sig) = m (c, (Cert.KernelIdeal.main_arg2 : DevRef Cert.KernelIdeal.τ Cert.KernelIdeal.sig))) :
    Cert.KernelIdeal.Gen.V14 m c (Cert.KernelIdeal.main_v67 : DevRef Cert.KernelIdeal.τ Cert.KernelIdeal.sig) = after (Cert.ReferenceIdeal.RefRun.ops (F := F)) Vr (Cert.ReferenceIdeal.main_v67 : DevRef Cert.ReferenceIdeal.τ Cert.ReferenceIdeal.sig) :=
  (glue m c Vr ⟨h0.symm, h1.symm, h2.symm⟩).1

/-- Each slot's token index. -/
theorem G2 (m : (ℓ : Loc Cert.KernelIdeal.nD Cert.KernelIdeal.τ Cert.KernelIdeal.sig) → Buf (Elt F) ℓ) (c : Dev Cert.KernelIdeal.nD) (Vr : Valuation Cert.ReferenceIdeal.τ Cert.ReferenceIdeal.sig (Elt F))
    (h0 : Vr (Cert.ReferenceIdeal.main_arg0 : DevRef Cert.ReferenceIdeal.τ Cert.ReferenceIdeal.sig) = m (c, (Cert.KernelIdeal.main_arg0 : DevRef Cert.KernelIdeal.τ Cert.KernelIdeal.sig)))
    (h1 : Vr (Cert.ReferenceIdeal.main_arg1 : DevRef Cert.ReferenceIdeal.τ Cert.ReferenceIdeal.sig) = m (c, (Cert.KernelIdeal.main_arg1 : DevRef Cert.KernelIdeal.τ Cert.KernelIdeal.sig)))
    (h2 : Vr (Cert.ReferenceIdeal.main_arg2 : DevRef Cert.ReferenceIdeal.τ Cert.ReferenceIdeal.sig) = m (c, (Cert.KernelIdeal.main_arg2 : DevRef Cert.KernelIdeal.τ Cert.KernelIdeal.sig))) :
    Cert.KernelIdeal.Gen.V14 m c (Cert.KernelIdeal.main_v58 : DevRef Cert.KernelIdeal.τ Cert.KernelIdeal.sig) = after (Cert.ReferenceIdeal.RefRun.ops (F := F)) Vr (Cert.ReferenceIdeal.main_v58 : DevRef Cert.ReferenceIdeal.τ Cert.ReferenceIdeal.sig) :=
  (glue m c Vr ⟨h0.symm, h1.symm, h2.symm⟩).2.1

/-- The routing weights gathered per slot. -/
theorem G3 (m : (ℓ : Loc Cert.KernelIdeal.nD Cert.KernelIdeal.τ Cert.KernelIdeal.sig) → Buf (Elt F) ℓ) (c : Dev Cert.KernelIdeal.nD) (Vr : Valuation Cert.ReferenceIdeal.τ Cert.ReferenceIdeal.sig (Elt F))
    (h0 : Vr (Cert.ReferenceIdeal.main_arg0 : DevRef Cert.ReferenceIdeal.τ Cert.ReferenceIdeal.sig) = m (c, (Cert.KernelIdeal.main_arg0 : DevRef Cert.KernelIdeal.τ Cert.KernelIdeal.sig)))
    (h1 : Vr (Cert.ReferenceIdeal.main_arg1 : DevRef Cert.ReferenceIdeal.τ Cert.ReferenceIdeal.sig) = m (c, (Cert.KernelIdeal.main_arg1 : DevRef Cert.KernelIdeal.τ Cert.KernelIdeal.sig)))
    (h2 : Vr (Cert.ReferenceIdeal.main_arg2 : DevRef Cert.ReferenceIdeal.τ Cert.ReferenceIdeal.sig) = m (c, (Cert.KernelIdeal.main_arg2 : DevRef Cert.KernelIdeal.τ Cert.KernelIdeal.sig))) :
    Cert.KernelIdeal.Gen.V14 m c (Cert.KernelIdeal.main_v77 : DevRef Cert.KernelIdeal.τ Cert.KernelIdeal.sig) = after (Cert.ReferenceIdeal.RefRun.ops (F := F)) Vr (Cert.ReferenceIdeal.main_v82 : DevRef Cert.ReferenceIdeal.τ Cert.ReferenceIdeal.sig) :=
  (glue m c Vr ⟨h0.symm, h1.symm, h2.symm⟩).2.2

attribute [local irreducible] Host.gather Host.scatter Host.sort2 Host.reduceWindow in
set_option maxHeartbeats 4000000 in
/-- The gathered weights with a unit axis appended: the stretch's last operation. -/
theorem G4 (m : (ℓ : Loc Cert.KernelIdeal.nD Cert.KernelIdeal.τ Cert.KernelIdeal.sig) → Buf (Elt F) ℓ) (c : Dev Cert.KernelIdeal.nD) :
    (Cert.KernelIdeal.Gen.V14 m c (Cert.KernelIdeal.main_v78 : DevRef Cert.KernelIdeal.τ Cert.KernelIdeal.sig) : (⟨Cert.KernelIdeal.S64x384x1, .f32⟩ : BufTy).Contents (Elt F))
      = broadcastInDim Cert.KernelIdeal.S64x384x1 ![0, 1] Cert.KernelIdeal.Gen.bcast_S64x384_S64x384x1_0_1
          (Cert.KernelIdeal.Gen.V14 m c (Cert.KernelIdeal.main_v77 : DevRef Cert.KernelIdeal.τ Cert.KernelIdeal.sig) : (⟨Cert.KernelIdeal.S64x384, .f32⟩ : BufTy).Contents (Elt F)) := by
  show after Cert.KernelIdeal.Gen.hostOps0_13 (Cert.KernelIdeal.Gen.V13 m c) (Cert.KernelIdeal.main_v78 : DevRef Cert.KernelIdeal.τ Cert.KernelIdeal.sig)
      = broadcastInDim Cert.KernelIdeal.S64x384x1 ![0, 1] Cert.KernelIdeal.Gen.bcast_S64x384_S64x384x1_0_1 (after Cert.KernelIdeal.Gen.hostOps0_13 (Cert.KernelIdeal.Gen.V13 m c) (Cert.KernelIdeal.main_v77 : DevRef Cert.KernelIdeal.τ Cert.KernelIdeal.sig))
  generalize Cert.KernelIdeal.Gen.V13 m c = W
  after_results_simp
  all_goals (repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))
  all_goals (try rfl)

/-! ## The arguments entering the first kernel -/

theorem G5_arg0 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg0 : DevRef Cert.KernelIdeal.τ Cert.KernelIdeal.sig) = m (c, (Cert.KernelIdeal.main_arg0 : DevRef Cert.KernelIdeal.τ Cert.KernelIdeal.sig)) :=
  (Cert.KernelIdeal.Gen.V14_of m c Cert.KernelIdeal.main_arg0 (by decide)).trans <| (Cert.KernelIdeal.Gen.V13_of m c Cert.KernelIdeal.main_arg0 (by decide)).trans <| (Cert.KernelIdeal.Gen.V12_of m c Cert.KernelIdeal.main_arg0 (by decide)).trans <| (Cert.KernelIdeal.Gen.V11_of m c Cert.KernelIdeal.main_arg0 (by decide)).trans <| (Cert.KernelIdeal.Gen.V10_of m c Cert.KernelIdeal.main_arg0 (by decide)).trans <| (Cert.KernelIdeal.Gen.V9_of m c Cert.KernelIdeal.main_arg0 (by decide)).trans <| (Cert.KernelIdeal.Gen.V8_of m c Cert.KernelIdeal.main_arg0 (by decide)).trans <| (Cert.KernelIdeal.Gen.V7_of m c Cert.KernelIdeal.main_arg0 (by decide)).trans <| (Cert.KernelIdeal.Gen.V6_of m c Cert.KernelIdeal.main_arg0 (by decide)).trans <| (Cert.KernelIdeal.Gen.V5_of m c Cert.KernelIdeal.main_arg0 (by decide)).trans <| (Cert.KernelIdeal.Gen.V4_of m c Cert.KernelIdeal.main_arg0 (by decide)).trans <| (Cert.KernelIdeal.Gen.V3_of m c Cert.KernelIdeal.main_arg0 (by decide)).trans <| (Cert.KernelIdeal.Gen.V2_of m c Cert.KernelIdeal.main_arg0 (by decide)).trans <| (Cert.KernelIdeal.Gen.V1_of m c Cert.KernelIdeal.main_arg0 (by decide)).trans <| rfl
theorem G5_arg1 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg1 : DevRef Cert.KernelIdeal.τ Cert.KernelIdeal.sig) = m (c, (Cert.KernelIdeal.main_arg1 : DevRef Cert.KernelIdeal.τ Cert.KernelIdeal.sig)) :=
  (Cert.KernelIdeal.Gen.V14_of m c Cert.KernelIdeal.main_arg1 (by decide)).trans <| (Cert.KernelIdeal.Gen.V13_of m c Cert.KernelIdeal.main_arg1 (by decide)).trans <| (Cert.KernelIdeal.Gen.V12_of m c Cert.KernelIdeal.main_arg1 (by decide)).trans <| (Cert.KernelIdeal.Gen.V11_of m c Cert.KernelIdeal.main_arg1 (by decide)).trans <| (Cert.KernelIdeal.Gen.V10_of m c Cert.KernelIdeal.main_arg1 (by decide)).trans <| (Cert.KernelIdeal.Gen.V9_of m c Cert.KernelIdeal.main_arg1 (by decide)).trans <| (Cert.KernelIdeal.Gen.V8_of m c Cert.KernelIdeal.main_arg1 (by decide)).trans <| (Cert.KernelIdeal.Gen.V7_of m c Cert.KernelIdeal.main_arg1 (by decide)).trans <| (Cert.KernelIdeal.Gen.V6_of m c Cert.KernelIdeal.main_arg1 (by decide)).trans <| (Cert.KernelIdeal.Gen.V5_of m c Cert.KernelIdeal.main_arg1 (by decide)).trans <| (Cert.KernelIdeal.Gen.V4_of m c Cert.KernelIdeal.main_arg1 (by decide)).trans <| (Cert.KernelIdeal.Gen.V3_of m c Cert.KernelIdeal.main_arg1 (by decide)).trans <| (Cert.KernelIdeal.Gen.V2_of m c Cert.KernelIdeal.main_arg1 (by decide)).trans <| (Cert.KernelIdeal.Gen.V1_of m c Cert.KernelIdeal.main_arg1 (by decide)).trans <| rfl
theorem G5_arg2 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg2 : DevRef Cert.KernelIdeal.τ Cert.KernelIdeal.sig) = m (c, (Cert.KernelIdeal.main_arg2 : DevRef Cert.KernelIdeal.τ Cert.KernelIdeal.sig)) :=
  (Cert.KernelIdeal.Gen.V14_of m c Cert.KernelIdeal.main_arg2 (by decide)).trans <| (Cert.KernelIdeal.Gen.V13_of m c Cert.KernelIdeal.main_arg2 (by decide)).trans <| (Cert.KernelIdeal.Gen.V12_of m c Cert.KernelIdeal.main_arg2 (by decide)).trans <| (Cert.KernelIdeal.Gen.V11_of m c Cert.KernelIdeal.main_arg2 (by decide)).trans <| (Cert.KernelIdeal.Gen.V10_of m c Cert.KernelIdeal.main_arg2 (by decide)).trans <| (Cert.KernelIdeal.Gen.V9_of m c Cert.KernelIdeal.main_arg2 (by decide)).trans <| (Cert.KernelIdeal.Gen.V8_of m c Cert.KernelIdeal.main_arg2 (by decide)).trans <| (Cert.KernelIdeal.Gen.V7_of m c Cert.KernelIdeal.main_arg2 (by decide)).trans <| (Cert.KernelIdeal.Gen.V6_of m c Cert.KernelIdeal.main_arg2 (by decide)).trans <| (Cert.KernelIdeal.Gen.V5_of m c Cert.KernelIdeal.main_arg2 (by decide)).trans <| (Cert.KernelIdeal.Gen.V4_of m c Cert.KernelIdeal.main_arg2 (by decide)).trans <| (Cert.KernelIdeal.Gen.V3_of m c Cert.KernelIdeal.main_arg2 (by decide)).trans <| (Cert.KernelIdeal.Gen.V2_of m c Cert.KernelIdeal.main_arg2 (by decide)).trans <| (Cert.KernelIdeal.Gen.V1_of m c Cert.KernelIdeal.main_arg2 (by decide)).trans <| rfl
theorem G5_arg3 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg3 : DevRef Cert.KernelIdeal.τ Cert.KernelIdeal.sig) = m (c, (Cert.KernelIdeal.main_arg3 : DevRef Cert.KernelIdeal.τ Cert.KernelIdeal.sig)) :=
  (Cert.KernelIdeal.Gen.V14_of m c Cert.KernelIdeal.main_arg3 (by decide)).trans <| (Cert.KernelIdeal.Gen.V13_of m c Cert.KernelIdeal.main_arg3 (by decide)).trans <| (Cert.KernelIdeal.Gen.V12_of m c Cert.KernelIdeal.main_arg3 (by decide)).trans <| (Cert.KernelIdeal.Gen.V11_of m c Cert.KernelIdeal.main_arg3 (by decide)).trans <| (Cert.KernelIdeal.Gen.V10_of m c Cert.KernelIdeal.main_arg3 (by decide)).trans <| (Cert.KernelIdeal.Gen.V9_of m c Cert.KernelIdeal.main_arg3 (by decide)).trans <| (Cert.KernelIdeal.Gen.V8_of m c Cert.KernelIdeal.main_arg3 (by decide)).trans <| (Cert.KernelIdeal.Gen.V7_of m c Cert.KernelIdeal.main_arg3 (by decide)).trans <| (Cert.KernelIdeal.Gen.V6_of m c Cert.KernelIdeal.main_arg3 (by decide)).trans <| (Cert.KernelIdeal.Gen.V5_of m c Cert.KernelIdeal.main_arg3 (by decide)).trans <| (Cert.KernelIdeal.Gen.V4_of m c Cert.KernelIdeal.main_arg3 (by decide)).trans <| (Cert.KernelIdeal.Gen.V3_of m c Cert.KernelIdeal.main_arg3 (by decide)).trans <| (Cert.KernelIdeal.Gen.V2_of m c Cert.KernelIdeal.main_arg3 (by decide)).trans <| (Cert.KernelIdeal.Gen.V1_of m c Cert.KernelIdeal.main_arg3 (by decide)).trans <| rfl
theorem G5_arg4 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg4 : DevRef Cert.KernelIdeal.τ Cert.KernelIdeal.sig) = m (c, (Cert.KernelIdeal.main_arg4 : DevRef Cert.KernelIdeal.τ Cert.KernelIdeal.sig)) :=
  (Cert.KernelIdeal.Gen.V14_of m c Cert.KernelIdeal.main_arg4 (by decide)).trans <| (Cert.KernelIdeal.Gen.V13_of m c Cert.KernelIdeal.main_arg4 (by decide)).trans <| (Cert.KernelIdeal.Gen.V12_of m c Cert.KernelIdeal.main_arg4 (by decide)).trans <| (Cert.KernelIdeal.Gen.V11_of m c Cert.KernelIdeal.main_arg4 (by decide)).trans <| (Cert.KernelIdeal.Gen.V10_of m c Cert.KernelIdeal.main_arg4 (by decide)).trans <| (Cert.KernelIdeal.Gen.V9_of m c Cert.KernelIdeal.main_arg4 (by decide)).trans <| (Cert.KernelIdeal.Gen.V8_of m c Cert.KernelIdeal.main_arg4 (by decide)).trans <| (Cert.KernelIdeal.Gen.V7_of m c Cert.KernelIdeal.main_arg4 (by decide)).trans <| (Cert.KernelIdeal.Gen.V6_of m c Cert.KernelIdeal.main_arg4 (by decide)).trans <| (Cert.KernelIdeal.Gen.V5_of m c Cert.KernelIdeal.main_arg4 (by decide)).trans <| (Cert.KernelIdeal.Gen.V4_of m c Cert.KernelIdeal.main_arg4 (by decide)).trans <| (Cert.KernelIdeal.Gen.V3_of m c Cert.KernelIdeal.main_arg4 (by decide)).trans <| (Cert.KernelIdeal.Gen.V2_of m c Cert.KernelIdeal.main_arg4 (by decide)).trans <| (Cert.KernelIdeal.Gen.V1_of m c Cert.KernelIdeal.main_arg4 (by decide)).trans <| rfl
theorem G5_arg5 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg5 : DevRef Cert.KernelIdeal.τ Cert.KernelIdeal.sig) = m (c, (Cert.KernelIdeal.main_arg5 : DevRef Cert.KernelIdeal.τ Cert.KernelIdeal.sig)) :=
  (Cert.KernelIdeal.Gen.V14_of m c Cert.KernelIdeal.main_arg5 (by decide)).trans <| (Cert.KernelIdeal.Gen.V13_of m c Cert.KernelIdeal.main_arg5 (by decide)).trans <| (Cert.KernelIdeal.Gen.V12_of m c Cert.KernelIdeal.main_arg5 (by decide)).trans <| (Cert.KernelIdeal.Gen.V11_of m c Cert.KernelIdeal.main_arg5 (by decide)).trans <| (Cert.KernelIdeal.Gen.V10_of m c Cert.KernelIdeal.main_arg5 (by decide)).trans <| (Cert.KernelIdeal.Gen.V9_of m c Cert.KernelIdeal.main_arg5 (by decide)).trans <| (Cert.KernelIdeal.Gen.V8_of m c Cert.KernelIdeal.main_arg5 (by decide)).trans <| (Cert.KernelIdeal.Gen.V7_of m c Cert.KernelIdeal.main_arg5 (by decide)).trans <| (Cert.KernelIdeal.Gen.V6_of m c Cert.KernelIdeal.main_arg5 (by decide)).trans <| (Cert.KernelIdeal.Gen.V5_of m c Cert.KernelIdeal.main_arg5 (by decide)).trans <| (Cert.KernelIdeal.Gen.V4_of m c Cert.KernelIdeal.main_arg5 (by decide)).trans <| (Cert.KernelIdeal.Gen.V3_of m c Cert.KernelIdeal.main_arg5 (by decide)).trans <| (Cert.KernelIdeal.Gen.V2_of m c Cert.KernelIdeal.main_arg5 (by decide)).trans <| (Cert.KernelIdeal.Gen.V1_of m c Cert.KernelIdeal.main_arg5 (by decide)).trans <| rfl
theorem G5_arg6 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg6 : DevRef Cert.KernelIdeal.τ Cert.KernelIdeal.sig) = m (c, (Cert.KernelIdeal.main_arg6 : DevRef Cert.KernelIdeal.τ Cert.KernelIdeal.sig)) :=
  (Cert.KernelIdeal.Gen.V14_of m c Cert.KernelIdeal.main_arg6 (by decide)).trans <| (Cert.KernelIdeal.Gen.V13_of m c Cert.KernelIdeal.main_arg6 (by decide)).trans <| (Cert.KernelIdeal.Gen.V12_of m c Cert.KernelIdeal.main_arg6 (by decide)).trans <| (Cert.KernelIdeal.Gen.V11_of m c Cert.KernelIdeal.main_arg6 (by decide)).trans <| (Cert.KernelIdeal.Gen.V10_of m c Cert.KernelIdeal.main_arg6 (by decide)).trans <| (Cert.KernelIdeal.Gen.V9_of m c Cert.KernelIdeal.main_arg6 (by decide)).trans <| (Cert.KernelIdeal.Gen.V8_of m c Cert.KernelIdeal.main_arg6 (by decide)).trans <| (Cert.KernelIdeal.Gen.V7_of m c Cert.KernelIdeal.main_arg6 (by decide)).trans <| (Cert.KernelIdeal.Gen.V6_of m c Cert.KernelIdeal.main_arg6 (by decide)).trans <| (Cert.KernelIdeal.Gen.V5_of m c Cert.KernelIdeal.main_arg6 (by decide)).trans <| (Cert.KernelIdeal.Gen.V4_of m c Cert.KernelIdeal.main_arg6 (by decide)).trans <| (Cert.KernelIdeal.Gen.V3_of m c Cert.KernelIdeal.main_arg6 (by decide)).trans <| (Cert.KernelIdeal.Gen.V2_of m c Cert.KernelIdeal.main_arg6 (by decide)).trans <| (Cert.KernelIdeal.Gen.V1_of m c Cert.KernelIdeal.main_arg6 (by decide)).trans <| rfl
theorem G5_arg7 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg7 : DevRef Cert.KernelIdeal.τ Cert.KernelIdeal.sig) = m (c, (Cert.KernelIdeal.main_arg7 : DevRef Cert.KernelIdeal.τ Cert.KernelIdeal.sig)) :=
  (Cert.KernelIdeal.Gen.V14_of m c Cert.KernelIdeal.main_arg7 (by decide)).trans <| (Cert.KernelIdeal.Gen.V13_of m c Cert.KernelIdeal.main_arg7 (by decide)).trans <| (Cert.KernelIdeal.Gen.V12_of m c Cert.KernelIdeal.main_arg7 (by decide)).trans <| (Cert.KernelIdeal.Gen.V11_of m c Cert.KernelIdeal.main_arg7 (by decide)).trans <| (Cert.KernelIdeal.Gen.V10_of m c Cert.KernelIdeal.main_arg7 (by decide)).trans <| (Cert.KernelIdeal.Gen.V9_of m c Cert.KernelIdeal.main_arg7 (by decide)).trans <| (Cert.KernelIdeal.Gen.V8_of m c Cert.KernelIdeal.main_arg7 (by decide)).trans <| (Cert.KernelIdeal.Gen.V7_of m c Cert.KernelIdeal.main_arg7 (by decide)).trans <| (Cert.KernelIdeal.Gen.V6_of m c Cert.KernelIdeal.main_arg7 (by decide)).trans <| (Cert.KernelIdeal.Gen.V5_of m c Cert.KernelIdeal.main_arg7 (by decide)).trans <| (Cert.KernelIdeal.Gen.V4_of m c Cert.KernelIdeal.main_arg7 (by decide)).trans <| (Cert.KernelIdeal.Gen.V3_of m c Cert.KernelIdeal.main_arg7 (by decide)).trans <| (Cert.KernelIdeal.Gen.V2_of m c Cert.KernelIdeal.main_arg7 (by decide)).trans <| (Cert.KernelIdeal.Gen.V1_of m c Cert.KernelIdeal.main_arg7 (by decide)).trans <| rfl
theorem G5_arg8 (m : (ℓ : Loc Cert.KernelIdeal.nD Cert.KernelIdeal.τ Cert.KernelIdeal.sig) → Buf (Elt F) ℓ) (c : Dev Cert.KernelIdeal.nD) : Cert.KernelIdeal.Gen.V14 m c (Cert.KernelIdeal.main_arg8 : DevRef Cert.KernelIdeal.τ Cert.KernelIdeal.sig) = m (c, (Cert.KernelIdeal.main_arg8 : DevRef Cert.KernelIdeal.τ Cert.KernelIdeal.sig)) :=
  (Cert.KernelIdeal.Gen.V14_of m c Cert.KernelIdeal.main_arg8 (by decide)).trans <| (Cert.KernelIdeal.Gen.V13_of m c Cert.KernelIdeal.main_arg8 (by decide)).trans <| (Cert.KernelIdeal.Gen.V12_of m c Cert.KernelIdeal.main_arg8 (by decide)).trans <| (Cert.KernelIdeal.Gen.V11_of m c Cert.KernelIdeal.main_arg8 (by decide)).trans <| (Cert.KernelIdeal.Gen.V10_of m c Cert.KernelIdeal.main_arg8 (by decide)).trans <| (Cert.KernelIdeal.Gen.V9_of m c Cert.KernelIdeal.main_arg8 (by decide)).trans <| (Cert.KernelIdeal.Gen.V8_of m c Cert.KernelIdeal.main_arg8 (by decide)).trans <| (Cert.KernelIdeal.Gen.V7_of m c Cert.KernelIdeal.main_arg8 (by decide)).trans <| (Cert.KernelIdeal.Gen.V6_of m c Cert.KernelIdeal.main_arg8 (by decide)).trans <| (Cert.KernelIdeal.Gen.V5_of m c Cert.KernelIdeal.main_arg8 (by decide)).trans <| (Cert.KernelIdeal.Gen.V4_of m c Cert.KernelIdeal.main_arg8 (by decide)).trans <| (Cert.KernelIdeal.Gen.V3_of m c Cert.KernelIdeal.main_arg8 (by decide)).trans <| (Cert.KernelIdeal.Gen.V2_of m c Cert.KernelIdeal.main_arg8 (by decide)).trans <| (Cert.KernelIdeal.Gen.V1_of m c Cert.KernelIdeal.main_arg8 (by decide)).trans <| rfl

end Cert.Glue

end
-- ==== Proof.lean ====
/-
  The certificate of a mixture-of-experts layer: a two-kernel program against its plain reference, equal over the
  extended reals.

  Both programs build the same dispatch from the token-to-expert indices (a stable sort by expert, capacity 384 per
  expert), gather each expert's tokens, and combine.  The kernel program computes the routed experts' gated
  feed-forward rows in a first kernel — per expert, the 1408 hidden units in 11 blocks of 128 accumulated in a
  scratch buffer, the two up-projections fused into one product, the routing weight applied when the last block is
  in —, scatter-adds the rows onto their tokens on the host, and in a second kernel adds the shared expert's
  feed-forward output, accumulated the same way over 11 blocks of 256 hidden units.  The reference computes the
  same rows with whole batched products, the same scatter-add, the shared expert with whole products, and adds.

  At the exact extended reals a sum taken block by block is the whole sum, the sigmoid as one operation is the
  sigmoid spelt out, a change of float format is the identity, and addition commutes; so the results agree entry
  by entry, with no finiteness needed.  The frames: each program runs to the end without a fault and leaves its
  argument arrays as launched (for the kernel program, region by region, the accumulator living in the region's
  invariant).  The idealization rewrote nothing.
-/
import proofs.«120388_j80376017977412_2_alg».proof.Defs
import proofs.«120388_j80376017977412_2_alg».proof.Proof.Gen.Kernel
import proofs.«120388_j80376017977412_2_alg».proof.Proof.Gen.KernelIdeal
import proofs.«120388_j80376017977412_2_alg».proof.Proof.Gen.ReferenceIdeal
import proofs.«120388_j80376017977412_2_alg».proof.Proof.Gen.Pre_finite_inputs
import proofs.«120388_j80376017977412_2_alg».proof.Proof.KB.RunAll
import proofs.«120388_j80376017977412_2_alg».proof.Proof.KI.KVal
import proofs.«120388_j80376017977412_2_alg».proof.Proof.RefValue
import proofs.«120388_j80376017977412_2_alg».proof.Proof.Bridge
import proofs.«120388_j80376017977412_2_alg».proof.Proof.Glue

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefRun.frame

/-- The idealization rewrote no operation. -/
theorem preserves : Cert.preserves_Kernel_KernelIdeal := trivial

/-- The reference's result buffer and the kernel program's hold the same array, when the arguments agree. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    after (Cert.ReferenceIdeal.RefRun.ops (F := Ideal)) (launchContents m' c) (Cert.ReferenceIdeal.main_v100 : DevRef Cert.ReferenceIdeal.τ Cert.ReferenceIdeal.sig)
      = Cert.KernelIdeal.Gen.W17 m c (Proc.devRef .tc Cert.KernelIdeal.main_v86) := by
  refine (Cert.ReferenceIdeal.RefRun.out_eq _).trans ?_
  refine Eq.trans ?_ (Cert.KernelIdeal.KVal.result_eq m c).symm
  rw [← Cert.Glue.G1 m c (launchContents m' c) a0 a1 a2, ← Cert.Glue.G2 m c (launchContents m' c) a0 a1 a2,
    ← Cert.Glue.G3 m c (launchContents m' c) a0 a1 a2, Cert.Glue.G4 m c]
  have e0 : launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := a0
  have e3 : launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := a3
  have e4 : launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := a4
  have e5 : launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := a5
  have e6 : launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) := a6
  have e7 : launchContents m' c (Cert.ReferenceIdeal.main_arg7 : DevRef Cert.ReferenceIdeal.τ Cert.ReferenceIdeal.sig) = m ((c.tc : Thread Cert.KernelIdeal.nD Cert.KernelIdeal.τ).loc Cert.KernelIdeal.main_arg7) := a7
  have e8 : launchContents m' c (Cert.ReferenceIdeal.main_arg8 : DevRef Cert.ReferenceIdeal.τ Cert.ReferenceIdeal.sig) = m ((c.tc : Thread Cert.KernelIdeal.nD Cert.KernelIdeal.τ).loc Cert.KernelIdeal.main_arg8) := a8
  rw [e0, e3, e4, e5, e6, e7, e8]
  exact Cert.Bridge.tail_eq _ _ _ _ _ _ _ _ _ _

/-- Both programs run, with equal results and unchanged arguments. -/
theorem algebraic : Cert.algebraic_KernelIdeal_ReferenceIdeal := by
  intro m ρ m' ρ' _ hagree
  refine ⟨fun c => Cert.KernelIdeal.Gen.W17 m c (Proc.devRef .tc Cert.KernelIdeal.main_v86), ?_, ?_⟩
  · exact (θ_run Cert.KernelIdeal.defs _ _).mono (fun r h c =>
      ⟨h c _ (Cert.KernelIdeal.Gen.mem_uc Cert.KernelIdeal.main_v86 (by decide)),
      (h c _ (Cert.KernelIdeal.Gen.mem_uc Cert.KernelIdeal.main_arg0 (by decide))).trans (Cert.KernelIdeal.Gen.W17_main_arg0 m c),
      (h c _ (Cert.KernelIdeal.Gen.mem_uc Cert.KernelIdeal.main_arg1 (by decide))).trans (Cert.KernelIdeal.Gen.W17_main_arg1 m c),
      (h c _ (Cert.KernelIdeal.Gen.mem_uc Cert.KernelIdeal.main_arg2 (by decide))).trans (Cert.KernelIdeal.Gen.W17_main_arg2 m c),
      (h c _ (Cert.KernelIdeal.Gen.mem_uc Cert.KernelIdeal.main_arg3 (by decide))).trans (Cert.KernelIdeal.Gen.W17_main_arg3 m c),
      (h c _ (Cert.KernelIdeal.Gen.mem_uc Cert.KernelIdeal.main_arg4 (by decide))).trans (Cert.KernelIdeal.Gen.W17_main_arg4 m c),
      (h c _ (Cert.KernelIdeal.Gen.mem_uc Cert.KernelIdeal.main_arg5 (by decide))).trans (Cert.KernelIdeal.Gen.W17_main_arg5 m c),
      (h c _ (Cert.KernelIdeal.Gen.mem_uc Cert.KernelIdeal.main_arg6 (by decide))).trans (Cert.KernelIdeal.Gen.W17_main_arg6 m c),
      (h c _ (Cert.KernelIdeal.Gen.mem_uc Cert.KernelIdeal.main_arg7 (by decide))).trans (Cert.KernelIdeal.Gen.W17_main_arg7 m c),
      (h c _ (Cert.KernelIdeal.Gen.mem_uc Cert.KernelIdeal.main_arg8 (by decide))).trans (Cert.KernelIdeal.Gen.W17_main_arg8 m c)⟩) (Cert.KernelIdeal.Gen.run_all (F := Ideal) m ρ)
  · refine (θ_run Cert.ReferenceIdeal.defs _ _).mono (fun r h c => ?_) (Cert.ReferenceIdeal.RefRun.run_main (F := Ideal) m' ρ')
    obtain ⟨a0, a1, a2, a3, a4, a5, a6, a7, a8⟩ := hagree c
    exact ⟨(h c Cert.ReferenceIdeal.main_v100).trans (value_eq m m' c a0 a1 a2 a3 a4 a5 a6 a7 a8),
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
